-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v276)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v276) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v396) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x9 : Shape := ⟨2, ![50000, 9]⟩
abbrev S2x600000 : Shape := ⟨2, ![2, 600000]⟩
abbrev S600000x3 : Shape := ⟨2, ![600000, 3]⟩
abbrev S50000 : Shape := ⟨1, ![50000]⟩
abbrev S9x100x128 : Shape := ⟨3, ![9, 100, 128]⟩
abbrev S3x3x8x3 : Shape := ⟨4, ![3, 3, 8, 3]⟩
abbrev S3x3x128x128 : Shape := ⟨4, ![3, 3, 128, 128]⟩
abbrev S3x3x128 : Shape := ⟨3, ![3, 3, 128]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S9x100x128 : S_.BroadcastsInDim S9x100x128 (![] : Fin 0 → Fin S9x100x128.rank)
  reducesTo_S9x100x128_S_d0_1_2 : S9x100x128.ReducesTo [0, 1, 2] S_
  h_S_ : 0 < S_.numel
  bcast_S_S3x3x8x3 : S_.BroadcastsInDim S3x3x8x3 (![] : Fin 0 → Fin S3x3x8x3.rank)
  reducesTo_S3x3x8x3_S_d0_1_2_3 : S3x3x8x3.ReducesTo [0, 1, 2, 3] S_
  bcast_S_S3x3x128x128 : S_.BroadcastsInDim S3x3x128x128 (![] : Fin 0 → Fin S3x3x128x128.rank)
  reducesTo_S3x3x128x128_S_d0_1_2_3 : S3x3x128x128.ReducesTo [0, 1, 2, 3] S_
  bcast_S_S3x3x128 : S_.BroadcastsInDim S3x3x128 (![] : Fin 0 → Fin S3x3x128.rank)
  reducesTo_S3x3x128_S_d0_1_2 : S3x3x128.ReducesTo [0, 1, 2] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg11 : FVec F S1 .f32) (main_v33 : IVec S_ 1) : IVec S_ 1 :=
  let main_v34 : FVec F S1 .f32 := Host.absf main_arg11
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg8 : FVec F S128x128 .f32) (main_arg9 : FVec F S128 .f32) (main_arg10 : FVec F S128x1 .f32) (main_arg11 : FVec F S1 .f32) (main_v13 : IVec S_ 1) (main_v16 : IVec S3x3x128 1) : IVec S_ 1 :=
  let main_c_5 : IVec S_ 1 := constantI S_ 1 1#1
  let main_v17 : IVec S_ 1 := (fun x v => Host.reduce IntOp.andi x v reducesTo_S3x3x128_S_d0_1_2 h_S_) main_v16 main_c_5
  let main_v18 : IVec S_ 1 := andi main_v13 main_v17
  let main_v19 : FVec F S128x128 .f32 := Host.absf main_arg8
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg9
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x1 .f32 := Host.absf main_arg10
  let main_cst_10 : FVec F S_ .f32 := constant S_ .f32 0x7F800000#32
  let main_v30 : FVec F S128x1 .f32 := broadcastInDim S128x1 ![] bcast_S_S128x1 main_cst_10
  let main_v31 : IVec S128x1 1 := cmpf .olt main_v29 main_v30
  let main_c_11 : IVec S_ 1 := constantI S_ 1 1#1
  let main_v32 : IVec S_ 1 := (fun x v => Host.reduce IntOp.andi x v reducesTo_S128x1_S_d0_1 h_S_) main_v31 main_c_11
  let main_v33 : IVec S_ 1 := andi main_v28 main_v32
  fn_part2 (F := F) main_arg11 main_v33

def fn {F : FTy → Type} [FloatOps F] (main_arg0 : IVec S50000x9 32) (main_arg1 : IVec S2x600000 32) (main_arg2 : IVec S600000x3 32) (main_arg3 : IVec S50000 32) (main_arg4 : FVec F S9x100x128 .f32) (main_arg5 : FVec F S3x3x8x3 .f32) (main_arg6 : FVec F S3x3x128x128 .f32) (main_arg7 : FVec F S3x3x128 .f32) (main_arg8 : FVec F S128x128 .f32) (main_arg9 : FVec F S128 .f32) (main_arg10 : FVec F S128x1 .f32) (main_arg11 : FVec F S1 .f32) : IVec S_ 1 :=
  let main_v0 : FVec F S9x100x128 .f32 := Host.absf main_arg4
  let main_cst : FVec F S_ .f32 := constant S_ .f32 0x7F800000#32
  let main_v1 : FVec F S9x100x128 .f32 := broadcastInDim S9x100x128 ![] bcast_S_S9x100x128 main_cst
  let main_v2 : IVec S9x100x128 1 := cmpf .olt main_v0 main_v1
  let main_c : IVec S_ 1 := constantI S_ 1 1#1
  let main_v3 : IVec S_ 1 := (fun x v => Host.reduce IntOp.andi x v reducesTo_S9x100x128_S_d0_1_2 h_S_) main_v2 main_c
  let main_v4 : FVec F S3x3x8x3 .f32 := Host.absf main_arg5
  let main_cst_0 : FVec F S_ .f32 := constant S_ .f32 0x7F800000#32
  let main_v5 : FVec F S3x3x8x3 .f32 := broadcastInDim S3x3x8x3 ![] bcast_S_S3x3x8x3 main_cst_0
  let main_v6 : IVec S3x3x8x3 1 := cmpf .olt main_v4 main_v5
  let main_c_1 : IVec S_ 1 := constantI S_ 1 1#1
  let main_v7 : IVec S_ 1 := (fun x v => Host.reduce IntOp.andi x v reducesTo_S3x3x8x3_S_d0_1_2_3 h_S_) main_v6 main_c_1
  let main_v8 : IVec S_ 1 := andi main_v3 main_v7
  let main_v9 : FVec F S3x3x128x128 .f32 := Host.absf main_arg6
  let main_cst_2 : FVec F S_ .f32 := constant S_ .f32 0x7F800000#32
  let main_v10 : FVec F S3x3x128x128 .f32 := broadcastInDim S3x3x128x128 ![] bcast_S_S3x3x128x128 main_cst_2
  let main_v11 : IVec S3x3x128x128 1 := cmpf .olt main_v9 main_v10
  let main_c_3 : IVec S_ 1 := constantI S_ 1 1#1
  let main_v12 : IVec S_ 1 := (fun x v => Host.reduce IntOp.andi x v reducesTo_S3x3x128x128_S_d0_1_2_3 h_S_) main_v11 main_c_3
  let main_v13 : IVec S_ 1 := andi main_v8 main_v12
  let main_v14 : FVec F S3x3x128 .f32 := Host.absf main_arg7
  let main_cst_4 : FVec F S_ .f32 := constant S_ .f32 0x7F800000#32
  let main_v15 : FVec F S3x3x128 .f32 := broadcastInDim S3x3x128 ![] bcast_S_S3x3x128 main_cst_4
  let main_v16 : IVec S3x3x128 1 := cmpf .olt main_v14 main_v15
  fn_part1 (F := F) main_arg8 main_arg9 main_arg10 main_arg11 main_v13 main_v16
-- ==== Kernel.lean ====
abbrev S50000x9 : Shape := ⟨2, ![50000, 9]⟩
abbrev S2x600000 : Shape := ⟨2, ![2, 600000]⟩
abbrev S600000x3 : Shape := ⟨2, ![600000, 3]⟩
abbrev S50000 : Shape := ⟨1, ![50000]⟩
abbrev S9x100x128 : Shape := ⟨3, ![9, 100, 128]⟩
abbrev S3x3x8x3 : Shape := ⟨4, ![3, 3, 8, 3]⟩
abbrev S3x3x128x128 : Shape := ⟨4, ![3, 3, 128, 128]⟩
abbrev S3x3x128 : Shape := ⟨3, ![3, 3, 128]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x600000 : Shape := ⟨2, ![1, 600000]⟩
abbrev S600000 : Shape := ⟨1, ![600000]⟩
abbrev S1x100x128 : Shape := ⟨3, ![1, 100, 128]⟩
abbrev S100x128 : Shape := ⟨2, ![100, 128]⟩
abbrev S50000x1 : Shape := ⟨2, ![50000, 1]⟩
abbrev S_ : Shape := ⟨0, ![]⟩
abbrev S50000x128 : Shape := ⟨2, ![50000, 128]⟩
abbrev S1x1x8x3 : Shape := ⟨4, ![1, 1, 8, 3]⟩
abbrev S8x3 : Shape := ⟨2, ![8, 3]⟩
abbrev S600000x1 : Shape := ⟨2, ![600000, 1]⟩
abbrev S600000x128 : Shape := ⟨2, ![600000, 128]⟩
abbrev S1x3x128x128 : Shape := ⟨4, ![1, 3, 128, 128]⟩
abbrev S3x128x128 : Shape := ⟨3, ![3, 128, 128]⟩
abbrev S12000x128 : Shape := ⟨2, ![12000, 128]⟩
abbrev S12000x3 : Shape := ⟨2, ![12000, 3]⟩
abbrev S1x128x128 : Shape := ⟨3, ![1, 128, 128]⟩
abbrev S12000x1 : Shape := ⟨2, ![12000, 1]⟩
abbrev S1x3x128 : Shape := ⟨3, ![1, 3, 128]⟩
abbrev S3x128 : Shape := ⟨2, ![3, 128]⟩
abbrev S10000x128 : Shape := ⟨2, ![10000, 128]⟩
abbrev S1x128 : Shape := ⟨2, ![1, 128]⟩
abbrev S2048x128 : Shape := ⟨2, ![2048, 128]⟩
abbrev S2048 : Shape := ⟨1, ![2048]⟩
abbrev S2048x1 : Shape := ⟨2, ![2048, 1]⟩
abbrev S1x1 : Shape := ⟨2, ![1, 1]⟩

abbrev nBuf : Space → Nat
  | .hbm => 338
  | .vmem => 48
  | .smem => 0
  | _ => 0

abbrev hbmTy0_0 (i : Nat) : BufTy := match i % 128 with
  | 0 => ⟨S50000x9, .i32⟩
  | 1 => ⟨S2x600000, .i32⟩
  | 2 => ⟨S600000x3, .i32⟩
  | 3 => ⟨S50000, .i32⟩
  | 4 => ⟨S9x100x128, .f32⟩
  | 5 => ⟨S3x3x8x3, .f32⟩
  | 6 => ⟨S3x3x128x128, .f32⟩
  | 7 => ⟨S3x3x128, .f32⟩
  | 8 => ⟨S128x128, .f32⟩
  | 9 => ⟨S128, .f32⟩
  | 10 => ⟨S128x1, .f32⟩
  | 11 => ⟨S1, .f32⟩
  | 12 => ⟨S1x600000, .i32⟩
  | 13 => ⟨S600000, .i32⟩
  | 14 => ⟨S1x600000, .i32⟩
  | 15 => ⟨S600000, .i32⟩
  | 16 => ⟨S1x100x128, .f32⟩
  | 17 => ⟨S100x128, .f32⟩
  | 18 => ⟨S50000x1, .i32⟩
  | 19 => ⟨S50000, .i32⟩
  | 20 => ⟨S_, .i32⟩
  | 21 => ⟨S50000, .i32⟩
  | 22 => ⟨S50000, .i1⟩
  | 23 => ⟨S_, .i32⟩
  | 24 => ⟨S50000, .i32⟩
  | 25 => ⟨S50000, .i32⟩
  | 26 => ⟨S50000, .i32⟩
  | 27 => ⟨S50000x1, .i32⟩
  | 28 => ⟨S50000x128, .f32⟩
  | 29 => ⟨S1x100x128, .f32⟩
  | 30 => ⟨S100x128, .f32⟩
  | 31 => ⟨S50000x1, .i32⟩
  | 32 => ⟨S50000, .i32⟩
  | 33 => ⟨S_, .i32⟩
  | 34 => ⟨S50000, .i32⟩
  | 35 => ⟨S50000, .i1⟩
  | 36 => ⟨S_, .i32⟩
  | 37 => ⟨S50000, .i32⟩
  | 38 => ⟨S50000, .i32⟩
  | 39 => ⟨S50000, .i32⟩
  | 40 => ⟨S50000x1, .i32⟩
  | 41 => ⟨S50000x128, .f32⟩
  | 42 => ⟨S50000x128, .f32⟩
  | 43 => ⟨S1x100x128, .f32⟩
  | 44 => ⟨S100x128, .f32⟩
  | 45 => ⟨S50000x1, .i32⟩
  | 46 => ⟨S50000, .i32⟩
  | 47 => ⟨S_, .i32⟩
  | 48 => ⟨S50000, .i32⟩
  | 49 => ⟨S50000, .i1⟩
  | 50 => ⟨S_, .i32⟩
  | 51 => ⟨S50000, .i32⟩
  | 52 => ⟨S50000, .i32⟩
  | 53 => ⟨S50000, .i32⟩
  | 54 => ⟨S50000x1, .i32⟩
  | 55 => ⟨S50000x128, .f32⟩
  | 56 => ⟨S50000x128, .f32⟩
  | 57 => ⟨S1x100x128, .f32⟩
  | 58 => ⟨S100x128, .f32⟩
  | 59 => ⟨S50000x1, .i32⟩
  | 60 => ⟨S50000, .i32⟩
  | 61 => ⟨S_, .i32⟩
  | 62 => ⟨S50000, .i32⟩
  | 63 => ⟨S50000, .i1⟩
  | 64 => ⟨S_, .i32⟩
  | 65 => ⟨S50000, .i32⟩
  | 66 => ⟨S50000, .i32⟩
  | 67 => ⟨S50000, .i32⟩
  | 68 => ⟨S50000x1, .i32⟩
  | 69 => ⟨S50000x128, .f32⟩
  | 70 => ⟨S50000x128, .f32⟩
  | 71 => ⟨S1x100x128, .f32⟩
  | 72 => ⟨S100x128, .f32⟩
  | 73 => ⟨S50000x1, .i32⟩
  | 74 => ⟨S50000, .i32⟩
  | 75 => ⟨S_, .i32⟩
  | 76 => ⟨S50000, .i32⟩
  | 77 => ⟨S50000, .i1⟩
  | 78 => ⟨S_, .i32⟩
  | 79 => ⟨S50000, .i32⟩
  | 80 => ⟨S50000, .i32⟩
  | 81 => ⟨S50000, .i32⟩
  | 82 => ⟨S50000x1, .i32⟩
  | 83 => ⟨S50000x128, .f32⟩
  | 84 => ⟨S50000x128, .f32⟩
  | 85 => ⟨S1x100x128, .f32⟩
  | 86 => ⟨S100x128, .f32⟩
  | 87 => ⟨S50000x1, .i32⟩
  | 88 => ⟨S50000, .i32⟩
  | 89 => ⟨S_, .i32⟩
  | 90 => ⟨S50000, .i32⟩
  | 91 => ⟨S50000, .i1⟩
  | 92 => ⟨S_, .i32⟩
  | 93 => ⟨S50000, .i32⟩
  | 94 => ⟨S50000, .i32⟩
  | 95 => ⟨S50000, .i32⟩
  | 96 => ⟨S50000x1, .i32⟩
  | 97 => ⟨S50000x128, .f32⟩
  | 98 => ⟨S50000x128, .f32⟩
  | 99 => ⟨S1x100x128, .f32⟩
  | 100 => ⟨S100x128, .f32⟩
  | 101 => ⟨S50000x1, .i32⟩
  | 102 => ⟨S50000, .i32⟩
  | 103 => ⟨S_, .i32⟩
  | 104 => ⟨S50000, .i32⟩
  | 105 => ⟨S50000, .i1⟩
  | 106 => ⟨S_, .i32⟩
  | 107 => ⟨S50000, .i32⟩
  | 108 => ⟨S50000, .i32⟩
  | 109 => ⟨S50000, .i32⟩
  | 110 => ⟨S50000x1, .i32⟩
  | 111 => ⟨S50000x128, .f32⟩
  | 112 => ⟨S50000x128, .f32⟩
  | 113 => ⟨S1x100x128, .f32⟩
  | 114 => ⟨S100x128, .f32⟩
  | 115 => ⟨S50000x1, .i32⟩
  | 116 => ⟨S50000, .i32⟩
  | 117 => ⟨S_, .i32⟩
  | 118 => ⟨S50000, .i32⟩
  | 119 => ⟨S50000, .i1⟩
  | 120 => ⟨S_, .i32⟩
  | 121 => ⟨S50000, .i32⟩
  | 122 => ⟨S50000, .i32⟩
  | 123 => ⟨S50000, .i32⟩
  | 124 => ⟨S50000x1, .i32⟩
  | 125 => ⟨S50000x128, .f32⟩
  | 126 => ⟨S50000x128, .f32⟩
  | 127 => ⟨S1x100x128, .f32⟩
  | _ => ⟨S50000x9, .i32⟩

abbrev hbmTy0_1 (i : Nat) : BufTy := match i % 128 with
  | 0 => ⟨S100x128, .f32⟩
  | 1 => ⟨S50000x1, .i32⟩
  | 2 => ⟨S50000, .i32⟩
  | 3 => ⟨S_, .i32⟩
  | 4 => ⟨S50000, .i32⟩
  | 5 => ⟨S50000, .i1⟩
  | 6 => ⟨S_, .i32⟩
  | 7 => ⟨S50000, .i32⟩
  | 8 => ⟨S50000, .i32⟩
  | 9 => ⟨S50000, .i32⟩
  | 10 => ⟨S50000x1, .i32⟩
  | 11 => ⟨S50000x128, .f32⟩
  | 12 => ⟨S50000x128, .f32⟩
  | 13 => ⟨S1x1x8x3, .f32⟩
  | 14 => ⟨S8x3, .f32⟩
  | 15 => ⟨S600000x1, .i32⟩
  | 16 => ⟨S600000, .i32⟩
  | 17 => ⟨S_, .i32⟩
  | 18 => ⟨S600000, .i32⟩
  | 19 => ⟨S600000, .i1⟩
  | 20 => ⟨S_, .i32⟩
  | 21 => ⟨S600000, .i32⟩
  | 22 => ⟨S600000, .i32⟩
  | 23 => ⟨S600000, .i32⟩
  | 24 => ⟨S600000x1, .i32⟩
  | 25 => ⟨S600000x3, .f32⟩
  | 26 => ⟨S1x1x8x3, .f32⟩
  | 27 => ⟨S8x3, .f32⟩
  | 28 => ⟨S600000x1, .i32⟩
  | 29 => ⟨S600000, .i32⟩
  | 30 => ⟨S_, .i32⟩
  | 31 => ⟨S600000, .i32⟩
  | 32 => ⟨S600000, .i1⟩
  | 33 => ⟨S_, .i32⟩
  | 34 => ⟨S600000, .i32⟩
  | 35 => ⟨S600000, .i32⟩
  | 36 => ⟨S600000, .i32⟩
  | 37 => ⟨S600000x1, .i32⟩
  | 38 => ⟨S600000x3, .f32⟩
  | 39 => ⟨S600000x3, .f32⟩
  | 40 => ⟨S1x1x8x3, .f32⟩
  | 41 => ⟨S8x3, .f32⟩
  | 42 => ⟨S600000x1, .i32⟩
  | 43 => ⟨S600000, .i32⟩
  | 44 => ⟨S_, .i32⟩
  | 45 => ⟨S600000, .i32⟩
  | 46 => ⟨S600000, .i1⟩
  | 47 => ⟨S_, .i32⟩
  | 48 => ⟨S600000, .i32⟩
  | 49 => ⟨S600000, .i32⟩
  | 50 => ⟨S600000, .i32⟩
  | 51 => ⟨S600000x1, .i32⟩
  | 52 => ⟨S600000x3, .f32⟩
  | 53 => ⟨S600000x3, .f32⟩
  | 54 => ⟨S_, .i32⟩
  | 55 => ⟨S600000, .i32⟩
  | 56 => ⟨S600000, .i1⟩
  | 57 => ⟨S_, .i32⟩
  | 58 => ⟨S600000, .i32⟩
  | 59 => ⟨S600000, .i32⟩
  | 60 => ⟨S600000, .i32⟩
  | 61 => ⟨S600000x1, .i32⟩
  | 62 => ⟨S600000x128, .f32⟩
  | 63 => ⟨S1x3x128x128, .f32⟩
  | 64 => ⟨S3x128x128, .f32⟩
  | 65 => ⟨S600000x128, .f32⟩
  | 66 => ⟨S_, .f32⟩
  | 67 => ⟨S50000x128, .f32⟩
  | 68 => ⟨S600000x1, .i32⟩
  | 69 => ⟨S50000x128, .f32⟩
  | 70 => ⟨S1x3x128, .f32⟩
  | 71 => ⟨S3x128, .f32⟩
  | 72 => ⟨S50000x128, .f32⟩
  | 73 => ⟨S1x1x8x3, .f32⟩
  | 74 => ⟨S8x3, .f32⟩
  | 75 => ⟨S600000x1, .i32⟩
  | 76 => ⟨S600000, .i32⟩
  | 77 => ⟨S_, .i32⟩
  | 78 => ⟨S600000, .i32⟩
  | 79 => ⟨S600000, .i1⟩
  | 80 => ⟨S_, .i32⟩
  | 81 => ⟨S600000, .i32⟩
  | 82 => ⟨S600000, .i32⟩
  | 83 => ⟨S600000, .i32⟩
  | 84 => ⟨S600000x1, .i32⟩
  | 85 => ⟨S600000x3, .f32⟩
  | 86 => ⟨S1x1x8x3, .f32⟩
  | 87 => ⟨S8x3, .f32⟩
  | 88 => ⟨S600000x1, .i32⟩
  | 89 => ⟨S600000, .i32⟩
  | 90 => ⟨S_, .i32⟩
  | 91 => ⟨S600000, .i32⟩
  | 92 => ⟨S600000, .i1⟩
  | 93 => ⟨S_, .i32⟩
  | 94 => ⟨S600000, .i32⟩
  | 95 => ⟨S600000, .i32⟩
  | 96 => ⟨S600000, .i32⟩
  | 97 => ⟨S600000x1, .i32⟩
  | 98 => ⟨S600000x3, .f32⟩
  | 99 => ⟨S600000x3, .f32⟩
  | 100 => ⟨S1x1x8x3, .f32⟩
  | 101 => ⟨S8x3, .f32⟩
  | 102 => ⟨S600000x1, .i32⟩
  | 103 => ⟨S600000, .i32⟩
  | 104 => ⟨S_, .i32⟩
  | 105 => ⟨S600000, .i32⟩
  | 106 => ⟨S600000, .i1⟩
  | 107 => ⟨S_, .i32⟩
  | 108 => ⟨S600000, .i32⟩
  | 109 => ⟨S600000, .i32⟩
  | 110 => ⟨S600000, .i32⟩
  | 111 => ⟨S600000x1, .i32⟩
  | 112 => ⟨S600000x3, .f32⟩
  | 113 => ⟨S600000x3, .f32⟩
  | 114 => ⟨S_, .i32⟩
  | 115 => ⟨S600000, .i32⟩
  | 116 => ⟨S600000, .i1⟩
  | 117 => ⟨S_, .i32⟩
  | 118 => ⟨S600000, .i32⟩
  | 119 => ⟨S600000, .i32⟩
  | 120 => ⟨S600000, .i32⟩
  | 121 => ⟨S600000x1, .i32⟩
  | 122 => ⟨S600000x128, .f32⟩
  | 123 => ⟨S1x3x128x128, .f32⟩
  | 124 => ⟨S3x128x128, .f32⟩
  | 125 => ⟨S600000x128, .f32⟩
  | 126 => ⟨S_, .f32⟩
  | 127 => ⟨S50000x128, .f32⟩
  | _ => ⟨S50000x9, .i32⟩

abbrev hbmTy0_2 (i : Nat) : BufTy := match i % 128 with
  | 0 => ⟨S600000x1, .i32⟩
  | 1 => ⟨S50000x128, .f32⟩
  | 2 => ⟨S1x3x128, .f32⟩
  | 3 => ⟨S3x128, .f32⟩
  | 4 => ⟨S50000x128, .f32⟩
  | 5 => ⟨S1x1x8x3, .f32⟩
  | 6 => ⟨S8x3, .f32⟩
  | 7 => ⟨S600000x1, .i32⟩
  | 8 => ⟨S600000, .i32⟩
  | 9 => ⟨S_, .i32⟩
  | 10 => ⟨S600000, .i32⟩
  | 11 => ⟨S600000, .i1⟩
  | 12 => ⟨S_, .i32⟩
  | 13 => ⟨S600000, .i32⟩
  | 14 => ⟨S600000, .i32⟩
  | 15 => ⟨S600000, .i32⟩
  | 16 => ⟨S600000x1, .i32⟩
  | 17 => ⟨S600000x3, .f32⟩
  | 18 => ⟨S1x1x8x3, .f32⟩
  | 19 => ⟨S8x3, .f32⟩
  | 20 => ⟨S600000x1, .i32⟩
  | 21 => ⟨S600000, .i32⟩
  | 22 => ⟨S_, .i32⟩
  | 23 => ⟨S600000, .i32⟩
  | 24 => ⟨S600000, .i1⟩
  | 25 => ⟨S_, .i32⟩
  | 26 => ⟨S600000, .i32⟩
  | 27 => ⟨S600000, .i32⟩
  | 28 => ⟨S600000, .i32⟩
  | 29 => ⟨S600000x1, .i32⟩
  | 30 => ⟨S600000x3, .f32⟩
  | 31 => ⟨S600000x3, .f32⟩
  | 32 => ⟨S1x1x8x3, .f32⟩
  | 33 => ⟨S8x3, .f32⟩
  | 34 => ⟨S600000x1, .i32⟩
  | 35 => ⟨S600000, .i32⟩
  | 36 => ⟨S_, .i32⟩
  | 37 => ⟨S600000, .i32⟩
  | 38 => ⟨S600000, .i1⟩
  | 39 => ⟨S_, .i32⟩
  | 40 => ⟨S600000, .i32⟩
  | 41 => ⟨S600000, .i32⟩
  | 42 => ⟨S600000, .i32⟩
  | 43 => ⟨S600000x1, .i32⟩
  | 44 => ⟨S600000x3, .f32⟩
  | 45 => ⟨S600000x3, .f32⟩
  | 46 => ⟨S_, .i32⟩
  | 47 => ⟨S600000, .i32⟩
  | 48 => ⟨S600000, .i1⟩
  | 49 => ⟨S_, .i32⟩
  | 50 => ⟨S600000, .i32⟩
  | 51 => ⟨S600000, .i32⟩
  | 52 => ⟨S600000, .i32⟩
  | 53 => ⟨S600000x1, .i32⟩
  | 54 => ⟨S600000x128, .f32⟩
  | 55 => ⟨S1x3x128x128, .f32⟩
  | 56 => ⟨S3x128x128, .f32⟩
  | 57 => ⟨S600000x128, .f32⟩
  | 58 => ⟨S_, .f32⟩
  | 59 => ⟨S50000x128, .f32⟩
  | 60 => ⟨S600000x1, .i32⟩
  | 61 => ⟨S50000x128, .f32⟩
  | 62 => ⟨S1x3x128, .f32⟩
  | 63 => ⟨S3x128, .f32⟩
  | 64 => ⟨S50000x128, .f32⟩
  | 65 => ⟨S_, .f32⟩
  | 66 => ⟨S2048x128, .f32⟩
  | 67 => ⟨S50000x1, .i32⟩
  | 68 => ⟨S2048x128, .f32⟩
  | 69 => ⟨S_, .f32⟩
  | 70 => ⟨S50000, .f32⟩
  | 71 => ⟨S_, .f32⟩
  | 72 => ⟨S2048, .f32⟩
  | 73 => ⟨S50000x1, .i32⟩
  | 74 => ⟨S2048, .f32⟩
  | 75 => ⟨S_, .f32⟩
  | 76 => ⟨S2048, .f32⟩
  | 77 => ⟨S2048, .f32⟩
  | 78 => ⟨S2048x1, .f32⟩
  | 79 => ⟨S2048x128, .f32⟩
  | 80 => ⟨S2048x128, .f32⟩
  | 81 => ⟨S2048x1, .f32⟩
  | _ => ⟨S50000x9, .i32⟩

abbrev hbmTy (i : Nat) : BufTy := match i / 128 with
  | 0 => hbmTy0_0 i
  | 1 => hbmTy0_1 i
  | 2 => hbmTy0_2 i
  | _ => ⟨S50000x9, .i32⟩

abbrev bufTy : (tb : Table) → Fin (tcTables nBuf tb) → BufTy
  | .hbm, ⟨i, _⟩ => hbmTy i
  | .local _ .vmem, ⟨0, _⟩ => ⟨S12000x128, .f32⟩
  | .local _ .vmem, ⟨1, _⟩ => ⟨S12000x128, .f32⟩
  | .local _ .vmem, ⟨2, _⟩ => ⟨S12000x3, .f32⟩
  | .local _ .vmem, ⟨3, _⟩ => ⟨S12000x3, .f32⟩
  | .local _ .vmem, ⟨4, _⟩ => ⟨S3x128x128, .f32⟩
  | .local _ .vmem, ⟨5, _⟩ => ⟨S12000x128, .f32⟩
  | .local _ .vmem, ⟨6, _⟩ => ⟨S12000x128, .f32⟩
  | .local _ .vmem, ⟨7, _⟩ => ⟨S10000x128, .f32⟩
  | .local _ .vmem, ⟨8, _⟩ => ⟨S10000x128, .f32⟩
  | .local _ .vmem, ⟨9, _⟩ => ⟨S3x128, .f32⟩
  | .local _ .vmem, ⟨10, _⟩ => ⟨S10000x128, .f32⟩
  | .local _ .vmem, ⟨11, _⟩ => ⟨S10000x128, .f32⟩
  | .local _ .vmem, ⟨12, _⟩ => ⟨S10000x128, .f32⟩
  | .local _ .vmem, ⟨13, _⟩ => ⟨S10000x128, .f32⟩
  | .local _ .vmem, ⟨14, _⟩ => ⟨S12000x128, .f32⟩
  | .local _ .vmem, ⟨15, _⟩ => ⟨S12000x128, .f32⟩
  | .local _ .vmem, ⟨16, _⟩ => ⟨S12000x3, .f32⟩
  | .local _ .vmem, ⟨17, _⟩ => ⟨S12000x3, .f32⟩
  | .local _ .vmem, ⟨18, _⟩ => ⟨S3x128x128, .f32⟩
  | .local _ .vmem, ⟨19, _⟩ => ⟨S12000x128, .f32⟩
  | .local _ .vmem, ⟨20, _⟩ => ⟨S12000x128, .f32⟩
  | .local _ .vmem, ⟨21, _⟩ => ⟨S10000x128, .f32⟩
  | .local _ .vmem, ⟨22, _⟩ => ⟨S10000x128, .f32⟩
  | .local _ .vmem, ⟨23, _⟩ => ⟨S3x128, .f32⟩
  | .local _ .vmem, ⟨24, _⟩ => ⟨S10000x128, .f32⟩
  | .local _ .vmem, ⟨25, _⟩ => ⟨S10000x128, .f32⟩
  | .local _ .vmem, ⟨26, _⟩ => ⟨S10000x128, .f32⟩
  | .local _ .vmem, ⟨27, _⟩ => ⟨S10000x128, .f32⟩
  | .local _ .vmem, ⟨28, _⟩ => ⟨S12000x128, .f32⟩
  | .local _ .vmem, ⟨29, _⟩ => ⟨S12000x128, .f32⟩
  | .local _ .vmem, ⟨30, _⟩ => ⟨S12000x3, .f32⟩
  | .local _ .vmem, ⟨31, _⟩ => ⟨S12000x3, .f32⟩
  | .local _ .vmem, ⟨32, _⟩ => ⟨S3x128x128, .f32⟩
  | .local _ .vmem, ⟨33, _⟩ => ⟨S12000x128, .f32⟩
  | .local _ .vmem, ⟨34, _⟩ => ⟨S12000x128, .f32⟩
  | .local _ .vmem, ⟨35, _⟩ => ⟨S10000x128, .f32⟩
  | .local _ .vmem, ⟨36, _⟩ => ⟨S10000x128, .f32⟩
  | .local _ .vmem, ⟨37, _⟩ => ⟨S3x128, .f32⟩
  | .local _ .vmem, ⟨38, _⟩ => ⟨S10000x128, .f32⟩
  | .local _ .vmem, ⟨39, _⟩ => ⟨S10000x128, .f32⟩
  | .local _ .vmem, ⟨40, _⟩ => ⟨S10000x128, .f32⟩
  | .local _ .vmem, ⟨41, _⟩ => ⟨S10000x128, .f32⟩
  | .local _ .vmem, ⟨42, _⟩ => ⟨S2048x128, .f32⟩
  | .local _ .vmem, ⟨43, _⟩ => ⟨S128x128, .f32⟩
  | .local _ .vmem, ⟨44, _⟩ => ⟨S128, .f32⟩
  | .local _ .vmem, ⟨45, _⟩ => ⟨S128x1, .f32⟩
  | .local _ .vmem, ⟨46, _⟩ => ⟨S1, .f32⟩
  | .local _ .vmem, ⟨47, _⟩ => ⟨S2048x1, .f32⟩
  | _, _ => ⟨S50000x9, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_c : Ref sig .tc := ⟨.hbm, 20, rfl⟩
abbrev main_v8 : Ref sig .tc := ⟨.hbm, 21, rfl⟩
abbrev main_v9 : Ref sig .tc := ⟨.hbm, 22, rfl⟩
abbrev main_c_0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_1 : Ref sig .tc := ⟨.hbm, 33, rfl⟩
abbrev main_v19 : Ref sig .tc := ⟨.hbm, 34, rfl⟩
abbrev main_v20 : Ref sig .tc := ⟨.hbm, 35, rfl⟩
abbrev main_c_2 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_3 : Ref sig .tc := ⟨.hbm, 47, rfl⟩
abbrev main_v31 : Ref sig .tc := ⟨.hbm, 48, rfl⟩
abbrev main_v32 : Ref sig .tc := ⟨.hbm, 49, rfl⟩
abbrev main_c_4 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_c_5 : Ref sig .tc := ⟨.hbm, 61, rfl⟩
abbrev main_v43 : Ref sig .tc := ⟨.hbm, 62, rfl⟩
abbrev main_v44 : Ref sig .tc := ⟨.hbm, 63, rfl⟩
abbrev main_c_6 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_c_7 : Ref sig .tc := ⟨.hbm, 75, rfl⟩
abbrev main_v55 : Ref sig .tc := ⟨.hbm, 76, rfl⟩
abbrev main_v56 : Ref sig .tc := ⟨.hbm, 77, rfl⟩
abbrev main_c_8 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_c_9 : Ref sig .tc := ⟨.hbm, 89, rfl⟩
abbrev main_v67 : Ref sig .tc := ⟨.hbm, 90, rfl⟩
abbrev main_v68 : Ref sig .tc := ⟨.hbm, 91, rfl⟩
abbrev main_c_10 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_c_11 : Ref sig .tc := ⟨.hbm, 103, rfl⟩
abbrev main_v79 : Ref sig .tc := ⟨.hbm, 104, rfl⟩
abbrev main_v80 : Ref sig .tc := ⟨.hbm, 105, rfl⟩
abbrev main_c_12 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_c_13 : Ref sig .tc := ⟨.hbm, 117, rfl⟩
abbrev main_v91 : Ref sig .tc := ⟨.hbm, 118, rfl⟩
abbrev main_v92 : Ref sig .tc := ⟨.hbm, 119, rfl⟩
abbrev main_c_14 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_c_15 : Ref sig .tc := ⟨.hbm, 131, rfl⟩
abbrev main_v103 : Ref sig .tc := ⟨.hbm, 132, rfl⟩
abbrev main_v104 : Ref sig .tc := ⟨.hbm, 133, rfl⟩
abbrev main_c_16 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_c_17 : Ref sig .tc := ⟨.hbm, 145, rfl⟩
abbrev main_v115 : Ref sig .tc := ⟨.hbm, 146, rfl⟩
abbrev main_v116 : Ref sig .tc := ⟨.hbm, 147, rfl⟩
abbrev main_c_18 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_c_19 : Ref sig .tc := ⟨.hbm, 158, rfl⟩
abbrev main_v126 : Ref sig .tc := ⟨.hbm, 159, rfl⟩
abbrev main_v127 : Ref sig .tc := ⟨.hbm, 160, rfl⟩
abbrev main_c_20 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_v135 : Ref sig .tc := ⟨.hbm, 169, rfl⟩
abbrev main_v136 : Ref sig .tc := ⟨.hbm, 170, rfl⟩
abbrev main_v137 : Ref sig .tc := ⟨.hbm, 171, rfl⟩
abbrev main_c_21 : Ref sig .tc := ⟨.hbm, 172, rfl⟩
abbrev main_v138 : Ref sig .tc := ⟨.hbm, 173, rfl⟩
abbrev main_v139 : Ref sig .tc := ⟨.hbm, 174, rfl⟩
abbrev main_c_22 : Ref sig .tc := ⟨.hbm, 175, rfl⟩
abbrev main_v140 : Ref sig .tc := ⟨.hbm, 176, rfl⟩
abbrev main_v141 : Ref sig .tc := ⟨.hbm, 177, rfl⟩
abbrev main_v142 : Ref sig .tc := ⟨.hbm, 178, rfl⟩
abbrev main_v143 : Ref sig .tc := ⟨.hbm, 179, rfl⟩
abbrev main_v144 : Ref sig .tc := ⟨.hbm, 180, rfl⟩
abbrev main_v145 : Ref sig .tc := ⟨.hbm, 181, rfl⟩
abbrev main_c_23 : Ref sig .tc := ⟨.hbm, 182, rfl⟩
abbrev main_v146 : Ref sig .tc := ⟨.hbm, 183, rfl⟩
abbrev main_v147 : Ref sig .tc := ⟨.hbm, 184, rfl⟩
abbrev main_c_24 : Ref sig .tc := ⟨.hbm, 185, rfl⟩
abbrev main_v148 : Ref sig .tc := ⟨.hbm, 186, rfl⟩
abbrev main_v149 : Ref sig .tc := ⟨.hbm, 187, rfl⟩
abbrev main_v150 : Ref sig .tc := ⟨.hbm, 188, rfl⟩
abbrev main_v151 : Ref sig .tc := ⟨.hbm, 189, rfl⟩
abbrev main_v152 : Ref sig .tc := ⟨.hbm, 190, rfl⟩
abbrev main_v153 : Ref sig .tc := ⟨.hbm, 191, rfl⟩
abbrev main_v154 : Ref sig .tc := ⟨.hbm, 192, rfl⟩
abbrev main_v155 : Ref sig .tc := ⟨.hbm, 193, rfl⟩
abbrev main_cst : Ref sig .tc := ⟨.hbm, 194, rfl⟩
abbrev main_v156 : Ref sig .tc := ⟨.hbm, 195, rfl⟩
abbrev main_v157 : Ref sig .tc := ⟨.hbm, 196, rfl⟩
abbrev main_v158 : Ref sig .tc := ⟨.hbm, 197, rfl⟩
abbrev main_v159 : Ref sig .tc := ⟨.hbm, 198, rfl⟩
abbrev main_v160 : Ref sig .tc := ⟨.hbm, 199, rfl⟩
abbrev main_v161 : Ref sig .tc := ⟨.hbm, 200, rfl⟩
abbrev main_v162 : Ref sig .tc := ⟨.hbm, 201, rfl⟩
abbrev main_v163 : Ref sig .tc := ⟨.hbm, 202, rfl⟩
abbrev main_v164 : Ref sig .tc := ⟨.hbm, 203, rfl⟩
abbrev main_v165 : Ref sig .tc := ⟨.hbm, 204, rfl⟩
abbrev main_c_25 : Ref sig .tc := ⟨.hbm, 205, rfl⟩
abbrev main_v166 : Ref sig .tc := ⟨.hbm, 206, rfl⟩
abbrev main_v167 : Ref sig .tc := ⟨.hbm, 207, rfl⟩
abbrev main_c_26 : Ref sig .tc := ⟨.hbm, 208, rfl⟩
abbrev main_v168 : Ref sig .tc := ⟨.hbm, 209, rfl⟩
abbrev main_v169 : Ref sig .tc := ⟨.hbm, 210, rfl⟩
abbrev main_v170 : Ref sig .tc := ⟨.hbm, 211, rfl⟩
abbrev main_v171 : Ref sig .tc := ⟨.hbm, 212, rfl⟩
abbrev main_v172 : Ref sig .tc := ⟨.hbm, 213, rfl⟩
abbrev main_v173 : Ref sig .tc := ⟨.hbm, 214, rfl⟩
abbrev main_v174 : Ref sig .tc := ⟨.hbm, 215, rfl⟩
abbrev main_v175 : Ref sig .tc := ⟨.hbm, 216, rfl⟩
abbrev main_v176 : Ref sig .tc := ⟨.hbm, 217, rfl⟩
abbrev main_c_27 : Ref sig .tc := ⟨.hbm, 218, rfl⟩
abbrev main_v177 : Ref sig .tc := ⟨.hbm, 219, rfl⟩
abbrev main_v178 : Ref sig .tc := ⟨.hbm, 220, rfl⟩
abbrev main_c_28 : Ref sig .tc := ⟨.hbm, 221, rfl⟩
abbrev main_v179 : Ref sig .tc := ⟨.hbm, 222, rfl⟩
abbrev main_v180 : Ref sig .tc := ⟨.hbm, 223, rfl⟩
abbrev main_v181 : Ref sig .tc := ⟨.hbm, 224, rfl⟩
abbrev main_v182 : Ref sig .tc := ⟨.hbm, 225, rfl⟩
abbrev main_v183 : Ref sig .tc := ⟨.hbm, 226, rfl⟩
abbrev main_v184 : Ref sig .tc := ⟨.hbm, 227, rfl⟩
abbrev main_v185 : Ref sig .tc := ⟨.hbm, 228, rfl⟩
abbrev main_v186 : Ref sig .tc := ⟨.hbm, 229, rfl⟩
abbrev main_v187 : Ref sig .tc := ⟨.hbm, 230, rfl⟩
abbrev main_v188 : Ref sig .tc := ⟨.hbm, 231, rfl⟩
abbrev main_c_29 : Ref sig .tc := ⟨.hbm, 232, rfl⟩
abbrev main_v189 : Ref sig .tc := ⟨.hbm, 233, rfl⟩
abbrev main_v190 : Ref sig .tc := ⟨.hbm, 234, rfl⟩
abbrev main_c_30 : Ref sig .tc := ⟨.hbm, 235, rfl⟩
abbrev main_v191 : Ref sig .tc := ⟨.hbm, 236, rfl⟩
abbrev main_v192 : Ref sig .tc := ⟨.hbm, 237, rfl⟩
abbrev main_v193 : Ref sig .tc := ⟨.hbm, 238, rfl⟩
abbrev main_v194 : Ref sig .tc := ⟨.hbm, 239, rfl⟩
abbrev main_v195 : Ref sig .tc := ⟨.hbm, 240, rfl⟩
abbrev main_v196 : Ref sig .tc := ⟨.hbm, 241, rfl⟩
abbrev main_c_31 : Ref sig .tc := ⟨.hbm, 242, rfl⟩
abbrev main_v197 : Ref sig .tc := ⟨.hbm, 243, rfl⟩
abbrev main_v198 : Ref sig .tc := ⟨.hbm, 244, rfl⟩
abbrev main_c_32 : Ref sig .tc := ⟨.hbm, 245, rfl⟩
abbrev main_v199 : Ref sig .tc := ⟨.hbm, 246, rfl⟩
abbrev main_v200 : Ref sig .tc := ⟨.hbm, 247, rfl⟩
abbrev main_v201 : Ref sig .tc := ⟨.hbm, 248, rfl⟩
abbrev main_v202 : Ref sig .tc := ⟨.hbm, 249, rfl⟩
abbrev main_v203 : Ref sig .tc := ⟨.hbm, 250, rfl⟩
abbrev main_v204 : Ref sig .tc := ⟨.hbm, 251, rfl⟩
abbrev main_v205 : Ref sig .tc := ⟨.hbm, 252, rfl⟩
abbrev main_v206 : Ref sig .tc := ⟨.hbm, 253, rfl⟩
abbrev main_cst_33 : Ref sig .tc := ⟨.hbm, 254, rfl⟩
abbrev main_v207 : Ref sig .tc := ⟨.hbm, 255, rfl⟩
abbrev main_v208 : Ref sig .tc := ⟨.hbm, 256, rfl⟩
abbrev main_v209 : Ref sig .tc := ⟨.hbm, 257, rfl⟩
abbrev main_v210 : Ref sig .tc := ⟨.hbm, 258, rfl⟩
abbrev main_v211 : Ref sig .tc := ⟨.hbm, 259, rfl⟩
abbrev main_v212 : Ref sig .tc := ⟨.hbm, 260, rfl⟩
abbrev main_v213 : Ref sig .tc := ⟨.hbm, 261, rfl⟩
abbrev main_v214 : Ref sig .tc := ⟨.hbm, 262, rfl⟩
abbrev main_v215 : Ref sig .tc := ⟨.hbm, 263, rfl⟩
abbrev main_v216 : Ref sig .tc := ⟨.hbm, 264, rfl⟩
abbrev main_c_34 : Ref sig .tc := ⟨.hbm, 265, rfl⟩
abbrev main_v217 : Ref sig .tc := ⟨.hbm, 266, rfl⟩
abbrev main_v218 : Ref sig .tc := ⟨.hbm, 267, rfl⟩
abbrev main_c_35 : Ref sig .tc := ⟨.hbm, 268, rfl⟩
abbrev main_v219 : Ref sig .tc := ⟨.hbm, 269, rfl⟩
abbrev main_v220 : Ref sig .tc := ⟨.hbm, 270, rfl⟩
abbrev main_v221 : Ref sig .tc := ⟨.hbm, 271, rfl⟩
abbrev main_v222 : Ref sig .tc := ⟨.hbm, 272, rfl⟩
abbrev main_v223 : Ref sig .tc := ⟨.hbm, 273, rfl⟩
abbrev main_v224 : Ref sig .tc := ⟨.hbm, 274, rfl⟩
abbrev main_v225 : Ref sig .tc := ⟨.hbm, 275, rfl⟩
abbrev main_v226 : Ref sig .tc := ⟨.hbm, 276, rfl⟩
abbrev main_v227 : Ref sig .tc := ⟨.hbm, 277, rfl⟩
abbrev main_c_36 : Ref sig .tc := ⟨.hbm, 278, rfl⟩
abbrev main_v228 : Ref sig .tc := ⟨.hbm, 279, rfl⟩
abbrev main_v229 : Ref sig .tc := ⟨.hbm, 280, rfl⟩
abbrev main_c_37 : Ref sig .tc := ⟨.hbm, 281, rfl⟩
abbrev main_v230 : Ref sig .tc := ⟨.hbm, 282, rfl⟩
abbrev main_v231 : Ref sig .tc := ⟨.hbm, 283, rfl⟩
abbrev main_v232 : Ref sig .tc := ⟨.hbm, 284, rfl⟩
abbrev main_v233 : Ref sig .tc := ⟨.hbm, 285, rfl⟩
abbrev main_v234 : Ref sig .tc := ⟨.hbm, 286, rfl⟩
abbrev main_v235 : Ref sig .tc := ⟨.hbm, 287, rfl⟩
abbrev main_v236 : Ref sig .tc := ⟨.hbm, 288, rfl⟩
abbrev main_v237 : Ref sig .tc := ⟨.hbm, 289, rfl⟩
abbrev main_v238 : Ref sig .tc := ⟨.hbm, 290, rfl⟩
abbrev main_v239 : Ref sig .tc := ⟨.hbm, 291, rfl⟩
abbrev main_c_38 : Ref sig .tc := ⟨.hbm, 292, rfl⟩
abbrev main_v240 : Ref sig .tc := ⟨.hbm, 293, rfl⟩
abbrev main_v241 : Ref sig .tc := ⟨.hbm, 294, rfl⟩
abbrev main_c_39 : Ref sig .tc := ⟨.hbm, 295, rfl⟩
abbrev main_v242 : Ref sig .tc := ⟨.hbm, 296, rfl⟩
abbrev main_v243 : Ref sig .tc := ⟨.hbm, 297, rfl⟩
abbrev main_v244 : Ref sig .tc := ⟨.hbm, 298, rfl⟩
abbrev main_v245 : Ref sig .tc := ⟨.hbm, 299, rfl⟩
abbrev main_v246 : Ref sig .tc := ⟨.hbm, 300, rfl⟩
abbrev main_v247 : Ref sig .tc := ⟨.hbm, 301, rfl⟩
abbrev main_c_40 : Ref sig .tc := ⟨.hbm, 302, rfl⟩
abbrev main_v248 : Ref sig .tc := ⟨.hbm, 303, rfl⟩
abbrev main_v249 : Ref sig .tc := ⟨.hbm, 304, rfl⟩
abbrev main_c_41 : Ref sig .tc := ⟨.hbm, 305, rfl⟩
abbrev main_v250 : Ref sig .tc := ⟨.hbm, 306, rfl⟩
abbrev main_v251 : Ref sig .tc := ⟨.hbm, 307, rfl⟩
abbrev main_v252 : Ref sig .tc := ⟨.hbm, 308, rfl⟩
abbrev main_v253 : Ref sig .tc := ⟨.hbm, 309, rfl⟩
abbrev main_v254 : Ref sig .tc := ⟨.hbm, 310, rfl⟩
abbrev main_v255 : Ref sig .tc := ⟨.hbm, 311, rfl⟩
abbrev main_v256 : Ref sig .tc := ⟨.hbm, 312, rfl⟩
abbrev main_v257 : Ref sig .tc := ⟨.hbm, 313, rfl⟩
abbrev main_cst_42 : Ref sig .tc := ⟨.hbm, 314, rfl⟩
abbrev main_v258 : Ref sig .tc := ⟨.hbm, 315, rfl⟩
abbrev main_v259 : Ref sig .tc := ⟨.hbm, 316, rfl⟩
abbrev main_v260 : Ref sig .tc := ⟨.hbm, 317, rfl⟩
abbrev main_v261 : Ref sig .tc := ⟨.hbm, 318, rfl⟩
abbrev main_v262 : Ref sig .tc := ⟨.hbm, 319, rfl⟩
abbrev main_v263 : Ref sig .tc := ⟨.hbm, 320, rfl⟩
abbrev main_cst_43 : Ref sig .tc := ⟨.hbm, 321, rfl⟩
abbrev main_v264 : Ref sig .tc := ⟨.hbm, 322, rfl⟩
abbrev main_v265 : Ref sig .tc := ⟨.hbm, 323, rfl⟩
abbrev main_v266 : Ref sig .tc := ⟨.hbm, 324, rfl⟩
abbrev main_cst_44 : Ref sig .tc := ⟨.hbm, 325, rfl⟩
abbrev main_v267 : Ref sig .tc := ⟨.hbm, 326, rfl⟩
abbrev main_cst_45 : Ref sig .tc := ⟨.hbm, 327, rfl⟩
abbrev main_v268 : Ref sig .tc := ⟨.hbm, 328, rfl⟩
abbrev main_v269 : Ref sig .tc := ⟨.hbm, 329, rfl⟩
abbrev main_v270 : Ref sig .tc := ⟨.hbm, 330, rfl⟩
abbrev main_cst_46 : Ref sig .tc := ⟨.hbm, 331, rfl⟩
abbrev main_v271 : Ref sig .tc := ⟨.hbm, 332, rfl⟩
abbrev main_v272 : Ref sig .tc := ⟨.hbm, 333, rfl⟩
abbrev main_v273 : Ref sig .tc := ⟨.hbm, 334, rfl⟩
abbrev main_v274 : Ref sig .tc := ⟨.hbm, 335, rfl⟩
abbrev main_v275 : Ref sig .tc := ⟨.hbm, 336, rfl⟩
abbrev main_v276 : Ref sig .tc := ⟨.hbm, 337, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg2_0 : Ref sig .tc := ⟨.vmem, 24, rfl⟩
abbrev cc3_stg2_1 : Ref sig .tc := ⟨.vmem, 25, rfl⟩
abbrev cc3_stg3_0 : Ref sig .tc := ⟨.vmem, 26, rfl⟩
abbrev cc3_stg3_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg1_1 : Ref sig .tc := ⟨.vmem, 31, rfl⟩
abbrev cc4_stg2_0 : Ref sig .tc := ⟨.vmem, 32, rfl⟩
abbrev cc4_stg3_0 : Ref sig .tc := ⟨.vmem, 33, rfl⟩
abbrev cc4_stg3_1 : Ref sig .tc := ⟨.vmem, 34, rfl⟩
abbrev cc5_stg0_0 : Ref sig .tc := ⟨.vmem, 35, rfl⟩
abbrev cc5_stg0_1 : Ref sig .tc := ⟨.vmem, 36, rfl⟩
abbrev cc5_stg1_0 : Ref sig .tc := ⟨.vmem, 37, rfl⟩
abbrev cc5_stg2_0 : Ref sig .tc := ⟨.vmem, 38, rfl⟩
abbrev cc5_stg2_1 : Ref sig .tc := ⟨.vmem, 39, rfl⟩
abbrev cc5_stg3_0 : Ref sig .tc := ⟨.vmem, 40, rfl⟩
abbrev cc5_stg3_1 : Ref sig .tc := ⟨.vmem, 41, rfl⟩
abbrev cc6_stg0_0 : Ref sig .tc := ⟨.vmem, 42, rfl⟩
abbrev cc6_stg1_0 : Ref sig .tc := ⟨.vmem, 43, rfl⟩
abbrev cc6_stg2_0 : Ref sig .tc := ⟨.vmem, 44, rfl⟩
abbrev cc6_stg3_0 : Ref sig .tc := ⟨.vmem, 45, rfl⟩
abbrev cc6_stg4_0 : Ref sig .tc := ⟨.vmem, 46, rfl⟩
abbrev cc6_stg5_0 : Ref sig .tc := ⟨.vmem, 47, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem2_0 : DmaSem sig := 24
abbrev cc3_sem2_1 : DmaSem sig := 25
abbrev cc3_sem3_0 : DmaSem sig := 26
abbrev cc3_sem3_1 : DmaSem sig := 27
abbrev cc4_sem0_0 : DmaSem sig := 28
abbrev cc4_sem0_1 : DmaSem sig := 29
abbrev cc4_sem1_0 : DmaSem sig := 30
abbrev cc4_sem1_1 : DmaSem sig := 31
abbrev cc4_sem2_0 : DmaSem sig := 32
abbrev cc4_sem3_0 : DmaSem sig := 33
abbrev cc4_sem3_1 : DmaSem sig := 34
abbrev cc5_sem0_0 : DmaSem sig := 35
abbrev cc5_sem0_1 : DmaSem sig := 36
abbrev cc5_sem1_0 : DmaSem sig := 37
abbrev cc5_sem2_0 : DmaSem sig := 38
abbrev cc5_sem2_1 : DmaSem sig := 39
abbrev cc5_sem3_0 : DmaSem sig := 40
abbrev cc5_sem3_1 : DmaSem sig := 41
abbrev cc6_sem0_0 : DmaSem sig := 42
abbrev cc6_sem1_0 : DmaSem sig := 43
abbrev cc6_sem2_0 : DmaSem sig := 44
abbrev cc6_sem3_0 : DmaSem sig := 45
abbrev cc6_sem4_0 : DmaSem sig := 46
abbrev cc6_sem5_0 : DmaSem sig := 47

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S12000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S12000x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S12000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S3x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S10000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S12000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S12000x3 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S3x128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S12000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S3x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S10000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S12000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S12000x3 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S3x128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S12000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![5], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S3x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S10000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S10000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 1 → Memref sig .tc .vmem S2048x128 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S128x1 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S2048x1 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  slices_S9x100x128_S1x100x128_0_0_0 : S9x100x128.Slices ![0, 0, 0] S1x100x128
  shapeCasts_S1x100x128_S100x128 : S1x100x128.ShapeCasts S100x128
  slices_S50000x9_S50000x1_0_0 : S50000x9.Slices ![0, 0] S50000x1
  shapeCasts_S50000x1_S50000 : S50000x1.ShapeCasts S50000
  bcast_S_S50000 : S_.BroadcastsInDim S50000 (![] : Fin 0 → Fin S50000.rank)
  bcast_S50000_S50000x1_0 : S50000.BroadcastsInDim S50000x1 (![0] : Fin 1 → Fin S50000x1.rank)
  slices_S9x100x128_S1x100x128_1_0_0 : S9x100x128.Slices ![1, 0, 0] S1x100x128
  slices_S50000x9_S50000x1_0_1 : S50000x9.Slices ![0, 1] S50000x1
  slices_S9x100x128_S1x100x128_2_0_0 : S9x100x128.Slices ![2, 0, 0] S1x100x128
  slices_S50000x9_S50000x1_0_2 : S50000x9.Slices ![0, 2] S50000x1
  slices_S9x100x128_S1x100x128_3_0_0 : S9x100x128.Slices ![3, 0, 0] S1x100x128
  slices_S50000x9_S50000x1_0_3 : S50000x9.Slices ![0, 3] S50000x1
  slices_S9x100x128_S1x100x128_4_0_0 : S9x100x128.Slices ![4, 0, 0] S1x100x128
  slices_S50000x9_S50000x1_0_4 : S50000x9.Slices ![0, 4] S50000x1
  slices_S9x100x128_S1x100x128_5_0_0 : S9x100x128.Slices ![5, 0, 0] S1x100x128
  slices_S50000x9_S50000x1_0_5 : S50000x9.Slices ![0, 5] S50000x1
  slices_S9x100x128_S1x100x128_6_0_0 : S9x100x128.Slices ![6, 0, 0] S1x100x128
  slices_S50000x9_S50000x1_0_6 : S50000x9.Slices ![0, 6] S50000x1
  slices_S9x100x128_S1x100x128_7_0_0 : S9x100x128.Slices ![7, 0, 0] S1x100x128
  slices_S50000x9_S50000x1_0_7 : S50000x9.Slices ![0, 7] S50000x1
  slices_S9x100x128_S1x100x128_8_0_0 : S9x100x128.Slices ![8, 0, 0] S1x100x128
  slices_S50000x9_S50000x1_0_8 : S50000x9.Slices ![0, 8] S50000x1
  slices_S3x3x8x3_S1x1x8x3_0_0_0_0 : S3x3x8x3.Slices ![0, 0, 0, 0] S1x1x8x3
  shapeCasts_S1x1x8x3_S8x3 : S1x1x8x3.ShapeCasts S8x3
  slices_S600000x3_S600000x1_0_0 : S600000x3.Slices ![0, 0] S600000x1
  shapeCasts_S600000x1_S600000 : S600000x1.ShapeCasts S600000
  bcast_S_S600000 : S_.BroadcastsInDim S600000 (![] : Fin 0 → Fin S600000.rank)
  bcast_S600000_S600000x1_0 : S600000.BroadcastsInDim S600000x1 (![0] : Fin 1 → Fin S600000x1.rank)
  slices_S3x3x8x3_S1x1x8x3_0_1_0_0 : S3x3x8x3.Slices ![0, 1, 0, 0] S1x1x8x3
  slices_S600000x3_S600000x1_0_1 : S600000x3.Slices ![0, 1] S600000x1
  slices_S3x3x8x3_S1x1x8x3_0_2_0_0 : S3x3x8x3.Slices ![0, 2, 0, 0] S1x1x8x3
  slices_S600000x3_S600000x1_0_2 : S600000x3.Slices ![0, 2] S600000x1
  slices_S3x3x128x128_S1x3x128x128_0_0_0_0 : S3x3x128x128.Slices ![0, 0, 0, 0] S1x3x128x128
  shapeCasts_S1x3x128x128_S3x128x128 : S1x3x128x128.ShapeCasts S3x128x128
  inb_S12000x128_S12000x128_0_0 : ∀ a, (![0, 0] : Fin 2 → Nat) a + S12000x128.size a ≤ S12000x128.size a
  h_S12000x128 : 0 < S12000x128.numel
  shapeCasts_S12000x128_S12000x128 : S12000x128.ShapeCasts S12000x128
  inb_S12000x3_S12000x3_0_0 : ∀ a, (![0, 0] : Fin 2 → Nat) a + S12000x3.size a ≤ S12000x3.size a
  h_S12000x3 : 0 < S12000x3.numel
  shapeCasts_S12000x3_S12000x3 : S12000x3.ShapeCasts S12000x3
  inb_S3x128x128_S1x128x128_0_0_0 : ∀ a, (![0, 0, 0] : Fin 3 → Nat) a + S1x128x128.size a ≤ S3x128x128.size a
  h_S1x128x128 : 0 < S1x128x128.numel
  shapeCasts_S1x128x128_S128x128 : S1x128x128.ShapeCasts S128x128
  slices_S12000x3_o0_0_S12000x1 : S12000x3.Slices ![0, 0] S12000x1
  broadcasts_S12000x1_S12000x128 : S12000x1.Broadcasts S12000x128
  inb_S3x128x128_S1x128x128_1_0_0 : ∀ a, (![1, 0, 0] : Fin 3 → Nat) a + S1x128x128.size a ≤ S3x128x128.size a
  slices_S12000x3_o0_1_S12000x1 : S12000x3.Slices ![0, 1] S12000x1
  inb_S3x128x128_S1x128x128_2_0_0 : ∀ a, (![2, 0, 0] : Fin 3 → Nat) a + S1x128x128.size a ≤ S3x128x128.size a
  slices_S12000x3_o0_2_S12000x1 : S12000x3.Slices ![0, 2] S12000x1
  bcast_S_S50000x128 : S_.BroadcastsInDim S50000x128 (![] : Fin 0 → Fin S50000x128.rank)
  slices_S3x3x128_S1x3x128_0_0_0 : S3x3x128.Slices ![0, 0, 0] S1x3x128
  shapeCasts_S1x3x128_S3x128 : S1x3x128.ShapeCasts S3x128
  inb_S3x128_S3x128_0_0 : ∀ a, (![0, 0] : Fin 2 → Nat) a + S3x128.size a ≤ S3x128.size a
  h_S3x128 : 0 < S3x128.numel
  shapeCasts_S3x128_S3x128 : S3x128.ShapeCasts S3x128
  reduces_S3x128_S128 : S3x128.Reduces [0] S128
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  broadcasts_S1x128_S10000x128 : S1x128.Broadcasts S10000x128
  slices_S3x3x8x3_S1x1x8x3_1_0_0_0 : S3x3x8x3.Slices ![1, 0, 0, 0] S1x1x8x3
  slices_S3x3x8x3_S1x1x8x3_1_1_0_0 : S3x3x8x3.Slices ![1, 1, 0, 0] S1x1x8x3
  slices_S3x3x8x3_S1x1x8x3_1_2_0_0 : S3x3x8x3.Slices ![1, 2, 0, 0] S1x1x8x3
  slices_S3x3x128x128_S1x3x128x128_1_0_0_0 : S3x3x128x128.Slices ![1, 0, 0, 0] S1x3x128x128
  slices_S3x3x128_S1x3x128_1_0_0 : S3x3x128.Slices ![1, 0, 0] S1x3x128
  slices_S3x3x8x3_S1x1x8x3_2_0_0_0 : S3x3x8x3.Slices ![2, 0, 0, 0] S1x1x8x3
  slices_S3x3x8x3_S1x1x8x3_2_1_0_0 : S3x3x8x3.Slices ![2, 1, 0, 0] S1x1x8x3
  slices_S3x3x8x3_S1x1x8x3_2_2_0_0 : S3x3x8x3.Slices ![2, 2, 0, 0] S1x1x8x3
  slices_S3x3x128x128_S1x3x128x128_2_0_0_0 : S3x3x128x128.Slices ![2, 0, 0, 0] S1x3x128x128
  slices_S3x3x128_S1x3x128_2_0_0 : S3x3x128.Slices ![2, 0, 0] S1x3x128
  bcast_S_S2048x128 : S_.BroadcastsInDim S2048x128 (![] : Fin 0 → Fin S2048x128.rank)
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x128_0_1 : S2048x1.BroadcastsInDim S2048x128 (![0, 1] : Fin 2 → Fin S2048x128.rank)
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  broadcasts_S1x128_S2048x128 : S1x128.Broadcasts S2048x128
  inb_S128x1_S128x1_0_0 : ∀ a, (![0, 0] : Fin 2 → Nat) a + S128x1.size a ≤ S128x1.size a
  h_S128x1 : 0 < S128x1.numel
  inb_S1_S1_0 : ∀ a, (![0] : Fin 1 → Nat) a + S1.size a ≤ S1.size a
  h_S1 : 0 < S1.numel
  shapeCasts_S1_S1x1 : S1.ShapeCasts S1x1
  broadcasts_S1x1_S2048x1 : S1x1.Broadcasts S2048x1
  inb_S2048x1_S2048x1_0_0 : ∀ a, (![0, 0] : Fin 2 → Nat) a + S2048x1.size a ≤ S2048x1.size a
  h_S2048x1 : 0 < S2048x1.numel
  gather_S100x128_S50000x1_S50000x128_1_0_n_n_0_1_1128_wf : GatherDims.WF S100x128 S50000x1 S50000x128 [1] [0] [] [0] [] 1 ![1, 128]
  gather_S8x3_S600000x1_S600000x3_1_0_n_n_0_1_13_wf : GatherDims.WF S8x3 S600000x1 S600000x3 [1] [0] [] [0] [] 1 ![1, 3]
  gather_S50000x128_S600000x1_S600000x128_1_0_n_n_0_1_1128_wf : GatherDims.WF S50000x128 S600000x1 S600000x128 [1] [0] [] [0] [] 1 ![1, 128]
  dot_S12000x128_S128x128_S12000x128_1_0_0_1_n_n_wf : DotDims.WF S12000x128 S128x128 S12000x128 [1] [0] [0] [1] [] []
  scatter_S50000x128_S600000x1_S600000x128_1_0_0_1_wf : ScatterDims.WF S50000x128 S600000x1 S600000x128 [1] [0] [0] 1
  scatter_S2048x128_S50000x1_S50000x128_1_0_0_1_wf : ScatterDims.WF S2048x128 S50000x1 S50000x128 [1] [0] [0] 1
  scatter_S2048_S50000x1_S50000_n_0_0_1_wf : ScatterDims.WF S2048 S50000x1 S50000 [] [0] [0] 1
  dot_S2048x128_S128x128_S2048x128_1_0_0_1_n_n_wf : DotDims.WF S2048x128 S128x128 S2048x128 [1] [0] [0] [1] [] []
  dot_S2048x128_S128x1_S2048x1_1_0_0_1_n_n_wf : DotDims.WF S2048x128 S128x1 S2048x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S12000x128.size a ≤ S600000x128.size a
  hwx0_0 : ∀ i : grid0.Coords, EltTy.bits .f32 = 32 ∨ (Rect.block (s := S600000x128) S12000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S12000x3.size a ≤ S600000x3.size a
  hwx0_1 : ∀ i : grid0.Coords, EltTy.bits .f32 = 32 ∨ (Rect.block (s := S600000x3) S12000x3.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3x128x128.size a ≤ S3x128x128.size a
  hwx0_2 : ∀ i : grid0.Coords, EltTy.bits .f32 = 32 ∨ (Rect.block (s := S3x128x128) S3x128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S12000x128.size a ≤ S600000x128.size a
  hwx0_3 : ∀ i : grid0.Coords, EltTy.bits .f32 = 32 ∨ (Rect.block (s := S600000x128) S12000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S50000x128.size a
  hwx1_0 : ∀ i : grid1.Coords, EltTy.bits .f32 = 32 ∨ (Rect.block (s := S50000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S3x128.size a ≤ S3x128.size a
  hwx1_1 : ∀ i : grid1.Coords, EltTy.bits .f32 = 32 ∨ (Rect.block (s := S3x128) S3x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S50000x128.size a
  hwx1_2 : ∀ i : grid1.Coords, EltTy.bits .f32 = 32 ∨ (Rect.block (s := S50000x128) S10000x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x128.size a ≤ S50000x128.size a
  hwx1_3 : ∀ i : grid1.Coords, EltTy.bits .f32 = 32 ∨ (Rect.block (s := S50000x128) S10000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S12000x128.size a ≤ S600000x128.size a
  hwx2_0 : ∀ i : grid2.Coords, EltTy.bits .f32 = 32 ∨ (Rect.block (s := S600000x128) S12000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S12000x3.size a ≤ S600000x3.size a
  hwx2_1 : ∀ i : grid2.Coords, EltTy.bits .f32 = 32 ∨ (Rect.block (s := S600000x3) S12000x3.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S3x128x128.size a ≤ S3x128x128.size a
  hwx2_2 : ∀ i : grid2.Coords, EltTy.bits .f32 = 32 ∨ (Rect.block (s := S3x128x128) S3x128x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S12000x128.size a ≤ S600000x128.size a
  hwx2_3 : ∀ i : grid2.Coords, EltTy.bits .f32 = 32 ∨ (Rect.block (s := S600000x128) S12000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S50000x128.size a
  hwx3_0 : ∀ i : grid3.Coords, EltTy.bits .f32 = 32 ∨ (Rect.block (s := S50000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S3x128.size a ≤ S3x128.size a
  hwx3_1 : ∀ i : grid3.Coords, EltTy.bits .f32 = 32 ∨ (Rect.block (s := S3x128) S3x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x128.size a ≤ S50000x128.size a
  hwx3_2 : ∀ i : grid3.Coords, EltTy.bits .f32 = 32 ∨ (Rect.block (s := S50000x128) S10000x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S10000x128.size a ≤ S50000x128.size a
  hwx3_3 : ∀ i : grid3.Coords, EltTy.bits .f32 = 32 ∨ (Rect.block (s := S50000x128) S10000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S12000x128.size a ≤ S600000x128.size a
  hwx4_0 : ∀ i : grid4.Coords, EltTy.bits .f32 = 32 ∨ (Rect.block (s := S600000x128) S12000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S12000x3.size a ≤ S600000x3.size a
  hwx4_1 : ∀ i : grid4.Coords, EltTy.bits .f32 = 32 ∨ (Rect.block (s := S600000x3) S12000x3.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S3x128x128.size a ≤ S3x128x128.size a
  hwx4_2 : ∀ i : grid4.Coords, EltTy.bits .f32 = 32 ∨ (Rect.block (s := S3x128x128) S3x128x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S12000x128.size a ≤ S600000x128.size a
  hwx4_3 : ∀ i : grid4.Coords, EltTy.bits .f32 = 32 ∨ (Rect.block (s := S600000x128) S12000x128.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x128.size a ≤ S50000x128.size a
  hwx5_0 : ∀ i : grid5.Coords, EltTy.bits .f32 = 32 ∨ (Rect.block (s := S50000x128) S10000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S3x128.size a ≤ S3x128.size a
  hwx5_1 : ∀ i : grid5.Coords, EltTy.bits .f32 = 32 ∨ (Rect.block (s := S3x128) S3x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x128.size a ≤ S50000x128.size a
  hwx5_2 : ∀ i : grid5.Coords, EltTy.bits .f32 = 32 ∨ (Rect.block (s := S50000x128) S10000x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S10000x128.size a ≤ S50000x128.size a
  hwx5_3 : ∀ i : grid5.Coords, EltTy.bits .f32 = 32 ∨ (Rect.block (s := S50000x128) S10000x128.size (cc5_transform_3 i) (hinb5_3 i)).WholeWords (EltTy.packing .f32)
  hrank6 : 0 < grid6.rank
  hstage6_0 : ∀ j, (stage6_0 j).IsWhole
  nbuf6_0 : grid6.bufCount reads6_0 true = 1
  hreads6_0 : ∀ i i' : grid6.Coords, (∀ a, reads6_0 a = true → i a = i' a) → cc6_transform_0 i = cc6_transform_0 i'
  hinb6_0 : ∀ (i : grid6.Coords) a, (cc6_transform_0 i a + 1) * S2048x128.size a ≤ S2048x128.size a
  hwx6_0 : ∀ i : grid6.Coords, EltTy.bits .f32 = 32 ∨ (Rect.block (s := S2048x128) S2048x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S128.size a ≤ S128.size a
  hwx6_2 : ∀ i : grid6.Coords, EltTy.bits .f32 = 32 ∨ (Rect.block (s := S128) S128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S128x1.size a ≤ S128x1.size a
  hwx6_3 : ∀ i : grid6.Coords, EltTy.bits .f32 = 32 ∨ (Rect.block (s := S128x1) S128x1.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1.size a ≤ S1.size a
  hwx6_4 : ∀ i : grid6.Coords, EltTy.bits .f32 = 32 ∨ (Rect.block (s := S1) S1.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S2048x1.size a ≤ S2048x1.size a
  hwx6_5 : ∀ i : grid6.Coords, EltTy.bits .f32 = 32 ∨ (Rect.block (s := S2048x1) S2048x1.size (cc6_transform_5 i) (hinb6_5 i)).WholeWords (EltTy.packing .f32)

variable [Facts₀]

def gather_S100x128_S50000x1_S50000x128_1_0_n_n_0_1_1128 : GatherDims S100x128 S50000x1 S50000x128 where
  offsetDims := [1]
  collapsedSliceDims := [0]
  operandBatchingDims := []
  startIndicesBatchingDims := []
  startIndexMap := [0]
  indexVectorDim := 1
  sliceSizes := ![1, 128]
  wf := gather_S100x128_S50000x1_S50000x128_1_0_n_n_0_1_1128_wf
def gather_S8x3_S600000x1_S600000x3_1_0_n_n_0_1_13 : GatherDims S8x3 S600000x1 S600000x3 where
  offsetDims := [1]
  collapsedSliceDims := [0]
  operandBatchingDims := []
  startIndicesBatchingDims := []
  startIndexMap := [0]
  indexVectorDim := 1
  sliceSizes := ![1, 3]
  wf := gather_S8x3_S600000x1_S600000x3_1_0_n_n_0_1_13_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def dot_S12000x128_S128x128_S12000x128_1_0_0_1_n_n : DotDims S12000x128 S128x128 S12000x128 where
  lhsContracting := [1]
  rhsContracting := [0]
  lhsNonContracting := [0]
  rhsNonContracting := [1]
  lhsBatch := []
  rhsBatch := []
  wf := dot_S12000x128_S128x128_S12000x128_1_0_0_1_n_n_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S2048x128_S50000x1_S50000x128_1_0_0_1 : ScatterDims S2048x128 S50000x1 S50000x128 where
  updateWindowDims := [1]
  insertedWindowDims := [0]
  scatterDimsToOperandDims := [0]
  indexVectorDim := 1
  wf := scatter_S2048x128_S50000x1_S50000x128_1_0_0_1_wf
def scatter_S2048_S50000x1_S50000_n_0_0_1 : ScatterDims S2048 S50000x1 S50000 where
  updateWindowDims := []
  insertedWindowDims := [0]
  scatterDimsToOperandDims := [0]
  indexVectorDim := 1
  wf := scatter_S2048_S50000x1_S50000_n_0_0_1_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def dot_S2048x128_S128x1_S2048x1_1_0_0_1_n_n : DotDims S2048x128 S128x1 S2048x1 where
  lhsContracting := [1]
  rhsContracting := [0]
  lhsNonContracting := [0]
  rhsNonContracting := [1]
  lhsBatch := []
  rhsBatch := []
  wf := dot_S2048x128_S128x1_S2048x1_1_0_0_1_n_n_wf

abbrev win0_0 : Pipeline.Window sig grid0 :=
  Pipeline.Window.ofSpec (Memref.whole main_v152) S12000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v145) S12000x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v154) S3x128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v155) S12000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v158) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v160) S3x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v110) S10000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v161) S10000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v203) S12000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v196) S12000x3.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v205) S3x128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v206) S12000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v209) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v211) S3x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v161) S10000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v212) S10000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v254) S12000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v247) S12000x3.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v256) S3x128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v257) S12000x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v260) S10000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v262) S3x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v212) S10000x128.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v263) S10000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v275) S2048x128.size cc6_transform_0 reads6_0 false true 1 stage6_0 sem6_0
    hrank6 hreads6_0 hinb6_0 nbuf6_0 (Memref.isWhole_whole _) hwx6_0 hstage6_0

abbrev win6_1 : Pipeline.Window sig grid6 :=
  Pipeline.Window.ofSpec (Memref.whole main_arg8) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_arg9) S128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_arg10) S128x1.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_arg11) S1.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v276) S2048x1.size cc6_transform_5 reads6_5 true true 1 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

class Facts : Prop extends Facts₀ where

variable [Facts]
-- ==== ReferenceIdeal.lean ====
abbrev S50000x9 : Shape := ⟨2, ![50000, 9]⟩
abbrev S2x600000 : Shape := ⟨2, ![2, 600000]⟩
abbrev S600000x3 : Shape := ⟨2, ![600000, 3]⟩
abbrev S50000 : Shape := ⟨1, ![50000]⟩
abbrev S9x100x128 : Shape := ⟨3, ![9, 100, 128]⟩
abbrev S3x3x8x3 : Shape := ⟨4, ![3, 3, 8, 3]⟩
abbrev S3x3x128x128 : Shape := ⟨4, ![3, 3, 128, 128]⟩
abbrev S3x3x128 : Shape := ⟨3, ![3, 3, 128]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x600000 : Shape := ⟨2, ![1, 600000]⟩
abbrev S600000 : Shape := ⟨1, ![600000]⟩
abbrev S1x100x128 : Shape := ⟨3, ![1, 100, 128]⟩
abbrev S100x128 : Shape := ⟨2, ![100, 128]⟩
abbrev S50000x1 : Shape := ⟨2, ![50000, 1]⟩
abbrev S_ : Shape := ⟨0, ![]⟩
abbrev S50000x128 : Shape := ⟨2, ![50000, 128]⟩
abbrev S1x1x8x3 : Shape := ⟨4, ![1, 1, 8, 3]⟩
abbrev S8x3 : Shape := ⟨2, ![8, 3]⟩
abbrev S600000x1 : Shape := ⟨2, ![600000, 1]⟩
abbrev S600000x128 : Shape := ⟨2, ![600000, 128]⟩
abbrev S1x1x128x128 : Shape := ⟨4, ![1, 1, 128, 128]⟩
abbrev S1x3x128 : Shape := ⟨3, ![1, 3, 128]⟩
abbrev S3x128 : Shape := ⟨2, ![3, 128]⟩
abbrev S1x128 : Shape := ⟨2, ![1, 128]⟩
abbrev S2048x128 : Shape := ⟨2, ![2048, 128]⟩
abbrev S2048 : Shape := ⟨1, ![2048]⟩
abbrev S2048x1 : Shape := ⟨2, ![2048, 1]⟩
abbrev S1x1 : Shape := ⟨2, ![1, 1]⟩

abbrev nBuf : Space → Nat
  | .hbm => 480
  | .vmem => 0
  | .smem => 0
  | _ => 0

abbrev hbmTy0_0 (i : Nat) : BufTy := match i % 128 with
  | 0 => ⟨S50000x9, .i32⟩
  | 1 => ⟨S2x600000, .i32⟩
  | 2 => ⟨S600000x3, .i32⟩
  | 3 => ⟨S50000, .i32⟩
  | 4 => ⟨S9x100x128, .f32⟩
  | 5 => ⟨S3x3x8x3, .f32⟩
  | 6 => ⟨S3x3x128x128, .f32⟩
  | 7 => ⟨S3x3x128, .f32⟩
  | 8 => ⟨S128x128, .f32⟩
  | 9 => ⟨S128, .f32⟩
  | 10 => ⟨S128x1, .f32⟩
  | 11 => ⟨S1, .f32⟩
  | 12 => ⟨S1x600000, .i32⟩
  | 13 => ⟨S600000, .i32⟩
  | 14 => ⟨S1x600000, .i32⟩
  | 15 => ⟨S600000, .i32⟩
  | 16 => ⟨S1x100x128, .f32⟩
  | 17 => ⟨S100x128, .f32⟩
  | 18 => ⟨S50000x1, .i32⟩
  | 19 => ⟨S50000, .i32⟩
  | 20 => ⟨S_, .i32⟩
  | 21 => ⟨S50000, .i32⟩
  | 22 => ⟨S50000, .i1⟩
  | 23 => ⟨S_, .i32⟩
  | 24 => ⟨S50000, .i32⟩
  | 25 => ⟨S50000, .i32⟩
  | 26 => ⟨S50000, .i32⟩
  | 27 => ⟨S50000x1, .i32⟩
  | 28 => ⟨S50000x128, .f32⟩
  | 29 => ⟨S1x100x128, .f32⟩
  | 30 => ⟨S100x128, .f32⟩
  | 31 => ⟨S50000x1, .i32⟩
  | 32 => ⟨S50000, .i32⟩
  | 33 => ⟨S_, .i32⟩
  | 34 => ⟨S50000, .i32⟩
  | 35 => ⟨S50000, .i1⟩
  | 36 => ⟨S_, .i32⟩
  | 37 => ⟨S50000, .i32⟩
  | 38 => ⟨S50000, .i32⟩
  | 39 => ⟨S50000, .i32⟩
  | 40 => ⟨S50000x1, .i32⟩
  | 41 => ⟨S50000x128, .f32⟩
  | 42 => ⟨S50000x128, .f32⟩
  | 43 => ⟨S1x100x128, .f32⟩
  | 44 => ⟨S100x128, .f32⟩
  | 45 => ⟨S50000x1, .i32⟩
  | 46 => ⟨S50000, .i32⟩
  | 47 => ⟨S_, .i32⟩
  | 48 => ⟨S50000, .i32⟩
  | 49 => ⟨S50000, .i1⟩
  | 50 => ⟨S_, .i32⟩
  | 51 => ⟨S50000, .i32⟩
  | 52 => ⟨S50000, .i32⟩
  | 53 => ⟨S50000, .i32⟩
  | 54 => ⟨S50000x1, .i32⟩
  | 55 => ⟨S50000x128, .f32⟩
  | 56 => ⟨S50000x128, .f32⟩
  | 57 => ⟨S1x100x128, .f32⟩
  | 58 => ⟨S100x128, .f32⟩
  | 59 => ⟨S50000x1, .i32⟩
  | 60 => ⟨S50000, .i32⟩
  | 61 => ⟨S_, .i32⟩
  | 62 => ⟨S50000, .i32⟩
  | 63 => ⟨S50000, .i1⟩
  | 64 => ⟨S_, .i32⟩
  | 65 => ⟨S50000, .i32⟩
  | 66 => ⟨S50000, .i32⟩
  | 67 => ⟨S50000, .i32⟩
  | 68 => ⟨S50000x1, .i32⟩
  | 69 => ⟨S50000x128, .f32⟩
  | 70 => ⟨S50000x128, .f32⟩
  | 71 => ⟨S1x100x128, .f32⟩
  | 72 => ⟨S100x128, .f32⟩
  | 73 => ⟨S50000x1, .i32⟩
  | 74 => ⟨S50000, .i32⟩
  | 75 => ⟨S_, .i32⟩
  | 76 => ⟨S50000, .i32⟩
  | 77 => ⟨S50000, .i1⟩
  | 78 => ⟨S_, .i32⟩
  | 79 => ⟨S50000, .i32⟩
  | 80 => ⟨S50000, .i32⟩
  | 81 => ⟨S50000, .i32⟩
  | 82 => ⟨S50000x1, .i32⟩
  | 83 => ⟨S50000x128, .f32⟩
  | 84 => ⟨S50000x128, .f32⟩
  | 85 => ⟨S1x100x128, .f32⟩
  | 86 => ⟨S100x128, .f32⟩
  | 87 => ⟨S50000x1, .i32⟩
  | 88 => ⟨S50000, .i32⟩
  | 89 => ⟨S_, .i32⟩
  | 90 => ⟨S50000, .i32⟩
  | 91 => ⟨S50000, .i1⟩
  | 92 => ⟨S_, .i32⟩
  | 93 => ⟨S50000, .i32⟩
  | 94 => ⟨S50000, .i32⟩
  | 95 => ⟨S50000, .i32⟩
  | 96 => ⟨S50000x1, .i32⟩
  | 97 => ⟨S50000x128, .f32⟩
  | 98 => ⟨S50000x128, .f32⟩
  | 99 => ⟨S1x100x128, .f32⟩
  | 100 => ⟨S100x128, .f32⟩
  | 101 => ⟨S50000x1, .i32⟩
  | 102 => ⟨S50000, .i32⟩
  | 103 => ⟨S_, .i32⟩
  | 104 => ⟨S50000, .i32⟩
  | 105 => ⟨S50000, .i1⟩
  | 106 => ⟨S_, .i32⟩
  | 107 => ⟨S50000, .i32⟩
  | 108 => ⟨S50000, .i32⟩
  | 109 => ⟨S50000, .i32⟩
  | 110 => ⟨S50000x1, .i32⟩
  | 111 => ⟨S50000x128, .f32⟩
  | 112 => ⟨S50000x128, .f32⟩
  | 113 => ⟨S1x100x128, .f32⟩
  | 114 => ⟨S100x128, .f32⟩
  | 115 => ⟨S50000x1, .i32⟩
  | 116 => ⟨S50000, .i32⟩
  | 117 => ⟨S_, .i32⟩
  | 118 => ⟨S50000, .i32⟩
  | 119 => ⟨S50000, .i1⟩
  | 120 => ⟨S_, .i32⟩
  | 121 => ⟨S50000, .i32⟩
  | 122 => ⟨S50000, .i32⟩
  | 123 => ⟨S50000, .i32⟩
  | 124 => ⟨S50000x1, .i32⟩
  | 125 => ⟨S50000x128, .f32⟩
  | 126 => ⟨S50000x128, .f32⟩
  | 127 => ⟨S1x100x128, .f32⟩
  | _ => ⟨S50000x9, .i32⟩

abbrev hbmTy0_1 (i : Nat) : BufTy := match i % 128 with
  | 0 => ⟨S100x128, .f32⟩
  | 1 => ⟨S50000x1, .i32⟩
  | 2 => ⟨S50000, .i32⟩
  | 3 => ⟨S_, .i32⟩
  | 4 => ⟨S50000, .i32⟩
  | 5 => ⟨S50000, .i1⟩
  | 6 => ⟨S_, .i32⟩
  | 7 => ⟨S50000, .i32⟩
  | 8 => ⟨S50000, .i32⟩
  | 9 => ⟨S50000, .i32⟩
  | 10 => ⟨S50000x1, .i32⟩
  | 11 => ⟨S50000x128, .f32⟩
  | 12 => ⟨S50000x128, .f32⟩
  | 13 => ⟨S1x1x8x3, .f32⟩
  | 14 => ⟨S8x3, .f32⟩
  | 15 => ⟨S600000x1, .i32⟩
  | 16 => ⟨S600000, .i32⟩
  | 17 => ⟨S_, .i32⟩
  | 18 => ⟨S600000, .i32⟩
  | 19 => ⟨S600000, .i1⟩
  | 20 => ⟨S_, .i32⟩
  | 21 => ⟨S600000, .i32⟩
  | 22 => ⟨S600000, .i32⟩
  | 23 => ⟨S600000, .i32⟩
  | 24 => ⟨S600000x1, .i32⟩
  | 25 => ⟨S600000x3, .f32⟩
  | 26 => ⟨S1x1x8x3, .f32⟩
  | 27 => ⟨S8x3, .f32⟩
  | 28 => ⟨S600000x1, .i32⟩
  | 29 => ⟨S600000, .i32⟩
  | 30 => ⟨S_, .i32⟩
  | 31 => ⟨S600000, .i32⟩
  | 32 => ⟨S600000, .i1⟩
  | 33 => ⟨S_, .i32⟩
  | 34 => ⟨S600000, .i32⟩
  | 35 => ⟨S600000, .i32⟩
  | 36 => ⟨S600000, .i32⟩
  | 37 => ⟨S600000x1, .i32⟩
  | 38 => ⟨S600000x3, .f32⟩
  | 39 => ⟨S600000x3, .f32⟩
  | 40 => ⟨S1x1x8x3, .f32⟩
  | 41 => ⟨S8x3, .f32⟩
  | 42 => ⟨S600000x1, .i32⟩
  | 43 => ⟨S600000, .i32⟩
  | 44 => ⟨S_, .i32⟩
  | 45 => ⟨S600000, .i32⟩
  | 46 => ⟨S600000, .i1⟩
  | 47 => ⟨S_, .i32⟩
  | 48 => ⟨S600000, .i32⟩
  | 49 => ⟨S600000, .i32⟩
  | 50 => ⟨S600000, .i32⟩
  | 51 => ⟨S600000x1, .i32⟩
  | 52 => ⟨S600000x3, .f32⟩
  | 53 => ⟨S600000x3, .f32⟩
  | 54 => ⟨S_, .f32⟩
  | 55 => ⟨S600000x128, .f32⟩
  | 56 => ⟨S1x1x128x128, .f32⟩
  | 57 => ⟨S128x128, .f32⟩
  | 58 => ⟨S50000x128, .f32⟩
  | 59 => ⟨S600000x1, .f32⟩
  | 60 => ⟨S_, .i32⟩
  | 61 => ⟨S600000, .i32⟩
  | 62 => ⟨S600000, .i1⟩
  | 63 => ⟨S_, .i32⟩
  | 64 => ⟨S600000, .i32⟩
  | 65 => ⟨S600000, .i32⟩
  | 66 => ⟨S600000, .i32⟩
  | 67 => ⟨S600000x1, .i32⟩
  | 68 => ⟨S600000x128, .f32⟩
  | 69 => ⟨S600000x128, .f32⟩
  | 70 => ⟨S600000x128, .f32⟩
  | 71 => ⟨S600000x128, .f32⟩
  | 72 => ⟨S1x1x128x128, .f32⟩
  | 73 => ⟨S128x128, .f32⟩
  | 74 => ⟨S50000x128, .f32⟩
  | 75 => ⟨S600000x1, .f32⟩
  | 76 => ⟨S_, .i32⟩
  | 77 => ⟨S600000, .i32⟩
  | 78 => ⟨S600000, .i1⟩
  | 79 => ⟨S_, .i32⟩
  | 80 => ⟨S600000, .i32⟩
  | 81 => ⟨S600000, .i32⟩
  | 82 => ⟨S600000, .i32⟩
  | 83 => ⟨S600000x1, .i32⟩
  | 84 => ⟨S600000x128, .f32⟩
  | 85 => ⟨S600000x128, .f32⟩
  | 86 => ⟨S600000x128, .f32⟩
  | 87 => ⟨S600000x128, .f32⟩
  | 88 => ⟨S1x1x128x128, .f32⟩
  | 89 => ⟨S128x128, .f32⟩
  | 90 => ⟨S50000x128, .f32⟩
  | 91 => ⟨S600000x1, .f32⟩
  | 92 => ⟨S_, .i32⟩
  | 93 => ⟨S600000, .i32⟩
  | 94 => ⟨S600000, .i1⟩
  | 95 => ⟨S_, .i32⟩
  | 96 => ⟨S600000, .i32⟩
  | 97 => ⟨S600000, .i32⟩
  | 98 => ⟨S600000, .i32⟩
  | 99 => ⟨S600000x1, .i32⟩
  | 100 => ⟨S600000x128, .f32⟩
  | 101 => ⟨S600000x128, .f32⟩
  | 102 => ⟨S600000x128, .f32⟩
  | 103 => ⟨S600000x128, .f32⟩
  | 104 => ⟨S_, .f32⟩
  | 105 => ⟨S50000x128, .f32⟩
  | 106 => ⟨S600000x1, .i32⟩
  | 107 => ⟨S50000x128, .f32⟩
  | 108 => ⟨S1x3x128, .f32⟩
  | 109 => ⟨S3x128, .f32⟩
  | 110 => ⟨S_, .f32⟩
  | 111 => ⟨S128, .f32⟩
  | 112 => ⟨S1x128, .f32⟩
  | 113 => ⟨S50000x128, .f32⟩
  | 114 => ⟨S50000x128, .f32⟩
  | 115 => ⟨S_, .f32⟩
  | 116 => ⟨S50000x128, .f32⟩
  | 117 => ⟨S50000x128, .f32⟩
  | 118 => ⟨S50000x128, .f32⟩
  | 119 => ⟨S1x1x8x3, .f32⟩
  | 120 => ⟨S8x3, .f32⟩
  | 121 => ⟨S600000x1, .i32⟩
  | 122 => ⟨S600000, .i32⟩
  | 123 => ⟨S_, .i32⟩
  | 124 => ⟨S600000, .i32⟩
  | 125 => ⟨S600000, .i1⟩
  | 126 => ⟨S_, .i32⟩
  | 127 => ⟨S600000, .i32⟩
  | _ => ⟨S50000x9, .i32⟩

abbrev hbmTy0_2 (i : Nat) : BufTy := match i % 128 with
  | 0 => ⟨S600000, .i32⟩
  | 1 => ⟨S600000, .i32⟩
  | 2 => ⟨S600000x1, .i32⟩
  | 3 => ⟨S600000x3, .f32⟩
  | 4 => ⟨S1x1x8x3, .f32⟩
  | 5 => ⟨S8x3, .f32⟩
  | 6 => ⟨S600000x1, .i32⟩
  | 7 => ⟨S600000, .i32⟩
  | 8 => ⟨S_, .i32⟩
  | 9 => ⟨S600000, .i32⟩
  | 10 => ⟨S600000, .i1⟩
  | 11 => ⟨S_, .i32⟩
  | 12 => ⟨S600000, .i32⟩
  | 13 => ⟨S600000, .i32⟩
  | 14 => ⟨S600000, .i32⟩
  | 15 => ⟨S600000x1, .i32⟩
  | 16 => ⟨S600000x3, .f32⟩
  | 17 => ⟨S600000x3, .f32⟩
  | 18 => ⟨S1x1x8x3, .f32⟩
  | 19 => ⟨S8x3, .f32⟩
  | 20 => ⟨S600000x1, .i32⟩
  | 21 => ⟨S600000, .i32⟩
  | 22 => ⟨S_, .i32⟩
  | 23 => ⟨S600000, .i32⟩
  | 24 => ⟨S600000, .i1⟩
  | 25 => ⟨S_, .i32⟩
  | 26 => ⟨S600000, .i32⟩
  | 27 => ⟨S600000, .i32⟩
  | 28 => ⟨S600000, .i32⟩
  | 29 => ⟨S600000x1, .i32⟩
  | 30 => ⟨S600000x3, .f32⟩
  | 31 => ⟨S600000x3, .f32⟩
  | 32 => ⟨S_, .f32⟩
  | 33 => ⟨S600000x128, .f32⟩
  | 34 => ⟨S1x1x128x128, .f32⟩
  | 35 => ⟨S128x128, .f32⟩
  | 36 => ⟨S50000x128, .f32⟩
  | 37 => ⟨S600000x1, .f32⟩
  | 38 => ⟨S_, .i32⟩
  | 39 => ⟨S600000, .i32⟩
  | 40 => ⟨S600000, .i1⟩
  | 41 => ⟨S_, .i32⟩
  | 42 => ⟨S600000, .i32⟩
  | 43 => ⟨S600000, .i32⟩
  | 44 => ⟨S600000, .i32⟩
  | 45 => ⟨S600000x1, .i32⟩
  | 46 => ⟨S600000x128, .f32⟩
  | 47 => ⟨S600000x128, .f32⟩
  | 48 => ⟨S600000x128, .f32⟩
  | 49 => ⟨S600000x128, .f32⟩
  | 50 => ⟨S1x1x128x128, .f32⟩
  | 51 => ⟨S128x128, .f32⟩
  | 52 => ⟨S50000x128, .f32⟩
  | 53 => ⟨S600000x1, .f32⟩
  | 54 => ⟨S_, .i32⟩
  | 55 => ⟨S600000, .i32⟩
  | 56 => ⟨S600000, .i1⟩
  | 57 => ⟨S_, .i32⟩
  | 58 => ⟨S600000, .i32⟩
  | 59 => ⟨S600000, .i32⟩
  | 60 => ⟨S600000, .i32⟩
  | 61 => ⟨S600000x1, .i32⟩
  | 62 => ⟨S600000x128, .f32⟩
  | 63 => ⟨S600000x128, .f32⟩
  | 64 => ⟨S600000x128, .f32⟩
  | 65 => ⟨S600000x128, .f32⟩
  | 66 => ⟨S1x1x128x128, .f32⟩
  | 67 => ⟨S128x128, .f32⟩
  | 68 => ⟨S50000x128, .f32⟩
  | 69 => ⟨S600000x1, .f32⟩
  | 70 => ⟨S_, .i32⟩
  | 71 => ⟨S600000, .i32⟩
  | 72 => ⟨S600000, .i1⟩
  | 73 => ⟨S_, .i32⟩
  | 74 => ⟨S600000, .i32⟩
  | 75 => ⟨S600000, .i32⟩
  | 76 => ⟨S600000, .i32⟩
  | 77 => ⟨S600000x1, .i32⟩
  | 78 => ⟨S600000x128, .f32⟩
  | 79 => ⟨S600000x128, .f32⟩
  | 80 => ⟨S600000x128, .f32⟩
  | 81 => ⟨S600000x128, .f32⟩
  | 82 => ⟨S_, .f32⟩
  | 83 => ⟨S50000x128, .f32⟩
  | 84 => ⟨S600000x1, .i32⟩
  | 85 => ⟨S50000x128, .f32⟩
  | 86 => ⟨S1x3x128, .f32⟩
  | 87 => ⟨S3x128, .f32⟩
  | 88 => ⟨S_, .f32⟩
  | 89 => ⟨S128, .f32⟩
  | 90 => ⟨S1x128, .f32⟩
  | 91 => ⟨S50000x128, .f32⟩
  | 92 => ⟨S50000x128, .f32⟩
  | 93 => ⟨S_, .f32⟩
  | 94 => ⟨S50000x128, .f32⟩
  | 95 => ⟨S50000x128, .f32⟩
  | 96 => ⟨S50000x128, .f32⟩
  | 97 => ⟨S1x1x8x3, .f32⟩
  | 98 => ⟨S8x3, .f32⟩
  | 99 => ⟨S600000x1, .i32⟩
  | 100 => ⟨S600000, .i32⟩
  | 101 => ⟨S_, .i32⟩
  | 102 => ⟨S600000, .i32⟩
  | 103 => ⟨S600000, .i1⟩
  | 104 => ⟨S_, .i32⟩
  | 105 => ⟨S600000, .i32⟩
  | 106 => ⟨S600000, .i32⟩
  | 107 => ⟨S600000, .i32⟩
  | 108 => ⟨S600000x1, .i32⟩
  | 109 => ⟨S600000x3, .f32⟩
  | 110 => ⟨S1x1x8x3, .f32⟩
  | 111 => ⟨S8x3, .f32⟩
  | 112 => ⟨S600000x1, .i32⟩
  | 113 => ⟨S600000, .i32⟩
  | 114 => ⟨S_, .i32⟩
  | 115 => ⟨S600000, .i32⟩
  | 116 => ⟨S600000, .i1⟩
  | 117 => ⟨S_, .i32⟩
  | 118 => ⟨S600000, .i32⟩
  | 119 => ⟨S600000, .i32⟩
  | 120 => ⟨S600000, .i32⟩
  | 121 => ⟨S600000x1, .i32⟩
  | 122 => ⟨S600000x3, .f32⟩
  | 123 => ⟨S600000x3, .f32⟩
  | 124 => ⟨S1x1x8x3, .f32⟩
  | 125 => ⟨S8x3, .f32⟩
  | 126 => ⟨S600000x1, .i32⟩
  | 127 => ⟨S600000, .i32⟩
  | _ => ⟨S50000x9, .i32⟩

abbrev hbmTy0_3 (i : Nat) : BufTy := match i % 128 with
  | 0 => ⟨S_, .i32⟩
  | 1 => ⟨S600000, .i32⟩
  | 2 => ⟨S600000, .i1⟩
  | 3 => ⟨S_, .i32⟩
  | 4 => ⟨S600000, .i32⟩
  | 5 => ⟨S600000, .i32⟩
  | 6 => ⟨S600000, .i32⟩
  | 7 => ⟨S600000x1, .i32⟩
  | 8 => ⟨S600000x3, .f32⟩
  | 9 => ⟨S600000x3, .f32⟩
  | 10 => ⟨S_, .f32⟩
  | 11 => ⟨S600000x128, .f32⟩
  | 12 => ⟨S1x1x128x128, .f32⟩
  | 13 => ⟨S128x128, .f32⟩
  | 14 => ⟨S50000x128, .f32⟩
  | 15 => ⟨S600000x1, .f32⟩
  | 16 => ⟨S_, .i32⟩
  | 17 => ⟨S600000, .i32⟩
  | 18 => ⟨S600000, .i1⟩
  | 19 => ⟨S_, .i32⟩
  | 20 => ⟨S600000, .i32⟩
  | 21 => ⟨S600000, .i32⟩
  | 22 => ⟨S600000, .i32⟩
  | 23 => ⟨S600000x1, .i32⟩
  | 24 => ⟨S600000x128, .f32⟩
  | 25 => ⟨S600000x128, .f32⟩
  | 26 => ⟨S600000x128, .f32⟩
  | 27 => ⟨S600000x128, .f32⟩
  | 28 => ⟨S1x1x128x128, .f32⟩
  | 29 => ⟨S128x128, .f32⟩
  | 30 => ⟨S50000x128, .f32⟩
  | 31 => ⟨S600000x1, .f32⟩
  | 32 => ⟨S_, .i32⟩
  | 33 => ⟨S600000, .i32⟩
  | 34 => ⟨S600000, .i1⟩
  | 35 => ⟨S_, .i32⟩
  | 36 => ⟨S600000, .i32⟩
  | 37 => ⟨S600000, .i32⟩
  | 38 => ⟨S600000, .i32⟩
  | 39 => ⟨S600000x1, .i32⟩
  | 40 => ⟨S600000x128, .f32⟩
  | 41 => ⟨S600000x128, .f32⟩
  | 42 => ⟨S600000x128, .f32⟩
  | 43 => ⟨S600000x128, .f32⟩
  | 44 => ⟨S1x1x128x128, .f32⟩
  | 45 => ⟨S128x128, .f32⟩
  | 46 => ⟨S50000x128, .f32⟩
  | 47 => ⟨S600000x1, .f32⟩
  | 48 => ⟨S_, .i32⟩
  | 49 => ⟨S600000, .i32⟩
  | 50 => ⟨S600000, .i1⟩
  | 51 => ⟨S_, .i32⟩
  | 52 => ⟨S600000, .i32⟩
  | 53 => ⟨S600000, .i32⟩
  | 54 => ⟨S600000, .i32⟩
  | 55 => ⟨S600000x1, .i32⟩
  | 56 => ⟨S600000x128, .f32⟩
  | 57 => ⟨S600000x128, .f32⟩
  | 58 => ⟨S600000x128, .f32⟩
  | 59 => ⟨S600000x128, .f32⟩
  | 60 => ⟨S_, .f32⟩
  | 61 => ⟨S50000x128, .f32⟩
  | 62 => ⟨S600000x1, .i32⟩
  | 63 => ⟨S50000x128, .f32⟩
  | 64 => ⟨S1x3x128, .f32⟩
  | 65 => ⟨S3x128, .f32⟩
  | 66 => ⟨S_, .f32⟩
  | 67 => ⟨S128, .f32⟩
  | 68 => ⟨S1x128, .f32⟩
  | 69 => ⟨S50000x128, .f32⟩
  | 70 => ⟨S50000x128, .f32⟩
  | 71 => ⟨S50000x128, .f32⟩
  | 72 => ⟨S_, .f32⟩
  | 73 => ⟨S2048x128, .f32⟩
  | 74 => ⟨S50000x1, .i32⟩
  | 75 => ⟨S2048x128, .f32⟩
  | 76 => ⟨S_, .f32⟩
  | 77 => ⟨S50000, .f32⟩
  | 78 => ⟨S_, .f32⟩
  | 79 => ⟨S2048, .f32⟩
  | 80 => ⟨S50000x1, .i32⟩
  | 81 => ⟨S2048, .f32⟩
  | 82 => ⟨S_, .f32⟩
  | 83 => ⟨S2048, .f32⟩
  | 84 => ⟨S2048, .f32⟩
  | 85 => ⟨S2048x1, .f32⟩
  | 86 => ⟨S2048x128, .f32⟩
  | 87 => ⟨S2048x128, .f32⟩
  | 88 => ⟨S2048x128, .f32⟩
  | 89 => ⟨S1x128, .f32⟩
  | 90 => ⟨S2048x128, .f32⟩
  | 91 => ⟨S2048x128, .f32⟩
  | 92 => ⟨S2048x1, .f32⟩
  | 93 => ⟨S1x1, .f32⟩
  | 94 => ⟨S2048x1, .f32⟩
  | 95 => ⟨S2048x1, .f32⟩
  | _ => ⟨S50000x9, .i32⟩

abbrev hbmTy (i : Nat) : BufTy := match i / 128 with
  | 0 => hbmTy0_0 i
  | 1 => hbmTy0_1 i
  | 2 => hbmTy0_2 i
  | 3 => hbmTy0_3 i
  | _ => ⟨S50000x9, .i32⟩

abbrev bufTy : (tb : Table) → Fin (tcTables nBuf tb) → BufTy
  | .hbm, ⟨i, _⟩ => hbmTy i
  | _, _ => ⟨S50000x9, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_c : Ref sig .tc := ⟨.hbm, 20, rfl⟩
abbrev main_v8 : Ref sig .tc := ⟨.hbm, 21, rfl⟩
abbrev main_v9 : Ref sig .tc := ⟨.hbm, 22, rfl⟩
abbrev main_c_0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_1 : Ref sig .tc := ⟨.hbm, 33, rfl⟩
abbrev main_v19 : Ref sig .tc := ⟨.hbm, 34, rfl⟩
abbrev main_v20 : Ref sig .tc := ⟨.hbm, 35, rfl⟩
abbrev main_c_2 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_3 : Ref sig .tc := ⟨.hbm, 47, rfl⟩
abbrev main_v31 : Ref sig .tc := ⟨.hbm, 48, rfl⟩
abbrev main_v32 : Ref sig .tc := ⟨.hbm, 49, rfl⟩
abbrev main_c_4 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_c_5 : Ref sig .tc := ⟨.hbm, 61, rfl⟩
abbrev main_v43 : Ref sig .tc := ⟨.hbm, 62, rfl⟩
abbrev main_v44 : Ref sig .tc := ⟨.hbm, 63, rfl⟩
abbrev main_c_6 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_c_7 : Ref sig .tc := ⟨.hbm, 75, rfl⟩
abbrev main_v55 : Ref sig .tc := ⟨.hbm, 76, rfl⟩
abbrev main_v56 : Ref sig .tc := ⟨.hbm, 77, rfl⟩
abbrev main_c_8 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_c_9 : Ref sig .tc := ⟨.hbm, 89, rfl⟩
abbrev main_v67 : Ref sig .tc := ⟨.hbm, 90, rfl⟩
abbrev main_v68 : Ref sig .tc := ⟨.hbm, 91, rfl⟩
abbrev main_c_10 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_c_11 : Ref sig .tc := ⟨.hbm, 103, rfl⟩
abbrev main_v79 : Ref sig .tc := ⟨.hbm, 104, rfl⟩
abbrev main_v80 : Ref sig .tc := ⟨.hbm, 105, rfl⟩
abbrev main_c_12 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_c_13 : Ref sig .tc := ⟨.hbm, 117, rfl⟩
abbrev main_v91 : Ref sig .tc := ⟨.hbm, 118, rfl⟩
abbrev main_v92 : Ref sig .tc := ⟨.hbm, 119, rfl⟩
abbrev main_c_14 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_c_15 : Ref sig .tc := ⟨.hbm, 131, rfl⟩
abbrev main_v103 : Ref sig .tc := ⟨.hbm, 132, rfl⟩
abbrev main_v104 : Ref sig .tc := ⟨.hbm, 133, rfl⟩
abbrev main_c_16 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_c_17 : Ref sig .tc := ⟨.hbm, 145, rfl⟩
abbrev main_v115 : Ref sig .tc := ⟨.hbm, 146, rfl⟩
abbrev main_v116 : Ref sig .tc := ⟨.hbm, 147, rfl⟩
abbrev main_c_18 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_c_19 : Ref sig .tc := ⟨.hbm, 158, rfl⟩
abbrev main_v126 : Ref sig .tc := ⟨.hbm, 159, rfl⟩
abbrev main_v127 : Ref sig .tc := ⟨.hbm, 160, rfl⟩
abbrev main_c_20 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_v135 : Ref sig .tc := ⟨.hbm, 169, rfl⟩
abbrev main_v136 : Ref sig .tc := ⟨.hbm, 170, rfl⟩
abbrev main_v137 : Ref sig .tc := ⟨.hbm, 171, rfl⟩
abbrev main_c_21 : Ref sig .tc := ⟨.hbm, 172, rfl⟩
abbrev main_v138 : Ref sig .tc := ⟨.hbm, 173, rfl⟩
abbrev main_v139 : Ref sig .tc := ⟨.hbm, 174, rfl⟩
abbrev main_c_22 : Ref sig .tc := ⟨.hbm, 175, rfl⟩
abbrev main_v140 : Ref sig .tc := ⟨.hbm, 176, rfl⟩
abbrev main_v141 : Ref sig .tc := ⟨.hbm, 177, rfl⟩
abbrev main_v142 : Ref sig .tc := ⟨.hbm, 178, rfl⟩
abbrev main_v143 : Ref sig .tc := ⟨.hbm, 179, rfl⟩
abbrev main_v144 : Ref sig .tc := ⟨.hbm, 180, rfl⟩
abbrev main_v145 : Ref sig .tc := ⟨.hbm, 181, rfl⟩
abbrev main_cst : Ref sig .tc := ⟨.hbm, 182, rfl⟩
abbrev main_v146 : Ref sig .tc := ⟨.hbm, 183, rfl⟩
abbrev main_v147 : Ref sig .tc := ⟨.hbm, 184, rfl⟩
abbrev main_v148 : Ref sig .tc := ⟨.hbm, 185, rfl⟩
abbrev main_v149 : Ref sig .tc := ⟨.hbm, 186, rfl⟩
abbrev main_v150 : Ref sig .tc := ⟨.hbm, 187, rfl⟩
abbrev main_c_23 : Ref sig .tc := ⟨.hbm, 188, rfl⟩
abbrev main_v151 : Ref sig .tc := ⟨.hbm, 189, rfl⟩
abbrev main_v152 : Ref sig .tc := ⟨.hbm, 190, rfl⟩
abbrev main_c_24 : Ref sig .tc := ⟨.hbm, 191, rfl⟩
abbrev main_v153 : Ref sig .tc := ⟨.hbm, 192, rfl⟩
abbrev main_v154 : Ref sig .tc := ⟨.hbm, 193, rfl⟩
abbrev main_v155 : Ref sig .tc := ⟨.hbm, 194, rfl⟩
abbrev main_v156 : Ref sig .tc := ⟨.hbm, 195, rfl⟩
abbrev main_v157 : Ref sig .tc := ⟨.hbm, 196, rfl⟩
abbrev main_v158 : Ref sig .tc := ⟨.hbm, 197, rfl⟩
abbrev main_v159 : Ref sig .tc := ⟨.hbm, 198, rfl⟩
abbrev main_v160 : Ref sig .tc := ⟨.hbm, 199, rfl⟩
abbrev main_v161 : Ref sig .tc := ⟨.hbm, 200, rfl⟩
abbrev main_v162 : Ref sig .tc := ⟨.hbm, 201, rfl⟩
abbrev main_v163 : Ref sig .tc := ⟨.hbm, 202, rfl⟩
abbrev main_v164 : Ref sig .tc := ⟨.hbm, 203, rfl⟩
abbrev main_c_25 : Ref sig .tc := ⟨.hbm, 204, rfl⟩
abbrev main_v165 : Ref sig .tc := ⟨.hbm, 205, rfl⟩
abbrev main_v166 : Ref sig .tc := ⟨.hbm, 206, rfl⟩
abbrev main_c_26 : Ref sig .tc := ⟨.hbm, 207, rfl⟩
abbrev main_v167 : Ref sig .tc := ⟨.hbm, 208, rfl⟩
abbrev main_v168 : Ref sig .tc := ⟨.hbm, 209, rfl⟩
abbrev main_v169 : Ref sig .tc := ⟨.hbm, 210, rfl⟩
abbrev main_v170 : Ref sig .tc := ⟨.hbm, 211, rfl⟩
abbrev main_v171 : Ref sig .tc := ⟨.hbm, 212, rfl⟩
abbrev main_v172 : Ref sig .tc := ⟨.hbm, 213, rfl⟩
abbrev main_v173 : Ref sig .tc := ⟨.hbm, 214, rfl⟩
abbrev main_v174 : Ref sig .tc := ⟨.hbm, 215, rfl⟩
abbrev main_v175 : Ref sig .tc := ⟨.hbm, 216, rfl⟩
abbrev main_v176 : Ref sig .tc := ⟨.hbm, 217, rfl⟩
abbrev main_v177 : Ref sig .tc := ⟨.hbm, 218, rfl⟩
abbrev main_v178 : Ref sig .tc := ⟨.hbm, 219, rfl⟩
abbrev main_c_27 : Ref sig .tc := ⟨.hbm, 220, rfl⟩
abbrev main_v179 : Ref sig .tc := ⟨.hbm, 221, rfl⟩
abbrev main_v180 : Ref sig .tc := ⟨.hbm, 222, rfl⟩
abbrev main_c_28 : Ref sig .tc := ⟨.hbm, 223, rfl⟩
abbrev main_v181 : Ref sig .tc := ⟨.hbm, 224, rfl⟩
abbrev main_v182 : Ref sig .tc := ⟨.hbm, 225, rfl⟩
abbrev main_v183 : Ref sig .tc := ⟨.hbm, 226, rfl⟩
abbrev main_v184 : Ref sig .tc := ⟨.hbm, 227, rfl⟩
abbrev main_v185 : Ref sig .tc := ⟨.hbm, 228, rfl⟩
abbrev main_v186 : Ref sig .tc := ⟨.hbm, 229, rfl⟩
abbrev main_v187 : Ref sig .tc := ⟨.hbm, 230, rfl⟩
abbrev main_v188 : Ref sig .tc := ⟨.hbm, 231, rfl⟩
abbrev main_cst_29 : Ref sig .tc := ⟨.hbm, 232, rfl⟩
abbrev main_v189 : Ref sig .tc := ⟨.hbm, 233, rfl⟩
abbrev main_v190 : Ref sig .tc := ⟨.hbm, 234, rfl⟩
abbrev main_v191 : Ref sig .tc := ⟨.hbm, 235, rfl⟩
abbrev main_v192 : Ref sig .tc := ⟨.hbm, 236, rfl⟩
abbrev main_v193 : Ref sig .tc := ⟨.hbm, 237, rfl⟩
abbrev main_cst_30 : Ref sig .tc := ⟨.hbm, 238, rfl⟩
abbrev main_v194 : Ref sig .tc := ⟨.hbm, 239, rfl⟩
abbrev main_v195 : Ref sig .tc := ⟨.hbm, 240, rfl⟩
abbrev main_v196 : Ref sig .tc := ⟨.hbm, 241, rfl⟩
abbrev main_v197 : Ref sig .tc := ⟨.hbm, 242, rfl⟩
abbrev main_call0_cst : Ref sig .tc := ⟨.hbm, 243, rfl⟩
abbrev main_call0_v0 : Ref sig .tc := ⟨.hbm, 244, rfl⟩
abbrev main_v198 : Ref sig .tc := ⟨.hbm, 245, rfl⟩
abbrev main_v199 : Ref sig .tc := ⟨.hbm, 246, rfl⟩
abbrev main_v200 : Ref sig .tc := ⟨.hbm, 247, rfl⟩
abbrev main_v201 : Ref sig .tc := ⟨.hbm, 248, rfl⟩
abbrev main_v202 : Ref sig .tc := ⟨.hbm, 249, rfl⟩
abbrev main_v203 : Ref sig .tc := ⟨.hbm, 250, rfl⟩
abbrev main_c_31 : Ref sig .tc := ⟨.hbm, 251, rfl⟩
abbrev main_v204 : Ref sig .tc := ⟨.hbm, 252, rfl⟩
abbrev main_v205 : Ref sig .tc := ⟨.hbm, 253, rfl⟩
abbrev main_c_32 : Ref sig .tc := ⟨.hbm, 254, rfl⟩
abbrev main_v206 : Ref sig .tc := ⟨.hbm, 255, rfl⟩
abbrev main_v207 : Ref sig .tc := ⟨.hbm, 256, rfl⟩
abbrev main_v208 : Ref sig .tc := ⟨.hbm, 257, rfl⟩
abbrev main_v209 : Ref sig .tc := ⟨.hbm, 258, rfl⟩
abbrev main_v210 : Ref sig .tc := ⟨.hbm, 259, rfl⟩
abbrev main_v211 : Ref sig .tc := ⟨.hbm, 260, rfl⟩
abbrev main_v212 : Ref sig .tc := ⟨.hbm, 261, rfl⟩
abbrev main_v213 : Ref sig .tc := ⟨.hbm, 262, rfl⟩
abbrev main_v214 : Ref sig .tc := ⟨.hbm, 263, rfl⟩
abbrev main_c_33 : Ref sig .tc := ⟨.hbm, 264, rfl⟩
abbrev main_v215 : Ref sig .tc := ⟨.hbm, 265, rfl⟩
abbrev main_v216 : Ref sig .tc := ⟨.hbm, 266, rfl⟩
abbrev main_c_34 : Ref sig .tc := ⟨.hbm, 267, rfl⟩
abbrev main_v217 : Ref sig .tc := ⟨.hbm, 268, rfl⟩
abbrev main_v218 : Ref sig .tc := ⟨.hbm, 269, rfl⟩
abbrev main_v219 : Ref sig .tc := ⟨.hbm, 270, rfl⟩
abbrev main_v220 : Ref sig .tc := ⟨.hbm, 271, rfl⟩
abbrev main_v221 : Ref sig .tc := ⟨.hbm, 272, rfl⟩
abbrev main_v222 : Ref sig .tc := ⟨.hbm, 273, rfl⟩
abbrev main_v223 : Ref sig .tc := ⟨.hbm, 274, rfl⟩
abbrev main_v224 : Ref sig .tc := ⟨.hbm, 275, rfl⟩
abbrev main_v225 : Ref sig .tc := ⟨.hbm, 276, rfl⟩
abbrev main_v226 : Ref sig .tc := ⟨.hbm, 277, rfl⟩
abbrev main_c_35 : Ref sig .tc := ⟨.hbm, 278, rfl⟩
abbrev main_v227 : Ref sig .tc := ⟨.hbm, 279, rfl⟩
abbrev main_v228 : Ref sig .tc := ⟨.hbm, 280, rfl⟩
abbrev main_c_36 : Ref sig .tc := ⟨.hbm, 281, rfl⟩
abbrev main_v229 : Ref sig .tc := ⟨.hbm, 282, rfl⟩
abbrev main_v230 : Ref sig .tc := ⟨.hbm, 283, rfl⟩
abbrev main_v231 : Ref sig .tc := ⟨.hbm, 284, rfl⟩
abbrev main_v232 : Ref sig .tc := ⟨.hbm, 285, rfl⟩
abbrev main_v233 : Ref sig .tc := ⟨.hbm, 286, rfl⟩
abbrev main_v234 : Ref sig .tc := ⟨.hbm, 287, rfl⟩
abbrev main_cst_37 : Ref sig .tc := ⟨.hbm, 288, rfl⟩
abbrev main_v235 : Ref sig .tc := ⟨.hbm, 289, rfl⟩
abbrev main_v236 : Ref sig .tc := ⟨.hbm, 290, rfl⟩
abbrev main_v237 : Ref sig .tc := ⟨.hbm, 291, rfl⟩
abbrev main_v238 : Ref sig .tc := ⟨.hbm, 292, rfl⟩
abbrev main_v239 : Ref sig .tc := ⟨.hbm, 293, rfl⟩
abbrev main_c_38 : Ref sig .tc := ⟨.hbm, 294, rfl⟩
abbrev main_v240 : Ref sig .tc := ⟨.hbm, 295, rfl⟩
abbrev main_v241 : Ref sig .tc := ⟨.hbm, 296, rfl⟩
abbrev main_c_39 : Ref sig .tc := ⟨.hbm, 297, rfl⟩
abbrev main_v242 : Ref sig .tc := ⟨.hbm, 298, rfl⟩
abbrev main_v243 : Ref sig .tc := ⟨.hbm, 299, rfl⟩
abbrev main_v244 : Ref sig .tc := ⟨.hbm, 300, rfl⟩
abbrev main_v245 : Ref sig .tc := ⟨.hbm, 301, rfl⟩
abbrev main_v246 : Ref sig .tc := ⟨.hbm, 302, rfl⟩
abbrev main_v247 : Ref sig .tc := ⟨.hbm, 303, rfl⟩
abbrev main_v248 : Ref sig .tc := ⟨.hbm, 304, rfl⟩
abbrev main_v249 : Ref sig .tc := ⟨.hbm, 305, rfl⟩
abbrev main_v250 : Ref sig .tc := ⟨.hbm, 306, rfl⟩
abbrev main_v251 : Ref sig .tc := ⟨.hbm, 307, rfl⟩
abbrev main_v252 : Ref sig .tc := ⟨.hbm, 308, rfl⟩
abbrev main_v253 : Ref sig .tc := ⟨.hbm, 309, rfl⟩
abbrev main_c_40 : Ref sig .tc := ⟨.hbm, 310, rfl⟩
abbrev main_v254 : Ref sig .tc := ⟨.hbm, 311, rfl⟩
abbrev main_v255 : Ref sig .tc := ⟨.hbm, 312, rfl⟩
abbrev main_c_41 : Ref sig .tc := ⟨.hbm, 313, rfl⟩
abbrev main_v256 : Ref sig .tc := ⟨.hbm, 314, rfl⟩
abbrev main_v257 : Ref sig .tc := ⟨.hbm, 315, rfl⟩
abbrev main_v258 : Ref sig .tc := ⟨.hbm, 316, rfl⟩
abbrev main_v259 : Ref sig .tc := ⟨.hbm, 317, rfl⟩
abbrev main_v260 : Ref sig .tc := ⟨.hbm, 318, rfl⟩
abbrev main_v261 : Ref sig .tc := ⟨.hbm, 319, rfl⟩
abbrev main_v262 : Ref sig .tc := ⟨.hbm, 320, rfl⟩
abbrev main_v263 : Ref sig .tc := ⟨.hbm, 321, rfl⟩
abbrev main_v264 : Ref sig .tc := ⟨.hbm, 322, rfl⟩
abbrev main_v265 : Ref sig .tc := ⟨.hbm, 323, rfl⟩
abbrev main_v266 : Ref sig .tc := ⟨.hbm, 324, rfl⟩
abbrev main_v267 : Ref sig .tc := ⟨.hbm, 325, rfl⟩
abbrev main_c_42 : Ref sig .tc := ⟨.hbm, 326, rfl⟩
abbrev main_v268 : Ref sig .tc := ⟨.hbm, 327, rfl⟩
abbrev main_v269 : Ref sig .tc := ⟨.hbm, 328, rfl⟩
abbrev main_c_43 : Ref sig .tc := ⟨.hbm, 329, rfl⟩
abbrev main_v270 : Ref sig .tc := ⟨.hbm, 330, rfl⟩
abbrev main_v271 : Ref sig .tc := ⟨.hbm, 331, rfl⟩
abbrev main_v272 : Ref sig .tc := ⟨.hbm, 332, rfl⟩
abbrev main_v273 : Ref sig .tc := ⟨.hbm, 333, rfl⟩
abbrev main_v274 : Ref sig .tc := ⟨.hbm, 334, rfl⟩
abbrev main_v275 : Ref sig .tc := ⟨.hbm, 335, rfl⟩
abbrev main_v276 : Ref sig .tc := ⟨.hbm, 336, rfl⟩
abbrev main_v277 : Ref sig .tc := ⟨.hbm, 337, rfl⟩
abbrev main_cst_44 : Ref sig .tc := ⟨.hbm, 338, rfl⟩
abbrev main_v278 : Ref sig .tc := ⟨.hbm, 339, rfl⟩
abbrev main_v279 : Ref sig .tc := ⟨.hbm, 340, rfl⟩
abbrev main_v280 : Ref sig .tc := ⟨.hbm, 341, rfl⟩
abbrev main_v281 : Ref sig .tc := ⟨.hbm, 342, rfl⟩
abbrev main_v282 : Ref sig .tc := ⟨.hbm, 343, rfl⟩
abbrev main_cst_45 : Ref sig .tc := ⟨.hbm, 344, rfl⟩
abbrev main_v283 : Ref sig .tc := ⟨.hbm, 345, rfl⟩
abbrev main_v284 : Ref sig .tc := ⟨.hbm, 346, rfl⟩
abbrev main_v285 : Ref sig .tc := ⟨.hbm, 347, rfl⟩
abbrev main_v286 : Ref sig .tc := ⟨.hbm, 348, rfl⟩
abbrev main_call1_cst : Ref sig .tc := ⟨.hbm, 349, rfl⟩
abbrev main_call1_v0 : Ref sig .tc := ⟨.hbm, 350, rfl⟩
abbrev main_v287 : Ref sig .tc := ⟨.hbm, 351, rfl⟩
abbrev main_v288 : Ref sig .tc := ⟨.hbm, 352, rfl⟩
abbrev main_v289 : Ref sig .tc := ⟨.hbm, 353, rfl⟩
abbrev main_v290 : Ref sig .tc := ⟨.hbm, 354, rfl⟩
abbrev main_v291 : Ref sig .tc := ⟨.hbm, 355, rfl⟩
abbrev main_v292 : Ref sig .tc := ⟨.hbm, 356, rfl⟩
abbrev main_c_46 : Ref sig .tc := ⟨.hbm, 357, rfl⟩
abbrev main_v293 : Ref sig .tc := ⟨.hbm, 358, rfl⟩
abbrev main_v294 : Ref sig .tc := ⟨.hbm, 359, rfl⟩
abbrev main_c_47 : Ref sig .tc := ⟨.hbm, 360, rfl⟩
abbrev main_v295 : Ref sig .tc := ⟨.hbm, 361, rfl⟩
abbrev main_v296 : Ref sig .tc := ⟨.hbm, 362, rfl⟩
abbrev main_v297 : Ref sig .tc := ⟨.hbm, 363, rfl⟩
abbrev main_v298 : Ref sig .tc := ⟨.hbm, 364, rfl⟩
abbrev main_v299 : Ref sig .tc := ⟨.hbm, 365, rfl⟩
abbrev main_v300 : Ref sig .tc := ⟨.hbm, 366, rfl⟩
abbrev main_v301 : Ref sig .tc := ⟨.hbm, 367, rfl⟩
abbrev main_v302 : Ref sig .tc := ⟨.hbm, 368, rfl⟩
abbrev main_v303 : Ref sig .tc := ⟨.hbm, 369, rfl⟩
abbrev main_c_48 : Ref sig .tc := ⟨.hbm, 370, rfl⟩
abbrev main_v304 : Ref sig .tc := ⟨.hbm, 371, rfl⟩
abbrev main_v305 : Ref sig .tc := ⟨.hbm, 372, rfl⟩
abbrev main_c_49 : Ref sig .tc := ⟨.hbm, 373, rfl⟩
abbrev main_v306 : Ref sig .tc := ⟨.hbm, 374, rfl⟩
abbrev main_v307 : Ref sig .tc := ⟨.hbm, 375, rfl⟩
abbrev main_v308 : Ref sig .tc := ⟨.hbm, 376, rfl⟩
abbrev main_v309 : Ref sig .tc := ⟨.hbm, 377, rfl⟩
abbrev main_v310 : Ref sig .tc := ⟨.hbm, 378, rfl⟩
abbrev main_v311 : Ref sig .tc := ⟨.hbm, 379, rfl⟩
abbrev main_v312 : Ref sig .tc := ⟨.hbm, 380, rfl⟩
abbrev main_v313 : Ref sig .tc := ⟨.hbm, 381, rfl⟩
abbrev main_v314 : Ref sig .tc := ⟨.hbm, 382, rfl⟩
abbrev main_v315 : Ref sig .tc := ⟨.hbm, 383, rfl⟩
abbrev main_c_50 : Ref sig .tc := ⟨.hbm, 384, rfl⟩
abbrev main_v316 : Ref sig .tc := ⟨.hbm, 385, rfl⟩
abbrev main_v317 : Ref sig .tc := ⟨.hbm, 386, rfl⟩
abbrev main_c_51 : Ref sig .tc := ⟨.hbm, 387, rfl⟩
abbrev main_v318 : Ref sig .tc := ⟨.hbm, 388, rfl⟩
abbrev main_v319 : Ref sig .tc := ⟨.hbm, 389, rfl⟩
abbrev main_v320 : Ref sig .tc := ⟨.hbm, 390, rfl⟩
abbrev main_v321 : Ref sig .tc := ⟨.hbm, 391, rfl⟩
abbrev main_v322 : Ref sig .tc := ⟨.hbm, 392, rfl⟩
abbrev main_v323 : Ref sig .tc := ⟨.hbm, 393, rfl⟩
abbrev main_cst_52 : Ref sig .tc := ⟨.hbm, 394, rfl⟩
abbrev main_v324 : Ref sig .tc := ⟨.hbm, 395, rfl⟩
abbrev main_v325 : Ref sig .tc := ⟨.hbm, 396, rfl⟩
abbrev main_v326 : Ref sig .tc := ⟨.hbm, 397, rfl⟩
abbrev main_v327 : Ref sig .tc := ⟨.hbm, 398, rfl⟩
abbrev main_v328 : Ref sig .tc := ⟨.hbm, 399, rfl⟩
abbrev main_c_53 : Ref sig .tc := ⟨.hbm, 400, rfl⟩
abbrev main_v329 : Ref sig .tc := ⟨.hbm, 401, rfl⟩
abbrev main_v330 : Ref sig .tc := ⟨.hbm, 402, rfl⟩
abbrev main_c_54 : Ref sig .tc := ⟨.hbm, 403, rfl⟩
abbrev main_v331 : Ref sig .tc := ⟨.hbm, 404, rfl⟩
abbrev main_v332 : Ref sig .tc := ⟨.hbm, 405, rfl⟩
abbrev main_v333 : Ref sig .tc := ⟨.hbm, 406, rfl⟩
abbrev main_v334 : Ref sig .tc := ⟨.hbm, 407, rfl⟩
abbrev main_v335 : Ref sig .tc := ⟨.hbm, 408, rfl⟩
abbrev main_v336 : Ref sig .tc := ⟨.hbm, 409, rfl⟩
abbrev main_v337 : Ref sig .tc := ⟨.hbm, 410, rfl⟩
abbrev main_v338 : Ref sig .tc := ⟨.hbm, 411, rfl⟩
abbrev main_v339 : Ref sig .tc := ⟨.hbm, 412, rfl⟩
abbrev main_v340 : Ref sig .tc := ⟨.hbm, 413, rfl⟩
abbrev main_v341 : Ref sig .tc := ⟨.hbm, 414, rfl⟩
abbrev main_v342 : Ref sig .tc := ⟨.hbm, 415, rfl⟩
abbrev main_c_55 : Ref sig .tc := ⟨.hbm, 416, rfl⟩
abbrev main_v343 : Ref sig .tc := ⟨.hbm, 417, rfl⟩
abbrev main_v344 : Ref sig .tc := ⟨.hbm, 418, rfl⟩
abbrev main_c_56 : Ref sig .tc := ⟨.hbm, 419, rfl⟩
abbrev main_v345 : Ref sig .tc := ⟨.hbm, 420, rfl⟩
abbrev main_v346 : Ref sig .tc := ⟨.hbm, 421, rfl⟩
abbrev main_v347 : Ref sig .tc := ⟨.hbm, 422, rfl⟩
abbrev main_v348 : Ref sig .tc := ⟨.hbm, 423, rfl⟩
abbrev main_v349 : Ref sig .tc := ⟨.hbm, 424, rfl⟩
abbrev main_v350 : Ref sig .tc := ⟨.hbm, 425, rfl⟩
abbrev main_v351 : Ref sig .tc := ⟨.hbm, 426, rfl⟩
abbrev main_v352 : Ref sig .tc := ⟨.hbm, 427, rfl⟩
abbrev main_v353 : Ref sig .tc := ⟨.hbm, 428, rfl⟩
abbrev main_v354 : Ref sig .tc := ⟨.hbm, 429, rfl⟩
abbrev main_v355 : Ref sig .tc := ⟨.hbm, 430, rfl⟩
abbrev main_v356 : Ref sig .tc := ⟨.hbm, 431, rfl⟩
abbrev main_c_57 : Ref sig .tc := ⟨.hbm, 432, rfl⟩
abbrev main_v357 : Ref sig .tc := ⟨.hbm, 433, rfl⟩
abbrev main_v358 : Ref sig .tc := ⟨.hbm, 434, rfl⟩
abbrev main_c_58 : Ref sig .tc := ⟨.hbm, 435, rfl⟩
abbrev main_v359 : Ref sig .tc := ⟨.hbm, 436, rfl⟩
abbrev main_v360 : Ref sig .tc := ⟨.hbm, 437, rfl⟩
abbrev main_v361 : Ref sig .tc := ⟨.hbm, 438, rfl⟩
abbrev main_v362 : Ref sig .tc := ⟨.hbm, 439, rfl⟩
abbrev main_v363 : Ref sig .tc := ⟨.hbm, 440, rfl⟩
abbrev main_v364 : Ref sig .tc := ⟨.hbm, 441, rfl⟩
abbrev main_v365 : Ref sig .tc := ⟨.hbm, 442, rfl⟩
abbrev main_v366 : Ref sig .tc := ⟨.hbm, 443, rfl⟩
abbrev main_cst_59 : Ref sig .tc := ⟨.hbm, 444, rfl⟩
abbrev main_v367 : Ref sig .tc := ⟨.hbm, 445, rfl⟩
abbrev main_v368 : Ref sig .tc := ⟨.hbm, 446, rfl⟩
abbrev main_v369 : Ref sig .tc := ⟨.hbm, 447, rfl⟩
abbrev main_v370 : Ref sig .tc := ⟨.hbm, 448, rfl⟩
abbrev main_v371 : Ref sig .tc := ⟨.hbm, 449, rfl⟩
abbrev main_cst_60 : Ref sig .tc := ⟨.hbm, 450, rfl⟩
abbrev main_v372 : Ref sig .tc := ⟨.hbm, 451, rfl⟩
abbrev main_v373 : Ref sig .tc := ⟨.hbm, 452, rfl⟩
abbrev main_v374 : Ref sig .tc := ⟨.hbm, 453, rfl⟩
abbrev main_v375 : Ref sig .tc := ⟨.hbm, 454, rfl⟩
abbrev main_v376 : Ref sig .tc := ⟨.hbm, 455, rfl⟩
abbrev main_cst_61 : Ref sig .tc := ⟨.hbm, 456, rfl⟩
abbrev main_v377 : Ref sig .tc := ⟨.hbm, 457, rfl⟩
abbrev main_v378 : Ref sig .tc := ⟨.hbm, 458, rfl⟩
abbrev main_v379 : Ref sig .tc := ⟨.hbm, 459, rfl⟩
abbrev main_cst_62 : Ref sig .tc := ⟨.hbm, 460, rfl⟩
abbrev main_v380 : Ref sig .tc := ⟨.hbm, 461, rfl⟩
abbrev main_cst_63 : Ref sig .tc := ⟨.hbm, 462, rfl⟩
abbrev main_v381 : Ref sig .tc := ⟨.hbm, 463, rfl⟩
abbrev main_v382 : Ref sig .tc := ⟨.hbm, 464, rfl⟩
abbrev main_v383 : Ref sig .tc := ⟨.hbm, 465, rfl⟩
abbrev main_cst_64 : Ref sig .tc := ⟨.hbm, 466, rfl⟩
abbrev main_v384 : Ref sig .tc := ⟨.hbm, 467, rfl⟩
abbrev main_v385 : Ref sig .tc := ⟨.hbm, 468, rfl⟩
abbrev main_v386 : Ref sig .tc := ⟨.hbm, 469, rfl⟩
abbrev main_v387 : Ref sig .tc := ⟨.hbm, 470, rfl⟩
abbrev main_v388 : Ref sig .tc := ⟨.hbm, 471, rfl⟩
abbrev main_v389 : Ref sig .tc := ⟨.hbm, 472, rfl⟩
abbrev main_v390 : Ref sig .tc := ⟨.hbm, 473, rfl⟩
abbrev main_v391 : Ref sig .tc := ⟨.hbm, 474, rfl⟩
abbrev main_v392 : Ref sig .tc := ⟨.hbm, 475, rfl⟩
abbrev main_v393 : Ref sig .tc := ⟨.hbm, 476, rfl⟩
abbrev main_v394 : Ref sig .tc := ⟨.hbm, 477, rfl⟩
abbrev main_v395 : Ref sig .tc := ⟨.hbm, 478, rfl⟩
abbrev main_v396 : Ref sig .tc := ⟨.hbm, 479, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  slices_S9x100x128_S1x100x128_0_0_0 : S9x100x128.Slices ![0, 0, 0] S1x100x128
  shapeCasts_S1x100x128_S100x128 : S1x100x128.ShapeCasts S100x128
  slices_S50000x9_S50000x1_0_0 : S50000x9.Slices ![0, 0] S50000x1
  shapeCasts_S50000x1_S50000 : S50000x1.ShapeCasts S50000
  bcast_S_S50000 : S_.BroadcastsInDim S50000 (![] : Fin 0 → Fin S50000.rank)
  bcast_S50000_S50000x1_0 : S50000.BroadcastsInDim S50000x1 (![0] : Fin 1 → Fin S50000x1.rank)
  slices_S9x100x128_S1x100x128_1_0_0 : S9x100x128.Slices ![1, 0, 0] S1x100x128
  slices_S50000x9_S50000x1_0_1 : S50000x9.Slices ![0, 1] S50000x1
  slices_S9x100x128_S1x100x128_2_0_0 : S9x100x128.Slices ![2, 0, 0] S1x100x128
  slices_S50000x9_S50000x1_0_2 : S50000x9.Slices ![0, 2] S50000x1
  slices_S9x100x128_S1x100x128_3_0_0 : S9x100x128.Slices ![3, 0, 0] S1x100x128
  slices_S50000x9_S50000x1_0_3 : S50000x9.Slices ![0, 3] S50000x1
  slices_S9x100x128_S1x100x128_4_0_0 : S9x100x128.Slices ![4, 0, 0] S1x100x128
  slices_S50000x9_S50000x1_0_4 : S50000x9.Slices ![0, 4] S50000x1
  slices_S9x100x128_S1x100x128_5_0_0 : S9x100x128.Slices ![5, 0, 0] S1x100x128
  slices_S50000x9_S50000x1_0_5 : S50000x9.Slices ![0, 5] S50000x1
  slices_S9x100x128_S1x100x128_6_0_0 : S9x100x128.Slices ![6, 0, 0] S1x100x128
  slices_S50000x9_S50000x1_0_6 : S50000x9.Slices ![0, 6] S50000x1
  slices_S9x100x128_S1x100x128_7_0_0 : S9x100x128.Slices ![7, 0, 0] S1x100x128
  slices_S50000x9_S50000x1_0_7 : S50000x9.Slices ![0, 7] S50000x1
  slices_S9x100x128_S1x100x128_8_0_0 : S9x100x128.Slices ![8, 0, 0] S1x100x128
  slices_S50000x9_S50000x1_0_8 : S50000x9.Slices ![0, 8] S50000x1
  slices_S3x3x8x3_S1x1x8x3_0_0_0_0 : S3x3x8x3.Slices ![0, 0, 0, 0] S1x1x8x3
  shapeCasts_S1x1x8x3_S8x3 : S1x1x8x3.ShapeCasts S8x3
  slices_S600000x3_S600000x1_0_0 : S600000x3.Slices ![0, 0] S600000x1
  shapeCasts_S600000x1_S600000 : S600000x1.ShapeCasts S600000
  bcast_S_S600000 : S_.BroadcastsInDim S600000 (![] : Fin 0 → Fin S600000.rank)
  bcast_S600000_S600000x1_0 : S600000.BroadcastsInDim S600000x1 (![0] : Fin 1 → Fin S600000x1.rank)
  slices_S3x3x8x3_S1x1x8x3_0_1_0_0 : S3x3x8x3.Slices ![0, 1, 0, 0] S1x1x8x3
  slices_S600000x3_S600000x1_0_1 : S600000x3.Slices ![0, 1] S600000x1
  slices_S3x3x8x3_S1x1x8x3_0_2_0_0 : S3x3x8x3.Slices ![0, 2, 0, 0] S1x1x8x3
  slices_S600000x3_S600000x1_0_2 : S600000x3.Slices ![0, 2] S600000x1
  bcast_S_S600000x128 : S_.BroadcastsInDim S600000x128 (![] : Fin 0 → Fin S600000x128.rank)
  slices_S3x3x128x128_S1x1x128x128_0_0_0_0 : S3x3x128x128.Slices ![0, 0, 0, 0] S1x1x128x128
  shapeCasts_S1x1x128x128_S128x128 : S1x1x128x128.ShapeCasts S128x128
  bcast_S600000x1_S600000x128_0_1 : S600000x1.BroadcastsInDim S600000x128 (![0, 1] : Fin 2 → Fin S600000x128.rank)
  slices_S3x3x128x128_S1x1x128x128_0_1_0_0 : S3x3x128x128.Slices ![0, 1, 0, 0] S1x1x128x128
  slices_S3x3x128x128_S1x1x128x128_0_2_0_0 : S3x3x128x128.Slices ![0, 2, 0, 0] S1x1x128x128
  bcast_S_S50000x128 : S_.BroadcastsInDim S50000x128 (![] : Fin 0 → Fin S50000x128.rank)
  slices_S3x3x128_S1x3x128_0_0_0 : S3x3x128.Slices ![0, 0, 0] S1x3x128
  shapeCasts_S1x3x128_S3x128 : S1x3x128.ShapeCasts S3x128
  reducesTo_S3x128_S128_d0 : S3x128.ReducesTo [0] S128
  h_S_ : 0 < S_.numel
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S3x3x8x3_S1x1x8x3_1_0_0_0 : S3x3x8x3.Slices ![1, 0, 0, 0] S1x1x8x3
  slices_S3x3x8x3_S1x1x8x3_1_1_0_0 : S3x3x8x3.Slices ![1, 1, 0, 0] S1x1x8x3
  slices_S3x3x8x3_S1x1x8x3_1_2_0_0 : S3x3x8x3.Slices ![1, 2, 0, 0] S1x1x8x3
  slices_S3x3x128x128_S1x1x128x128_1_0_0_0 : S3x3x128x128.Slices ![1, 0, 0, 0] S1x1x128x128
  slices_S3x3x128x128_S1x1x128x128_1_1_0_0 : S3x3x128x128.Slices ![1, 1, 0, 0] S1x1x128x128
  slices_S3x3x128x128_S1x1x128x128_1_2_0_0 : S3x3x128x128.Slices ![1, 2, 0, 0] S1x1x128x128
  slices_S3x3x128_S1x3x128_1_0_0 : S3x3x128.Slices ![1, 0, 0] S1x3x128
  slices_S3x3x8x3_S1x1x8x3_2_0_0_0 : S3x3x8x3.Slices ![2, 0, 0, 0] S1x1x8x3
  slices_S3x3x8x3_S1x1x8x3_2_1_0_0 : S3x3x8x3.Slices ![2, 1, 0, 0] S1x1x8x3
  slices_S3x3x8x3_S1x1x8x3_2_2_0_0 : S3x3x8x3.Slices ![2, 2, 0, 0] S1x1x8x3
  slices_S3x3x128x128_S1x1x128x128_2_0_0_0 : S3x3x128x128.Slices ![2, 0, 0, 0] S1x1x128x128
  slices_S3x3x128x128_S1x1x128x128_2_1_0_0 : S3x3x128x128.Slices ![2, 1, 0, 0] S1x1x128x128
  slices_S3x3x128x128_S1x1x128x128_2_2_0_0 : S3x3x128x128.Slices ![2, 2, 0, 0] S1x1x128x128
  slices_S3x3x128_S1x3x128_2_0_0 : S3x3x128.Slices ![2, 0, 0] S1x3x128
  bcast_S_S2048x128 : S_.BroadcastsInDim S2048x128 (![] : Fin 0 → Fin S2048x128.rank)
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x128_0_1 : S2048x1.BroadcastsInDim S2048x128 (![0, 1] : Fin 2 → Fin S2048x128.rank)
  bcast_S1x128_S2048x128_0_1 : S1x128.BroadcastsInDim S2048x128 (![0, 1] : Fin 2 → Fin S2048x128.rank)
  bcast_S1_S1x1_1 : S1.BroadcastsInDim S1x1 (![1] : Fin 1 → Fin S1x1.rank)
  bcast_S1x1_S2048x1_0_1 : S1x1.BroadcastsInDim S2048x1 (![0, 1] : Fin 2 → Fin S2048x1.rank)
  gather_S100x128_S50000x1_S50000x128_1_0_n_n_0_1_1128_wf : GatherDims.WF S100x128 S50000x1 S50000x128 [1] [0] [] [0] [] 1 ![1, 128]
  gather_S8x3_S600000x1_S600000x3_1_0_n_n_0_1_13_wf : GatherDims.WF S8x3 S600000x1 S600000x3 [1] [0] [] [0] [] 1 ![1, 3]
  dot_S50000x128_S128x128_S50000x128_1_0_0_1_n_n_wf : DotDims.WF S50000x128 S128x128 S50000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S2048x128_S50000x1_S50000x128_1_0_0_1_wf : ScatterDims.WF S2048x128 S50000x1 S50000x128 [1] [0] [0] 1
  scatter_S2048_S50000x1_S50000_n_0_0_1_wf : ScatterDims.WF S2048 S50000x1 S50000 [] [0] [0] 1
  dot_S2048x128_S128x128_S2048x128_1_0_0_1_n_n_wf : DotDims.WF S2048x128 S128x128 S2048x128 [1] [0] [0] [1] [] []
  dot_S2048x128_S128x1_S2048x1_1_0_0_1_n_n_wf : DotDims.WF S2048x128 S128x1 S2048x1 [1] [0] [0] [1] [] []

variable [Facts₀]

def gather_S100x128_S50000x1_S50000x128_1_0_n_n_0_1_1128 : GatherDims S100x128 S50000x1 S50000x128 where
  offsetDims := [1]
  collapsedSliceDims := [0]
  operandBatchingDims := []
  startIndicesBatchingDims := []
  startIndexMap := [0]
  indexVectorDim := 1
  sliceSizes := ![1, 128]
  wf := gather_S100x128_S50000x1_S50000x128_1_0_n_n_0_1_1128_wf
def gather_S8x3_S600000x1_S600000x3_1_0_n_n_0_1_13 : GatherDims S8x3 S600000x1 S600000x3 where
  offsetDims := [1]
  collapsedSliceDims := [0]
  operandBatchingDims := []
  startIndicesBatchingDims := []
  startIndexMap := [0]
  indexVectorDim := 1
  sliceSizes := ![1, 3]
  wf := gather_S8x3_S600000x1_S600000x3_1_0_n_n_0_1_13_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S2048x128_S50000x1_S50000x128_1_0_0_1 : ScatterDims S2048x128 S50000x1 S50000x128 where
  updateWindowDims := [1]
  insertedWindowDims := [0]
  scatterDimsToOperandDims := [0]
  indexVectorDim := 1
  wf := scatter_S2048x128_S50000x1_S50000x128_1_0_0_1_wf
def scatter_S2048_S50000x1_S50000_n_0_0_1 : ScatterDims S2048 S50000x1 S50000 where
  updateWindowDims := []
  insertedWindowDims := [0]
  scatterDimsToOperandDims := [0]
  indexVectorDim := 1
  wf := scatter_S2048_S50000x1_S50000_n_0_0_1_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def dot_S2048x128_S128x1_S2048x1_1_0_0_1_n_n : DotDims S2048x128 S128x1 S2048x1 where
  lhsContracting := [1]
  rhsContracting := [0]
  lhsNonContracting := [0]
  rhsNonContracting := [1]
  lhsBatch := []
  rhsBatch := []
  wf := dot_S2048x128_S128x1_S2048x1_1_0_0_1_n_n_wf

class Facts : Prop extends Facts₀ where

variable [Facts]
-- ==== Proof.KRun.lean ====
/-
  The idealized kernel's run with its result named: every weakly fair execution of the program ends, nothing
  faulting, with the result array at what the last region's write-backs leave — the fold through the fourteen
  segments of the program (seven stretches of host operations, seven kernel regions) read at the result buffer —
  and the argument arrays as launched.
-/
import proofs.«101888_j76184129896719_1_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run: the launch of the fourteen segments; the last thread state, read against the final memory, gives every
    unscoped buffer at the last boundary's contents — the result buffer among them — and each argument walks back
    through the fold to its launch contents. -/
theorem run : θ_run defs (onTc (τ := τ) (main (F := F))) ⟨m, fun _ => 0, ρ⟩ (fun r => ∀ c : Dev nD,
      r.2.mem ((c.tc : Thread nD τ).loc main_v276) = W14 m ρ c (Proc.devRef .tc main_v276)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v276 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c),
       (h c _ (mem_uc main_arg9 (by decide))).trans (W14_main_arg9 m ρ c),
       (h c _ (mem_uc main_arg10 (by decide))).trans (W14_main_arg10 m ρ c),
       (h c _ (mem_uc main_arg11 (by decide))).trans (W14_main_arg11 m ρ c)⟩)

end Cert.KernelIdeal.KRun

end
-- ==== Proof.Stages.lean ====
/-
  The pieces of the computation that the kernel program and the reference program carry out by the very same host
  operations, each as a function of the arrays it reads: the edges' index rows, the atom features, each layer's edge
  weights, weight matrices and biases, the index columns the gathers and scatters take, and the mean pooling.
-/
import proofs.«101888_j76184129896719_1_alg».proof.Proof.Gen.ReferenceIdeal

noncomputable section

namespace Cert.Stages

open Cert.ReferenceIdeal Cert.ReferenceIdeal.Gen Idealize.ShloMosaic

variable {F : FTy → Type} [FloatOps F]

/-- The edges' source nodes: the first row of the edge index array. -/
def srcRow (x1 : (⟨S2x600000, .i32⟩ : BufTy).Contents (Elt F)) : (⟨S600000, .i32⟩ : BufTy).Contents (Elt F) :=
  (shapeCast _ (((extractStridedSlice S1x600000 ![0, 0] · slices_S2x600000_S1x600000_0_0) : (⟨S2x600000, .i32⟩ : BufTy).Contents (Elt F) → (⟨S1x600000, .i32⟩ : BufTy).Contents (Elt F)) x1) shapeCasts_S1x600000_S600000)

/-- The edges' destination nodes: the second row of the edge index array. -/
def dstRow (x1 : (⟨S2x600000, .i32⟩ : BufTy).Contents (Elt F)) : (⟨S600000, .i32⟩ : BufTy).Contents (Elt F) :=
  (shapeCast _ (((extractStridedSlice S1x600000 ![1, 0] · slices_S2x600000_S1x600000_1_0) : (⟨S2x600000, .i32⟩ : BufTy).Contents (Elt F) → (⟨S1x600000, .i32⟩ : BufTy).Contents (Elt F)) x1) shapeCasts_S1x600000_S600000)

/-- The atom features: the sum over the nine atom columns of the column's embedding row for the node's integer (a negative integer counted from the table's end). -/
def atomEnc (x0 : (⟨S50000x9, .i32⟩ : BufTy).Contents (Elt F)) (x4 : (⟨S9x100x128, .f32⟩ : BufTy).Contents (Elt F)) : (⟨S50000x128, .f32⟩ : BufTy).Contents (Elt F) :=
  ((addf : (⟨S50000x128, .f32⟩ : BufTy).Contents (Elt F) → (⟨S50000x128, .f32⟩ : BufTy).Contents (Elt F) → (⟨S50000x128, .f32⟩ : BufTy).Contents (Elt F)) ((addf : (⟨S50000x128, .f32⟩ : BufTy).Contents (Elt F) → (⟨S50000x128, .f32⟩ : BufTy).Contents (Elt F) → (⟨S50000x128, .f32⟩ : BufTy).Contents (Elt F)) ((addf : (⟨S50000x128, .f32⟩ : BufTy).Contents (Elt F) → (⟨S50000x128, .f32⟩ : BufTy).Contents (Elt F) → (⟨S50000x128, .f32⟩ : BufTy).Contents (Elt F)) ((addf : (⟨S50000x128, .f32⟩ : BufTy).Contents (Elt F) → (⟨S50000x128, .f32⟩ : BufTy).Contents (Elt F) → (⟨S50000x128, .f32⟩ : BufTy).Contents (Elt F)) ((addf : (⟨S50000x128, .f32⟩ : BufTy).Contents (Elt F) → (⟨S50000x128, .f32⟩ : BufTy).Contents (Elt F) → (⟨S50000x128, .f32⟩ : BufTy).Contents (Elt F)) ((addf : (⟨S50000x128, .f32⟩ : BufTy).Contents (Elt F) → (⟨S50000x128, .f32⟩ : BufTy).Contents (Elt F) → (⟨S50000x128, .f32⟩ : BufTy).Contents (Elt F)) ((addf : (⟨S50000x128, .f32⟩ : BufTy).Contents (Elt F) → (⟨S50000x128, .f32⟩ : BufTy).Contents (Elt F) → (⟨S50000x128, .f32⟩ : BufTy).Contents (Elt F)) ((addf : (⟨S50000x128, .f32⟩ : BufTy).Contents (Elt F) → (⟨S50000x128, .f32⟩ : BufTy).Contents (Elt F) → (⟨S50000x128, .f32⟩ : BufTy).Contents (Elt F)) (((fun x i => Host.gather gather_S100x128_S50000x1_S50000x128_1_0_n_n_0_1_1128 x i) : (⟨S100x128, .f32⟩ : BufTy).Contents (Elt F) → (⟨S50000x1, .i32⟩ : BufTy).Contents (Elt F) → (⟨S50000x128, .f32⟩ : BufTy).Contents (Elt F)) (shapeCast _ (((extractStridedSlice S1x100x128 ![0, 0, 0] · slices_S9x100x128_S1x100x128_0_0_0) : (⟨S9x100x128, .f32⟩ : BufTy).Contents (Elt F) → (⟨S1x100x128, .f32⟩ : BufTy).Contents (Elt F)) x4) shapeCasts_S1x100x128_S100x128) ((broadcastInDim S50000x1 ![0] bcast_S50000_S50000x1_0 : (⟨S50000, .i32⟩ : BufTy).Contents (Elt F) → (⟨S50000x1, .i32⟩ : BufTy).Contents (Elt F)) ((select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)) ((cmpi .slt : (⟨S50000, .i32⟩ : BufTy).Contents (Elt F) → (⟨S50000, .i32⟩ : BufTy).Contents (Elt F) → (⟨S50000, .i1⟩ : BufTy).Contents (Elt F)) (shapeCast _ (((extractStridedSlice S50000x1 ![0, 0] · slices_S50000x9_S50000x1_0_0) : (⟨S50000x9, .i32⟩ : BufTy).Contents (Elt F) → (⟨S50000x1, .i32⟩ : BufTy).Contents (Elt F)) x0) shapeCasts_S50000x1_S50000) ((broadcastInDim S50000 ![] bcast_S_S50000 : (⟨S_, .i32⟩ : BufTy).Contents (Elt F) → (⟨S50000, .i32⟩ : BufTy).Contents (Elt F)) ((constantI S_ 32 0#32)))) ((addi : (⟨S50000, .i32⟩ : BufTy).Contents (Elt F) → (⟨S50000, .i32⟩ : BufTy).Contents (Elt F) → (⟨S50000, .i32⟩ : BufTy).Contents (Elt F)) (shapeCast _ (((extractStridedSlice S50000x1 ![0, 0] · slices_S50000x9_S50000x1_0_0) : (⟨S50000x9, .i32⟩ : BufTy).Contents (Elt F) → (⟨S50000x1, .i32⟩ : BufTy).Contents (Elt F)) x0) shapeCasts_S50000x1_S50000) ((broadcastInDim S50000 ![] bcast_S_S50000 : (⟨S_, .i32⟩ : BufTy).Contents (Elt F) → (⟨S50000, .i32⟩ : BufTy).Contents (Elt F)) ((constantI S_ 32 100#32)))) (shapeCast _ (((extractStridedSlice S50000x1 ![0, 0] · slices_S50000x9_S50000x1_0_0) : (⟨S50000x9, .i32⟩ : BufTy).Contents (Elt F) → (⟨S50000x1, .i32⟩ : BufTy).Contents (Elt F)) x0) shapeCasts_S50000x1_S50000)))) (((fun x i => Host.gather gather_S100x128_S50000x1_S50000x128_1_0_n_n_0_1_1128 x i) : (⟨S100x128, .f32⟩ : BufTy).Contents (Elt F) → (⟨S50000x1, .i32⟩ : BufTy).Contents (Elt F) → (⟨S50000x128, .f32⟩ : BufTy).Contents (Elt F)) (shapeCast _ (((extractStridedSlice S1x100x128 ![1, 0, 0] · slices_S9x100x128_S1x100x128_1_0_0) : (⟨S9x100x128, .f32⟩ : BufTy).Contents (Elt F) → (⟨S1x100x128, .f32⟩ : BufTy).Contents (Elt F)) x4) shapeCasts_S1x100x128_S100x128) ((broadcastInDim S50000x1 ![0] bcast_S50000_S50000x1_0 : (⟨S50000, .i32⟩ : BufTy).Contents (Elt F) → (⟨S50000x1, .i32⟩ : BufTy).Contents (Elt F)) ((select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)) ((cmpi .slt : (⟨S50000, .i32⟩ : BufTy).Contents (Elt F) → (⟨S50000, .i32⟩ : BufTy).Contents (Elt F) → (⟨S50000, .i1⟩ : BufTy).Contents (Elt F)) (shapeCast _ (((extractStridedSlice S50000x1 ![0, 1] · slices_S50000x9_S50000x1_0_1) : (⟨S50000x9, .i32⟩ : BufTy).Contents (Elt F) → (⟨S50000x1, .i32⟩ : BufTy).Contents (Elt F)) x0) shapeCasts_S50000x1_S50000) ((broadcastInDim S50000 ![] bcast_S_S50000 : (⟨S_, .i32⟩ : BufTy).Contents (Elt F) → (⟨S50000, .i32⟩ : BufTy).Contents (Elt F)) ((constantI S_ 32 0#32)))) ((addi : (⟨S50000, .i32⟩ : BufTy).Contents (Elt F) → (⟨S50000, .i32⟩ : BufTy).Contents (Elt F) → (⟨S50000, .i32⟩ : BufTy).Contents (Elt F)) (shapeCast _ (((extractStridedSlice S50000x1 ![0, 1] · slices_S50000x9_S50000x1_0_1) : (⟨S50000x9, .i32⟩ : BufTy).Contents (Elt F) → (⟨S50000x1, .i32⟩ : BufTy).Contents (Elt F)) x0) shapeCasts_S50000x1_S50000) ((broadcastInDim S50000 ![] bcast_S_S50000 : (⟨S_, .i32⟩ : BufTy).Contents (Elt F) → (⟨S50000, .i32⟩ : BufTy).Contents (Elt F)) ((constantI S_ 32 100#32)))) (shapeCast _ (((extractStridedSlice S50000x1 ![0, 1] · slices_S50000x9_S50000x1_0_1) : (⟨S50000x9, .i32⟩ : BufTy).Contents (Elt F) → (⟨S50000x1, .i32⟩ : BufTy).Contents (Elt F)) x0) shapeCasts_S50000x1_S50000))))) (((fun x i => Host.gather gather_S100x128_S50000x1_S50000x128_1_0_n_n_0_1_1128 x i) : (⟨S100x128, .f32⟩ : BufTy).Contents (Elt F) → (⟨S50000x1, .i32⟩ : BufTy).Contents (Elt F) → (⟨S50000x128, .f32⟩ : BufTy).Contents (Elt F)) (shapeCast _ (((extractStridedSlice S1x100x128 ![2, 0, 0] · slices_S9x100x128_S1x100x128_2_0_0) : (⟨S9x100x128, .f32⟩ : BufTy).Contents (Elt F) → (⟨S1x100x128, .f32⟩ : BufTy).Contents (Elt F)) x4) shapeCasts_S1x100x128_S100x128) ((broadcastInDim S50000x1 ![0] bcast_S50000_S50000x1_0 : (⟨S50000, .i32⟩ : BufTy).Contents (Elt F) → (⟨S50000x1, .i32⟩ : BufTy).Contents (Elt F)) ((select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)) ((cmpi .slt : (⟨S50000, .i32⟩ : BufTy).Contents (Elt F) → (⟨S50000, .i32⟩ : BufTy).Contents (Elt F) → (⟨S50000, .i1⟩ : BufTy).Contents (Elt F)) (shapeCast _ (((extractStridedSlice S50000x1 ![0, 2] · slices_S50000x9_S50000x1_0_2) : (⟨S50000x9, .i32⟩ : BufTy).Contents (Elt F) → (⟨S50000x1, .i32⟩ : BufTy).Contents (Elt F)) x0) shapeCasts_S50000x1_S50000) ((broadcastInDim S50000 ![] bcast_S_S50000 : (⟨S_, .i32⟩ : BufTy).Contents (Elt F) → (⟨S50000, .i32⟩ : BufTy).Contents (Elt F)) ((constantI S_ 32 0#32)))) ((addi : (⟨S50000, .i32⟩ : BufTy).Contents (Elt F) → (⟨S50000, .i32⟩ : BufTy).Contents (Elt F) → (⟨S50000, .i32⟩ : BufTy).Contents (Elt F)) (shapeCast _ (((extractStridedSlice S50000x1 ![0, 2] · slices_S50000x9_S50000x1_0_2) : (⟨S50000x9, .i32⟩ : BufTy).Contents (Elt F) → (⟨S50000x1, .i32⟩ : BufTy).Contents (Elt F)) x0) shapeCasts_S50000x1_S50000) ((broadcastInDim S50000 ![] bcast_S_S50000 : (⟨S_, .i32⟩ : BufTy).Contents (Elt F) → (⟨S50000, .i32⟩ : BufTy).Contents (Elt F)) ((constantI S_ 32 100#32)))) (shapeCast _ (((extractStridedSlice S50000x1 ![0, 2] · slices_S50000x9_S50000x1_0_2) : (⟨S50000x9, .i32⟩ : BufTy).Contents (Elt F) → (⟨S50000x1, .i32⟩ : BufTy).Contents (Elt F)) x0) shapeCasts_S50000x1_S50000))))) (((fun x i => Host.gather gather_S100x128_S50000x1_S50000x128_1_0_n_n_0_1_1128 x i) : (⟨S100x128, .f32⟩ : BufTy).Contents (Elt F) → (⟨S50000x1, .i32⟩ : BufTy).Contents (Elt F) → (⟨S50000x128, .f32⟩ : BufTy).Contents (Elt F)) (shapeCast _ (((extractStridedSlice S1x100x128 ![3, 0, 0] · slices_S9x100x128_S1x100x128_3_0_0) : (⟨S9x100x128, .f32⟩ : BufTy).Contents (Elt F) → (⟨S1x100x128, .f32⟩ : BufTy).Contents (Elt F)) x4) shapeCasts_S1x100x128_S100x128) ((broadcastInDim S50000x1 ![0] bcast_S50000_S50000x1_0 : (⟨S50000, .i32⟩ : BufTy).Contents (Elt F) → (⟨S50000x1, .i32⟩ : BufTy).Contents (Elt F)) ((select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)) ((cmpi .slt : (⟨S50000, .i32⟩ : BufTy).Contents (Elt F) → (⟨S50000, .i32⟩ : BufTy).Contents (Elt F) → (⟨S50000, .i1⟩ : BufTy).Contents (Elt F)) (shapeCast _ (((extractStridedSlice S50000x1 ![0, 3] · slices_S50000x9_S50000x1_0_3) : (⟨S50000x9, .i32⟩ : BufTy).Contents (Elt F) → (⟨S50000x1, .i32⟩ : BufTy).Contents (Elt F)) x0) shapeCasts_S50000x1_S50000) ((broadcastInDim S50000 ![] bcast_S_S50000 : (⟨S_, .i32⟩ : BufTy).Contents (Elt F) → (⟨S50000, .i32⟩ : BufTy).Contents (Elt F)) ((constantI S_ 32 0#32)))) ((addi : (⟨S50000, .i32⟩ : BufTy).Contents (Elt F) → (⟨S50000, .i32⟩ : BufTy).Contents (Elt F) → (⟨S50000, .i32⟩ : BufTy).Contents (Elt F)) (shapeCast _ (((extractStridedSlice S50000x1 ![0, 3] · slices_S50000x9_S50000x1_0_3) : (⟨S50000x9, .i32⟩ : BufTy).Contents (Elt F) → (⟨S50000x1, .i32⟩ : BufTy).Contents (Elt F)) x0) shapeCasts_S50000x1_S50000) ((broadcastInDim S50000 ![] bcast_S_S50000 : (⟨S_, .i32⟩ : BufTy).Contents (Elt F) → (⟨S50000, .i32⟩ : BufTy).Contents (Elt F)) ((constantI S_ 32 100#32)))) (shapeCast _ (((extractStridedSlice S50000x1 ![0, 3] · slices_S50000x9_S50000x1_0_3) : (⟨S50000x9, .i32⟩ : BufTy).Contents (Elt F) → (⟨S50000x1, .i32⟩ : BufTy).Contents (Elt F)) x0) shapeCasts_S50000x1_S50000))))) (((fun x i => Host.gather gather_S100x128_S50000x1_S50000x128_1_0_n_n_0_1_1128 x i) : (⟨S100x128, .f32⟩ : BufTy).Contents (Elt F) → (⟨S50000x1, .i32⟩ : BufTy).Contents (Elt F) → (⟨S50000x128, .f32⟩ : BufTy).Contents (Elt F)) (shapeCast _ (((extractStridedSlice S1x100x128 ![4, 0, 0] · slices_S9x100x128_S1x100x128_4_0_0) : (⟨S9x100x128, .f32⟩ : BufTy).Contents (Elt F) → (⟨S1x100x128, .f32⟩ : BufTy).Contents (Elt F)) x4) shapeCasts_S1x100x128_S100x128) ((broadcastInDim S50000x1 ![0] bcast_S50000_S50000x1_0 : (⟨S50000, .i32⟩ : BufTy).Contents (Elt F) → (⟨S50000x1, .i32⟩ : BufTy).Contents (Elt F)) ((select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)) ((cmpi .slt : (⟨S50000, .i32⟩ : BufTy).Contents (Elt F) → (⟨S50000, .i32⟩ : BufTy).Contents (Elt F) → (⟨S50000, .i1⟩ : BufTy).Contents (Elt F)) (shapeCast _ (((extractStridedSlice S50000x1 ![0, 4] · slices_S50000x9_S50000x1_0_4) : (⟨S50000x9, .i32⟩ : BufTy).Contents (Elt F) → (⟨S50000x1, .i32⟩ : BufTy).Contents (Elt F)) x0) shapeCasts_S50000x1_S50000) ((broadcastInDim S50000 ![] bcast_S_S50000 : (⟨S_, .i32⟩ : BufTy).Contents (Elt F) → (⟨S50000, .i32⟩ : BufTy).Contents (Elt F)) ((constantI S_ 32 0#32)))) ((addi : (⟨S50000, .i32⟩ : BufTy).Contents (Elt F) → (⟨S50000, .i32⟩ : BufTy).Contents (Elt F) → (⟨S50000, .i32⟩ : BufTy).Contents (Elt F)) (shapeCast _ (((extractStridedSlice S50000x1 ![0, 4] · slices_S50000x9_S50000x1_0_4) : (⟨S50000x9, .i32⟩ : BufTy).Contents (Elt F) → (⟨S50000x1, .i32⟩ : BufTy).Contents (Elt F)) x0) shapeCasts_S50000x1_S50000) ((broadcastInDim S50000 ![] bcast_S_S50000 : (⟨S_, .i32⟩ : BufTy).Contents (Elt F) → (⟨S50000, .i32⟩ : BufTy).Contents (Elt F)) ((constantI S_ 32 100#32)))) (shapeCast _ (((extractStridedSlice S50000x1 ![0, 4] · slices_S50000x9_S50000x1_0_4) : (⟨S50000x9, .i32⟩ : BufTy).Contents (Elt F) → (⟨S50000x1, .i32⟩ : BufTy).Contents (Elt F)) x0) shapeCasts_S50000x1_S50000))))) (((fun x i => Host.gather gather_S100x128_S50000x1_S50000x128_1_0_n_n_0_1_1128 x i) : (⟨S100x128, .f32⟩ : BufTy).Contents (Elt F) → (⟨S50000x1, .i32⟩ : BufTy).Contents (Elt F) → (⟨S50000x128, .f32⟩ : BufTy).Contents (Elt F)) (shapeCast _ (((extractStridedSlice S1x100x128 ![5, 0, 0] · slices_S9x100x128_S1x100x128_5_0_0) : (⟨S9x100x128, .f32⟩ : BufTy).Contents (Elt F) → (⟨S1x100x128, .f32⟩ : BufTy).Contents (Elt F)) x4) shapeCasts_S1x100x128_S100x128) ((broadcastInDim S50000x1 ![0] bcast_S50000_S50000x1_0 : (⟨S50000, .i32⟩ : BufTy).Contents (Elt F) → (⟨S50000x1, .i32⟩ : BufTy).Contents (Elt F)) ((select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)) ((cmpi .slt : (⟨S50000, .i32⟩ : BufTy).Contents (Elt F) → (⟨S50000, .i32⟩ : BufTy).Contents (Elt F) → (⟨S50000, .i1⟩ : BufTy).Contents (Elt F)) (shapeCast _ (((extractStridedSlice S50000x1 ![0, 5] · slices_S50000x9_S50000x1_0_5) : (⟨S50000x9, .i32⟩ : BufTy).Contents (Elt F) → (⟨S50000x1, .i32⟩ : BufTy).Contents (Elt F)) x0) shapeCasts_S50000x1_S50000) ((broadcastInDim S50000 ![] bcast_S_S50000 : (⟨S_, .i32⟩ : BufTy).Contents (Elt F) → (⟨S50000, .i32⟩ : BufTy).Contents (Elt F)) ((constantI S_ 32 0#32)))) ((addi : (⟨S50000, .i32⟩ : BufTy).Contents (Elt F) → (⟨S50000, .i32⟩ : BufTy).Contents (Elt F) → (⟨S50000, .i32⟩ : BufTy).Contents (Elt F)) (shapeCast _ (((extractStridedSlice S50000x1 ![0, 5] · slices_S50000x9_S50000x1_0_5) : (⟨S50000x9, .i32⟩ : BufTy).Contents (Elt F) → (⟨S50000x1, .i32⟩ : BufTy).Contents (Elt F)) x0) shapeCasts_S50000x1_S50000) ((broadcastInDim S50000 ![] bcast_S_S50000 : (⟨S_, .i32⟩ : BufTy).Contents (Elt F) → (⟨S50000, .i32⟩ : BufTy).Contents (Elt F)) ((constantI S_ 32 100#32)))) (shapeCast _ (((extractStridedSlice S50000x1 ![0, 5] · slices_S50000x9_S50000x1_0_5) : (⟨S50000x9, .i32⟩ : BufTy).Contents (Elt F) → (⟨S50000x1, .i32⟩ : BufTy).Contents (Elt F)) x0) shapeCasts_S50000x1_S50000))))) (((fun x i => Host.gather gather_S100x128_S50000x1_S50000x128_1_0_n_n_0_1_1128 x i) : (⟨S100x128, .f32⟩ : BufTy).Contents (Elt F) → (⟨S50000x1, .i32⟩ : BufTy).Contents (Elt F) → (⟨S50000x128, .f32⟩ : BufTy).Contents (Elt F)) (shapeCast _ (((extractStridedSlice S1x100x128 ![6, 0, 0] · slices_S9x100x128_S1x100x128_6_0_0) : (⟨S9x100x128, .f32⟩ : BufTy).Contents (Elt F) → (⟨S1x100x128, .f32⟩ : BufTy).Contents (Elt F)) x4) shapeCasts_S1x100x128_S100x128) ((broadcastInDim S50000x1 ![0] bcast_S50000_S50000x1_0 : (⟨S50000, .i32⟩ : BufTy).Contents (Elt F) → (⟨S50000x1, .i32⟩ : BufTy).Contents (Elt F)) ((select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)) ((cmpi .slt : (⟨S50000, .i32⟩ : BufTy).Contents (Elt F) → (⟨S50000, .i32⟩ : BufTy).Contents (Elt F) → (⟨S50000, .i1⟩ : BufTy).Contents (Elt F)) (shapeCast _ (((extractStridedSlice S50000x1 ![0, 6] · slices_S50000x9_S50000x1_0_6) : (⟨S50000x9, .i32⟩ : BufTy).Contents (Elt F) → (⟨S50000x1, .i32⟩ : BufTy).Contents (Elt F)) x0) shapeCasts_S50000x1_S50000) ((broadcastInDim S50000 ![] bcast_S_S50000 : (⟨S_, .i32⟩ : BufTy).Contents (Elt F) → (⟨S50000, .i32⟩ : BufTy).Contents (Elt F)) ((constantI S_ 32 0#32)))) ((addi : (⟨S50000, .i32⟩ : BufTy).Contents (Elt F) → (⟨S50000, .i32⟩ : BufTy).Contents (Elt F) → (⟨S50000, .i32⟩ : BufTy).Contents (Elt F)) (shapeCast _ (((extractStridedSlice S50000x1 ![0, 6] · slices_S50000x9_S50000x1_0_6) : (⟨S50000x9, .i32⟩ : BufTy).Contents (Elt F) → (⟨S50000x1, .i32⟩ : BufTy).Contents (Elt F)) x0) shapeCasts_S50000x1_S50000) ((broadcastInDim S50000 ![] bcast_S_S50000 : (⟨S_, .i32⟩ : BufTy).Contents (Elt F) → (⟨S50000, .i32⟩ : BufTy).Contents (Elt F)) ((constantI S_ 32 100#32)))) (shapeCast _ (((extractStridedSlice S50000x1 ![0, 6] · slices_S50000x9_S50000x1_0_6) : (⟨S50000x9, .i32⟩ : BufTy).Contents (Elt F) → (⟨S50000x1, .i32⟩ : BufTy).Contents (Elt F)) x0) shapeCasts_S50000x1_S50000))))) (((fun x i => Host.gather gather_S100x128_S50000x1_S50000x128_1_0_n_n_0_1_1128 x i) : (⟨S100x128, .f32⟩ : BufTy).Contents (Elt F) → (⟨S50000x1, .i32⟩ : BufTy).Contents (Elt F) → (⟨S50000x128, .f32⟩ : BufTy).Contents (Elt F)) (shapeCast _ (((extractStridedSlice S1x100x128 ![7, 0, 0] · slices_S9x100x128_S1x100x128_7_0_0) : (⟨S9x100x128, .f32⟩ : BufTy).Contents (Elt F) → (⟨S1x100x128, .f32⟩ : BufTy).Contents (Elt F)) x4) shapeCasts_S1x100x128_S100x128) ((broadcastInDim S50000x1 ![0] bcast_S50000_S50000x1_0 : (⟨S50000, .i32⟩ : BufTy).Contents (Elt F) → (⟨S50000x1, .i32⟩ : BufTy).Contents (Elt F)) ((select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)) ((cmpi .slt : (⟨S50000, .i32⟩ : BufTy).Contents (Elt F) → (⟨S50000, .i32⟩ : BufTy).Contents (Elt F) → (⟨S50000, .i1⟩ : BufTy).Contents (Elt F)) (shapeCast _ (((extractStridedSlice S50000x1 ![0, 7] · slices_S50000x9_S50000x1_0_7) : (⟨S50000x9, .i32⟩ : BufTy).Contents (Elt F) → (⟨S50000x1, .i32⟩ : BufTy).Contents (Elt F)) x0) shapeCasts_S50000x1_S50000) ((broadcastInDim S50000 ![] bcast_S_S50000 : (⟨S_, .i32⟩ : BufTy).Contents (Elt F) → (⟨S50000, .i32⟩ : BufTy).Contents (Elt F)) ((constantI S_ 32 0#32)))) ((addi : (⟨S50000, .i32⟩ : BufTy).Contents (Elt F) → (⟨S50000, .i32⟩ : BufTy).Contents (Elt F) → (⟨S50000, .i32⟩ : BufTy).Contents (Elt F)) (shapeCast _ (((extractStridedSlice S50000x1 ![0, 7] · slices_S50000x9_S50000x1_0_7) : (⟨S50000x9, .i32⟩ : BufTy).Contents (Elt F) → (⟨S50000x1, .i32⟩ : BufTy).Contents (Elt F)) x0) shapeCasts_S50000x1_S50000) ((broadcastInDim S50000 ![] bcast_S_S50000 : (⟨S_, .i32⟩ : BufTy).Contents (Elt F) → (⟨S50000, .i32⟩ : BufTy).Contents (Elt F)) ((constantI S_ 32 100#32)))) (shapeCast _ (((extractStridedSlice S50000x1 ![0, 7] · slices_S50000x9_S50000x1_0_7) : (⟨S50000x9, .i32⟩ : BufTy).Contents (Elt F) → (⟨S50000x1, .i32⟩ : BufTy).Contents (Elt F)) x0) shapeCasts_S50000x1_S50000))))) (((fun x i => Host.gather gather_S100x128_S50000x1_S50000x128_1_0_n_n_0_1_1128 x i) : (⟨S100x128, .f32⟩ : BufTy).Contents (Elt F) → (⟨S50000x1, .i32⟩ : BufTy).Contents (Elt F) → (⟨S50000x128, .f32⟩ : BufTy).Contents (Elt F)) (shapeCast _ (((extractStridedSlice S1x100x128 ![8, 0, 0] · slices_S9x100x128_S1x100x128_8_0_0) : (⟨S9x100x128, .f32⟩ : BufTy).Contents (Elt F) → (⟨S1x100x128, .f32⟩ : BufTy).Contents (Elt F)) x4) shapeCasts_S1x100x128_S100x128) ((broadcastInDim S50000x1 ![0] bcast_S50000_S50000x1_0 : (⟨S50000, .i32⟩ : BufTy).Contents (Elt F) → (⟨S50000x1, .i32⟩ : BufTy).Contents (Elt F)) ((select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)) ((cmpi .slt : (⟨S50000, .i32⟩ : BufTy).Contents (Elt F) → (⟨S50000, .i32⟩ : BufTy).Contents (Elt F) → (⟨S50000, .i1⟩ : BufTy).Contents (Elt F)) (shapeCast _ (((extractStridedSlice S50000x1 ![0, 8] · slices_S50000x9_S50000x1_0_8) : (⟨S50000x9, .i32⟩ : BufTy).Contents (Elt F) → (⟨S50000x1, .i32⟩ : BufTy).Contents (Elt F)) x0) shapeCasts_S50000x1_S50000) ((broadcastInDim S50000 ![] bcast_S_S50000 : (⟨S_, .i32⟩ : BufTy).Contents (Elt F) → (⟨S50000, .i32⟩ : BufTy).Contents (Elt F)) ((constantI S_ 32 0#32)))) ((addi : (⟨S50000, .i32⟩ : BufTy).Contents (Elt F) → (⟨S50000, .i32⟩ : BufTy).Contents (Elt F) → (⟨S50000, .i32⟩ : BufTy).Contents (Elt F)) (shapeCast _ (((extractStridedSlice S50000x1 ![0, 8] · slices_S50000x9_S50000x1_0_8) : (⟨S50000x9, .i32⟩ : BufTy).Contents (Elt F) → (⟨S50000x1, .i32⟩ : BufTy).Contents (Elt F)) x0) shapeCasts_S50000x1_S50000) ((broadcastInDim S50000 ![] bcast_S_S50000 : (⟨S_, .i32⟩ : BufTy).Contents (Elt F) → (⟨S50000, .i32⟩ : BufTy).Contents (Elt F)) ((constantI S_ 32 100#32)))) (shapeCast _ (((extractStridedSlice S50000x1 ![0, 8] · slices_S50000x9_S50000x1_0_8) : (⟨S50000x9, .i32⟩ : BufTy).Contents (Elt F) → (⟨S50000x1, .i32⟩ : BufTy).Contents (Elt F)) x0) shapeCasts_S50000x1_S50000)))))

/-- The source nodes as the one-column index array the gathers take, a negative node counted from the end. -/
def srcCol (v1 : (⟨S600000, .i32⟩ : BufTy).Contents (Elt F)) : (⟨S600000x1, .i32⟩ : BufTy).Contents (Elt F) :=
  ((broadcastInDim S600000x1 ![0] bcast_S600000_S600000x1_0 : (⟨S600000, .i32⟩ : BufTy).Contents (Elt F) → (⟨S600000x1, .i32⟩ : BufTy).Contents (Elt F)) ((select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)) ((cmpi .slt : (⟨S600000, .i32⟩ : BufTy).Contents (Elt F) → (⟨S600000, .i32⟩ : BufTy).Contents (Elt F) → (⟨S600000, .i1⟩ : BufTy).Contents (Elt F)) v1 ((broadcastInDim S600000 ![] bcast_S_S600000 : (⟨S_, .i32⟩ : BufTy).Contents (Elt F) → (⟨S600000, .i32⟩ : BufTy).Contents (Elt F)) ((constantI S_ 32 0#32)))) ((addi : (⟨S600000, .i32⟩ : BufTy).Contents (Elt F) → (⟨S600000, .i32⟩ : BufTy).Contents (Elt F) → (⟨S600000, .i32⟩ : BufTy).Contents (Elt F)) v1 ((broadcastInDim S600000 ![] bcast_S_S600000 : (⟨S_, .i32⟩ : BufTy).Contents (Elt F) → (⟨S600000, .i32⟩ : BufTy).Contents (Elt F)) ((constantI S_ 32 50000#32)))) v1))

/-- The destination nodes as the one-column index array the scatter takes. -/
def dstCol (v3 : (⟨S600000, .i32⟩ : BufTy).Contents (Elt F)) : (⟨S600000x1, .i32⟩ : BufTy).Contents (Elt F) :=
  ((broadcastInDim S600000x1 ![0] bcast_S600000_S600000x1_0 : (⟨S600000, .i32⟩ : BufTy).Contents (Elt F) → (⟨S600000x1, .i32⟩ : BufTy).Contents (Elt F)) v3)

/-- The zero node-feature array the scatter adds into. -/
def zerosN  : (⟨S50000x128, .f32⟩ : BufTy).Contents (Elt F) :=
  ((broadcastInDim S50000x128 ![] bcast_S_S50000x128 : (⟨S_, .f32⟩ : BufTy).Contents (Elt F) → (⟨S50000x128, .f32⟩ : BufTy).Contents (Elt F)) ((constant S_ .f32 0x00000000#32)))

/-- Layer 0's edge weights: the sum over the three bond columns of the column's embedding row for the edge's integer. -/
def ew0 (x2 : (⟨S600000x3, .i32⟩ : BufTy).Contents (Elt F)) (x5 : (⟨S3x3x8x3, .f32⟩ : BufTy).Contents (Elt F)) : (⟨S600000x3, .f32⟩ : BufTy).Contents (Elt F) :=
  ((addf : (⟨S600000x3, .f32⟩ : BufTy).Contents (Elt F) → (⟨S600000x3, .f32⟩ : BufTy).Contents (Elt F) → (⟨S600000x3, .f32⟩ : BufTy).Contents (Elt F)) ((addf : (⟨S600000x3, .f32⟩ : BufTy).Contents (Elt F) → (⟨S600000x3, .f32⟩ : BufTy).Contents (Elt F) → (⟨S600000x3, .f32⟩ : BufTy).Contents (Elt F)) (((fun x i => Host.gather gather_S8x3_S600000x1_S600000x3_1_0_n_n_0_1_13 x i) : (⟨S8x3, .f32⟩ : BufTy).Contents (Elt F) → (⟨S600000x1, .i32⟩ : BufTy).Contents (Elt F) → (⟨S600000x3, .f32⟩ : BufTy).Contents (Elt F)) (shapeCast _ (((extractStridedSlice S1x1x8x3 ![0, 0, 0, 0] · slices_S3x3x8x3_S1x1x8x3_0_0_0_0) : (⟨S3x3x8x3, .f32⟩ : BufTy).Contents (Elt F) → (⟨S1x1x8x3, .f32⟩ : BufTy).Contents (Elt F)) x5) shapeCasts_S1x1x8x3_S8x3) ((broadcastInDim S600000x1 ![0] bcast_S600000_S600000x1_0 : (⟨S600000, .i32⟩ : BufTy).Contents (Elt F) → (⟨S600000x1, .i32⟩ : BufTy).Contents (Elt F)) ((select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)) ((cmpi .slt : (⟨S600000, .i32⟩ : BufTy).Contents (Elt F) → (⟨S600000, .i32⟩ : BufTy).Contents (Elt F) → (⟨S600000, .i1⟩ : BufTy).Contents (Elt F)) (shapeCast _ (((extractStridedSlice S600000x1 ![0, 0] · slices_S600000x3_S600000x1_0_0) : (⟨S600000x3, .i32⟩ : BufTy).Contents (Elt F) → (⟨S600000x1, .i32⟩ : BufTy).Contents (Elt F)) x2) shapeCasts_S600000x1_S600000) ((broadcastInDim S600000 ![] bcast_S_S600000 : (⟨S_, .i32⟩ : BufTy).Contents (Elt F) → (⟨S600000, .i32⟩ : BufTy).Contents (Elt F)) ((constantI S_ 32 0#32)))) ((addi : (⟨S600000, .i32⟩ : BufTy).Contents (Elt F) → (⟨S600000, .i32⟩ : BufTy).Contents (Elt F) → (⟨S600000, .i32⟩ : BufTy).Contents (Elt F)) (shapeCast _ (((extractStridedSlice S600000x1 ![0, 0] · slices_S600000x3_S600000x1_0_0) : (⟨S600000x3, .i32⟩ : BufTy).Contents (Elt F) → (⟨S600000x1, .i32⟩ : BufTy).Contents (Elt F)) x2) shapeCasts_S600000x1_S600000) ((broadcastInDim S600000 ![] bcast_S_S600000 : (⟨S_, .i32⟩ : BufTy).Contents (Elt F) → (⟨S600000, .i32⟩ : BufTy).Contents (Elt F)) ((constantI S_ 32 8#32)))) (shapeCast _ (((extractStridedSlice S600000x1 ![0, 0] · slices_S600000x3_S600000x1_0_0) : (⟨S600000x3, .i32⟩ : BufTy).Contents (Elt F) → (⟨S600000x1, .i32⟩ : BufTy).Contents (Elt F)) x2) shapeCasts_S600000x1_S600000)))) (((fun x i => Host.gather gather_S8x3_S600000x1_S600000x3_1_0_n_n_0_1_13 x i) : (⟨S8x3, .f32⟩ : BufTy).Contents (Elt F) → (⟨S600000x1, .i32⟩ : BufTy).Contents (Elt F) → (⟨S600000x3, .f32⟩ : BufTy).Contents (Elt F)) (shapeCast _ (((extractStridedSlice S1x1x8x3 ![0, 1, 0, 0] · slices_S3x3x8x3_S1x1x8x3_0_1_0_0) : (⟨S3x3x8x3, .f32⟩ : BufTy).Contents (Elt F) → (⟨S1x1x8x3, .f32⟩ : BufTy).Contents (Elt F)) x5) shapeCasts_S1x1x8x3_S8x3) ((broadcastInDim S600000x1 ![0] bcast_S600000_S600000x1_0 : (⟨S600000, .i32⟩ : BufTy).Contents (Elt F) → (⟨S600000x1, .i32⟩ : BufTy).Contents (Elt F)) ((select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)) ((cmpi .slt : (⟨S600000, .i32⟩ : BufTy).Contents (Elt F) → (⟨S600000, .i32⟩ : BufTy).Contents (Elt F) → (⟨S600000, .i1⟩ : BufTy).Contents (Elt F)) (shapeCast _ (((extractStridedSlice S600000x1 ![0, 1] · slices_S600000x3_S600000x1_0_1) : (⟨S600000x3, .i32⟩ : BufTy).Contents (Elt F) → (⟨S600000x1, .i32⟩ : BufTy).Contents (Elt F)) x2) shapeCasts_S600000x1_S600000) ((broadcastInDim S600000 ![] bcast_S_S600000 : (⟨S_, .i32⟩ : BufTy).Contents (Elt F) → (⟨S600000, .i32⟩ : BufTy).Contents (Elt F)) ((constantI S_ 32 0#32)))) ((addi : (⟨S600000, .i32⟩ : BufTy).Contents (Elt F) → (⟨S600000, .i32⟩ : BufTy).Contents (Elt F) → (⟨S600000, .i32⟩ : BufTy).Contents (Elt F)) (shapeCast _ (((extractStridedSlice S600000x1 ![0, 1] · slices_S600000x3_S600000x1_0_1) : (⟨S600000x3, .i32⟩ : BufTy).Contents (Elt F) → (⟨S600000x1, .i32⟩ : BufTy).Contents (Elt F)) x2) shapeCasts_S600000x1_S600000) ((broadcastInDim S600000 ![] bcast_S_S600000 : (⟨S_, .i32⟩ : BufTy).Contents (Elt F) → (⟨S600000, .i32⟩ : BufTy).Contents (Elt F)) ((constantI S_ 32 8#32)))) (shapeCast _ (((extractStridedSlice S600000x1 ![0, 1] · slices_S600000x3_S600000x1_0_1) : (⟨S600000x3, .i32⟩ : BufTy).Contents (Elt F) → (⟨S600000x1, .i32⟩ : BufTy).Contents (Elt F)) x2) shapeCasts_S600000x1_S600000))))) (((fun x i => Host.gather gather_S8x3_S600000x1_S600000x3_1_0_n_n_0_1_13 x i) : (⟨S8x3, .f32⟩ : BufTy).Contents (Elt F) → (⟨S600000x1, .i32⟩ : BufTy).Contents (Elt F) → (⟨S600000x3, .f32⟩ : BufTy).Contents (Elt F)) (shapeCast _ (((extractStridedSlice S1x1x8x3 ![0, 2, 0, 0] · slices_S3x3x8x3_S1x1x8x3_0_2_0_0) : (⟨S3x3x8x3, .f32⟩ : BufTy).Contents (Elt F) → (⟨S1x1x8x3, .f32⟩ : BufTy).Contents (Elt F)) x5) shapeCasts_S1x1x8x3_S8x3) ((broadcastInDim S600000x1 ![0] bcast_S600000_S600000x1_0 : (⟨S600000, .i32⟩ : BufTy).Contents (Elt F) → (⟨S600000x1, .i32⟩ : BufTy).Contents (Elt F)) ((select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)) ((cmpi .slt : (⟨S600000, .i32⟩ : BufTy).Contents (Elt F) → (⟨S600000, .i32⟩ : BufTy).Contents (Elt F) → (⟨S600000, .i1⟩ : BufTy).Contents (Elt F)) (shapeCast _ (((extractStridedSlice S600000x1 ![0, 2] · slices_S600000x3_S600000x1_0_2) : (⟨S600000x3, .i32⟩ : BufTy).Contents (Elt F) → (⟨S600000x1, .i32⟩ : BufTy).Contents (Elt F)) x2) shapeCasts_S600000x1_S600000) ((broadcastInDim S600000 ![] bcast_S_S600000 : (⟨S_, .i32⟩ : BufTy).Contents (Elt F) → (⟨S600000, .i32⟩ : BufTy).Contents (Elt F)) ((constantI S_ 32 0#32)))) ((addi : (⟨S600000, .i32⟩ : BufTy).Contents (Elt F) → (⟨S600000, .i32⟩ : BufTy).Contents (Elt F) → (⟨S600000, .i32⟩ : BufTy).Contents (Elt F)) (shapeCast _ (((extractStridedSlice S600000x1 ![0, 2] · slices_S600000x3_S600000x1_0_2) : (⟨S600000x3, .i32⟩ : BufTy).Contents (Elt F) → (⟨S600000x1, .i32⟩ : BufTy).Contents (Elt F)) x2) shapeCasts_S600000x1_S600000) ((broadcastInDim S600000 ![] bcast_S_S600000 : (⟨S_, .i32⟩ : BufTy).Contents (Elt F) → (⟨S600000, .i32⟩ : BufTy).Contents (Elt F)) ((constantI S_ 32 8#32)))) (shapeCast _ (((extractStridedSlice S600000x1 ![0, 2] · slices_S600000x3_S600000x1_0_2) : (⟨S600000x3, .i32⟩ : BufTy).Contents (Elt F) → (⟨S600000x1, .i32⟩ : BufTy).Contents (Elt F)) x2) shapeCasts_S600000x1_S600000)))))

/-- Layer 1's edge weights: the sum over the three bond columns of the column's embedding row for the edge's integer. -/
def ew1 (x2 : (⟨S600000x3, .i32⟩ : BufTy).Contents (Elt F)) (x5 : (⟨S3x3x8x3, .f32⟩ : BufTy).Contents (Elt F)) : (⟨S600000x3, .f32⟩ : BufTy).Contents (Elt F) :=
  ((addf : (⟨S600000x3, .f32⟩ : BufTy).Contents (Elt F) → (⟨S600000x3, .f32⟩ : BufTy).Contents (Elt F) → (⟨S600000x3, .f32⟩ : BufTy).Contents (Elt F)) ((addf : (⟨S600000x3, .f32⟩ : BufTy).Contents (Elt F) → (⟨S600000x3, .f32⟩ : BufTy).Contents (Elt F) → (⟨S600000x3, .f32⟩ : BufTy).Contents (Elt F)) (((fun x i => Host.gather gather_S8x3_S600000x1_S600000x3_1_0_n_n_0_1_13 x i) : (⟨S8x3, .f32⟩ : BufTy).Contents (Elt F) → (⟨S600000x1, .i32⟩ : BufTy).Contents (Elt F) → (⟨S600000x3, .f32⟩ : BufTy).Contents (Elt F)) (shapeCast _ (((extractStridedSlice S1x1x8x3 ![1, 0, 0, 0] · slices_S3x3x8x3_S1x1x8x3_1_0_0_0) : (⟨S3x3x8x3, .f32⟩ : BufTy).Contents (Elt F) → (⟨S1x1x8x3, .f32⟩ : BufTy).Contents (Elt F)) x5) shapeCasts_S1x1x8x3_S8x3) ((broadcastInDim S600000x1 ![0] bcast_S600000_S600000x1_0 : (⟨S600000, .i32⟩ : BufTy).Contents (Elt F) → (⟨S600000x1, .i32⟩ : BufTy).Contents (Elt F)) ((select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)) ((cmpi .slt : (⟨S600000, .i32⟩ : BufTy).Contents (Elt F) → (⟨S600000, .i32⟩ : BufTy).Contents (Elt F) → (⟨S600000, .i1⟩ : BufTy).Contents (Elt F)) (shapeCast _ (((extractStridedSlice S600000x1 ![0, 0] · slices_S600000x3_S600000x1_0_0) : (⟨S600000x3, .i32⟩ : BufTy).Contents (Elt F) → (⟨S600000x1, .i32⟩ : BufTy).Contents (Elt F)) x2) shapeCasts_S600000x1_S600000) ((broadcastInDim S600000 ![] bcast_S_S600000 : (⟨S_, .i32⟩ : BufTy).Contents (Elt F) → (⟨S600000, .i32⟩ : BufTy).Contents (Elt F)) ((constantI S_ 32 0#32)))) ((addi : (⟨S600000, .i32⟩ : BufTy).Contents (Elt F) → (⟨S600000, .i32⟩ : BufTy).Contents (Elt F) → (⟨S600000, .i32⟩ : BufTy).Contents (Elt F)) (shapeCast _ (((extractStridedSlice S600000x1 ![0, 0] · slices_S600000x3_S600000x1_0_0) : (⟨S600000x3, .i32⟩ : BufTy).Contents (Elt F) → (⟨S600000x1, .i32⟩ : BufTy).Contents (Elt F)) x2) shapeCasts_S600000x1_S600000) ((broadcastInDim S600000 ![] bcast_S_S600000 : (⟨S_, .i32⟩ : BufTy).Contents (Elt F) → (⟨S600000, .i32⟩ : BufTy).Contents (Elt F)) ((constantI S_ 32 8#32)))) (shapeCast _ (((extractStridedSlice S600000x1 ![0, 0] · slices_S600000x3_S600000x1_0_0) : (⟨S600000x3, .i32⟩ : BufTy).Contents (Elt F) → (⟨S600000x1, .i32⟩ : BufTy).Contents (Elt F)) x2) shapeCasts_S600000x1_S600000)))) (((fun x i => Host.gather gather_S8x3_S600000x1_S600000x3_1_0_n_n_0_1_13 x i) : (⟨S8x3, .f32⟩ : BufTy).Contents (Elt F) → (⟨S600000x1, .i32⟩ : BufTy).Contents (Elt F) → (⟨S600000x3, .f32⟩ : BufTy).Contents (Elt F)) (shapeCast _ (((extractStridedSlice S1x1x8x3 ![1, 1, 0, 0] · slices_S3x3x8x3_S1x1x8x3_1_1_0_0) : (⟨S3x3x8x3, .f32⟩ : BufTy).Contents (Elt F) → (⟨S1x1x8x3, .f32⟩ : BufTy).Contents (Elt F)) x5) shapeCasts_S1x1x8x3_S8x3) ((broadcastInDim S600000x1 ![0] bcast_S600000_S600000x1_0 : (⟨S600000, .i32⟩ : BufTy).Contents (Elt F) → (⟨S600000x1, .i32⟩ : BufTy).Contents (Elt F)) ((select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)) ((cmpi .slt : (⟨S600000, .i32⟩ : BufTy).Contents (Elt F) → (⟨S600000, .i32⟩ : BufTy).Contents (Elt F) → (⟨S600000, .i1⟩ : BufTy).Contents (Elt F)) (shapeCast _ (((extractStridedSlice S600000x1 ![0, 1] · slices_S600000x3_S600000x1_0_1) : (⟨S600000x3, .i32⟩ : BufTy).Contents (Elt F) → (⟨S600000x1, .i32⟩ : BufTy).Contents (Elt F)) x2) shapeCasts_S600000x1_S600000) ((broadcastInDim S600000 ![] bcast_S_S600000 : (⟨S_, .i32⟩ : BufTy).Contents (Elt F) → (⟨S600000, .i32⟩ : BufTy).Contents (Elt F)) ((constantI S_ 32 0#32)))) ((addi : (⟨S600000, .i32⟩ : BufTy).Contents (Elt F) → (⟨S600000, .i32⟩ : BufTy).Contents (Elt F) → (⟨S600000, .i32⟩ : BufTy).Contents (Elt F)) (shapeCast _ (((extractStridedSlice S600000x1 ![0, 1] · slices_S600000x3_S600000x1_0_1) : (⟨S600000x3, .i32⟩ : BufTy).Contents (Elt F) → (⟨S600000x1, .i32⟩ : BufTy).Contents (Elt F)) x2) shapeCasts_S600000x1_S600000) ((broadcastInDim S600000 ![] bcast_S_S600000 : (⟨S_, .i32⟩ : BufTy).Contents (Elt F) → (⟨S600000, .i32⟩ : BufTy).Contents (Elt F)) ((constantI S_ 32 8#32)))) (shapeCast _ (((extractStridedSlice S600000x1 ![0, 1] · slices_S600000x3_S600000x1_0_1) : (⟨S600000x3, .i32⟩ : BufTy).Contents (Elt F) → (⟨S600000x1, .i32⟩ : BufTy).Contents (Elt F)) x2) shapeCasts_S600000x1_S600000))))) (((fun x i => Host.gather gather_S8x3_S600000x1_S600000x3_1_0_n_n_0_1_13 x i) : (⟨S8x3, .f32⟩ : BufTy).Contents (Elt F) → (⟨S600000x1, .i32⟩ : BufTy).Contents (Elt F) → (⟨S600000x3, .f32⟩ : BufTy).Contents (Elt F)) (shapeCast _ (((extractStridedSlice S1x1x8x3 ![1, 2, 0, 0] · slices_S3x3x8x3_S1x1x8x3_1_2_0_0) : (⟨S3x3x8x3, .f32⟩ : BufTy).Contents (Elt F) → (⟨S1x1x8x3, .f32⟩ : BufTy).Contents (Elt F)) x5) shapeCasts_S1x1x8x3_S8x3) ((broadcastInDim S600000x1 ![0] bcast_S600000_S600000x1_0 : (⟨S600000, .i32⟩ : BufTy).Contents (Elt F) → (⟨S600000x1, .i32⟩ : BufTy).Contents (Elt F)) ((select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)) ((cmpi .slt : (⟨S600000, .i32⟩ : BufTy).Contents (Elt F) → (⟨S600000, .i32⟩ : BufTy).Contents (Elt F) → (⟨S600000, .i1⟩ : BufTy).Contents (Elt F)) (shapeCast _ (((extractStridedSlice S600000x1 ![0, 2] · slices_S600000x3_S600000x1_0_2) : (⟨S600000x3, .i32⟩ : BufTy).Contents (Elt F) → (⟨S600000x1, .i32⟩ : BufTy).Contents (Elt F)) x2) shapeCasts_S600000x1_S600000) ((broadcastInDim S600000 ![] bcast_S_S600000 : (⟨S_, .i32⟩ : BufTy).Contents (Elt F) → (⟨S600000, .i32⟩ : BufTy).Contents (Elt F)) ((constantI S_ 32 0#32)))) ((addi : (⟨S600000, .i32⟩ : BufTy).Contents (Elt F) → (⟨S600000, .i32⟩ : BufTy).Contents (Elt F) → (⟨S600000, .i32⟩ : BufTy).Contents (Elt F)) (shapeCast _ (((extractStridedSlice S600000x1 ![0, 2] · slices_S600000x3_S600000x1_0_2) : (⟨S600000x3, .i32⟩ : BufTy).Contents (Elt F) → (⟨S600000x1, .i32⟩ : BufTy).Contents (Elt F)) x2) shapeCasts_S600000x1_S600000) ((broadcastInDim S600000 ![] bcast_S_S600000 : (⟨S_, .i32⟩ : BufTy).Contents (Elt F) → (⟨S600000, .i32⟩ : BufTy).Contents (Elt F)) ((constantI S_ 32 8#32)))) (shapeCast _ (((extractStridedSlice S600000x1 ![0, 2] · slices_S600000x3_S600000x1_0_2) : (⟨S600000x3, .i32⟩ : BufTy).Contents (Elt F) → (⟨S600000x1, .i32⟩ : BufTy).Contents (Elt F)) x2) shapeCasts_S600000x1_S600000)))))

/-- Layer 2's edge weights: the sum over the three bond columns of the column's embedding row for the edge's integer. -/
def ew2 (x2 : (⟨S600000x3, .i32⟩ : BufTy).Contents (Elt F)) (x5 : (⟨S3x3x8x3, .f32⟩ : BufTy).Contents (Elt F)) : (⟨S600000x3, .f32⟩ : BufTy).Contents (Elt F) :=
  ((addf : (⟨S600000x3, .f32⟩ : BufTy).Contents (Elt F) → (⟨S600000x3, .f32⟩ : BufTy).Contents (Elt F) → (⟨S600000x3, .f32⟩ : BufTy).Contents (Elt F)) ((addf : (⟨S600000x3, .f32⟩ : BufTy).Contents (Elt F) → (⟨S600000x3, .f32⟩ : BufTy).Contents (Elt F) → (⟨S600000x3, .f32⟩ : BufTy).Contents (Elt F)) (((fun x i => Host.gather gather_S8x3_S600000x1_S600000x3_1_0_n_n_0_1_13 x i) : (⟨S8x3, .f32⟩ : BufTy).Contents (Elt F) → (⟨S600000x1, .i32⟩ : BufTy).Contents (Elt F) → (⟨S600000x3, .f32⟩ : BufTy).Contents (Elt F)) (shapeCast _ (((extractStridedSlice S1x1x8x3 ![2, 0, 0, 0] · slices_S3x3x8x3_S1x1x8x3_2_0_0_0) : (⟨S3x3x8x3, .f32⟩ : BufTy).Contents (Elt F) → (⟨S1x1x8x3, .f32⟩ : BufTy).Contents (Elt F)) x5) shapeCasts_S1x1x8x3_S8x3) ((broadcastInDim S600000x1 ![0] bcast_S600000_S600000x1_0 : (⟨S600000, .i32⟩ : BufTy).Contents (Elt F) → (⟨S600000x1, .i32⟩ : BufTy).Contents (Elt F)) ((select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)) ((cmpi .slt : (⟨S600000, .i32⟩ : BufTy).Contents (Elt F) → (⟨S600000, .i32⟩ : BufTy).Contents (Elt F) → (⟨S600000, .i1⟩ : BufTy).Contents (Elt F)) (shapeCast _ (((extractStridedSlice S600000x1 ![0, 0] · slices_S600000x3_S600000x1_0_0) : (⟨S600000x3, .i32⟩ : BufTy).Contents (Elt F) → (⟨S600000x1, .i32⟩ : BufTy).Contents (Elt F)) x2) shapeCasts_S600000x1_S600000) ((broadcastInDim S600000 ![] bcast_S_S600000 : (⟨S_, .i32⟩ : BufTy).Contents (Elt F) → (⟨S600000, .i32⟩ : BufTy).Contents (Elt F)) ((constantI S_ 32 0#32)))) ((addi : (⟨S600000, .i32⟩ : BufTy).Contents (Elt F) → (⟨S600000, .i32⟩ : BufTy).Contents (Elt F) → (⟨S600000, .i32⟩ : BufTy).Contents (Elt F)) (shapeCast _ (((extractStridedSlice S600000x1 ![0, 0] · slices_S600000x3_S600000x1_0_0) : (⟨S600000x3, .i32⟩ : BufTy).Contents (Elt F) → (⟨S600000x1, .i32⟩ : BufTy).Contents (Elt F)) x2) shapeCasts_S600000x1_S600000) ((broadcastInDim S600000 ![] bcast_S_S600000 : (⟨S_, .i32⟩ : BufTy).Contents (Elt F) → (⟨S600000, .i32⟩ : BufTy).Contents (Elt F)) ((constantI S_ 32 8#32)))) (shapeCast _ (((extractStridedSlice S600000x1 ![0, 0] · slices_S600000x3_S600000x1_0_0) : (⟨S600000x3, .i32⟩ : BufTy).Contents (Elt F) → (⟨S600000x1, .i32⟩ : BufTy).Contents (Elt F)) x2) shapeCasts_S600000x1_S600000)))) (((fun x i => Host.gather gather_S8x3_S600000x1_S600000x3_1_0_n_n_0_1_13 x i) : (⟨S8x3, .f32⟩ : BufTy).Contents (Elt F) → (⟨S600000x1, .i32⟩ : BufTy).Contents (Elt F) → (⟨S600000x3, .f32⟩ : BufTy).Contents (Elt F)) (shapeCast _ (((extractStridedSlice S1x1x8x3 ![2, 1, 0, 0] · slices_S3x3x8x3_S1x1x8x3_2_1_0_0) : (⟨S3x3x8x3, .f32⟩ : BufTy).Contents (Elt F) → (⟨S1x1x8x3, .f32⟩ : BufTy).Contents (Elt F)) x5) shapeCasts_S1x1x8x3_S8x3) ((broadcastInDim S600000x1 ![0] bcast_S600000_S600000x1_0 : (⟨S600000, .i32⟩ : BufTy).Contents (Elt F) → (⟨S600000x1, .i32⟩ : BufTy).Contents (Elt F)) ((select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)) ((cmpi .slt : (⟨S600000, .i32⟩ : BufTy).Contents (Elt F) → (⟨S600000, .i32⟩ : BufTy).Contents (Elt F) → (⟨S600000, .i1⟩ : BufTy).Contents (Elt F)) (shapeCast _ (((extractStridedSlice S600000x1 ![0, 1] · slices_S600000x3_S600000x1_0_1) : (⟨S600000x3, .i32⟩ : BufTy).Contents (Elt F) → (⟨S600000x1, .i32⟩ : BufTy).Contents (Elt F)) x2) shapeCasts_S600000x1_S600000) ((broadcastInDim S600000 ![] bcast_S_S600000 : (⟨S_, .i32⟩ : BufTy).Contents (Elt F) → (⟨S600000, .i32⟩ : BufTy).Contents (Elt F)) ((constantI S_ 32 0#32)))) ((addi : (⟨S600000, .i32⟩ : BufTy).Contents (Elt F) → (⟨S600000, .i32⟩ : BufTy).Contents (Elt F) → (⟨S600000, .i32⟩ : BufTy).Contents (Elt F)) (shapeCast _ (((extractStridedSlice S600000x1 ![0, 1] · slices_S600000x3_S600000x1_0_1) : (⟨S600000x3, .i32⟩ : BufTy).Contents (Elt F) → (⟨S600000x1, .i32⟩ : BufTy).Contents (Elt F)) x2) shapeCasts_S600000x1_S600000) ((broadcastInDim S600000 ![] bcast_S_S600000 : (⟨S_, .i32⟩ : BufTy).Contents (Elt F) → (⟨S600000, .i32⟩ : BufTy).Contents (Elt F)) ((constantI S_ 32 8#32)))) (shapeCast _ (((extractStridedSlice S600000x1 ![0, 1] · slices_S600000x3_S600000x1_0_1) : (⟨S600000x3, .i32⟩ : BufTy).Contents (Elt F) → (⟨S600000x1, .i32⟩ : BufTy).Contents (Elt F)) x2) shapeCasts_S600000x1_S600000))))) (((fun x i => Host.gather gather_S8x3_S600000x1_S600000x3_1_0_n_n_0_1_13 x i) : (⟨S8x3, .f32⟩ : BufTy).Contents (Elt F) → (⟨S600000x1, .i32⟩ : BufTy).Contents (Elt F) → (⟨S600000x3, .f32⟩ : BufTy).Contents (Elt F)) (shapeCast _ (((extractStridedSlice S1x1x8x3 ![2, 2, 0, 0] · slices_S3x3x8x3_S1x1x8x3_2_2_0_0) : (⟨S3x3x8x3, .f32⟩ : BufTy).Contents (Elt F) → (⟨S1x1x8x3, .f32⟩ : BufTy).Contents (Elt F)) x5) shapeCasts_S1x1x8x3_S8x3) ((broadcastInDim S600000x1 ![0] bcast_S600000_S600000x1_0 : (⟨S600000, .i32⟩ : BufTy).Contents (Elt F) → (⟨S600000x1, .i32⟩ : BufTy).Contents (Elt F)) ((select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)) ((cmpi .slt : (⟨S600000, .i32⟩ : BufTy).Contents (Elt F) → (⟨S600000, .i32⟩ : BufTy).Contents (Elt F) → (⟨S600000, .i1⟩ : BufTy).Contents (Elt F)) (shapeCast _ (((extractStridedSlice S600000x1 ![0, 2] · slices_S600000x3_S600000x1_0_2) : (⟨S600000x3, .i32⟩ : BufTy).Contents (Elt F) → (⟨S600000x1, .i32⟩ : BufTy).Contents (Elt F)) x2) shapeCasts_S600000x1_S600000) ((broadcastInDim S600000 ![] bcast_S_S600000 : (⟨S_, .i32⟩ : BufTy).Contents (Elt F) → (⟨S600000, .i32⟩ : BufTy).Contents (Elt F)) ((constantI S_ 32 0#32)))) ((addi : (⟨S600000, .i32⟩ : BufTy).Contents (Elt F) → (⟨S600000, .i32⟩ : BufTy).Contents (Elt F) → (⟨S600000, .i32⟩ : BufTy).Contents (Elt F)) (shapeCast _ (((extractStridedSlice S600000x1 ![0, 2] · slices_S600000x3_S600000x1_0_2) : (⟨S600000x3, .i32⟩ : BufTy).Contents (Elt F) → (⟨S600000x1, .i32⟩ : BufTy).Contents (Elt F)) x2) shapeCasts_S600000x1_S600000) ((broadcastInDim S600000 ![] bcast_S_S600000 : (⟨S_, .i32⟩ : BufTy).Contents (Elt F) → (⟨S600000, .i32⟩ : BufTy).Contents (Elt F)) ((constantI S_ 32 8#32)))) (shapeCast _ (((extractStridedSlice S600000x1 ![0, 2] · slices_S600000x3_S600000x1_0_2) : (⟨S600000x3, .i32⟩ : BufTy).Contents (Elt F) → (⟨S600000x1, .i32⟩ : BufTy).Contents (Elt F)) x2) shapeCasts_S600000x1_S600000)))))

/-- Layer 0's weight matrix of channel 0. -/
def w00 (x6 : (⟨S3x3x128x128, .f32⟩ : BufTy).Contents (Elt F)) : (⟨S128x128, .f32⟩ : BufTy).Contents (Elt F) :=
  (shapeCast _ (((extractStridedSlice S1x1x128x128 ![0, 0, 0, 0] · slices_S3x3x128x128_S1x1x128x128_0_0_0_0) : (⟨S3x3x128x128, .f32⟩ : BufTy).Contents (Elt F) → (⟨S1x1x128x128, .f32⟩ : BufTy).Contents (Elt F)) x6) shapeCasts_S1x1x128x128_S128x128)

/-- Layer 0's weight matrix of channel 1. -/
def w01 (x6 : (⟨S3x3x128x128, .f32⟩ : BufTy).Contents (Elt F)) : (⟨S128x128, .f32⟩ : BufTy).Contents (Elt F) :=
  (shapeCast _ (((extractStridedSlice S1x1x128x128 ![0, 1, 0, 0] · slices_S3x3x128x128_S1x1x128x128_0_1_0_0) : (⟨S3x3x128x128, .f32⟩ : BufTy).Contents (Elt F) → (⟨S1x1x128x128, .f32⟩ : BufTy).Contents (Elt F)) x6) shapeCasts_S1x1x128x128_S128x128)

/-- Layer 0's weight matrix of channel 2. -/
def w02 (x6 : (⟨S3x3x128x128, .f32⟩ : BufTy).Contents (Elt F)) : (⟨S128x128, .f32⟩ : BufTy).Contents (Elt F) :=
  (shapeCast _ (((extractStridedSlice S1x1x128x128 ![0, 2, 0, 0] · slices_S3x3x128x128_S1x1x128x128_0_2_0_0) : (⟨S3x3x128x128, .f32⟩ : BufTy).Contents (Elt F) → (⟨S1x1x128x128, .f32⟩ : BufTy).Contents (Elt F)) x6) shapeCasts_S1x1x128x128_S128x128)

/-- Layer 1's weight matrix of channel 0. -/
def w10 (x6 : (⟨S3x3x128x128, .f32⟩ : BufTy).Contents (Elt F)) : (⟨S128x128, .f32⟩ : BufTy).Contents (Elt F) :=
  (shapeCast _ (((extractStridedSlice S1x1x128x128 ![1, 0, 0, 0] · slices_S3x3x128x128_S1x1x128x128_1_0_0_0) : (⟨S3x3x128x128, .f32⟩ : BufTy).Contents (Elt F) → (⟨S1x1x128x128, .f32⟩ : BufTy).Contents (Elt F)) x6) shapeCasts_S1x1x128x128_S128x128)

/-- Layer 1's weight matrix of channel 1. -/
def w11 (x6 : (⟨S3x3x128x128, .f32⟩ : BufTy).Contents (Elt F)) : (⟨S128x128, .f32⟩ : BufTy).Contents (Elt F) :=
  (shapeCast _ (((extractStridedSlice S1x1x128x128 ![1, 1, 0, 0] · slices_S3x3x128x128_S1x1x128x128_1_1_0_0) : (⟨S3x3x128x128, .f32⟩ : BufTy).Contents (Elt F) → (⟨S1x1x128x128, .f32⟩ : BufTy).Contents (Elt F)) x6) shapeCasts_S1x1x128x128_S128x128)

/-- Layer 1's weight matrix of channel 2. -/
def w12 (x6 : (⟨S3x3x128x128, .f32⟩ : BufTy).Contents (Elt F)) : (⟨S128x128, .f32⟩ : BufTy).Contents (Elt F) :=
  (shapeCast _ (((extractStridedSlice S1x1x128x128 ![1, 2, 0, 0] · slices_S3x3x128x128_S1x1x128x128_1_2_0_0) : (⟨S3x3x128x128, .f32⟩ : BufTy).Contents (Elt F) → (⟨S1x1x128x128, .f32⟩ : BufTy).Contents (Elt F)) x6) shapeCasts_S1x1x128x128_S128x128)

/-- Layer 2's weight matrix of channel 0. -/
def w20 (x6 : (⟨S3x3x128x128, .f32⟩ : BufTy).Contents (Elt F)) : (⟨S128x128, .f32⟩ : BufTy).Contents (Elt F) :=
  (shapeCast _ (((extractStridedSlice S1x1x128x128 ![2, 0, 0, 0] · slices_S3x3x128x128_S1x1x128x128_2_0_0_0) : (⟨S3x3x128x128, .f32⟩ : BufTy).Contents (Elt F) → (⟨S1x1x128x128, .f32⟩ : BufTy).Contents (Elt F)) x6) shapeCasts_S1x1x128x128_S128x128)

/-- Layer 2's weight matrix of channel 1. -/
def w21 (x6 : (⟨S3x3x128x128, .f32⟩ : BufTy).Contents (Elt F)) : (⟨S128x128, .f32⟩ : BufTy).Contents (Elt F) :=
  (shapeCast _ (((extractStridedSlice S1x1x128x128 ![2, 1, 0, 0] · slices_S3x3x128x128_S1x1x128x128_2_1_0_0) : (⟨S3x3x128x128, .f32⟩ : BufTy).Contents (Elt F) → (⟨S1x1x128x128, .f32⟩ : BufTy).Contents (Elt F)) x6) shapeCasts_S1x1x128x128_S128x128)

/-- Layer 2's weight matrix of channel 2. -/
def w22 (x6 : (⟨S3x3x128x128, .f32⟩ : BufTy).Contents (Elt F)) : (⟨S128x128, .f32⟩ : BufTy).Contents (Elt F) :=
  (shapeCast _ (((extractStridedSlice S1x1x128x128 ![2, 2, 0, 0] · slices_S3x3x128x128_S1x1x128x128_2_2_0_0) : (⟨S3x3x128x128, .f32⟩ : BufTy).Contents (Elt F) → (⟨S1x1x128x128, .f32⟩ : BufTy).Contents (Elt F)) x6) shapeCasts_S1x1x128x128_S128x128)

/-- Layer 0's three channel biases. -/
def b0 (x7 : (⟨S3x3x128, .f32⟩ : BufTy).Contents (Elt F)) : (⟨S3x128, .f32⟩ : BufTy).Contents (Elt F) :=
  (shapeCast _ (((extractStridedSlice S1x3x128 ![0, 0, 0] · slices_S3x3x128_S1x3x128_0_0_0) : (⟨S3x3x128, .f32⟩ : BufTy).Contents (Elt F) → (⟨S1x3x128, .f32⟩ : BufTy).Contents (Elt F)) x7) shapeCasts_S1x3x128_S3x128)

/-- Layer 1's three channel biases. -/
def b1 (x7 : (⟨S3x3x128, .f32⟩ : BufTy).Contents (Elt F)) : (⟨S3x128, .f32⟩ : BufTy).Contents (Elt F) :=
  (shapeCast _ (((extractStridedSlice S1x3x128 ![1, 0, 0] · slices_S3x3x128_S1x3x128_1_0_0) : (⟨S3x3x128, .f32⟩ : BufTy).Contents (Elt F) → (⟨S1x3x128, .f32⟩ : BufTy).Contents (Elt F)) x7) shapeCasts_S1x3x128_S3x128)

/-- Layer 2's three channel biases. -/
def b2 (x7 : (⟨S3x3x128, .f32⟩ : BufTy).Contents (Elt F)) : (⟨S3x128, .f32⟩ : BufTy).Contents (Elt F) :=
  (shapeCast _ (((extractStridedSlice S1x3x128 ![2, 0, 0] · slices_S3x3x128_S1x3x128_2_0_0) : (⟨S3x3x128, .f32⟩ : BufTy).Contents (Elt F) → (⟨S1x3x128, .f32⟩ : BufTy).Contents (Elt F)) x7) shapeCasts_S1x3x128_S3x128)

/-- The mean of the node features over each graph: the features summed into their graphs, over the graphs' node counts (at least one). -/
def poolG (h : (⟨S50000x128, .f32⟩ : BufTy).Contents (Elt F)) (x3 : (⟨S50000, .i32⟩ : BufTy).Contents (Elt F)) : (⟨S2048x128, .f32⟩ : BufTy).Contents (Elt F) :=
  ((Host.divf : (⟨S2048x128, .f32⟩ : BufTy).Contents (Elt F) → (⟨S2048x128, .f32⟩ : BufTy).Contents (Elt F) → (⟨S2048x128, .f32⟩ : BufTy).Contents (Elt F)) (((fun x i u => Host.scatterAdd scatter_S2048x128_S50000x1_S50000x128_1_0_0_1 x i u) : (⟨S2048x128, .f32⟩ : BufTy).Contents (Elt F) → (⟨S50000x1, .i32⟩ : BufTy).Contents (Elt F) → (⟨S50000x128, .f32⟩ : BufTy).Contents (Elt F) → (⟨S2048x128, .f32⟩ : BufTy).Contents (Elt F)) ((broadcastInDim S2048x128 ![] bcast_S_S2048x128 : (⟨S_, .f32⟩ : BufTy).Contents (Elt F) → (⟨S2048x128, .f32⟩ : BufTy).Contents (Elt F)) ((constant S_ .f32 0x00000000#32))) ((broadcastInDim S50000x1 ![0] bcast_S50000_S50000x1_0 : (⟨S50000, .i32⟩ : BufTy).Contents (Elt F) → (⟨S50000x1, .i32⟩ : BufTy).Contents (Elt F)) x3) h) ((broadcastInDim S2048x128 ![0, 1] bcast_S2048x1_S2048x128_0_1 : (⟨S2048x1, .f32⟩ : BufTy).Contents (Elt F) → (⟨S2048x128, .f32⟩ : BufTy).Contents (Elt F)) ((broadcastInDim S2048x1 ![0] bcast_S2048_S2048x1_0 : (⟨S2048, .f32⟩ : BufTy).Contents (Elt F) → (⟨S2048x1, .f32⟩ : BufTy).Contents (Elt F)) ((maximumf : (⟨S2048, .f32⟩ : BufTy).Contents (Elt F) → (⟨S2048, .f32⟩ : BufTy).Contents (Elt F) → (⟨S2048, .f32⟩ : BufTy).Contents (Elt F)) (((fun x i u => Host.scatterAdd scatter_S2048_S50000x1_S50000_n_0_0_1 x i u) : (⟨S2048, .f32⟩ : BufTy).Contents (Elt F) → (⟨S50000x1, .i32⟩ : BufTy).Contents (Elt F) → (⟨S50000, .f32⟩ : BufTy).Contents (Elt F) → (⟨S2048, .f32⟩ : BufTy).Contents (Elt F)) ((broadcastInDim S2048 ![] bcast_S_S2048 : (⟨S_, .f32⟩ : BufTy).Contents (Elt F) → (⟨S2048, .f32⟩ : BufTy).Contents (Elt F)) ((constant S_ .f32 0x00000000#32))) ((broadcastInDim S50000x1 ![0] bcast_S50000_S50000x1_0 : (⟨S50000, .i32⟩ : BufTy).Contents (Elt F) → (⟨S50000x1, .i32⟩ : BufTy).Contents (Elt F)) x3) ((broadcastInDim S50000 ![] bcast_S_S50000 : (⟨S_, .f32⟩ : BufTy).Contents (Elt F) → (⟨S50000, .f32⟩ : BufTy).Contents (Elt F)) ((constant S_ .f32 0x3F800000#32)))) ((broadcastInDim S2048 ![] bcast_S_S2048 : (⟨S_, .f32⟩ : BufTy).Contents (Elt F) → (⟨S2048, .f32⟩ : BufTy).Contents (Elt F)) ((constant S_ .f32 0x3F800000#32)))))))

end Cert.Stages

end
-- ==== Proof.LibDense.lean ====
/-
  General facts, at the exact instance (floats as extended reals), about the operations a dense layer and a row softmax
  are made of, each read at an index written by its coordinates:
  a matrix product into a zero accumulator is the sum over the contracted axis of the products of the row's and the
  column's entries; a vector cast to one row and broadcast down the rows is the vector at the column; a vector cast
  to one column and broadcast along the rows is the vector at the row; a sum and a maximum over the second axis of a
  matrix are the sum and the maximum of the row's entries.
-/
import Idealize.ShloMosaic.PureOps.Ideal.Laws
import Idealize.ShloMosaic.Lib.ValueIdx
import Idealize.ShloMosaic.Lib.ValueLayout
import Idealize.ShloMosaic.Lib.Pipeline.Value

noncomputable section

namespace Cert.LibDense

open Idealize.ShloMosaic Idealize.ShloMosaic.ValueIdx

variable {α : Type} {M K N : Nat}

/-- A matrix product of an [M, K] by a [K, N] matrix into the zero accumulator, read at (p, q): the sum over the
    contracted coordinate k of x(p, k) · w(k, q). The four hypotheses say which operand coordinate each of the
    product's index maps takes from the output index and which from the contraction index. -/
theorem matmul_zero_rc {φ₁ φ₂ : FTy} (D : DotDims ⟨2, ![M, K]⟩ ⟨2, ![K, N]⟩ ⟨2, ![M, N]⟩) (hr : D.contr.rank = 1)
    (hs : D.contr.size ⟨0, by omega⟩ = K)
    (hl0 : ∀ (i : (⟨2, ![M, N]⟩ : Shape).Idx) (c : D.contr.Idx), (D.lhsIdx i c 0).val = (i 0).val)
    (hl1 : ∀ (i : (⟨2, ![M, N]⟩ : Shape).Idx) (c : D.contr.Idx), (D.lhsIdx i c 1).val = (c ⟨0, by omega⟩).val)
    (hr0 : ∀ (i : (⟨2, ![M, N]⟩ : Shape).Idx) (c : D.contr.Idx), (D.rhsIdx i c 0).val = (c ⟨0, by omega⟩).val)
    (hr1 : ∀ (i : (⟨2, ![M, N]⟩ : Shape).Idx) (c : D.contr.Idx), (D.rhsIdx i c 1).val = (i 1).val)
    (prec : Option ContractPrecision)
    (x : FVec Ideal ⟨2, ![M, K]⟩ φ₁) (w : FVec Ideal ⟨2, ![K, N]⟩ φ₂) (p : Fin M) (q : Fin N) :
    matmul D prec x w (constant ⟨2, ![M, N]⟩ .f32 0x00000000#32) (ix2 p q) = ∑ k : Fin K, x (ix2 p k) * w (ix2 k q) := by
  refine (Ideal.matmul_constant_zero_apply D prec x w (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

/-- An [N] vector cast to one row [1, N] and broadcast to [M, N] reads, at (p, q), the vector at q. -/
theorem rowBroadcast_rc (b : (⟨1, ![N]⟩ : Shape).Idx → α) (h1 : (⟨1, ![N]⟩ : Shape).ShapeCasts ⟨2, ![1, N]⟩)
    (h2 : (⟨2, ![1, N]⟩ : Shape).Broadcasts ⟨2, ![M, N]⟩) (p : Fin M) (q : Fin N) :
    broadcastTo ⟨2, ![M, N]⟩ (shapeCast ⟨2, ![1, N]⟩ b h1) h2 (ix2 p q) = b (ix1 q) :=
  (broadcastTo_1b_ab_apply _ h2 p q).trans (shapeCast_a_1a_apply b h1 0 q)

/-- An [M] vector cast to one column [M, 1] reads, at (p, u), the vector at p. -/
theorem shapeCast_a_a1_apply (v : (⟨1, ![M]⟩ : Shape).Idx → α) (h : (⟨1, ![M]⟩ : Shape).ShapeCasts ⟨2, ![M, 1]⟩)
    (p : Fin M) (u : Fin 1) : shapeCast ⟨2, ![M, 1]⟩ v h (ix2 p u) = v (ix1 p) :=
  shapeCast_apply v h _ _ (by
    have hu : u.val = 0 := by omega
    rw [Shape.rowMajor_val_two, Shape.rowMajor_val_one]
    show p.val = p.val * 1 + u.val
    omega)

/-- An [M, 1] column cast to the [M] vector reads, at p, the column at (p, 0). -/
theorem shapeCast_a1_a_apply (v : (⟨2, ![M, 1]⟩ : Shape).Idx → α) (h : (⟨2, ![M, 1]⟩ : Shape).ShapeCasts ⟨1, ![M]⟩)
    (p : Fin M) : shapeCast ⟨1, ![M]⟩ v h (ix1 p) = v (ix2 p (0 : Fin 1)) :=
  shapeCast_apply v h _ _ (by
    rw [Shape.rowMajor_val_two, Shape.rowMajor_val_one]
    show p.val * 1 + 0 = p.val
    omega)

/-- An [M, 1] column broadcast along the rows to [M, N] reads, at (p, q), the column at (p, 0). -/
theorem broadcastTo_a1_ab_apply (v : (⟨2, ![M, 1]⟩ : Shape).Idx → α) (h : (⟨2, ![M, 1]⟩ : Shape).Broadcasts ⟨2, ![M, N]⟩)
    (p : Fin M) (q : Fin N) : broadcastTo ⟨2, ![M, N]⟩ v h (ix2 p q) = v (ix2 p (0 : Fin 1)) := by
  refine broadcastTo_apply v h (ix2 p q) (ix2 p (0 : Fin 1)) fun ax => ?_
  match ax with
  | ⟨0, _⟩ =>
    show p.val = if M = 1 then 0 else p.val
    split
    · have := p.isLt; omega
    · rfl
  | ⟨1, _⟩ => rfl

/-- An [M] vector cast to one column and broadcast along the rows to [M, N] reads, at (p, q), the vector at p. -/
theorem colBroadcast_rc (v : (⟨1, ![M]⟩ : Shape).Idx → α) (h1 : (⟨1, ![M]⟩ : Shape).ShapeCasts ⟨2, ![M, 1]⟩)
    (h2 : (⟨2, ![M, 1]⟩ : Shape).Broadcasts ⟨2, ![M, N]⟩) (p : Fin M) (q : Fin N) :
    broadcastTo ⟨2, ![M, N]⟩ (shapeCast ⟨2, ![M, 1]⟩ v h1) h2 (ix2 p q) = v (ix1 p) :=
  (broadcastTo_a1_ab_apply _ h2 p q).trans (shapeCast_a_a1_apply v h1 p 0)

/-- The index of an [M, N] matrix that drops to p when the second axis is reduced, with k put on that axis, is (p, k). -/
theorem lift_row (h : (⟨2, ![M, N]⟩ : Shape).Reduces [1] ⟨1, ![M]⟩) (p : Fin M) (k : Fin N) :
    h.lift (ix1 p) k = ix2 p k := by
  funext a
  apply Fin.ext
  match a with
  | ⟨0, _⟩ => rfl
  | ⟨1, _⟩ => rfl

/-- The sum over the second axis of an [M, N] matrix, read at row p: the sum of the row's entries. -/
theorem rowSum_apply (src : FVec Ideal ⟨2, ![M, N]⟩ .f32) (h : (⟨2, ![M, N]⟩ : Shape).Reduces [1] ⟨1, ![M]⟩)
    (hφ : FKind.Formats .f32) (hacc : (0x00000000#32 : BitVec 32) = 0x00000000#32) (p : Fin M) :
    multiReduction .add [1] ⟨1, ![M]⟩ src 0x00000000#32 h hφ hacc (ix1 p) = ∑ k : Fin N, src (ix2 p k) := by
  refine (Ideal.multiReduction_add_single src 0x00000000#32 h hφ hacc (ix1 p)).trans ?_
  exact Finset.sum_congr rfl fun k _ => congrArg src (lift_row h p k)

/-- The maximum over the second axis of an [M, N] matrix, read at row p: the fold of max, from minus infinity's
    pattern, over the row's entries. -/
theorem rowMax_apply (src : FVec Ideal ⟨2, ![M, N]⟩ .f32) (h : (⟨2, ![M, N]⟩ : Shape).Reduces [1] ⟨1, ![M]⟩)
    (hφ : FKind.Formats .f32) (hacc : (0xFF800000#32 : BitVec 32) = 0xFF800000#32) (p : Fin M) :
    multiReduction .maximumf [1] ⟨1, ![M]⟩ src 0xFF800000#32 h hφ hacc (ix1 p)
      = (Finset.univ : Finset (Fin N)).fold max (Ideal.ofBits .f32 0xFF800000#32) (fun k => src (ix2 p k)) := by
  refine (Ideal.multiReduction_maximumf_single src 0xFF800000#32 h hφ hacc (ix1 p)).trans ?_
  have e : (src ∘ h.lift (ix1 p)) = fun k => src (ix2 p k) := funext fun k => congrArg src (lift_row h p k)
  rw [e]
  rfl

/-- The host's reduction by maximum over the second axis of an [M, N] matrix, read at row p: the same fold, from the
    initial value's one element. -/
theorem hostRowMax_apply {u : Shape} (x : (⟨2, ![M, N]⟩ : Shape).Idx → EReal) (init : u.Idx → EReal)
    (h' : (⟨2, ![M, N]⟩ : Shape).ReducesTo [1] ⟨1, ![M]⟩) (h : (⟨2, ![M, N]⟩ : Shape).Reduces [1] ⟨1, ![M]⟩)
    (hu : 0 < u.numel) (p : Fin M) :
    Host.reduce (FloatOps.maximumf (F := Ideal) (φ := .f32)) x init h' hu (ix1 p)
      = (Finset.univ : Finset (Fin N)).fold max (init (Shape.Idx.first hu)) (fun k => x (ix2 p k)) := by
  refine (Host.reduce_eq_fold_single _ x init h' h hu (ix1 p)).trans ?_
  have e : (x ∘ h.lift (ix1 p)) = fun k => x (ix2 p k) := funext fun k => congrArg x (lift_row h p k)
  rw [e]
  rfl

/-! ## What a dense layer and a row softmax compute -/

/-- The f32 zero word's value (the rectifier's threshold and the sums' initial value). -/
abbrev zeroWord : EReal := Ideal.ofBits .f32 0x00000000#32

/-- Minus infinity's f32 word's value (the maximum's initial value). -/
abbrev negInfWord : EReal := Ideal.ofBits .f32 0xFF800000#32

/-- An affine map's entry: at (r, j), the sum over k of x(r, k) · w(k, j), plus b(j). -/
def affine (x : (⟨2, ![M, K]⟩ : Shape).Idx → EReal) (w : (⟨2, ![K, N]⟩ : Shape).Idx → EReal)
    (b : (⟨1, ![N]⟩ : Shape).Idx → EReal) : (⟨2, ![M, N]⟩ : Shape).Idx → EReal :=
  fun i => ∑ k : Fin K, x (ix2 (n0 := M) (n1 := K) ⟨(i 0).val, (i 0).isLt⟩ k) * w (ix2 (n0 := K) (n1 := N) k ⟨(i 1).val, (i 1).isLt⟩)
    + b (ix1 (n := N) ⟨(i 1).val, (i 1).isLt⟩)

theorem affine_apply (x : (⟨2, ![M, K]⟩ : Shape).Idx → EReal) (w : (⟨2, ![K, N]⟩ : Shape).Idx → EReal)
    (b : (⟨1, ![N]⟩ : Shape).Idx → EReal) (p : Fin M) (q : Fin N) :
    affine x w b (ix2 p q) = ∑ k : Fin K, x (ix2 p k) * w (ix2 k q) + b (ix1 q) := rfl

/-- One dense layer with the rectifier: the affine map's entry or the zero word's value, whichever is larger. -/
def layer (x : (⟨2, ![M, K]⟩ : Shape).Idx → EReal) (w : (⟨2, ![K, N]⟩ : Shape).Idx → EReal)
    (b : (⟨1, ![N]⟩ : Shape).Idx → EReal) : (⟨2, ![M, N]⟩ : Shape).Idx → EReal :=
  fun i => max (affine x w b i) zeroWord

theorem layer_apply (x : (⟨2, ![M, K]⟩ : Shape).Idx → EReal) (w : (⟨2, ![K, N]⟩ : Shape).Idx → EReal)
    (b : (⟨1, ![N]⟩ : Shape).Idx → EReal) (p : Fin M) (q : Fin N) :
    layer x w b (ix2 p q) = max (∑ k : Fin K, x (ix2 p k) * w (ix2 k q) + b (ix1 q)) zeroWord := rfl

/-- A row's largest logit as both programs take it: the fold of max from minus infinity's word over the row, once more
    against that word. -/
def rowTop (l : Fin N → EReal) : EReal := max negInfWord ((Finset.univ : Finset (Fin N)).fold max negInfWord l)

/-- A softmax row as both programs compute it: each logit less the row's largest, exponentiated, over the sum of those
    exponentials (the exact quotient of extended reals). -/
def softmaxRow (l : Fin N → EReal) (v : Fin N) : EReal :=
  Ideal.div (Ideal.exp (l v - rowTop l)) (∑ u : Fin N, Ideal.exp (l u - rowTop l))

end Cert.LibDense

end
-- ==== Proof.Spec.lean ====
/-
  What the three kinds of kernel in this program leave in their result arrays, entry by entry, at exact arithmetic
  (floats as extended reals), as functions of the arrays they are given.

  An edge's message, column j: starting from the zero word, for each of the three bond channels c in turn, add
  ew(e, c) times the product of the edge's gathered source row with column j of the channel's weight matrix,
  Σ_k hs(e, k) · w(c, k, j).
  A node's update, column j: the aggregated message plus the sum of the three channel biases at j, rectified against
  the zero word in the first two layers, plus the node's previous feature.
  The readout: two affine maps, one after the other.
-/
import Idealize.ShloMosaic.PureOps.Ideal.Laws
import Idealize.ShloMosaic.Lib.ValueIdx
import proofs.«101888_j76184129896719_1_alg».proof.Proof.LibDense

noncomputable section

namespace Cert.Spec

open Idealize.ShloMosaic Idealize.ShloMosaic.ValueIdx

/-- The f32 zero word's value: the accumulators' starting value and the rectifier's threshold. -/
abbrev zeroWord : EReal := Ideal.ofBits .f32 0x00000000#32

/-- Edge e's message at column j, from the gathered source rows, the edge weights and one layer's three weight
    matrices. -/
def msgAt (hs : (⟨2, ![600000, 128]⟩ : Shape).Idx → EReal) (ew : (⟨2, ![600000, 3]⟩ : Shape).Idx → EReal)
    (w : (⟨3, ![3, 128, 128]⟩ : Shape).Idx → EReal) (e : Fin 600000) (j : Fin 128) : EReal :=
  ((zeroWord + ew (ix2 e (0 : Fin 3)) * ∑ k : Fin 128, hs (ix2 e k) * w (ix3 (0 : Fin 3) k j))
      + ew (ix2 e (1 : Fin 3)) * ∑ k : Fin 128, hs (ix2 e k) * w (ix3 (1 : Fin 3) k j))
    + ew (ix2 e (2 : Fin 3)) * ∑ k : Fin 128, hs (ix2 e k) * w (ix3 (2 : Fin 3) k j)

/-- The array of messages. -/
def msg (hs : (⟨2, ![600000, 128]⟩ : Shape).Idx → EReal) (ew : (⟨2, ![600000, 3]⟩ : Shape).Idx → EReal)
    (w : (⟨3, ![3, 128, 128]⟩ : Shape).Idx → EReal) : (⟨2, ![600000, 128]⟩ : Shape).Idx → EReal :=
  fun i => msgAt hs ew w ⟨(i 0).val, (i 0).isLt⟩ ⟨(i 1).val, (i 1).isLt⟩

theorem msg_apply (hs : (⟨2, ![600000, 128]⟩ : Shape).Idx → EReal) (ew : (⟨2, ![600000, 3]⟩ : Shape).Idx → EReal)
    (w : (⟨3, ![3, 128, 128]⟩ : Shape).Idx → EReal) (e : Fin 600000) (j : Fin 128) :
    msg hs ew w (ix2 e j) = msgAt hs ew w e j := rfl

/-- Node n's updated feature at column j; `rect` says whether the layer rectifies. -/
def nodeAt (rect : Bool) (agg : (⟨2, ![50000, 128]⟩ : Shape).Idx → EReal) (b : (⟨2, ![3, 128]⟩ : Shape).Idx → EReal)
    (h : (⟨2, ![50000, 128]⟩ : Shape).Idx → EReal) (n : Fin 50000) (j : Fin 128) : EReal :=
  (if rect then max (agg (ix2 n j) + ∑ k : Fin 3, b (ix2 k j)) zeroWord else agg (ix2 n j) + ∑ k : Fin 3, b (ix2 k j))
    + h (ix2 n j)

/-- The array of updated features. -/
def node (rect : Bool) (agg : (⟨2, ![50000, 128]⟩ : Shape).Idx → EReal) (b : (⟨2, ![3, 128]⟩ : Shape).Idx → EReal)
    (h : (⟨2, ![50000, 128]⟩ : Shape).Idx → EReal) : (⟨2, ![50000, 128]⟩ : Shape).Idx → EReal :=
  fun i => nodeAt rect agg b h ⟨(i 0).val, (i 0).isLt⟩ ⟨(i 1).val, (i 1).isLt⟩

theorem node_apply (rect : Bool) (agg : (⟨2, ![50000, 128]⟩ : Shape).Idx → EReal) (b : (⟨2, ![3, 128]⟩ : Shape).Idx → EReal)
    (h : (⟨2, ![50000, 128]⟩ : Shape).Idx → EReal) (n : Fin 50000) (j : Fin 128) :
    node rect agg b h (ix2 n j) = nodeAt rect agg b h n j := rfl

/-- The readout of the pooled graph features: an affine map into 128 columns, then an affine map into one. -/
def readout (hg : (⟨2, ![2048, 128]⟩ : Shape).Idx → EReal) (w1 : (⟨2, ![128, 128]⟩ : Shape).Idx → EReal)
    (b1 : (⟨1, ![128]⟩ : Shape).Idx → EReal) (w2 : (⟨2, ![128, 1]⟩ : Shape).Idx → EReal)
    (b2 : (⟨1, ![1]⟩ : Shape).Idx → EReal) : (⟨2, ![2048, 1]⟩ : Shape).Idx → EReal :=
  Cert.LibDense.affine (Cert.LibDense.affine hg w1 b1) w2 b2

end Cert.Spec

end
-- ==== Proof.LayerSpec.lean ====
/-
  One message-passing layer, and the whole network, as functions of the arrays read — the common form both programs
  are brought to. A layer: every edge's message from its gathered source row, the edge weights and the layer's three
  weight matrices; the messages added into their destination nodes; the node update with the layer's biases and the
  previous features. The network: three layers from the atom features (the first two rectify), the mean pooling over
  the graphs, the readout.
-/
import proofs.«101888_j76184129896719_1_alg».proof.KernelIdeal
import proofs.«101888_j76184129896719_1_alg».proof.Proof.Gen.KernelIdeal
import proofs.«101888_j76184129896719_1_alg».proof.Proof.Stages
import proofs.«101888_j76184129896719_1_alg».proof.Proof.Spec

noncomputable section

namespace Cert.LayerSpec

open Idealize.ShloMosaic Cert.ReferenceIdeal.Gen Cert.KernelIdeal.Gen

/-- One layer's three weight matrices as the kernel program slices them out of the weight array: layer l's
    [3, 128, 128] block. -/
def kW0 (x6 : FVec Ideal Cert.KernelIdeal.S3x3x128x128 .f32) : FVec Ideal Cert.KernelIdeal.S3x128x128 .f32 :=
  shapeCast _ (extractStridedSlice Cert.KernelIdeal.S1x3x128x128 ![0, 0, 0, 0] x6 Cert.KernelIdeal.Gen.slices_S3x3x128x128_S1x3x128x128_0_0_0_0) Cert.KernelIdeal.Gen.shapeCasts_S1x3x128x128_S3x128x128
def kW1 (x6 : FVec Ideal Cert.KernelIdeal.S3x3x128x128 .f32) : FVec Ideal Cert.KernelIdeal.S3x128x128 .f32 :=
  shapeCast _ (extractStridedSlice Cert.KernelIdeal.S1x3x128x128 ![1, 0, 0, 0] x6 Cert.KernelIdeal.Gen.slices_S3x3x128x128_S1x3x128x128_1_0_0_0) Cert.KernelIdeal.Gen.shapeCasts_S1x3x128x128_S3x128x128
def kW2 (x6 : FVec Ideal Cert.KernelIdeal.S3x3x128x128 .f32) : FVec Ideal Cert.KernelIdeal.S3x128x128 .f32 :=
  shapeCast _ (extractStridedSlice Cert.KernelIdeal.S1x3x128x128 ![2, 0, 0, 0] x6 Cert.KernelIdeal.Gen.slices_S3x3x128x128_S1x3x128x128_2_0_0_0) Cert.KernelIdeal.Gen.shapeCasts_S1x3x128x128_S3x128x128

/-- One layer: `rect` says whether it rectifies. -/
def layer (rect : Bool) (H : FVec Ideal Cert.ReferenceIdeal.S50000x128 .f32) (v1 v3 : IVec Cert.ReferenceIdeal.S600000 32)
    (EW : FVec Ideal Cert.ReferenceIdeal.S600000x3 .f32) (W3 : FVec Ideal Cert.KernelIdeal.S3x128x128 .f32)
    (B3 : FVec Ideal Cert.ReferenceIdeal.S3x128 .f32) : FVec Ideal Cert.ReferenceIdeal.S50000x128 .f32 :=
  Cert.Spec.node rect
    (Host.scatterAdd (F := Ideal) (φ := .f32) Cert.ReferenceIdeal.scatter_S50000x128_S600000x1_S600000x128_1_0_0_1 (Cert.Stages.zerosN (F := Ideal)) (Cert.Stages.dstCol (F := Ideal) v3)
      (Cert.Spec.msg (Host.gather Cert.KernelIdeal.gather_S50000x128_S600000x1_S600000x128_1_0_n_n_0_1_1128 H (Cert.Stages.srcCol (F := Ideal) v1)) EW W3))
    B3 H

/-- The whole network's result from the twelve argument arrays. -/
def network (x0 : IVec Cert.ReferenceIdeal.S50000x9 32) (x1 : IVec Cert.ReferenceIdeal.S2x600000 32) (x2 : IVec Cert.ReferenceIdeal.S600000x3 32)
    (x3 : IVec Cert.ReferenceIdeal.S50000 32) (x4 : FVec Ideal Cert.ReferenceIdeal.S9x100x128 .f32) (x5 : FVec Ideal Cert.ReferenceIdeal.S3x3x8x3 .f32)
    (x6 : FVec Ideal Cert.ReferenceIdeal.S3x3x128x128 .f32) (x7 : FVec Ideal Cert.ReferenceIdeal.S3x3x128 .f32)
    (x8 : FVec Ideal Cert.ReferenceIdeal.S128x128 .f32) (x9 : FVec Ideal Cert.ReferenceIdeal.S128 .f32)
    (x10 : FVec Ideal Cert.ReferenceIdeal.S128x1 .f32) (x11 : FVec Ideal Cert.ReferenceIdeal.S1 .f32) : FVec Ideal Cert.ReferenceIdeal.S2048x1 .f32 :=
  Cert.Spec.readout
    (Cert.Stages.poolG (F := Ideal)
      (layer false
        (layer true
          (layer true (Cert.Stages.atomEnc (F := Ideal) x0 x4) (Cert.Stages.srcRow (F := Ideal) x1) (Cert.Stages.dstRow (F := Ideal) x1)
            (Cert.Stages.ew0 (F := Ideal) x2 x5) (kW0 x6) (Cert.Stages.b0 (F := Ideal) x7))
          (Cert.Stages.srcRow (F := Ideal) x1) (Cert.Stages.dstRow (F := Ideal) x1) (Cert.Stages.ew1 (F := Ideal) x2 x5) (kW1 x6) (Cert.Stages.b1 (F := Ideal) x7))
        (Cert.Stages.srcRow (F := Ideal) x1) (Cert.Stages.dstRow (F := Ideal) x1) (Cert.Stages.ew2 (F := Ideal) x2 x5) (kW2 x6) (Cert.Stages.b2 (F := Ideal) x7))
      x3)
    x8 x9 x10 x11

end Cert.LayerSpec

end
-- ==== Proof.KHost0.lean ====
/-
  The kernel program's first stretch of host operations, read at the buffers the first edge region and the later
  segments take, for any contents W of the buffers when the stretch starts: the edges' source and
  destination rows and the first layer's three matrices, each as the closed term of the argument arrays; and every buffer
  the stretch does not write as it was. (The atom features, the first layer's edge weights and the gathered source rows
  are read in modules of their own.)
-/
import proofs.«101888_j76184129896719_1_alg».proof.Proof.Gen.KernelIdeal.Launch
import proofs.«101888_j76184129896719_1_alg».proof.Proof.Stages
import proofs.«101888_j76184129896719_1_alg».proof.Proof.LayerSpec
import Idealize.ShloMosaic.Lib.StableHlo.Run
import Idealize.ShloMosaic.PureOps.Ideal.Laws

set_option maxRecDepth 16384

noncomputable section

namespace Cert.KernelIdeal.KHostA

open Idealize.ShloMosaic Idealize.ShloMosaic.TcCoe Idealize.ShloMosaic.StableHlo
open Cert.KernelIdeal Cert.KernelIdeal.Gen

variable (W : Valuation τ sig (Elt Ideal))

/-- The edges' source nodes. -/
theorem h0_v1 : StableHlo.after (hostOps0 (F := Ideal)) W (Proc.devRef .tc main_v1)
    = Cert.Stages.srcRow (F := Ideal) (W (Proc.devRef .tc main_arg1)) := by
  after_results_simp
  rfl

/-- The edges' destination nodes. -/
theorem h0_v3 : StableHlo.after (hostOps0 (F := Ideal)) W (Proc.devRef .tc main_v3)
    = Cert.Stages.dstRow (F := Ideal) (W (Proc.devRef .tc main_arg1)) := by
  after_results_simp
  rfl

/-- The first layer's three matrices. -/
theorem h0_v154 : StableHlo.after (hostOps0 (F := Ideal)) W (Proc.devRef .tc main_v154)
    = Cert.LayerSpec.kW0 (W (Proc.devRef .tc main_arg6)) := by
  after_results_simp
  rfl

/-- The buffers the stretch's operations write. -/
abbrev h0_written : List (Ref sig .tc) := [main_v0, main_v1, main_v2, main_v3, main_v4, main_v5, main_v6, main_v7, main_c, main_v8, main_v9, main_c_0, main_v10, main_v11, main_v12, main_v13, main_v14, main_v15, main_v16, main_v17, main_v18, main_c_1, main_v19, main_v20, main_c_2, main_v21, main_v22, main_v23, main_v24, main_v25, main_v26, main_v27, main_v28, main_v29, main_v30, main_c_3, main_v31, main_v32, main_c_4, main_v33, main_v34, main_v35, main_v36, main_v37, main_v38, main_v39, main_v40, main_v41, main_v42, main_c_5, main_v43, main_v44, main_c_6, main_v45, main_v46, main_v47, main_v48, main_v49, main_v50, main_v51, main_v52, main_v53, main_v54, main_c_7, main_v55, main_v56, main_c_8, main_v57, main_v58, main_v59, main_v60, main_v61, main_v62, main_v63, main_v64, main_v65, main_v66, main_c_9, main_v67, main_v68, main_c_10, main_v69, main_v70, main_v71, main_v72, main_v73, main_v74, main_v75, main_v76, main_v77, main_v78, main_c_11, main_v79, main_v80, main_c_12, main_v81, main_v82, main_v83, main_v84, main_v85, main_v86, main_v87, main_v88, main_v89, main_v90, main_c_13, main_v91, main_v92, main_c_14, main_v93, main_v94, main_v95, main_v96, main_v97, main_v98, main_v99, main_v100, main_v101, main_v102, main_c_15, main_v103, main_v104, main_c_16, main_v105, main_v106, main_v107, main_v108, main_v109, main_v110, main_v111, main_v112, main_v113, main_v114, main_c_17, main_v115, main_v116, main_c_18, main_v117, main_v118, main_v119, main_v120, main_v121, main_v122, main_v123, main_v124, main_v125, main_c_19, main_v126, main_v127, main_c_20, main_v128, main_v129, main_v130, main_v131, main_v132, main_v133, main_v134, main_v135, main_v136, main_v137, main_c_21, main_v138, main_v139, main_c_22, main_v140, main_v141, main_v142, main_v143, main_v144, main_v145, main_c_23, main_v146, main_v147, main_c_24, main_v148, main_v149, main_v150, main_v151, main_v152, main_v153, main_v154]

/-- Every operation of the stretch writes one of them. -/
theorem h0_writes : (hostOps0 (F := Ideal) : List (HloOp τ sig (Elt Ideal))).Forall
    fun op => op.writes ⊆ (h0_written.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- A buffer the stretch does not write holds after it what it held before. -/
theorem h0_keep (r : Ref sig .tc) (h : r ∉ h0_written) :
    StableHlo.after (hostOps0 (F := Ideal)) W (Proc.devRef .tc r) = W (Proc.devRef .tc r) :=
  StableHlo.after_of_writes_sub hostOps0 W h0_writes h

end Cert.KernelIdeal.KHostA

end
-- ==== Proof.KHost0Atom.lean ====
/-
  The kernel program's first stretch of host operations, read at one buffer for any contents W of the buffers when the
  stretch starts: the atom features, as the closed term of the argument arrays.
-/
import proofs.«101888_j76184129896719_1_alg».proof.Proof.Gen.KernelIdeal.Launch
import proofs.«101888_j76184129896719_1_alg».proof.Proof.Stages
import proofs.«101888_j76184129896719_1_alg».proof.Proof.LayerSpec
import Idealize.ShloMosaic.Lib.StableHlo.Run
import Idealize.ShloMosaic.PureOps.Ideal.Laws

set_option maxRecDepth 16384

noncomputable section

namespace Cert.KernelIdeal.KHostA

open Idealize.ShloMosaic Idealize.ShloMosaic.TcCoe Idealize.ShloMosaic.StableHlo
open Cert.KernelIdeal Cert.KernelIdeal.Gen

variable (W : Valuation τ sig (Elt Ideal))

set_option maxHeartbeats 40000000 in
/-- The atom features. -/
theorem h0_v110 : StableHlo.after (hostOps0 (F := Ideal)) W (Proc.devRef .tc main_v110)
    = Cert.Stages.atomEnc (F := Ideal) (W (Proc.devRef .tc main_arg0)) (W (Proc.devRef .tc main_arg4)) := by
  after_results_simp
  rfl

end Cert.KernelIdeal.KHostA

end
-- ==== Proof.KHost0Weights.lean ====
/-
  The kernel program's first stretch of host operations, read at one buffer for any contents W of the buffers when the
  stretch starts: the first layer's edge weights, as the closed term of the argument arrays.
-/
import proofs.«101888_j76184129896719_1_alg».proof.Proof.Gen.KernelIdeal.Launch
import proofs.«101888_j76184129896719_1_alg».proof.Proof.Stages
import proofs.«101888_j76184129896719_1_alg».proof.Proof.LayerSpec
import Idealize.ShloMosaic.Lib.StableHlo.Run
import Idealize.ShloMosaic.PureOps.Ideal.Laws

set_option maxRecDepth 16384

noncomputable section

namespace Cert.KernelIdeal.KHostA

open Idealize.ShloMosaic Idealize.ShloMosaic.TcCoe Idealize.ShloMosaic.StableHlo
open Cert.KernelIdeal Cert.KernelIdeal.Gen

variable (W : Valuation τ sig (Elt Ideal))

set_option maxHeartbeats 40000000 in
/-- The first layer's edge weights. -/
theorem h0_v145 : StableHlo.after (hostOps0 (F := Ideal)) W (Proc.devRef .tc main_v145)
    = Cert.Stages.ew0 (F := Ideal) (W (Proc.devRef .tc main_arg2)) (W (Proc.devRef .tc main_arg5)) := by
  after_results_simp
  rfl

end Cert.KernelIdeal.KHostA

end
-- ==== Proof.KHost0Gather.lean ====
/-
  The kernel program's first stretch of host operations, read at one buffer for any contents W of the buffers when the
  stretch starts: the atom features gathered at the edges' source nodes, as the closed term of the argument arrays.
-/
import proofs.«101888_j76184129896719_1_alg».proof.Proof.Gen.KernelIdeal.Launch
import proofs.«101888_j76184129896719_1_alg».proof.Proof.Stages
import proofs.«101888_j76184129896719_1_alg».proof.Proof.LayerSpec
import Idealize.ShloMosaic.Lib.StableHlo.Run
import Idealize.ShloMosaic.PureOps.Ideal.Laws

set_option maxRecDepth 16384

noncomputable section

namespace Cert.KernelIdeal.KHostA

open Idealize.ShloMosaic Idealize.ShloMosaic.TcCoe Idealize.ShloMosaic.StableHlo
open Cert.KernelIdeal Cert.KernelIdeal.Gen

variable (W : Valuation τ sig (Elt Ideal))

set_option maxHeartbeats 40000000 in
/-- The atom features gathered at the edges' source nodes. -/
theorem h0_v152 : StableHlo.after (hostOps0 (F := Ideal)) W (Proc.devRef .tc main_v152)
    = Host.gather Cert.KernelIdeal.gather_S50000x128_S600000x1_S600000x128_1_0_n_n_0_1_1128 (Cert.Stages.atomEnc (F := Ideal) (W (Proc.devRef .tc main_arg0)) (W (Proc.devRef .tc main_arg4)))
        (Cert.Stages.srcCol (F := Ideal) (Cert.Stages.srcRow (F := Ideal) (W (Proc.devRef .tc main_arg1)))) := by
  after_results_simp
  rfl

end Cert.KernelIdeal.KHostA

end
-- ==== Proof.KHost1.lean ====
/-
  The kernel program's second stretch of host operations (after the first edge region), read for any contents W of
  the buffers when it starts: the messages added into their destination nodes, the first layer's biases, and every
  buffer the stretch does not write as it was.
-/
import proofs.«101888_j76184129896719_1_alg».proof.Proof.Gen.KernelIdeal.Launch
import proofs.«101888_j76184129896719_1_alg».proof.Proof.Stages
import proofs.«101888_j76184129896719_1_alg».proof.Proof.LayerSpec
import Idealize.ShloMosaic.Lib.StableHlo.Run
import Idealize.ShloMosaic.PureOps.Ideal.Laws

set_option maxRecDepth 16384

noncomputable section

namespace Cert.KernelIdeal.KHostA

open Idealize.ShloMosaic Idealize.ShloMosaic.TcCoe Idealize.ShloMosaic.StableHlo
open Cert.KernelIdeal Cert.KernelIdeal.Gen

variable (W : Valuation τ sig (Elt Ideal))

/-- The messages added into their destination nodes. -/
theorem h1_v158 : StableHlo.after (hostOps1 (F := Ideal)) W (Proc.devRef .tc main_v158)
    = Host.scatterAdd (F := Ideal) (φ := .f32) Cert.ReferenceIdeal.scatter_S50000x128_S600000x1_S600000x128_1_0_0_1 (Cert.Stages.zerosN (F := Ideal))
        (Cert.Stages.dstCol (F := Ideal) (W (Proc.devRef .tc main_v3))) (W (Proc.devRef .tc main_v155)) := by
  after_results_simp
  rfl

/-- The first layer's biases. -/
theorem h1_v160 : StableHlo.after (hostOps1 (F := Ideal)) W (Proc.devRef .tc main_v160)
    = Cert.Stages.b0 (F := Ideal) (W (Proc.devRef .tc main_arg7)) := by
  after_results_simp
  rfl

/-- The buffers the stretch's operations write. -/
abbrev h1_written : List (Ref sig .tc) := [main_cst, main_v156, main_v157, main_v158, main_v159, main_v160]

/-- Every operation of the stretch writes one of them. -/
theorem h1_writes : (hostOps1 (F := Ideal) : List (HloOp τ sig (Elt Ideal))).Forall
    fun op => op.writes ⊆ (h1_written.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- A buffer the stretch does not write holds after it what it held before. -/
theorem h1_keep (r : Ref sig .tc) (h : r ∉ h1_written) :
    StableHlo.after (hostOps1 (F := Ideal)) W (Proc.devRef .tc r) = W (Proc.devRef .tc r) :=
  StableHlo.after_of_writes_sub hostOps1 W h1_writes h

end Cert.KernelIdeal.KHostA

end
-- ==== Proof.KHost2.lean ====
/-
  The kernel program's third stretch of host operations (before the second edge region), read for any contents W of
  the buffers when it starts: the second layer's edge weights, the node features gathered at the edges' source nodes, the
  second layer's three matrices, and every buffer the stretch does not write as it was.
-/
import proofs.«101888_j76184129896719_1_alg».proof.Proof.Gen.KernelIdeal.Launch
import proofs.«101888_j76184129896719_1_alg».proof.Proof.Stages
import proofs.«101888_j76184129896719_1_alg».proof.Proof.LayerSpec
import Idealize.ShloMosaic.Lib.StableHlo.Run
import Idealize.ShloMosaic.PureOps.Ideal.Laws

set_option maxRecDepth 16384

noncomputable section

namespace Cert.KernelIdeal.KHostA

open Idealize.ShloMosaic Idealize.ShloMosaic.TcCoe Idealize.ShloMosaic.StableHlo
open Cert.KernelIdeal Cert.KernelIdeal.Gen

variable (W : Valuation τ sig (Elt Ideal))

/-- The second layer's edge weights. -/
theorem h2_v196 : StableHlo.after (hostOps2 (F := Ideal)) W (Proc.devRef .tc main_v196)
    = Cert.Stages.ew1 (F := Ideal) (W (Proc.devRef .tc main_arg2)) (W (Proc.devRef .tc main_arg5)) := by
  after_results_simp
  rfl

/-- The node features gathered at the edges' source nodes. -/
theorem h2_v203 : StableHlo.after (hostOps2 (F := Ideal)) W (Proc.devRef .tc main_v203)
    = Host.gather Cert.KernelIdeal.gather_S50000x128_S600000x1_S600000x128_1_0_n_n_0_1_1128 (W (Proc.devRef .tc main_v161))
        (Cert.Stages.srcCol (F := Ideal) (W (Proc.devRef .tc main_v1))) := by
  after_results_simp
  rfl

/-- The second layer's three matrices. -/
theorem h2_v205 : StableHlo.after (hostOps2 (F := Ideal)) W (Proc.devRef .tc main_v205)
    = Cert.LayerSpec.kW1 (W (Proc.devRef .tc main_arg6)) := by
  after_results_simp
  rfl

/-- The buffers the stretch's operations write. -/
abbrev h2_written : List (Ref sig .tc) := [main_v162, main_v163, main_v164, main_v165, main_c_25, main_v166, main_v167, main_c_26, main_v168, main_v169, main_v170, main_v171, main_v172, main_v173, main_v174, main_v175, main_v176, main_c_27, main_v177, main_v178, main_c_28, main_v179, main_v180, main_v181, main_v182, main_v183, main_v184, main_v185, main_v186, main_v187, main_v188, main_c_29, main_v189, main_v190, main_c_30, main_v191, main_v192, main_v193, main_v194, main_v195, main_v196, main_c_31, main_v197, main_v198, main_c_32, main_v199, main_v200, main_v201, main_v202, main_v203, main_v204, main_v205]

/-- Every operation of the stretch writes one of them. -/
theorem h2_writes : (hostOps2 (F := Ideal) : List (HloOp τ sig (Elt Ideal))).Forall
    fun op => op.writes ⊆ (h2_written.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- A buffer the stretch does not write holds after it what it held before. -/
theorem h2_keep (r : Ref sig .tc) (h : r ∉ h2_written) :
    StableHlo.after (hostOps2 (F := Ideal)) W (Proc.devRef .tc r) = W (Proc.devRef .tc r) :=
  StableHlo.after_of_writes_sub hostOps2 W h2_writes h

end Cert.KernelIdeal.KHostA

end
-- ==== Proof.KHostB.lean ====
/-
  The last four stretches of host operations of the kernel program, each read at the buffers the regions after it take:
  what the stretch leaves there as a function of the contents it starts from, and the buffers it does not write, which
  keep their contents. The fourth and sixth stretches add a layer's messages into their destination nodes and slice out
  the layer's biases; the fifth prepares the last layer's edge weights, gathered source rows and weight matrices; the
  seventh takes the mean of the node features over each graph.
-/
import proofs.«101888_j76184129896719_1_alg».proof.Proof.Gen.KernelIdeal.Launch
import proofs.«101888_j76184129896719_1_alg».proof.Proof.Stages
import proofs.«101888_j76184129896719_1_alg».proof.Proof.LayerSpec
import Idealize.ShloMosaic.Lib.StableHlo.Run

set_option maxRecDepth 16384

noncomputable section

namespace Cert.KernelIdeal.KHostB

open Idealize.ShloMosaic Idealize.SL.Sem
open Cert.KernelIdeal Cert.KernelIdeal.Gen

variable (W : Valuation τ sig (Elt Ideal))

/-! ## The fourth stretch: layer 1's aggregated messages and biases -/

/-- The messages of layer 1 added into their destination nodes. -/
theorem h3_v209 : StableHlo.after (hostOps3 (F := Ideal)) W (Proc.devRef .tc main_v209)
    = Host.scatterAdd (F := Ideal) (φ := .f32) Cert.ReferenceIdeal.scatter_S50000x128_S600000x1_S600000x128_1_0_0_1
        (Cert.Stages.zerosN (F := Ideal)) (Cert.Stages.dstCol (F := Ideal) (W (Proc.devRef .tc main_v3)))
        (W (Proc.devRef .tc main_v206)) := by
  after_results_simp
  rfl

/-- Layer 1's three channel biases. -/
theorem h3_v211 : StableHlo.after (hostOps3 (F := Ideal)) W (Proc.devRef .tc main_v211)
    = Cert.Stages.b1 (F := Ideal) (W (Proc.devRef .tc main_arg7)) := by
  after_results_simp
  rfl

/-! The buffers the fourth stretch does not write. -/

theorem h3_keep_v161 : StableHlo.after (hostOps3 (F := Ideal)) W (Proc.devRef .tc main_v161) = W (Proc.devRef .tc main_v161) :=
  StableHlo.after_of_forall_not_mem (b := Proc.devRef .tc main_v161) _ _ (List.forall_iff_forall_mem.mp (by
    simp only [hostOps3, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

theorem h3_keep_v1 : StableHlo.after (hostOps3 (F := Ideal)) W (Proc.devRef .tc main_v1) = W (Proc.devRef .tc main_v1) :=
  StableHlo.after_of_forall_not_mem (b := Proc.devRef .tc main_v1) _ _ (List.forall_iff_forall_mem.mp (by
    simp only [hostOps3, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

theorem h3_keep_v3 : StableHlo.after (hostOps3 (F := Ideal)) W (Proc.devRef .tc main_v3) = W (Proc.devRef .tc main_v3) :=
  StableHlo.after_of_forall_not_mem (b := Proc.devRef .tc main_v3) _ _ (List.forall_iff_forall_mem.mp (by
    simp only [hostOps3, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

theorem h3_keep_arg2 : StableHlo.after (hostOps3 (F := Ideal)) W (Proc.devRef .tc main_arg2) = W (Proc.devRef .tc main_arg2) :=
  StableHlo.after_of_forall_not_mem (b := Proc.devRef .tc main_arg2) _ _ (List.forall_iff_forall_mem.mp (by
    simp only [hostOps3, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

theorem h3_keep_arg3 : StableHlo.after (hostOps3 (F := Ideal)) W (Proc.devRef .tc main_arg3) = W (Proc.devRef .tc main_arg3) :=
  StableHlo.after_of_forall_not_mem (b := Proc.devRef .tc main_arg3) _ _ (List.forall_iff_forall_mem.mp (by
    simp only [hostOps3, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

theorem h3_keep_arg5 : StableHlo.after (hostOps3 (F := Ideal)) W (Proc.devRef .tc main_arg5) = W (Proc.devRef .tc main_arg5) :=
  StableHlo.after_of_forall_not_mem (b := Proc.devRef .tc main_arg5) _ _ (List.forall_iff_forall_mem.mp (by
    simp only [hostOps3, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

theorem h3_keep_arg6 : StableHlo.after (hostOps3 (F := Ideal)) W (Proc.devRef .tc main_arg6) = W (Proc.devRef .tc main_arg6) :=
  StableHlo.after_of_forall_not_mem (b := Proc.devRef .tc main_arg6) _ _ (List.forall_iff_forall_mem.mp (by
    simp only [hostOps3, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

theorem h3_keep_arg7 : StableHlo.after (hostOps3 (F := Ideal)) W (Proc.devRef .tc main_arg7) = W (Proc.devRef .tc main_arg7) :=
  StableHlo.after_of_forall_not_mem (b := Proc.devRef .tc main_arg7) _ _ (List.forall_iff_forall_mem.mp (by
    simp only [hostOps3, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

theorem h3_keep_arg8 : StableHlo.after (hostOps3 (F := Ideal)) W (Proc.devRef .tc main_arg8) = W (Proc.devRef .tc main_arg8) :=
  StableHlo.after_of_forall_not_mem (b := Proc.devRef .tc main_arg8) _ _ (List.forall_iff_forall_mem.mp (by
    simp only [hostOps3, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

theorem h3_keep_arg9 : StableHlo.after (hostOps3 (F := Ideal)) W (Proc.devRef .tc main_arg9) = W (Proc.devRef .tc main_arg9) :=
  StableHlo.after_of_forall_not_mem (b := Proc.devRef .tc main_arg9) _ _ (List.forall_iff_forall_mem.mp (by
    simp only [hostOps3, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

theorem h3_keep_arg10 : StableHlo.after (hostOps3 (F := Ideal)) W (Proc.devRef .tc main_arg10) = W (Proc.devRef .tc main_arg10) :=
  StableHlo.after_of_forall_not_mem (b := Proc.devRef .tc main_arg10) _ _ (List.forall_iff_forall_mem.mp (by
    simp only [hostOps3, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

theorem h3_keep_arg11 : StableHlo.after (hostOps3 (F := Ideal)) W (Proc.devRef .tc main_arg11) = W (Proc.devRef .tc main_arg11) :=
  StableHlo.after_of_forall_not_mem (b := Proc.devRef .tc main_arg11) _ _ (List.forall_iff_forall_mem.mp (by
    simp only [hostOps3, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

/-! ## The fifth stretch: layer 2's edge weights, gathered source rows and weight matrices -/

/-- Layer 2's edge weights. -/
theorem h4_v247 : StableHlo.after (hostOps4 (F := Ideal)) W (Proc.devRef .tc main_v247)
    = Cert.Stages.ew2 (F := Ideal) (W (Proc.devRef .tc main_arg2)) (W (Proc.devRef .tc main_arg5)) := by
  after_results_simp
  rfl

/-- The source nodes' rows of the features after layer 1. -/
theorem h4_v254 : StableHlo.after (hostOps4 (F := Ideal)) W (Proc.devRef .tc main_v254)
    = Host.gather Cert.KernelIdeal.gather_S50000x128_S600000x1_S600000x128_1_0_n_n_0_1_1128 (W (Proc.devRef .tc main_v212))
        (Cert.Stages.srcCol (F := Ideal) (W (Proc.devRef .tc main_v1))) := by
  after_results_simp
  rfl

/-- Layer 2's three weight matrices. -/
theorem h4_v256 : StableHlo.after (hostOps4 (F := Ideal)) W (Proc.devRef .tc main_v256)
    = Cert.LayerSpec.kW2 (W (Proc.devRef .tc main_arg6)) := by
  after_results_simp
  rfl

/-! The buffers the fifth stretch does not write. -/

theorem h4_keep_v212 : StableHlo.after (hostOps4 (F := Ideal)) W (Proc.devRef .tc main_v212) = W (Proc.devRef .tc main_v212) :=
  StableHlo.after_of_forall_not_mem (b := Proc.devRef .tc main_v212) _ _ (List.forall_iff_forall_mem.mp (by
    simp only [hostOps4, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

theorem h4_keep_v1 : StableHlo.after (hostOps4 (F := Ideal)) W (Proc.devRef .tc main_v1) = W (Proc.devRef .tc main_v1) :=
  StableHlo.after_of_forall_not_mem (b := Proc.devRef .tc main_v1) _ _ (List.forall_iff_forall_mem.mp (by
    simp only [hostOps4, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

theorem h4_keep_v3 : StableHlo.after (hostOps4 (F := Ideal)) W (Proc.devRef .tc main_v3) = W (Proc.devRef .tc main_v3) :=
  StableHlo.after_of_forall_not_mem (b := Proc.devRef .tc main_v3) _ _ (List.forall_iff_forall_mem.mp (by
    simp only [hostOps4, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

theorem h4_keep_arg3 : StableHlo.after (hostOps4 (F := Ideal)) W (Proc.devRef .tc main_arg3) = W (Proc.devRef .tc main_arg3) :=
  StableHlo.after_of_forall_not_mem (b := Proc.devRef .tc main_arg3) _ _ (List.forall_iff_forall_mem.mp (by
    simp only [hostOps4, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

theorem h4_keep_arg7 : StableHlo.after (hostOps4 (F := Ideal)) W (Proc.devRef .tc main_arg7) = W (Proc.devRef .tc main_arg7) :=
  StableHlo.after_of_forall_not_mem (b := Proc.devRef .tc main_arg7) _ _ (List.forall_iff_forall_mem.mp (by
    simp only [hostOps4, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

theorem h4_keep_arg8 : StableHlo.after (hostOps4 (F := Ideal)) W (Proc.devRef .tc main_arg8) = W (Proc.devRef .tc main_arg8) :=
  StableHlo.after_of_forall_not_mem (b := Proc.devRef .tc main_arg8) _ _ (List.forall_iff_forall_mem.mp (by
    simp only [hostOps4, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

theorem h4_keep_arg9 : StableHlo.after (hostOps4 (F := Ideal)) W (Proc.devRef .tc main_arg9) = W (Proc.devRef .tc main_arg9) :=
  StableHlo.after_of_forall_not_mem (b := Proc.devRef .tc main_arg9) _ _ (List.forall_iff_forall_mem.mp (by
    simp only [hostOps4, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

theorem h4_keep_arg10 : StableHlo.after (hostOps4 (F := Ideal)) W (Proc.devRef .tc main_arg10) = W (Proc.devRef .tc main_arg10) :=
  StableHlo.after_of_forall_not_mem (b := Proc.devRef .tc main_arg10) _ _ (List.forall_iff_forall_mem.mp (by
    simp only [hostOps4, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

theorem h4_keep_arg11 : StableHlo.after (hostOps4 (F := Ideal)) W (Proc.devRef .tc main_arg11) = W (Proc.devRef .tc main_arg11) :=
  StableHlo.after_of_forall_not_mem (b := Proc.devRef .tc main_arg11) _ _ (List.forall_iff_forall_mem.mp (by
    simp only [hostOps4, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

/-! ## The sixth stretch: layer 2's aggregated messages and biases -/

/-- The messages of layer 2 added into their destination nodes. -/
theorem h5_v260 : StableHlo.after (hostOps5 (F := Ideal)) W (Proc.devRef .tc main_v260)
    = Host.scatterAdd (F := Ideal) (φ := .f32) Cert.ReferenceIdeal.scatter_S50000x128_S600000x1_S600000x128_1_0_0_1
        (Cert.Stages.zerosN (F := Ideal)) (Cert.Stages.dstCol (F := Ideal) (W (Proc.devRef .tc main_v3)))
        (W (Proc.devRef .tc main_v257)) := by
  after_results_simp
  rfl

/-- Layer 2's three channel biases. -/
theorem h5_v262 : StableHlo.after (hostOps5 (F := Ideal)) W (Proc.devRef .tc main_v262)
    = Cert.Stages.b2 (F := Ideal) (W (Proc.devRef .tc main_arg7)) := by
  after_results_simp
  rfl

/-! The buffers the sixth stretch does not write. -/

theorem h5_keep_v212 : StableHlo.after (hostOps5 (F := Ideal)) W (Proc.devRef .tc main_v212) = W (Proc.devRef .tc main_v212) :=
  StableHlo.after_of_forall_not_mem (b := Proc.devRef .tc main_v212) _ _ (List.forall_iff_forall_mem.mp (by
    simp only [hostOps5, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

theorem h5_keep_arg3 : StableHlo.after (hostOps5 (F := Ideal)) W (Proc.devRef .tc main_arg3) = W (Proc.devRef .tc main_arg3) :=
  StableHlo.after_of_forall_not_mem (b := Proc.devRef .tc main_arg3) _ _ (List.forall_iff_forall_mem.mp (by
    simp only [hostOps5, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

theorem h5_keep_arg8 : StableHlo.after (hostOps5 (F := Ideal)) W (Proc.devRef .tc main_arg8) = W (Proc.devRef .tc main_arg8) :=
  StableHlo.after_of_forall_not_mem (b := Proc.devRef .tc main_arg8) _ _ (List.forall_iff_forall_mem.mp (by
    simp only [hostOps5, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

theorem h5_keep_arg9 : StableHlo.after (hostOps5 (F := Ideal)) W (Proc.devRef .tc main_arg9) = W (Proc.devRef .tc main_arg9) :=
  StableHlo.after_of_forall_not_mem (b := Proc.devRef .tc main_arg9) _ _ (List.forall_iff_forall_mem.mp (by
    simp only [hostOps5, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

theorem h5_keep_arg10 : StableHlo.after (hostOps5 (F := Ideal)) W (Proc.devRef .tc main_arg10) = W (Proc.devRef .tc main_arg10) :=
  StableHlo.after_of_forall_not_mem (b := Proc.devRef .tc main_arg10) _ _ (List.forall_iff_forall_mem.mp (by
    simp only [hostOps5, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

theorem h5_keep_arg11 : StableHlo.after (hostOps5 (F := Ideal)) W (Proc.devRef .tc main_arg11) = W (Proc.devRef .tc main_arg11) :=
  StableHlo.after_of_forall_not_mem (b := Proc.devRef .tc main_arg11) _ _ (List.forall_iff_forall_mem.mp (by
    simp only [hostOps5, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

/-! ## The seventh stretch: the mean pooling over the graphs -/

/-- The mean of the last layer's node features over each graph. -/
theorem h6_v275 : StableHlo.after (hostOps6 (F := Ideal)) W (Proc.devRef .tc main_v275)
    = Cert.Stages.poolG (F := Ideal) (W (Proc.devRef .tc main_v263)) (W (Proc.devRef .tc main_arg3)) := by
  after_results_simp
  rfl

/-! The buffers the seventh stretch does not write. -/

theorem h6_keep_arg8 : StableHlo.after (hostOps6 (F := Ideal)) W (Proc.devRef .tc main_arg8) = W (Proc.devRef .tc main_arg8) :=
  StableHlo.after_of_forall_not_mem (b := Proc.devRef .tc main_arg8) _ _ (List.forall_iff_forall_mem.mp (by
    simp only [hostOps6, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

theorem h6_keep_arg9 : StableHlo.after (hostOps6 (F := Ideal)) W (Proc.devRef .tc main_arg9) = W (Proc.devRef .tc main_arg9) :=
  StableHlo.after_of_forall_not_mem (b := Proc.devRef .tc main_arg9) _ _ (List.forall_iff_forall_mem.mp (by
    simp only [hostOps6, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

theorem h6_keep_arg10 : StableHlo.after (hostOps6 (F := Ideal)) W (Proc.devRef .tc main_arg10) = W (Proc.devRef .tc main_arg10) :=
  StableHlo.after_of_forall_not_mem (b := Proc.devRef .tc main_arg10) _ _ (List.forall_iff_forall_mem.mp (by
    simp only [hostOps6, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

theorem h6_keep_arg11 : StableHlo.after (hostOps6 (F := Ideal)) W (Proc.devRef .tc main_arg11) = W (Proc.devRef .tc main_arg11) :=
  StableHlo.after_of_forall_not_mem (b := Proc.devRef .tc main_arg11) _ _ (List.forall_iff_forall_mem.mp (by
    simp only [hostOps6, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

end Cert.KernelIdeal.KHostB

end
-- ==== Proof.EdgePayload.lean ====
/-
  The edge-combine kernel's arithmetic, read entry by entry at exact arithmetic (floats as extended reals).

  The body takes a block of 12000 gathered source rows x0 [12000, 128], the same edges' three channel weights
  x1 [12000, 3], and the three channel matrices w0, w1, w2 (each [1, 128, 128]). Starting from the zero word
  broadcast over the block, it adds, for the channels 0, 1, 2 in turn, the edge weight's column broadcast along the
  row times the matrix product of the rows with the channel's matrix (taken into a zero accumulator). At row p and
  column q that is
    ((0 + x1(p,0) · Σ_k x0(p,k)·w0(0,k,q)) + x1(p,1) · Σ_k x0(p,k)·w1(0,k,q)) + x1(p,2) · Σ_k x0(p,k)·w2(0,k,q).
  The three layers' kernels have the same text, so the same reading holds for each.
-/
import Idealize.ShloMosaic.PureOps.Ideal.Laws
import Idealize.ShloMosaic.Lib.ValueIdx
import Idealize.ShloMosaic.Lib.ValueLayout
import Idealize.ShloMosaic.Lib.Pipeline.Value
import proofs.«101888_j76184129896719_1_alg».proof.Proof.Gen.KernelIdeal.Skeleton
import proofs.«101888_j76184129896719_1_alg».proof.Proof.LibDense
import proofs.«101888_j76184129896719_1_alg».proof.Proof.Spec

noncomputable section

namespace Cert.KernelIdeal.EdgeRegion

open Idealize.ShloMosaic Idealize.ShloMosaic.ValueIdx
open Cert.KernelIdeal Cert.KernelIdeal.Gen
open Cert.Spec (zeroWord msgAt)

/-- The block's matrix product, its index maps: the left operand's row is the output's row. -/
theorem dot_lhs_row (i : S12000x128.Idx) (c : dot_S12000x128_S128x128_S12000x128_1_0_0_1_n_n.contr.Idx) :
    (dot_S12000x128_S128x128_S12000x128_1_0_0_1_n_n.lhsIdx i c 0).val = (i 0).val := by
  unfold DotDims.lhsIdx
  rw [dif_neg (show ¬(0 : Fin S12000x128.rank) ∈ dot_S12000x128_S128x128_S12000x128_1_0_0_1_n_n.lhsBatch by decide),
    dif_pos (show (0 : Fin S12000x128.rank) ∈ dot_S12000x128_S128x128_S12000x128_1_0_0_1_n_n.lhsNonContracting by decide)]
  rfl

/-- The left operand's column is the contracted coordinate. -/
theorem dot_lhs_col (i : S12000x128.Idx) (c : dot_S12000x128_S128x128_S12000x128_1_0_0_1_n_n.contr.Idx) :
    (dot_S12000x128_S128x128_S12000x128_1_0_0_1_n_n.lhsIdx i c 1).val = (c ⟨0, by decide⟩).val :=
  dot_S12000x128_S128x128_S12000x128_1_0_0_1_n_n.lhsIdx_val_of_single rfl i c

/-- The right operand's row is the contracted coordinate. -/
theorem dot_rhs_row (i : S12000x128.Idx) (c : dot_S12000x128_S128x128_S12000x128_1_0_0_1_n_n.contr.Idx) :
    (dot_S12000x128_S128x128_S12000x128_1_0_0_1_n_n.rhsIdx i c 0).val = (c ⟨0, by decide⟩).val :=
  dot_S12000x128_S128x128_S12000x128_1_0_0_1_n_n.rhsIdx_val_of_single rfl i c

/-- The right operand's column is the output's column. -/
theorem dot_rhs_col (i : S12000x128.Idx) (c : dot_S12000x128_S128x128_S12000x128_1_0_0_1_n_n.contr.Idx) :
    (dot_S12000x128_S128x128_S12000x128_1_0_0_1_n_n.rhsIdx i c 1).val = (i 1).val := by
  unfold DotDims.rhsIdx
  rw [dif_neg (show ¬(1 : Fin S128x128.rank) ∈ dot_S12000x128_S128x128_S12000x128_1_0_0_1_n_n.rhsBatch by decide),
    dif_pos (show (1 : Fin S128x128.rank) ∈ dot_S12000x128_S128x128_S12000x128_1_0_0_1_n_n.rhsNonContracting by decide)]
  rfl

/-- The rows' product with one channel's matrix, into the zero accumulator, at (p, q): Σ_k x0(p,k) · w(0,k,q). -/
theorem rows_times_channel (x0 : FVec Ideal S12000x128 .f32) (w : FVec Ideal S1x128x128 .f32) (p : Fin 12000) (q : Fin 128) :
    matmul dot_S12000x128_S128x128_S12000x128_1_0_0_1_n_n none
        (shapeCast S12000x128 x0 shapeCasts_S12000x128_S12000x128)
        (shapeCast S128x128 w shapeCasts_S1x128x128_S128x128)
        (constant (F := Ideal) S12000x128 .f32 0x00000000#32) (ix2 p q)
      = ∑ k : Fin 128, x0 (ix2 p k) * w (ix3 (0 : Fin 1) k q) := by
  refine (Cert.LibDense.matmul_zero_rc (M := 12000) (K := 128) (N := 128)
    dot_S12000x128_S128x128_S12000x128_1_0_0_1_n_n rfl rfl dot_lhs_row dot_lhs_col dot_rhs_row dot_rhs_col none _ _ p q).trans ?_
  refine Finset.sum_congr rfl fun k _ => ?_
  rw [shapeCast_self, shapeCast_1ab_ab_apply]

/-- Column c of the edge weights, broadcast along the row, at (p, q): the weight x1(p, c). -/
theorem weight_column (o : Nat) (c : Fin 3) (hc : c.val = o) (x1 : FVec Ideal S12000x3 .f32)
    (hs : S12000x3.Slices ![0, o] S12000x1) (p : Fin 12000) (q : Fin 128) :
    broadcastTo S12000x128 (extractStridedSlice S12000x1 ![0, o]
        (shapeCast S12000x3 x1 shapeCasts_S12000x3_S12000x3) hs) broadcasts_S12000x1_S12000x128 (ix2 p q)
      = x1 (ix2 p c) := by
  refine (Cert.LibDense.broadcastTo_a1_ab_apply (M := 12000) (N := 128) _ broadcasts_S12000x1_S12000x128 p q).trans ?_
  refine (slice2_axis1_apply (n0 := 12000) (n1 := 3) (m := 1) o _ hs p (0 : Fin 1) c (by rw [hc]; rfl)).trans ?_
  rw [shapeCast_self]

/-- The first layer's kernel, entry (p, q) of its block. -/
theorem pay0_apply (x0 : Vec Ideal S12000x128 .f32) (x1 : Vec Ideal S12000x3 .f32)
    (w0 w1 w2 : Vec Ideal S1x128x128 .f32) (p : Fin 12000) (q : Fin 128) :
    k0_pay1 (F := Ideal) x0 x1 w0 w1 w2 (ix2 p q)
      = ((zeroWord + x1 (ix2 p (0 : Fin 3)) * ∑ k : Fin 128, x0 (ix2 p k) * w0 (ix3 (0 : Fin 1) k q))
          + x1 (ix2 p (1 : Fin 3)) * ∑ k : Fin 128, x0 (ix2 p k) * w1 (ix3 (0 : Fin 1) k q))
        + x1 (ix2 p (2 : Fin 3)) * ∑ k : Fin 128, x0 (ix2 p k) * w2 (ix3 (0 : Fin 1) k q) := by
  unfold k0_pay1
  simp only [addf_apply, mulf_apply, broadcast_apply]
  rw [rows_times_channel x0 w0 p q, rows_times_channel x0 w1 p q, rows_times_channel x0 w2 p q,
    weight_column 0 0 rfl x1 _ p q, weight_column 1 1 rfl x1 _ p q, weight_column 2 2 rfl x1 _ p q]
  rfl

/-- Channel c's matrix, loaded from the [3, 128, 128] block as the [1, 128, 128] slab at offset c, read at (0, k, q):
    the block at (c, k, q). -/
theorem channel_slab (o : Nat) (c : Fin 3) (hc : c.val = o) (x2 : Vec Ideal S3x128x128 .f32)
    (inb : ∀ a, (![o, 0, 0] : Fin 3 → Nat) a + S1x128x128.size a ≤ S3x128x128.size a) (k q : Fin 128) :
    View.ld x2 (Rect.unit (s := S3x128x128) ![o, 0, 0] S1x128x128.size inb) (ix3 (0 : Fin 1) k q) = x2 (ix3 c k q) := by
  show x2 _ = x2 _
  congr 1
  funext a
  apply Fin.ext
  match a with
  | ⟨0, _⟩ => show o + 1 * 0 = c.val; omega
  | ⟨1, _⟩ => show 0 + 1 * k.val = k.val; omega
  | ⟨2, _⟩ => show 0 + 1 * q.val = q.val; omega

/-- The second layer's kernel has the same text: entry (p, q) of its block. -/
theorem pay2_apply (x0 : Vec Ideal S12000x128 .f32) (x1 : Vec Ideal S12000x3 .f32)
    (w0 w1 w2 : Vec Ideal S1x128x128 .f32) (p : Fin 12000) (q : Fin 128) :
    k2_pay1 (F := Ideal) x0 x1 w0 w1 w2 (ix2 p q)
      = ((zeroWord + x1 (ix2 p (0 : Fin 3)) * ∑ k : Fin 128, x0 (ix2 p k) * w0 (ix3 (0 : Fin 1) k q))
          + x1 (ix2 p (1 : Fin 3)) * ∑ k : Fin 128, x0 (ix2 p k) * w1 (ix3 (0 : Fin 1) k q))
        + x1 (ix2 p (2 : Fin 3)) * ∑ k : Fin 128, x0 (ix2 p k) * w2 (ix3 (0 : Fin 1) k q) := by
  unfold k2_pay1
  simp only [addf_apply, mulf_apply, broadcast_apply]
  rw [rows_times_channel x0 w0 p q, rows_times_channel x0 w1 p q, rows_times_channel x0 w2 p q,
    weight_column 0 0 rfl x1 _ p q, weight_column 1 1 rfl x1 _ p q, weight_column 2 2 rfl x1 _ p q]
  rfl

/-- The third layer's kernel has the same text: entry (p, q) of its block. -/
theorem pay4_apply (x0 : Vec Ideal S12000x128 .f32) (x1 : Vec Ideal S12000x3 .f32)
    (w0 w1 w2 : Vec Ideal S1x128x128 .f32) (p : Fin 12000) (q : Fin 128) :
    k4_pay1 (F := Ideal) x0 x1 w0 w1 w2 (ix2 p q)
      = ((zeroWord + x1 (ix2 p (0 : Fin 3)) * ∑ k : Fin 128, x0 (ix2 p k) * w0 (ix3 (0 : Fin 1) k q))
          + x1 (ix2 p (1 : Fin 3)) * ∑ k : Fin 128, x0 (ix2 p k) * w1 (ix3 (0 : Fin 1) k q))
        + x1 (ix2 p (2 : Fin 3)) * ∑ k : Fin 128, x0 (ix2 p k) * w2 (ix3 (0 : Fin 1) k q) := by
  unfold k4_pay1
  simp only [addf_apply, mulf_apply, broadcast_apply]
  rw [rows_times_channel x0 w0 p q, rows_times_channel x0 w1 p q, rows_times_channel x0 w2 p q,
    weight_column 0 0 rfl x1 _ p q, weight_column 1 1 rfl x1 _ p q, weight_column 2 2 rfl x1 _ p q]
  rfl

/-! ## A block's entry as an edge's message

When row p of the block of source rows is edge e's row of the whole array, row p of the block of edge weights is edge
e's, and the block of matrices is the whole array of matrices, the kernel's entry (p, q) is edge e's message at
column q. -/

/-- First layer. -/
theorem pay0_msgAt (hs : S600000x128.Idx → EReal) (ew : S600000x3.Idx → EReal) (w : S3x128x128.Idx → EReal)
    (x0 : Vec Ideal S12000x128 .f32) (x1 : Vec Ideal S12000x3 .f32) (x2 : Vec Ideal S3x128x128 .f32)
    (inb0 : ∀ a, (![0, 0, 0] : Fin 3 → Nat) a + S1x128x128.size a ≤ S3x128x128.size a)
    (inb1 : ∀ a, (![1, 0, 0] : Fin 3 → Nat) a + S1x128x128.size a ≤ S3x128x128.size a)
    (inb2 : ∀ a, (![2, 0, 0] : Fin 3 → Nat) a + S1x128x128.size a ≤ S3x128x128.size a)
    (e : Fin 600000) (p : Fin 12000) (q : Fin 128)
    (h0 : ∀ k : Fin 128, x0 (ix2 p k) = hs (ix2 e k)) (h1 : ∀ c : Fin 3, x1 (ix2 p c) = ew (ix2 e c))
    (h2 : ∀ (c : Fin 3) (k j : Fin 128), x2 (ix3 c k j) = w (ix3 c k j)) :
    k0_pay1 (F := Ideal) x0 x1
        (View.ld x2 (Rect.unit (s := S3x128x128) ![0, 0, 0] S1x128x128.size inb0))
        (View.ld x2 (Rect.unit (s := S3x128x128) ![1, 0, 0] S1x128x128.size inb1))
        (View.ld x2 (Rect.unit (s := S3x128x128) ![2, 0, 0] S1x128x128.size inb2)) (ix2 p q)
      = msgAt hs ew w e q := by
  refine (pay0_apply x0 x1 _ _ _ p q).trans ?_
  unfold msgAt
  simp only [channel_slab 0 0 rfl x2 inb0, channel_slab 1 1 rfl x2 inb1, channel_slab 2 2 rfl x2 inb2, h0, h1, h2]

/-- Second layer. -/
theorem pay2_msgAt (hs : S600000x128.Idx → EReal) (ew : S600000x3.Idx → EReal) (w : S3x128x128.Idx → EReal)
    (x0 : Vec Ideal S12000x128 .f32) (x1 : Vec Ideal S12000x3 .f32) (x2 : Vec Ideal S3x128x128 .f32)
    (inb0 : ∀ a, (![0, 0, 0] : Fin 3 → Nat) a + S1x128x128.size a ≤ S3x128x128.size a)
    (inb1 : ∀ a, (![1, 0, 0] : Fin 3 → Nat) a + S1x128x128.size a ≤ S3x128x128.size a)
    (inb2 : ∀ a, (![2, 0, 0] : Fin 3 → Nat) a + S1x128x128.size a ≤ S3x128x128.size a)
    (e : Fin 600000) (p : Fin 12000) (q : Fin 128)
    (h0 : ∀ k : Fin 128, x0 (ix2 p k) = hs (ix2 e k)) (h1 : ∀ c : Fin 3, x1 (ix2 p c) = ew (ix2 e c))
    (h2 : ∀ (c : Fin 3) (k j : Fin 128), x2 (ix3 c k j) = w (ix3 c k j)) :
    k2_pay1 (F := Ideal) x0 x1
        (View.ld x2 (Rect.unit (s := S3x128x128) ![0, 0, 0] S1x128x128.size inb0))
        (View.ld x2 (Rect.unit (s := S3x128x128) ![1, 0, 0] S1x128x128.size inb1))
        (View.ld x2 (Rect.unit (s := S3x128x128) ![2, 0, 0] S1x128x128.size inb2)) (ix2 p q)
      = msgAt hs ew w e q := by
  refine (pay2_apply x0 x1 _ _ _ p q).trans ?_
  unfold msgAt
  simp only [channel_slab 0 0 rfl x2 inb0, channel_slab 1 1 rfl x2 inb1, channel_slab 2 2 rfl x2 inb2, h0, h1, h2]

/-- Third layer. -/
theorem pay4_msgAt (hs : S600000x128.Idx → EReal) (ew : S600000x3.Idx → EReal) (w : S3x128x128.Idx → EReal)
    (x0 : Vec Ideal S12000x128 .f32) (x1 : Vec Ideal S12000x3 .f32) (x2 : Vec Ideal S3x128x128 .f32)
    (inb0 : ∀ a, (![0, 0, 0] : Fin 3 → Nat) a + S1x128x128.size a ≤ S3x128x128.size a)
    (inb1 : ∀ a, (![1, 0, 0] : Fin 3 → Nat) a + S1x128x128.size a ≤ S3x128x128.size a)
    (inb2 : ∀ a, (![2, 0, 0] : Fin 3 → Nat) a + S1x128x128.size a ≤ S3x128x128.size a)
    (e : Fin 600000) (p : Fin 12000) (q : Fin 128)
    (h0 : ∀ k : Fin 128, x0 (ix2 p k) = hs (ix2 e k)) (h1 : ∀ c : Fin 3, x1 (ix2 p c) = ew (ix2 e c))
    (h2 : ∀ (c : Fin 3) (k j : Fin 128), x2 (ix3 c k j) = w (ix3 c k j)) :
    k4_pay1 (F := Ideal) x0 x1
        (View.ld x2 (Rect.unit (s := S3x128x128) ![0, 0, 0] S1x128x128.size inb0))
        (View.ld x2 (Rect.unit (s := S3x128x128) ![1, 0, 0] S1x128x128.size inb1))
        (View.ld x2 (Rect.unit (s := S3x128x128) ![2, 0, 0] S1x128x128.size inb2)) (ix2 p q)
      = msgAt hs ew w e q := by
  refine (pay4_apply x0 x1 _ _ _ p q).trans ?_
  unfold msgAt
  simp only [channel_slab 0 0 rfl x2 inb0, channel_slab 1 1 rfl x2 inb1, channel_slab 2 2 rfl x2 inb2, h0, h1, h2]

end Cert.KernelIdeal.EdgeRegion

end
-- ==== Proof.EdgeRegion0.lean ====
/-
  The first layer's edge-combine region: what its result array holds when the region ends.

  The grid has 50 points. Point t stages rows 12000·t … 12000·t + 11999 of the gathered source rows and of the edge
  weights, and the whole array of channel matrices; it writes back rows 12000·t … 12000·t + 11999 of the result. So
  row p of point t's blocks is edge 12000·t + p, the block written back is that block of the array of messages, and the
  50 blocks cover the 600000 rows: the result array ends as the array of messages.
-/
import Idealize.ShloMosaic.Lib.Pipeline.Value
import proofs.«101888_j76184129896719_1_alg».proof.Proof.Gen.KernelIdeal.Frame
import proofs.«101888_j76184129896719_1_alg».proof.Proof.Spec
import proofs.«101888_j76184129896719_1_alg».proof.Proof.EdgePayload

set_option maxRecDepth 16384

noncomputable section

namespace Cert.KernelIdeal.EdgeRegion

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The zero offsets of a whole-block access, however they are spelt. -/
theorem zero_offsets0 : (![0, 0] : Fin 2 → Nat) = fun _ => 0 := funext fun a => by fin_cases a <;> rfl

/-- The windows' block indices at point t, decided over the grid: the row-blocked windows are at block t along the
    rows and block 0 along the columns; the matrices' window is at block 0 on every axis. -/
theorem block_indices0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 3) = 0 ∧ win0_2.index t (1 : Fin 3) = 0 ∧ win0_2.index t (2 : Fin 3) = 0
    ∧ win0_3.index t (0 : Fin 2) = t.val ∧ win0_3.index t (1 : Fin 2) = 0 :=
  (by decide +kernel : ∀ t : Fin grid0.N, _)

/-- Row p of point t's block of source rows is row 12000·t + p of the array. -/
theorem source_rows0 (c : Dev nD) (t : Fin cfg0.N) (p : Fin 12000) (k : Fin 128) (e : Fin 600000)
    (he : e.val = 12000 * t.val + p.val) :
    (iblk0 V c 0 t : Vec Ideal S12000x128 .f32) (ix2 p k) = (V c main_v152 : S600000x128.Idx → EReal) (ix2 e k) := by
  obtain ⟨e00, e01, -⟩ := block_indices0 t
  unfold iblk0
  rw [View.read_apply]
  show V c main_v152 _ = V c main_v152 _
  congr 1
  funext a
  apply Fin.ext
  match a with
  | ⟨0, _⟩ => show win0_0.index t (0 : Fin 2) * 12000 + 1 * p.val = e.val; omega
  | ⟨1, _⟩ => show win0_0.index t (1 : Fin 2) * 128 + 1 * k.val = k.val; omega

/-- Row p of point t's block of edge weights is row 12000·t + p of the array. -/
theorem edge_weights0 (c : Dev nD) (t : Fin cfg0.N) (p : Fin 12000) (ch : Fin 3) (e : Fin 600000)
    (he : e.val = 12000 * t.val + p.val) :
    (iblk0 V c 1 t : Vec Ideal S12000x3 .f32) (ix2 p ch) = (V c main_v145 : S600000x3.Idx → EReal) (ix2 e ch) := by
  obtain ⟨-, -, e10, e11, -⟩ := block_indices0 t
  unfold iblk0
  rw [View.read_apply]
  show V c main_v145 _ = V c main_v145 _
  congr 1
  funext a
  apply Fin.ext
  match a with
  | ⟨0, _⟩ => show win0_1.index t (0 : Fin 2) * 12000 + 1 * p.val = e.val; omega
  | ⟨1, _⟩ => show win0_1.index t (1 : Fin 2) * 3 + 1 * ch.val = ch.val; omega

/-- Every point's block of channel matrices is the whole array. -/
theorem channel_matrices0 (c : Dev nD) (t : Fin cfg0.N) (ch : Fin 3) (k j : Fin 128) :
    (iblk0 V c 2 t : Vec Ideal S3x128x128 .f32) (ix3 ch k j) = (V c main_v154 : S3x128x128.Idx → EReal) (ix3 ch k j) := by
  obtain ⟨-, -, -, -, e20, e21, e22, -⟩ := block_indices0 t
  unfold iblk0
  rw [View.read_apply]
  show V c main_v154 _ = V c main_v154 _
  congr 1
  funext a
  apply Fin.ext
  match a with
  | ⟨0, _⟩ => show win0_2.index t (0 : Fin 3) * 3 + 1 * ch.val = ch.val; omega
  | ⟨1, _⟩ => show win0_2.index t (1 : Fin 3) * 128 + 1 * k.val = k.val; omega
  | ⟨2, _⟩ => show win0_2.index t (2 : Fin 3) * 128 + 1 * j.val = j.val; omega

/-- What point t writes back is block t of the array of messages. -/
theorem written_back0 (c : Dev nD) (t : Fin cfg0.N) :
    (dat0 (F := Ideal) V c).flushed 3 t
      = ((cfg0.win 3).blk t).view.read (Elt Ideal) (Cert.Spec.msg (V c main_v152) (V c main_v145) (V c main_v154)) := by
  show (cfg0.win 3).cut (grid0.coords t) ((dat0 V c).after 3 t) = _
  rw [after0_3]
  unfold out0_3
  rw [View.canon_unit_zero zero_offsets0]
  simp only [View.ld_unit_zero (S := S12000x128) zero_offsets0, View.ld_unit_zero (S := S12000x3) zero_offsets0]
  obtain ⟨-, -, -, -, -, -, -, e30, e31⟩ := block_indices0 t
  have ht : t.val < 50 := lt_of_lt_of_eq t.isLt N_0
  funext j
  obtain ⟨p, q, rfl⟩ : ∃ (p : Fin 12000) (q : Fin 128), j = ix2 p q := ⟨j 0, j 1, eq_ix2 j⟩
  have hemb : ((cfg0.win 3).blk t).view.emb (ix2 p q)
      = (ix2 (⟨12000 * t.val + p.val, by omega⟩ : Fin 600000) q : S600000x128.Idx) := by
    funext a
    apply Fin.ext
    match a with
    | ⟨0, _⟩ => show win0_3.index t (0 : Fin 2) * 12000 + 1 * p.val = 12000 * t.val + p.val; omega
    | ⟨1, _⟩ => show win0_3.index t (1 : Fin 2) * 128 + 1 * q.val = q.val; omega
  show k0_pay1 (iblk0 V c 0 t) (iblk0 V c 1 t) (View.ld (iblk0 V c 2 t) r0_2) (View.ld (iblk0 V c 2 t) r0_3)
      (View.ld (iblk0 V c 2 t) r0_4) (ix2 p q)
    = Cert.Spec.msg (V c main_v152) (V c main_v145) (V c main_v154) (((cfg0.win 3).blk t).view.emb (ix2 p q))
  rw [hemb, Cert.Spec.msg_apply]
  exact pay0_msgAt (V c main_v152) (V c main_v145) (V c main_v154) (iblk0 V c 0 t) (iblk0 V c 1 t) (iblk0 V c 2 t) _ _ _
    ⟨12000 * t.val + p.val, by omega⟩ p q
    (fun k => source_rows0 V c t p k _ rfl) (fun ch => edge_weights0 V c t p ch _ rfl)
    (fun ch k j => channel_matrices0 V c t ch k j)

/-- An index of the result array is in point t's block iff each coordinate is in the block's range on its axis. -/
theorem mem_block0 (t : Fin cfg0.N) (i : S600000x128.Idx) :
    i ∈ ((cfg0.win 3).blk t).view.set
      ↔ ∀ a : Fin 2, win0_3.index t a * S12000x128.size a ≤ (i a).val
          ∧ (i a).val < win0_3.index t a * S12000x128.size a + S12000x128.size a := by
  show i ∈ ((View.whole main_v155).slice (win0_3.rect t)).set ↔ _
  rw [View.set_slice_whole, Rect.mem_set_unit]
  exact Iff.rfl

/-- Every index of the result array is in some point's block: row r is in the block of point r / 12000. -/
theorem covered0 (i : S600000x128.Idx) :
    ∃ t : Fin cfg0.N, (cfg0.win 3).flush t = true ∧ i ∈ ((cfg0.win 3).blk t).view.set := by
  have hi0 : (i 0).val < 600000 := (i 0).isLt
  have hi1 : (i 1).val < 128 := (i 1).isLt
  obtain ⟨t, htv⟩ : ∃ t : Fin cfg0.N, t.val = (i 0).val / 12000 :=
    ⟨⟨(i 0).val / 12000, lt_of_lt_of_eq (show (i 0).val / 12000 < 50 by omega) N_0.symm⟩, rfl⟩
  obtain ⟨-, -, -, -, -, -, -, e30, e31⟩ := block_indices0 t
  refine ⟨t, flush0_3 t, ?_⟩
  rw [mem_block0]
  intro a
  match a with
  | ⟨0, _⟩ =>
    show win0_3.index t (0 : Fin 2) * 12000 ≤ (i 0).val ∧ (i 0).val < win0_3.index t (0 : Fin 2) * 12000 + 12000
    omega
  | ⟨1, _⟩ =>
    show win0_3.index t (1 : Fin 2) * 128 ≤ (i 1).val ∧ (i 1).val < win0_3.index t (1 : Fin 2) * 128 + 128
    omega

/-- The result array when the region ends: the array of messages of the arrays the region was given. -/
theorem arr0 (c : Dev nD) :
    (dat0 (F := Ideal) V c).arrAt 3 cfg0.N = Cert.Spec.msg (V c main_v152) (V c main_v145) (V c main_v154) :=
  (dat0 (F := Ideal) V c).arrAt_eq_of_cover 3 (Cert.Spec.msg (V c main_v152) (V c main_v145) (V c main_v154))
    (fun t _ => written_back0 V c t) covered0

end Cert.KernelIdeal.EdgeRegion

end
-- ==== Proof.EdgeRegion2.lean ====
/-
  The second layer's edge-combine region: what its result array holds when the region ends.

  The grid has 50 points. Point t stages rows 12000·t … 12000·t + 11999 of the gathered source rows and of the edge
  weights, and the whole array of channel matrices; it writes back rows 12000·t … 12000·t + 11999 of the result. So
  row p of point t's blocks is edge 12000·t + p, the block written back is that block of the array of messages, and the
  50 blocks cover the 600000 rows: the result array ends as the array of messages.
-/
import Idealize.ShloMosaic.Lib.Pipeline.Value
import proofs.«101888_j76184129896719_1_alg».proof.Proof.Gen.KernelIdeal.Frame
import proofs.«101888_j76184129896719_1_alg».proof.Proof.Spec
import proofs.«101888_j76184129896719_1_alg».proof.Proof.EdgePayload

set_option maxRecDepth 16384

noncomputable section

namespace Cert.KernelIdeal.EdgeRegion

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The zero offsets of a whole-block access, however they are spelt. -/
theorem zero_offsets2 : (![0, 0] : Fin 2 → Nat) = fun _ => 0 := funext fun a => by fin_cases a <;> rfl

/-- The windows' block indices at point t, decided over the grid: the row-blocked windows are at block t along the
    rows and block 0 along the columns; the matrices' window is at block 0 on every axis. -/
theorem block_indices2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 3) = 0 ∧ win2_2.index t (1 : Fin 3) = 0 ∧ win2_2.index t (2 : Fin 3) = 0
    ∧ win2_3.index t (0 : Fin 2) = t.val ∧ win2_3.index t (1 : Fin 2) = 0 :=
  (by decide +kernel : ∀ t : Fin grid2.N, _)

/-- Row p of point t's block of source rows is row 12000·t + p of the array. -/
theorem source_rows2 (c : Dev nD) (t : Fin cfg2.N) (p : Fin 12000) (k : Fin 128) (e : Fin 600000)
    (he : e.val = 12000 * t.val + p.val) :
    (iblk2 V c 0 t : Vec Ideal S12000x128 .f32) (ix2 p k) = (V c main_v203 : S600000x128.Idx → EReal) (ix2 e k) := by
  obtain ⟨e00, e01, -⟩ := block_indices2 t
  unfold iblk2
  rw [View.read_apply]
  show V c main_v203 _ = V c main_v203 _
  congr 1
  funext a
  apply Fin.ext
  match a with
  | ⟨0, _⟩ => show win2_0.index t (0 : Fin 2) * 12000 + 1 * p.val = e.val; omega
  | ⟨1, _⟩ => show win2_0.index t (1 : Fin 2) * 128 + 1 * k.val = k.val; omega

/-- Row p of point t's block of edge weights is row 12000·t + p of the array. -/
theorem edge_weights2 (c : Dev nD) (t : Fin cfg2.N) (p : Fin 12000) (ch : Fin 3) (e : Fin 600000)
    (he : e.val = 12000 * t.val + p.val) :
    (iblk2 V c 1 t : Vec Ideal S12000x3 .f32) (ix2 p ch) = (V c main_v196 : S600000x3.Idx → EReal) (ix2 e ch) := by
  obtain ⟨-, -, e10, e11, -⟩ := block_indices2 t
  unfold iblk2
  rw [View.read_apply]
  show V c main_v196 _ = V c main_v196 _
  congr 1
  funext a
  apply Fin.ext
  match a with
  | ⟨0, _⟩ => show win2_1.index t (0 : Fin 2) * 12000 + 1 * p.val = e.val; omega
  | ⟨1, _⟩ => show win2_1.index t (1 : Fin 2) * 3 + 1 * ch.val = ch.val; omega

/-- Every point's block of channel matrices is the whole array. -/
theorem channel_matrices2 (c : Dev nD) (t : Fin cfg2.N) (ch : Fin 3) (k j : Fin 128) :
    (iblk2 V c 2 t : Vec Ideal S3x128x128 .f32) (ix3 ch k j) = (V c main_v205 : S3x128x128.Idx → EReal) (ix3 ch k j) := by
  obtain ⟨-, -, -, -, e20, e21, e22, -⟩ := block_indices2 t
  unfold iblk2
  rw [View.read_apply]
  show V c main_v205 _ = V c main_v205 _
  congr 1
  funext a
  apply Fin.ext
  match a with
  | ⟨0, _⟩ => show win2_2.index t (0 : Fin 3) * 3 + 1 * ch.val = ch.val; omega
  | ⟨1, _⟩ => show win2_2.index t (1 : Fin 3) * 128 + 1 * k.val = k.val; omega
  | ⟨2, _⟩ => show win2_2.index t (2 : Fin 3) * 128 + 1 * j.val = j.val; omega

/-- What point t writes back is block t of the array of messages. -/
theorem written_back2 (c : Dev nD) (t : Fin cfg2.N) :
    (dat2 (F := Ideal) V c).flushed 3 t
      = ((cfg2.win 3).blk t).view.read (Elt Ideal) (Cert.Spec.msg (V c main_v203) (V c main_v196) (V c main_v205)) := by
  show (cfg2.win 3).cut (grid2.coords t) ((dat2 V c).after 3 t) = _
  rw [after2_3]
  unfold out2_3
  rw [View.canon_unit_zero zero_offsets2]
  simp only [View.ld_unit_zero (S := S12000x128) zero_offsets2, View.ld_unit_zero (S := S12000x3) zero_offsets2]
  obtain ⟨-, -, -, -, -, -, -, e30, e31⟩ := block_indices2 t
  have ht : t.val < 50 := lt_of_lt_of_eq t.isLt N_2
  funext j
  obtain ⟨p, q, rfl⟩ : ∃ (p : Fin 12000) (q : Fin 128), j = ix2 p q := ⟨j 0, j 1, eq_ix2 j⟩
  have hemb : ((cfg2.win 3).blk t).view.emb (ix2 p q)
      = (ix2 (⟨12000 * t.val + p.val, by omega⟩ : Fin 600000) q : S600000x128.Idx) := by
    funext a
    apply Fin.ext
    match a with
    | ⟨0, _⟩ => show win2_3.index t (0 : Fin 2) * 12000 + 1 * p.val = 12000 * t.val + p.val; omega
    | ⟨1, _⟩ => show win2_3.index t (1 : Fin 2) * 128 + 1 * q.val = q.val; omega
  show k2_pay1 (iblk2 V c 0 t) (iblk2 V c 1 t) (View.ld (iblk2 V c 2 t) r2_2) (View.ld (iblk2 V c 2 t) r2_3)
      (View.ld (iblk2 V c 2 t) r2_4) (ix2 p q)
    = Cert.Spec.msg (V c main_v203) (V c main_v196) (V c main_v205) (((cfg2.win 3).blk t).view.emb (ix2 p q))
  rw [hemb, Cert.Spec.msg_apply]
  exact pay2_msgAt (V c main_v203) (V c main_v196) (V c main_v205) (iblk2 V c 0 t) (iblk2 V c 1 t) (iblk2 V c 2 t) _ _ _
    ⟨12000 * t.val + p.val, by omega⟩ p q
    (fun k => source_rows2 V c t p k _ rfl) (fun ch => edge_weights2 V c t p ch _ rfl)
    (fun ch k j => channel_matrices2 V c t ch k j)

/-- An index of the result array is in point t's block iff each coordinate is in the block's range on its axis. -/
theorem mem_block2 (t : Fin cfg2.N) (i : S600000x128.Idx) :
    i ∈ ((cfg2.win 3).blk t).view.set
      ↔ ∀ a : Fin 2, win2_3.index t a * S12000x128.size a ≤ (i a).val
          ∧ (i a).val < win2_3.index t a * S12000x128.size a + S12000x128.size a := by
  show i ∈ ((View.whole main_v206).slice (win2_3.rect t)).set ↔ _
  rw [View.set_slice_whole, Rect.mem_set_unit]
  exact Iff.rfl

/-- Every index of the result array is in some point's block: row r is in the block of point r / 12000. -/
theorem covered2 (i : S600000x128.Idx) :
    ∃ t : Fin cfg2.N, (cfg2.win 3).flush t = true ∧ i ∈ ((cfg2.win 3).blk t).view.set := by
  have hi0 : (i 0).val < 600000 := (i 0).isLt
  have hi1 : (i 1).val < 128 := (i 1).isLt
  obtain ⟨t, htv⟩ : ∃ t : Fin cfg2.N, t.val = (i 0).val / 12000 :=
    ⟨⟨(i 0).val / 12000, lt_of_lt_of_eq (show (i 0).val / 12000 < 50 by omega) N_2.symm⟩, rfl⟩
  obtain ⟨-, -, -, -, -, -, -, e30, e31⟩ := block_indices2 t
  refine ⟨t, flush2_3 t, ?_⟩
  rw [mem_block2]
  intro a
  match a with
  | ⟨0, _⟩ =>
    show win2_3.index t (0 : Fin 2) * 12000 ≤ (i 0).val ∧ (i 0).val < win2_3.index t (0 : Fin 2) * 12000 + 12000
    omega
  | ⟨1, _⟩ =>
    show win2_3.index t (1 : Fin 2) * 128 ≤ (i 1).val ∧ (i 1).val < win2_3.index t (1 : Fin 2) * 128 + 128
    omega

/-- The result array when the region ends: the array of messages of the arrays the region was given. -/
theorem arr2 (c : Dev nD) :
    (dat2 (F := Ideal) V c).arrAt 3 cfg2.N = Cert.Spec.msg (V c main_v203) (V c main_v196) (V c main_v205) :=
  (dat2 (F := Ideal) V c).arrAt_eq_of_cover 3 (Cert.Spec.msg (V c main_v203) (V c main_v196) (V c main_v205))
    (fun t _ => written_back2 V c t) covered2

end Cert.KernelIdeal.EdgeRegion

end
-- ==== Proof.EdgeRegion4.lean ====
/-
  The third layer's edge-combine region: what its result array holds when the region ends.

  The grid has 50 points. Point t stages rows 12000·t … 12000·t + 11999 of the gathered source rows and of the edge
  weights, and the whole array of channel matrices; it writes back rows 12000·t … 12000·t + 11999 of the result. So
  row p of point t's blocks is edge 12000·t + p, the block written back is that block of the array of messages, and the
  50 blocks cover the 600000 rows: the result array ends as the array of messages.
-/
import Idealize.ShloMosaic.Lib.Pipeline.Value
import proofs.«101888_j76184129896719_1_alg».proof.Proof.Gen.KernelIdeal.Frame
import proofs.«101888_j76184129896719_1_alg».proof.Proof.Spec
import proofs.«101888_j76184129896719_1_alg».proof.Proof.EdgePayload

set_option maxRecDepth 16384

noncomputable section

namespace Cert.KernelIdeal.EdgeRegion

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The zero offsets of a whole-block access, however they are spelt. -/
theorem zero_offsets4 : (![0, 0] : Fin 2 → Nat) = fun _ => 0 := funext fun a => by fin_cases a <;> rfl

/-- The windows' block indices at point t, decided over the grid: the row-blocked windows are at block t along the
    rows and block 0 along the columns; the matrices' window is at block 0 on every axis. -/
theorem block_indices4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 3) = 0 ∧ win4_2.index t (1 : Fin 3) = 0 ∧ win4_2.index t (2 : Fin 3) = 0
    ∧ win4_3.index t (0 : Fin 2) = t.val ∧ win4_3.index t (1 : Fin 2) = 0 :=
  (by decide +kernel : ∀ t : Fin grid4.N, _)

/-- Row p of point t's block of source rows is row 12000·t + p of the array. -/
theorem source_rows4 (c : Dev nD) (t : Fin cfg4.N) (p : Fin 12000) (k : Fin 128) (e : Fin 600000)
    (he : e.val = 12000 * t.val + p.val) :
    (iblk4 V c 0 t : Vec Ideal S12000x128 .f32) (ix2 p k) = (V c main_v254 : S600000x128.Idx → EReal) (ix2 e k) := by
  obtain ⟨e00, e01, -⟩ := block_indices4 t
  unfold iblk4
  rw [View.read_apply]
  show V c main_v254 _ = V c main_v254 _
  congr 1
  funext a
  apply Fin.ext
  match a with
  | ⟨0, _⟩ => show win4_0.index t (0 : Fin 2) * 12000 + 1 * p.val = e.val; omega
  | ⟨1, _⟩ => show win4_0.index t (1 : Fin 2) * 128 + 1 * k.val = k.val; omega

/-- Row p of point t's block of edge weights is row 12000·t + p of the array. -/
theorem edge_weights4 (c : Dev nD) (t : Fin cfg4.N) (p : Fin 12000) (ch : Fin 3) (e : Fin 600000)
    (he : e.val = 12000 * t.val + p.val) :
    (iblk4 V c 1 t : Vec Ideal S12000x3 .f32) (ix2 p ch) = (V c main_v247 : S600000x3.Idx → EReal) (ix2 e ch) := by
  obtain ⟨-, -, e10, e11, -⟩ := block_indices4 t
  unfold iblk4
  rw [View.read_apply]
  show V c main_v247 _ = V c main_v247 _
  congr 1
  funext a
  apply Fin.ext
  match a with
  | ⟨0, _⟩ => show win4_1.index t (0 : Fin 2) * 12000 + 1 * p.val = e.val; omega
  | ⟨1, _⟩ => show win4_1.index t (1 : Fin 2) * 3 + 1 * ch.val = ch.val; omega

/-- Every point's block of channel matrices is the whole array. -/
theorem channel_matrices4 (c : Dev nD) (t : Fin cfg4.N) (ch : Fin 3) (k j : Fin 128) :
    (iblk4 V c 2 t : Vec Ideal S3x128x128 .f32) (ix3 ch k j) = (V c main_v256 : S3x128x128.Idx → EReal) (ix3 ch k j) := by
  obtain ⟨-, -, -, -, e20, e21, e22, -⟩ := block_indices4 t
  unfold iblk4
  rw [View.read_apply]
  show V c main_v256 _ = V c main_v256 _
  congr 1
  funext a
  apply Fin.ext
  match a with
  | ⟨0, _⟩ => show win4_2.index t (0 : Fin 3) * 3 + 1 * ch.val = ch.val; omega
  | ⟨1, _⟩ => show win4_2.index t (1 : Fin 3) * 128 + 1 * k.val = k.val; omega
  | ⟨2, _⟩ => show win4_2.index t (2 : Fin 3) * 128 + 1 * j.val = j.val; omega

/-- What point t writes back is block t of the array of messages. -/
theorem written_back4 (c : Dev nD) (t : Fin cfg4.N) :
    (dat4 (F := Ideal) V c).flushed 3 t
      = ((cfg4.win 3).blk t).view.read (Elt Ideal) (Cert.Spec.msg (V c main_v254) (V c main_v247) (V c main_v256)) := by
  show (cfg4.win 3).cut (grid4.coords t) ((dat4 V c).after 3 t) = _
  rw [after4_3]
  unfold out4_3
  rw [View.canon_unit_zero zero_offsets4]
  simp only [View.ld_unit_zero (S := S12000x128) zero_offsets4, View.ld_unit_zero (S := S12000x3) zero_offsets4]
  obtain ⟨-, -, -, -, -, -, -, e30, e31⟩ := block_indices4 t
  have ht : t.val < 50 := lt_of_lt_of_eq t.isLt N_4
  funext j
  obtain ⟨p, q, rfl⟩ : ∃ (p : Fin 12000) (q : Fin 128), j = ix2 p q := ⟨j 0, j 1, eq_ix2 j⟩
  have hemb : ((cfg4.win 3).blk t).view.emb (ix2 p q)
      = (ix2 (⟨12000 * t.val + p.val, by omega⟩ : Fin 600000) q : S600000x128.Idx) := by
    funext a
    apply Fin.ext
    match a with
    | ⟨0, _⟩ => show win4_3.index t (0 : Fin 2) * 12000 + 1 * p.val = 12000 * t.val + p.val; omega
    | ⟨1, _⟩ => show win4_3.index t (1 : Fin 2) * 128 + 1 * q.val = q.val; omega
  show k4_pay1 (iblk4 V c 0 t) (iblk4 V c 1 t) (View.ld (iblk4 V c 2 t) r4_2) (View.ld (iblk4 V c 2 t) r4_3)
      (View.ld (iblk4 V c 2 t) r4_4) (ix2 p q)
    = Cert.Spec.msg (V c main_v254) (V c main_v247) (V c main_v256) (((cfg4.win 3).blk t).view.emb (ix2 p q))
  rw [hemb, Cert.Spec.msg_apply]
  exact pay4_msgAt (V c main_v254) (V c main_v247) (V c main_v256) (iblk4 V c 0 t) (iblk4 V c 1 t) (iblk4 V c 2 t) _ _ _
    ⟨12000 * t.val + p.val, by omega⟩ p q
    (fun k => source_rows4 V c t p k _ rfl) (fun ch => edge_weights4 V c t p ch _ rfl)
    (fun ch k j => channel_matrices4 V c t ch k j)

/-- An index of the result array is in point t's block iff each coordinate is in the block's range on its axis. -/
theorem mem_block4 (t : Fin cfg4.N) (i : S600000x128.Idx) :
    i ∈ ((cfg4.win 3).blk t).view.set
      ↔ ∀ a : Fin 2, win4_3.index t a * S12000x128.size a ≤ (i a).val
          ∧ (i a).val < win4_3.index t a * S12000x128.size a + S12000x128.size a := by
  show i ∈ ((View.whole main_v257).slice (win4_3.rect t)).set ↔ _
  rw [View.set_slice_whole, Rect.mem_set_unit]
  exact Iff.rfl

/-- Every index of the result array is in some point's block: row r is in the block of point r / 12000. -/
theorem covered4 (i : S600000x128.Idx) :
    ∃ t : Fin cfg4.N, (cfg4.win 3).flush t = true ∧ i ∈ ((cfg4.win 3).blk t).view.set := by
  have hi0 : (i 0).val < 600000 := (i 0).isLt
  have hi1 : (i 1).val < 128 := (i 1).isLt
  obtain ⟨t, htv⟩ : ∃ t : Fin cfg4.N, t.val = (i 0).val / 12000 :=
    ⟨⟨(i 0).val / 12000, lt_of_lt_of_eq (show (i 0).val / 12000 < 50 by omega) N_4.symm⟩, rfl⟩
  obtain ⟨-, -, -, -, -, -, -, e30, e31⟩ := block_indices4 t
  refine ⟨t, flush4_3 t, ?_⟩
  rw [mem_block4]
  intro a
  match a with
  | ⟨0, _⟩ =>
    show win4_3.index t (0 : Fin 2) * 12000 ≤ (i 0).val ∧ (i 0).val < win4_3.index t (0 : Fin 2) * 12000 + 12000
    omega
  | ⟨1, _⟩ =>
    show win4_3.index t (1 : Fin 2) * 128 ≤ (i 1).val ∧ (i 1).val < win4_3.index t (1 : Fin 2) * 128 + 128
    omega

/-- The result array when the region ends: the array of messages of the arrays the region was given. -/
theorem arr4 (c : Dev nD) :
    (dat4 (F := Ideal) V c).arrAt 3 cfg4.N = Cert.Spec.msg (V c main_v254) (V c main_v247) (V c main_v256) :=
  (dat4 (F := Ideal) V c).arrAt_eq_of_cover 3 (Cert.Spec.msg (V c main_v254) (V c main_v247) (V c main_v256))
    (fun t _ => written_back4 V c t) covered4

end Cert.KernelIdeal.EdgeRegion

end
-- ==== Proof.NodeRegion.lean ====
/-
  The three node-update regions, each read as one function of the arrays it finds.

  A node-update region walks the 50000 rows of the aggregated messages, of the previous features and of its result in
  five blocks of 10000 rows; the [3,128] bias array is read whole at every point. At row p, column q of a block the body
  computes the aggregated message plus the sum over the three channels of the bias at column q, rectified against the
  zero word in the first two layers, plus the previous feature. Block t of each row-blocked array is rows
  10000·t … 10000·t + 9999, so what point t writes back is block t of the node update of the whole arrays, and the five
  blocks tile the result array: after the region it holds the node update, entry by entry.
-/
import proofs.«101888_j76184129896719_1_alg».proof.Proof.Gen.KernelIdeal.Frame
import proofs.«101888_j76184129896719_1_alg».proof.Proof.LibDense
import proofs.«101888_j76184129896719_1_alg».proof.Proof.Spec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.NodeRegion

open Idealize.ShloMosaic Idealize.ShloMosaic.ValueIdx Idealize.ShloMosaic.TcCoe Idealize.SL.Sem
open Idealize.ShloMosaic.Pipeline (Dat)
open Cert.KernelIdeal Cert.KernelIdeal.Gen

variable {M N : Nat}

/-- The index of an [M, N] matrix that drops to q when the first axis is reduced, with k put on that axis, is (k, q). -/
theorem lift_col (h : (⟨2, ![M, N]⟩ : Shape).Reduces [0] ⟨1, ![N]⟩) (q : Fin N) (k : Fin M) :
    h.lift (ix1 q) k = ix2 k q := by
  funext a
  apply Fin.ext
  match a with
  | ⟨0, _⟩ => rfl
  | ⟨1, _⟩ => rfl

/-- The sum over the first axis of an [M, N] matrix, read at column q: the sum of the column's entries. -/
theorem colSum_apply (src : FVec Ideal ⟨2, ![M, N]⟩ .f32) (h : (⟨2, ![M, N]⟩ : Shape).Reduces [0] ⟨1, ![N]⟩)
    (hφ : FKind.Formats .f32) (hacc : (0x00000000#32 : BitVec 32) = 0x00000000#32) (q : Fin N) :
    multiReduction .add [0] ⟨1, ![N]⟩ src 0x00000000#32 h hφ hacc (ix1 q) = ∑ k : Fin M, src (ix2 k q) := by
  refine (Ideal.multiReduction_add_single src 0x00000000#32 h hφ hacc (ix1 q)).trans ?_
  exact Finset.sum_congr rfl fun k _ => congrArg src (lift_col h q k)

/-- The bias array summed over its three channels, cast to one row and broadcast down a block's rows, read at (p, q):
    the sum over the channels of the bias at column q. -/
theorem biasSum_apply (b : FVec Ideal S3x128 .f32) (p : Fin 10000) (q : Fin 128) :
    broadcastTo S10000x128 (shapeCast S1x128 (multiReduction .add [0] S128 b 0x00000000#32 reduces_S3x128_S128 (.inl rfl) rfl)
        shapeCasts_S128_S1x128) broadcasts_S1x128_S10000x128 (ix2 p q) = ∑ k : Fin 3, b (ix2 k q) :=
  (Cert.LibDense.rowBroadcast_rc _ _ _ p q).trans (colSum_apply b _ _ _ q)

theorem zeroOffsets : (![0, 0] : Fin 2 → Nat) = fun _ => 0 := funext fun a => by fin_cases a <;> rfl

/-- The rectifying node update's payload at row p, column q of a block. -/
theorem rectPayload1_apply (b : FVec Ideal S3x128 .f32) (agg h : FVec Ideal S10000x128 .f32) (p : Fin 10000) (q : Fin 128) :
    k1_pay1 (F := Ideal) b agg h (ix2 p q)
      = max (agg (ix2 p q) + ∑ k : Fin 3, b (ix2 k q)) Cert.Spec.zeroWord + h (ix2 p q) := by
  have e1 : shapeCast S10000x128 agg shapeCasts_S10000x128_S10000x128 = agg := shapeCast_self _ _
  have e2 : shapeCast S10000x128 h shapeCasts_S10000x128_S10000x128 = h := shapeCast_self _ _
  have e3 : shapeCast S3x128 b shapeCasts_S3x128_S3x128 = b := shapeCast_self _ _
  unfold k1_pay1
  show max (shapeCast S10000x128 agg shapeCasts_S10000x128_S10000x128 (ix2 p q)
        + broadcastTo S10000x128 (shapeCast S1x128 (multiReduction .add [0] S128 (shapeCast S3x128 b shapeCasts_S3x128_S3x128) 0x00000000#32 reduces_S3x128_S128 (.inl rfl) rfl)
            shapeCasts_S128_S1x128) broadcasts_S1x128_S10000x128 (ix2 p q)) (Ideal.ofBits .f32 0x00000000#32)
      + shapeCast S10000x128 h shapeCasts_S10000x128_S10000x128 (ix2 p q) = _
  rw [e1, e2, e3, biasSum_apply b p q]

/-- The same, with the entries read named: the update at (p, q) depends only on the aggregated message and the previous
    feature at (p, q) and on the bias column q. -/
theorem rectPayload1_eq (b : FVec Ideal S3x128 .f32) (agg h : FVec Ideal S10000x128 .f32) (p : Fin 10000) (q : Fin 128)
    (A : EReal) (B : Fin 3 → EReal) (H : EReal) (hA : agg (ix2 p q) = A) (hB : ∀ k : Fin 3, b (ix2 k q) = B k)
    (hH : h (ix2 p q) = H) :
    k1_pay1 (F := Ideal) b agg h (ix2 p q) = max (A + ∑ k : Fin 3, B k) Cert.Spec.zeroWord + H := by
  rw [rectPayload1_apply, hA, hH, Finset.sum_congr rfl fun k _ => hB k]

/-- The rectifying node update's payload at row p, column q of a block. -/
theorem rectPayload3_apply (b : FVec Ideal S3x128 .f32) (agg h : FVec Ideal S10000x128 .f32) (p : Fin 10000) (q : Fin 128) :
    k3_pay1 (F := Ideal) b agg h (ix2 p q)
      = max (agg (ix2 p q) + ∑ k : Fin 3, b (ix2 k q)) Cert.Spec.zeroWord + h (ix2 p q) := by
  have e1 : shapeCast S10000x128 agg shapeCasts_S10000x128_S10000x128 = agg := shapeCast_self _ _
  have e2 : shapeCast S10000x128 h shapeCasts_S10000x128_S10000x128 = h := shapeCast_self _ _
  have e3 : shapeCast S3x128 b shapeCasts_S3x128_S3x128 = b := shapeCast_self _ _
  unfold k3_pay1
  show max (shapeCast S10000x128 agg shapeCasts_S10000x128_S10000x128 (ix2 p q)
        + broadcastTo S10000x128 (shapeCast S1x128 (multiReduction .add [0] S128 (shapeCast S3x128 b shapeCasts_S3x128_S3x128) 0x00000000#32 reduces_S3x128_S128 (.inl rfl) rfl)
            shapeCasts_S128_S1x128) broadcasts_S1x128_S10000x128 (ix2 p q)) (Ideal.ofBits .f32 0x00000000#32)
      + shapeCast S10000x128 h shapeCasts_S10000x128_S10000x128 (ix2 p q) = _
  rw [e1, e2, e3, biasSum_apply b p q]

/-- The same, with the entries read named: the update at (p, q) depends only on the aggregated message and the previous
    feature at (p, q) and on the bias column q. -/
theorem rectPayload3_eq (b : FVec Ideal S3x128 .f32) (agg h : FVec Ideal S10000x128 .f32) (p : Fin 10000) (q : Fin 128)
    (A : EReal) (B : Fin 3 → EReal) (H : EReal) (hA : agg (ix2 p q) = A) (hB : ∀ k : Fin 3, b (ix2 k q) = B k)
    (hH : h (ix2 p q) = H) :
    k3_pay1 (F := Ideal) b agg h (ix2 p q) = max (A + ∑ k : Fin 3, B k) Cert.Spec.zeroWord + H := by
  rw [rectPayload3_apply, hA, hH, Finset.sum_congr rfl fun k _ => hB k]

/-- The last layer's node update's payload at row p, column q of a block: no rectifier. -/
theorem plainPayload5_apply (b : FVec Ideal S3x128 .f32) (agg h : FVec Ideal S10000x128 .f32) (p : Fin 10000) (q : Fin 128) :
    k5_pay1 (F := Ideal) b agg h (ix2 p q) = (agg (ix2 p q) + ∑ k : Fin 3, b (ix2 k q)) + h (ix2 p q) := by
  have e1 : shapeCast S10000x128 agg shapeCasts_S10000x128_S10000x128 = agg := shapeCast_self _ _
  have e2 : shapeCast S10000x128 h shapeCasts_S10000x128_S10000x128 = h := shapeCast_self _ _
  have e3 : shapeCast S3x128 b shapeCasts_S3x128_S3x128 = b := shapeCast_self _ _
  unfold k5_pay1
  show (shapeCast S10000x128 agg shapeCasts_S10000x128_S10000x128 (ix2 p q)
        + broadcastTo S10000x128 (shapeCast S1x128 (multiReduction .add [0] S128 (shapeCast S3x128 b shapeCasts_S3x128_S3x128) 0x00000000#32 reduces_S3x128_S128 (.inl rfl) rfl)
            shapeCasts_S128_S1x128) broadcasts_S1x128_S10000x128 (ix2 p q))
      + shapeCast S10000x128 h shapeCasts_S10000x128_S10000x128 (ix2 p q) = _
  rw [e1, e2, e3, biasSum_apply b p q]

/-- The same, with the entries read named. -/
theorem plainPayload5_eq (b : FVec Ideal S3x128 .f32) (agg h : FVec Ideal S10000x128 .f32) (p : Fin 10000) (q : Fin 128)
    (A : EReal) (B : Fin 3 → EReal) (H : EReal) (hA : agg (ix2 p q) = A) (hB : ∀ k : Fin 3, b (ix2 k q) = B k)
    (hH : h (ix2 p q) = H) :
    k5_pay1 (F := Ideal) b agg h (ix2 p q) = (A + ∑ k : Fin 3, B k) + H := by
  rw [plainPayload5_apply, hA, hH, Finset.sum_congr rfl fun k _ => hB k]

variable (V : (c : Dev nD) → (b : Ref sig .tc) → Buf (Elt Ideal) ((c : Thread nD τ).loc b))

/-! ## Region 1 -/

/-- The block indices of region 1's windows at point t: the three [50000,128] windows take row block t, the bias window
    its one block. -/
theorem blockIndex1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

/-- Window 0's block at point t is rows 10000·t … 10000·t + 9999 of the aggregated messages. -/
theorem aggBlock1_apply (c : Dev nD) (t : Fin cfg1.N) (p : Fin 10000) (q : Fin 128) (n : Fin 50000)
    (hn : n.val = 10000 * t.val + p.val) :
    (iblk1 V c 0 t : FVec Ideal S10000x128 .f32) (ix2 p q) = (V c main_v158 : S50000x128.Idx → EReal) (ix2 n q) := by
  obtain ⟨e0, e1, -⟩ := blockIndex1 t
  unfold iblk1
  rw [View.read_apply]
  show V c main_v158 _ = V c main_v158 _
  congr 1
  funext a
  apply Fin.ext
  match a with
  | ⟨0, _⟩ => show win1_0.index t 0 * 10000 + 1 * p.val = n.val; rw [e0, hn]; omega
  | ⟨1, _⟩ => show win1_0.index t 1 * 128 + 1 * q.val = q.val; rw [e1]; omega

/-- Window 1's block at every point is the whole bias array. -/
theorem biasBlock1_apply (c : Dev nD) (t : Fin cfg1.N) (k : Fin 3) (q : Fin 128) :
    (iblk1 V c 1 t : FVec Ideal S3x128 .f32) (ix2 k q) = (V c main_v160 : S3x128.Idx → EReal) (ix2 k q) := by
  obtain ⟨-, -, e0, e1, -⟩ := blockIndex1 t
  unfold iblk1
  rw [View.read_apply]
  show V c main_v160 _ = V c main_v160 _
  congr 1
  funext a
  apply Fin.ext
  match a with
  | ⟨0, _⟩ => show win1_1.index t 0 * 3 + 1 * k.val = k.val; rw [e0]; omega
  | ⟨1, _⟩ => show win1_1.index t 1 * 128 + 1 * q.val = q.val; rw [e1]; omega

/-- Window 2's block at point t is rows 10000·t … 10000·t + 9999 of the previous features. -/
theorem prevBlock1_apply (c : Dev nD) (t : Fin cfg1.N) (p : Fin 10000) (q : Fin 128) (n : Fin 50000)
    (hn : n.val = 10000 * t.val + p.val) :
    (iblk1 V c 2 t : FVec Ideal S10000x128 .f32) (ix2 p q) = (V c main_v110 : S50000x128.Idx → EReal) (ix2 n q) := by
  obtain ⟨-, -, -, -, e0, e1, -⟩ := blockIndex1 t
  unfold iblk1
  rw [View.read_apply]
  show V c main_v110 _ = V c main_v110 _
  congr 1
  funext a
  apply Fin.ext
  match a with
  | ⟨0, _⟩ => show win1_2.index t 0 * 10000 + 1 * p.val = n.val; rw [e0, hn]; omega
  | ⟨1, _⟩ => show win1_2.index t 1 * 128 + 1 * q.val = q.val; rw [e1]; omega

/-- What point t writes back is block t of the node update of the arrays the region finds. -/
theorem flushed1_eq (c : Dev nD) (t : Fin cfg1.N) :
    (dat1 (F := Ideal) V c).flushed 3 t
      = ((cfg1.win 3).blk t).view.read (Elt Ideal) (Cert.Spec.node true (V c main_v158) (V c main_v160) (V c main_v110)) := by
  show (cfg1.win 3).cut (grid1.coords t) ((dat1 V c).after 3 t) = _
  rw [after1_3]
  unfold out1_3
  rw [View.canon_unit_zero zeroOffsets]
  simp only [View.ld_unit_zero (S := S10000x128) zeroOffsets, View.ld_unit_zero (S := S3x128) zeroOffsets]
  funext j
  obtain ⟨p, q, rfl⟩ : ∃ (p : Fin 10000) (q : Fin 128), j = ix2 p q := ⟨j 0, j 1, eq_ix2 j⟩
  have ht : t.val < 5 := lt_of_lt_of_eq t.isLt N_1
  have hn : 10000 * t.val + p.val < 50000 := by have := p.isLt; omega
  obtain ⟨-, -, -, -, -, -, e0, e1⟩ := blockIndex1 t
  have hemb : ((cfg1.win 3).blk t).view.emb (ix2 p q) = (ix2 (⟨10000 * t.val + p.val, hn⟩ : Fin 50000) q : S50000x128.Idx) := by
    funext a
    apply Fin.ext
    match a with
    | ⟨0, _⟩ => show win1_3.index t 0 * 10000 + 1 * p.val = 10000 * t.val + p.val; rw [e0]; omega
    | ⟨1, _⟩ => show win1_3.index t 1 * 128 + 1 * q.val = q.val; rw [e1]; omega
  refine (rectPayload1_eq (iblk1 V c 1 t) (iblk1 V c 0 t) (iblk1 V c 2 t) p q
    ((V c main_v158 : S50000x128.Idx → EReal) (ix2 ⟨10000 * t.val + p.val, hn⟩ q))
    (fun k => (V c main_v160 : S3x128.Idx → EReal) (ix2 k q))
    ((V c main_v110 : S50000x128.Idx → EReal) (ix2 ⟨10000 * t.val + p.val, hn⟩ q))
    (aggBlock1_apply V c t p q ⟨_, hn⟩ rfl) (fun k => biasBlock1_apply V c t k q)
    (prevBlock1_apply V c t p q ⟨_, hn⟩ rfl)).trans ?_
  show _ = Cert.Spec.node true (V c main_v158) (V c main_v160) (V c main_v110) (((cfg1.win 3).blk t).view.emb (ix2 p q))
  rw [hemb, Cert.Spec.node_apply]
  unfold Cert.Spec.nodeAt
  rw [if_pos rfl]

/-- An index of the array is in point t's block iff each coordinate is in the block's range on its axis. -/
theorem mem_block1 (t : Fin cfg1.N) (i : S50000x128.Idx) :
    i ∈ ((cfg1.win 3).blk t).view.set ↔ ∀ a : Fin 2, win1_3.index t a * S10000x128.size a ≤ (i a).val
      ∧ (i a).val < win1_3.index t a * S10000x128.size a + S10000x128.size a := by
  show i ∈ ((View.whole main_v161).slice (win1_3.rect t)).set ↔ _
  rw [View.set_slice_whole, Rect.mem_set_unit]
  exact Iff.rfl

/-- The five row blocks tile the array (row r is in block r / 10000), so after the region the array holds the node
    update of the arrays the region found. -/
theorem arr1 (c : Dev nD) :
    (dat1 (F := Ideal) V c).arrAt 3 cfg1.N = Cert.Spec.node true (V c main_v158) (V c main_v160) (V c main_v110) :=
  (dat1 V c).arrAt_eq_of_cover 3 _ (fun t _ => flushed1_eq V c t) fun i => by
    have hi0 : (i 0).val < 50000 := (i 0).isLt
    have hi1 : (i 1).val < 128 := (i 1).isLt
    have hN : grid1.N = 5 := N_1
    have ht5 : (i 0).val / 10000 < cfg1.N := by show _ < grid1.N; rw [hN]; omega
    obtain ⟨t, htv⟩ : ∃ t : Fin cfg1.N, t.val = (i 0).val / 10000 := ⟨⟨_, ht5⟩, rfl⟩
    obtain ⟨-, -, -, -, -, -, e0, e1⟩ := blockIndex1 t
    refine ⟨t, flush1_3 t, ?_⟩
    rw [mem_block1]
    intro a
    match a with
    | ⟨0, _⟩ =>
      show win1_3.index t 0 * 10000 ≤ (i 0).val ∧ (i 0).val < win1_3.index t 0 * 10000 + 10000
      rw [e0, htv]; omega
    | ⟨1, _⟩ =>
      show win1_3.index t 1 * 128 ≤ (i 1).val ∧ (i 1).val < win1_3.index t 1 * 128 + 128
      rw [e1]; omega

/-! ## Region 3 -/

/-- The block indices of region 3's windows at point t: the three [50000,128] windows take row block t, the bias window
    its one block. -/
theorem blockIndex3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0 :=
  (by decide +kernel : ∀ t : Fin grid3.N, _)

/-- Window 0's block at point t is rows 10000·t … 10000·t + 9999 of the aggregated messages. -/
theorem aggBlock3_apply (c : Dev nD) (t : Fin cfg3.N) (p : Fin 10000) (q : Fin 128) (n : Fin 50000)
    (hn : n.val = 10000 * t.val + p.val) :
    (iblk3 V c 0 t : FVec Ideal S10000x128 .f32) (ix2 p q) = (V c main_v209 : S50000x128.Idx → EReal) (ix2 n q) := by
  obtain ⟨e0, e1, -⟩ := blockIndex3 t
  unfold iblk3
  rw [View.read_apply]
  show V c main_v209 _ = V c main_v209 _
  congr 1
  funext a
  apply Fin.ext
  match a with
  | ⟨0, _⟩ => show win3_0.index t 0 * 10000 + 1 * p.val = n.val; rw [e0, hn]; omega
  | ⟨1, _⟩ => show win3_0.index t 1 * 128 + 1 * q.val = q.val; rw [e1]; omega

/-- Window 1's block at every point is the whole bias array. -/
theorem biasBlock3_apply (c : Dev nD) (t : Fin cfg3.N) (k : Fin 3) (q : Fin 128) :
    (iblk3 V c 1 t : FVec Ideal S3x128 .f32) (ix2 k q) = (V c main_v211 : S3x128.Idx → EReal) (ix2 k q) := by
  obtain ⟨-, -, e0, e1, -⟩ := blockIndex3 t
  unfold iblk3
  rw [View.read_apply]
  show V c main_v211 _ = V c main_v211 _
  congr 1
  funext a
  apply Fin.ext
  match a with
  | ⟨0, _⟩ => show win3_1.index t 0 * 3 + 1 * k.val = k.val; rw [e0]; omega
  | ⟨1, _⟩ => show win3_1.index t 1 * 128 + 1 * q.val = q.val; rw [e1]; omega

/-- Window 2's block at point t is rows 10000·t … 10000·t + 9999 of the previous features. -/
theorem prevBlock3_apply (c : Dev nD) (t : Fin cfg3.N) (p : Fin 10000) (q : Fin 128) (n : Fin 50000)
    (hn : n.val = 10000 * t.val + p.val) :
    (iblk3 V c 2 t : FVec Ideal S10000x128 .f32) (ix2 p q) = (V c main_v161 : S50000x128.Idx → EReal) (ix2 n q) := by
  obtain ⟨-, -, -, -, e0, e1, -⟩ := blockIndex3 t
  unfold iblk3
  rw [View.read_apply]
  show V c main_v161 _ = V c main_v161 _
  congr 1
  funext a
  apply Fin.ext
  match a with
  | ⟨0, _⟩ => show win3_2.index t 0 * 10000 + 1 * p.val = n.val; rw [e0, hn]; omega
  | ⟨1, _⟩ => show win3_2.index t 1 * 128 + 1 * q.val = q.val; rw [e1]; omega

/-- What point t writes back is block t of the node update of the arrays the region finds. -/
theorem flushed3_eq (c : Dev nD) (t : Fin cfg3.N) :
    (dat3 (F := Ideal) V c).flushed 3 t
      = ((cfg3.win 3).blk t).view.read (Elt Ideal) (Cert.Spec.node true (V c main_v209) (V c main_v211) (V c main_v161)) := by
  show (cfg3.win 3).cut (grid3.coords t) ((dat3 V c).after 3 t) = _
  rw [after3_3]
  unfold out3_3
  rw [View.canon_unit_zero zeroOffsets]
  simp only [View.ld_unit_zero (S := S10000x128) zeroOffsets, View.ld_unit_zero (S := S3x128) zeroOffsets]
  funext j
  obtain ⟨p, q, rfl⟩ : ∃ (p : Fin 10000) (q : Fin 128), j = ix2 p q := ⟨j 0, j 1, eq_ix2 j⟩
  have ht : t.val < 5 := lt_of_lt_of_eq t.isLt N_3
  have hn : 10000 * t.val + p.val < 50000 := by have := p.isLt; omega
  obtain ⟨-, -, -, -, -, -, e0, e1⟩ := blockIndex3 t
  have hemb : ((cfg3.win 3).blk t).view.emb (ix2 p q) = (ix2 (⟨10000 * t.val + p.val, hn⟩ : Fin 50000) q : S50000x128.Idx) := by
    funext a
    apply Fin.ext
    match a with
    | ⟨0, _⟩ => show win3_3.index t 0 * 10000 + 1 * p.val = 10000 * t.val + p.val; rw [e0]; omega
    | ⟨1, _⟩ => show win3_3.index t 1 * 128 + 1 * q.val = q.val; rw [e1]; omega
  refine (rectPayload3_eq (iblk3 V c 1 t) (iblk3 V c 0 t) (iblk3 V c 2 t) p q
    ((V c main_v209 : S50000x128.Idx → EReal) (ix2 ⟨10000 * t.val + p.val, hn⟩ q))
    (fun k => (V c main_v211 : S3x128.Idx → EReal) (ix2 k q))
    ((V c main_v161 : S50000x128.Idx → EReal) (ix2 ⟨10000 * t.val + p.val, hn⟩ q))
    (aggBlock3_apply V c t p q ⟨_, hn⟩ rfl) (fun k => biasBlock3_apply V c t k q)
    (prevBlock3_apply V c t p q ⟨_, hn⟩ rfl)).trans ?_
  show _ = Cert.Spec.node true (V c main_v209) (V c main_v211) (V c main_v161) (((cfg3.win 3).blk t).view.emb (ix2 p q))
  rw [hemb, Cert.Spec.node_apply]
  unfold Cert.Spec.nodeAt
  rw [if_pos rfl]

/-- An index of the array is in point t's block iff each coordinate is in the block's range on its axis. -/
theorem mem_block3 (t : Fin cfg3.N) (i : S50000x128.Idx) :
    i ∈ ((cfg3.win 3).blk t).view.set ↔ ∀ a : Fin 2, win3_3.index t a * S10000x128.size a ≤ (i a).val
      ∧ (i a).val < win3_3.index t a * S10000x128.size a + S10000x128.size a := by
  show i ∈ ((View.whole main_v212).slice (win3_3.rect t)).set ↔ _
  rw [View.set_slice_whole, Rect.mem_set_unit]
  exact Iff.rfl

/-- The five row blocks tile the array (row r is in block r / 10000), so after the region the array holds the node
    update of the arrays the region found. -/
theorem arr3 (c : Dev nD) :
    (dat3 (F := Ideal) V c).arrAt 3 cfg3.N = Cert.Spec.node true (V c main_v209) (V c main_v211) (V c main_v161) :=
  (dat3 V c).arrAt_eq_of_cover 3 _ (fun t _ => flushed3_eq V c t) fun i => by
    have hi0 : (i 0).val < 50000 := (i 0).isLt
    have hi1 : (i 1).val < 128 := (i 1).isLt
    have hN : grid3.N = 5 := N_3
    have ht5 : (i 0).val / 10000 < cfg3.N := by show _ < grid3.N; rw [hN]; omega
    obtain ⟨t, htv⟩ : ∃ t : Fin cfg3.N, t.val = (i 0).val / 10000 := ⟨⟨_, ht5⟩, rfl⟩
    obtain ⟨-, -, -, -, -, -, e0, e1⟩ := blockIndex3 t
    refine ⟨t, flush3_3 t, ?_⟩
    rw [mem_block3]
    intro a
    match a with
    | ⟨0, _⟩ =>
      show win3_3.index t 0 * 10000 ≤ (i 0).val ∧ (i 0).val < win3_3.index t 0 * 10000 + 10000
      rw [e0, htv]; omega
    | ⟨1, _⟩ =>
      show win3_3.index t 1 * 128 ≤ (i 1).val ∧ (i 1).val < win3_3.index t 1 * 128 + 128
      rw [e1]; omega

/-! ## Region 5 -/

/-- The block indices of region 5's windows at point t: the three [50000,128] windows take row block t, the bias window
    its one block. -/
theorem blockIndex5 : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0
    ∧ win5_3.index t (0 : Fin 2) = t.val ∧ win5_3.index t (1 : Fin 2) = 0 :=
  (by decide +kernel : ∀ t : Fin grid5.N, _)

/-- Window 0's block at point t is rows 10000·t … 10000·t + 9999 of the aggregated messages. -/
theorem aggBlock5_apply (c : Dev nD) (t : Fin cfg5.N) (p : Fin 10000) (q : Fin 128) (n : Fin 50000)
    (hn : n.val = 10000 * t.val + p.val) :
    (iblk5 V c 0 t : FVec Ideal S10000x128 .f32) (ix2 p q) = (V c main_v260 : S50000x128.Idx → EReal) (ix2 n q) := by
  obtain ⟨e0, e1, -⟩ := blockIndex5 t
  unfold iblk5
  rw [View.read_apply]
  show V c main_v260 _ = V c main_v260 _
  congr 1
  funext a
  apply Fin.ext
  match a with
  | ⟨0, _⟩ => show win5_0.index t 0 * 10000 + 1 * p.val = n.val; rw [e0, hn]; omega
  | ⟨1, _⟩ => show win5_0.index t 1 * 128 + 1 * q.val = q.val; rw [e1]; omega

/-- Window 1's block at every point is the whole bias array. -/
theorem biasBlock5_apply (c : Dev nD) (t : Fin cfg5.N) (k : Fin 3) (q : Fin 128) :
    (iblk5 V c 1 t : FVec Ideal S3x128 .f32) (ix2 k q) = (V c main_v262 : S3x128.Idx → EReal) (ix2 k q) := by
  obtain ⟨-, -, e0, e1, -⟩ := blockIndex5 t
  unfold iblk5
  rw [View.read_apply]
  show V c main_v262 _ = V c main_v262 _
  congr 1
  funext a
  apply Fin.ext
  match a with
  | ⟨0, _⟩ => show win5_1.index t 0 * 3 + 1 * k.val = k.val; rw [e0]; omega
  | ⟨1, _⟩ => show win5_1.index t 1 * 128 + 1 * q.val = q.val; rw [e1]; omega

/-- Window 2's block at point t is rows 10000·t … 10000·t + 9999 of the previous features. -/
theorem prevBlock5_apply (c : Dev nD) (t : Fin cfg5.N) (p : Fin 10000) (q : Fin 128) (n : Fin 50000)
    (hn : n.val = 10000 * t.val + p.val) :
    (iblk5 V c 2 t : FVec Ideal S10000x128 .f32) (ix2 p q) = (V c main_v212 : S50000x128.Idx → EReal) (ix2 n q) := by
  obtain ⟨-, -, -, -, e0, e1, -⟩ := blockIndex5 t
  unfold iblk5
  rw [View.read_apply]
  show V c main_v212 _ = V c main_v212 _
  congr 1
  funext a
  apply Fin.ext
  match a with
  | ⟨0, _⟩ => show win5_2.index t 0 * 10000 + 1 * p.val = n.val; rw [e0, hn]; omega
  | ⟨1, _⟩ => show win5_2.index t 1 * 128 + 1 * q.val = q.val; rw [e1]; omega

/-- What point t writes back is block t of the node update of the arrays the region finds. -/
theorem flushed5_eq (c : Dev nD) (t : Fin cfg5.N) :
    (dat5 (F := Ideal) V c).flushed 3 t
      = ((cfg5.win 3).blk t).view.read (Elt Ideal) (Cert.Spec.node false (V c main_v260) (V c main_v262) (V c main_v212)) := by
  show (cfg5.win 3).cut (grid5.coords t) ((dat5 V c).after 3 t) = _
  rw [after5_3]
  unfold out5_3
  rw [View.canon_unit_zero zeroOffsets]
  simp only [View.ld_unit_zero (S := S10000x128) zeroOffsets, View.ld_unit_zero (S := S3x128) zeroOffsets]
  funext j
  obtain ⟨p, q, rfl⟩ : ∃ (p : Fin 10000) (q : Fin 128), j = ix2 p q := ⟨j 0, j 1, eq_ix2 j⟩
  have ht : t.val < 5 := lt_of_lt_of_eq t.isLt N_5
  have hn : 10000 * t.val + p.val < 50000 := by have := p.isLt; omega
  obtain ⟨-, -, -, -, -, -, e0, e1⟩ := blockIndex5 t
  have hemb : ((cfg5.win 3).blk t).view.emb (ix2 p q) = (ix2 (⟨10000 * t.val + p.val, hn⟩ : Fin 50000) q : S50000x128.Idx) := by
    funext a
    apply Fin.ext
    match a with
    | ⟨0, _⟩ => show win5_3.index t 0 * 10000 + 1 * p.val = 10000 * t.val + p.val; rw [e0]; omega
    | ⟨1, _⟩ => show win5_3.index t 1 * 128 + 1 * q.val = q.val; rw [e1]; omega
  refine (plainPayload5_eq (iblk5 V c 1 t) (iblk5 V c 0 t) (iblk5 V c 2 t) p q
    ((V c main_v260 : S50000x128.Idx → EReal) (ix2 ⟨10000 * t.val + p.val, hn⟩ q))
    (fun k => (V c main_v262 : S3x128.Idx → EReal) (ix2 k q))
    ((V c main_v212 : S50000x128.Idx → EReal) (ix2 ⟨10000 * t.val + p.val, hn⟩ q))
    (aggBlock5_apply V c t p q ⟨_, hn⟩ rfl) (fun k => biasBlock5_apply V c t k q)
    (prevBlock5_apply V c t p q ⟨_, hn⟩ rfl)).trans ?_
  show _ = Cert.Spec.node false (V c main_v260) (V c main_v262) (V c main_v212) (((cfg5.win 3).blk t).view.emb (ix2 p q))
  rw [hemb, Cert.Spec.node_apply]
  unfold Cert.Spec.nodeAt
  rw [if_neg Bool.false_ne_true]

/-- An index of the array is in point t's block iff each coordinate is in the block's range on its axis. -/
theorem mem_block5 (t : Fin cfg5.N) (i : S50000x128.Idx) :
    i ∈ ((cfg5.win 3).blk t).view.set ↔ ∀ a : Fin 2, win5_3.index t a * S10000x128.size a ≤ (i a).val
      ∧ (i a).val < win5_3.index t a * S10000x128.size a + S10000x128.size a := by
  show i ∈ ((View.whole main_v263).slice (win5_3.rect t)).set ↔ _
  rw [View.set_slice_whole, Rect.mem_set_unit]
  exact Iff.rfl

/-- The five row blocks tile the array (row r is in block r / 10000), so after the region the array holds the node
    update of the arrays the region found. -/
theorem arr5 (c : Dev nD) :
    (dat5 (F := Ideal) V c).arrAt 3 cfg5.N = Cert.Spec.node false (V c main_v260) (V c main_v262) (V c main_v212) :=
  (dat5 V c).arrAt_eq_of_cover 3 _ (fun t _ => flushed5_eq V c t) fun i => by
    have hi0 : (i 0).val < 50000 := (i 0).isLt
    have hi1 : (i 1).val < 128 := (i 1).isLt
    have hN : grid5.N = 5 := N_5
    have ht5 : (i 0).val / 10000 < cfg5.N := by show _ < grid5.N; rw [hN]; omega
    obtain ⟨t, htv⟩ : ∃ t : Fin cfg5.N, t.val = (i 0).val / 10000 := ⟨⟨_, ht5⟩, rfl⟩
    obtain ⟨-, -, -, -, -, -, e0, e1⟩ := blockIndex5 t
    refine ⟨t, flush5_3 t, ?_⟩
    rw [mem_block5]
    intro a
    match a with
    | ⟨0, _⟩ =>
      show win5_3.index t 0 * 10000 ≤ (i 0).val ∧ (i 0).val < win5_3.index t 0 * 10000 + 10000
      rw [e0, htv]; omega
    | ⟨1, _⟩ =>
      show win5_3.index t 1 * 128 ≤ (i 1).val ∧ (i 1).val < win5_3.index t 1 * 128 + 128
      rw [e1]; omega

end Cert.KernelIdeal.NodeRegion

end
-- ==== Proof.ReadoutRegion.lean ====
/-
  The readout region, read as one function of the arrays it finds.

  The region has one grid point, and each of its windows' one block is its whole array. At graph g, output column o the
  body computes the sum over the 128 hidden columns k of (the sum over i of hg(g, i) · w1(i, k), plus b1(k)) times
  w2(k, o), plus b2(o): each matrix product into the zero accumulator is the sum over the contracted coordinate of the
  products of the row's and the column's entries, and each bias is cast to one row and broadcast down the rows. That is
  the second affine map of the first, which is the readout; the one block covers the result array, so after the region
  it holds the readout, entry by entry.
-/
import proofs.«101888_j76184129896719_1_alg».proof.Proof.Gen.KernelIdeal.Frame
import proofs.«101888_j76184129896719_1_alg».proof.Proof.LibDense
import proofs.«101888_j76184129896719_1_alg».proof.Proof.Spec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.ReadoutRegion

open Idealize.ShloMosaic Idealize.ShloMosaic.ValueIdx Idealize.ShloMosaic.TcCoe Idealize.SL.Sem
open Idealize.ShloMosaic.Pipeline (Dat)
open Cert.KernelIdeal Cert.KernelIdeal.Gen

/-! ## The two matrix products' index maps -/

theorem hiddenDot_l0 (i : S2048x128.Idx) (c : dot_S2048x128_S128x128_S2048x128_1_0_0_1_n_n.contr.Idx) :
    (dot_S2048x128_S128x128_S2048x128_1_0_0_1_n_n.lhsIdx i c 0).val = (i 0).val := by
  unfold DotDims.lhsIdx
  rw [dif_neg (show ¬(0 : Fin S2048x128.rank) ∈ dot_S2048x128_S128x128_S2048x128_1_0_0_1_n_n.lhsBatch by decide),
    dif_pos (show (0 : Fin S2048x128.rank) ∈ dot_S2048x128_S128x128_S2048x128_1_0_0_1_n_n.lhsNonContracting by decide)]
  rfl

theorem hiddenDot_r1 (i : S2048x128.Idx) (c : dot_S2048x128_S128x128_S2048x128_1_0_0_1_n_n.contr.Idx) :
    (dot_S2048x128_S128x128_S2048x128_1_0_0_1_n_n.rhsIdx i c 1).val = (i 1).val := by
  unfold DotDims.rhsIdx
  rw [dif_neg (show ¬(1 : Fin S128x128.rank) ∈ dot_S2048x128_S128x128_S2048x128_1_0_0_1_n_n.rhsBatch by decide),
    dif_pos (show (1 : Fin S128x128.rank) ∈ dot_S2048x128_S128x128_S2048x128_1_0_0_1_n_n.rhsNonContracting by decide)]
  rfl

theorem outDot_l0 (i : S2048x1.Idx) (c : dot_S2048x128_S128x1_S2048x1_1_0_0_1_n_n.contr.Idx) :
    (dot_S2048x128_S128x1_S2048x1_1_0_0_1_n_n.lhsIdx i c 0).val = (i 0).val := by
  unfold DotDims.lhsIdx
  rw [dif_neg (show ¬(0 : Fin S2048x128.rank) ∈ dot_S2048x128_S128x1_S2048x1_1_0_0_1_n_n.lhsBatch by decide),
    dif_pos (show (0 : Fin S2048x128.rank) ∈ dot_S2048x128_S128x1_S2048x1_1_0_0_1_n_n.lhsNonContracting by decide)]
  rfl

theorem outDot_r1 (i : S2048x1.Idx) (c : dot_S2048x128_S128x1_S2048x1_1_0_0_1_n_n.contr.Idx) :
    (dot_S2048x128_S128x1_S2048x1_1_0_0_1_n_n.rhsIdx i c 1).val = (i 1).val := by
  unfold DotDims.rhsIdx
  rw [dif_neg (show ¬(1 : Fin S128x1.rank) ∈ dot_S2048x128_S128x1_S2048x1_1_0_0_1_n_n.rhsBatch by decide),
    dif_pos (show (1 : Fin S128x1.rank) ∈ dot_S2048x128_S128x1_S2048x1_1_0_0_1_n_n.rhsNonContracting by decide)]
  rfl

/-- The first matrix product into the zero accumulator, at (p, q): the sum over k of x(p, k) · w(k, q). -/
theorem hiddenMatmul_apply (x : FVec Ideal S2048x128 .f32) (w : FVec Ideal S128x128 .f32) (p : Fin 2048) (q : Fin 128) :
    matmul dot_S2048x128_S128x128_S2048x128_1_0_0_1_n_n none x w (constant (F := Ideal) S2048x128 .f32 0x00000000#32) (ix2 p q)
      = ∑ k : Fin 128, x (ix2 p k) * w (ix2 k q) :=
  Cert.LibDense.matmul_zero_rc dot_S2048x128_S128x128_S2048x128_1_0_0_1_n_n rfl rfl hiddenDot_l0
    (fun i c => dot_S2048x128_S128x128_S2048x128_1_0_0_1_n_n.lhsIdx_val_of_single rfl i c)
    (fun i c => dot_S2048x128_S128x128_S2048x128_1_0_0_1_n_n.rhsIdx_val_of_single rfl i c)
    hiddenDot_r1 none x w p q

/-- The second matrix product into the zero accumulator, at (p, q): the sum over k of x(p, k) · w(k, q). -/
theorem outMatmul_apply (x : FVec Ideal S2048x128 .f32) (w : FVec Ideal S128x1 .f32) (p : Fin 2048) (q : Fin 1) :
    matmul dot_S2048x128_S128x1_S2048x1_1_0_0_1_n_n none x w (constant (F := Ideal) S2048x1 .f32 0x00000000#32) (ix2 p q)
      = ∑ k : Fin 128, x (ix2 p k) * w (ix2 k q) :=
  Cert.LibDense.matmul_zero_rc dot_S2048x128_S128x1_S2048x1_1_0_0_1_n_n rfl rfl outDot_l0
    (fun i c => dot_S2048x128_S128x1_S2048x1_1_0_0_1_n_n.lhsIdx_val_of_single rfl i c)
    (fun i c => dot_S2048x128_S128x1_S2048x1_1_0_0_1_n_n.rhsIdx_val_of_single rfl i c)
    outDot_r1 none x w p q

/-! ## The payload at an index -/

/-- The hidden layer as the body computes it, as one function: the affine map of the pooled features. -/
theorem hidden_eq (hg : FVec Ideal S2048x128 .f32) (w1 : FVec Ideal S128x128 .f32) (b1 : FVec Ideal S128 .f32) :
    addf (matmul dot_S2048x128_S128x128_S2048x128_1_0_0_1_n_n none hg w1 (constant (F := Ideal) S2048x128 .f32 0x00000000#32))
        (broadcastTo S2048x128 (shapeCast S1x128 b1 shapeCasts_S128_S1x128) broadcasts_S1x128_S2048x128)
      = Cert.LibDense.affine hg w1 b1 := by
  funext i
  obtain ⟨p, q, rfl⟩ : ∃ (p : Fin 2048) (q : Fin 128), i = ix2 p q := ⟨i 0, i 1, eq_ix2 i⟩
  rw [addf_apply, hiddenMatmul_apply, Cert.LibDense.rowBroadcast_rc, Cert.LibDense.affine_apply]

/-- The readout's payload at graph g, output column o: the second affine map of the first. -/
theorem readoutPayload_apply (hg : FVec Ideal S2048x128 .f32) (w1 : FVec Ideal S128x128 .f32) (b1 : FVec Ideal S128 .f32)
    (w2 : FVec Ideal S128x1 .f32) (b2 : FVec Ideal S1 .f32) (g : Fin 2048) (o : Fin 1) :
    k6_pay1 (F := Ideal) hg w1 b1 w2 b2 (ix2 g o)
      = Cert.LibDense.affine (Cert.LibDense.affine hg w1 b1) w2 b2 (ix2 g o) := by
  have e1 : shapeCast S2048x128 hg shapeCasts_S2048x128_S2048x128 = hg := shapeCast_self _ _
  unfold k6_pay1
  show matmul dot_S2048x128_S128x1_S2048x1_1_0_0_1_n_n none
        (addf (matmul dot_S2048x128_S128x128_S2048x128_1_0_0_1_n_n none (shapeCast S2048x128 hg shapeCasts_S2048x128_S2048x128) w1
            (constant (F := Ideal) S2048x128 .f32 0x00000000#32))
          (broadcastTo S2048x128 (shapeCast S1x128 b1 shapeCasts_S128_S1x128) broadcasts_S1x128_S2048x128))
        w2 (constant (F := Ideal) S2048x1 .f32 0x00000000#32) (ix2 g o)
      + broadcastTo S2048x1 (shapeCast S1x1 b2 shapeCasts_S1_S1x1) broadcasts_S1x1_S2048x1 (ix2 g o) = _
  rw [e1, hidden_eq, outMatmul_apply, Cert.LibDense.rowBroadcast_rc, Cert.LibDense.affine_apply]

/-- The same, with the arrays read named. -/
theorem readoutPayload_eq (hg HG : FVec Ideal S2048x128 .f32) (w1 W1 : FVec Ideal S128x128 .f32) (b1 B1 : FVec Ideal S128 .f32)
    (w2 W2 : FVec Ideal S128x1 .f32) (b2 B2 : FVec Ideal S1 .f32) (g : Fin 2048) (o : Fin 1)
    (h0 : hg = HG) (h1 : w1 = W1) (h2 : b1 = B1) (h3 : w2 = W2) (h4 : b2 = B2) :
    k6_pay1 (F := Ideal) hg w1 b1 w2 b2 (ix2 g o)
      = Cert.LibDense.affine (Cert.LibDense.affine HG W1 B1) W2 B2 (ix2 g o) := by
  subst h0 h1 h2 h3 h4
  exact readoutPayload_apply hg w1 b1 w2 b2 g o

variable (V : (c : Dev nD) → (b : Ref sig .tc) → Buf (Elt Ideal) ((c : Thread nD τ).loc b))

/-! ## The blocks: every window's one block is its whole array -/

theorem zeroOffsets2 : (![0, 0] : Fin 2 → Nat) = fun _ => 0 := funext fun a => by fin_cases a <;> rfl

theorem zeroOffsets1 : (![0] : Fin 1 → Nat) = fun _ => 0 := funext fun a => by fin_cases a; rfl

theorem blockIndex6_0 : ∀ t : Fin cfg6.N, win6_0.index t (0 : Fin 2) = 0 ∧ win6_0.index t (1 : Fin 2) = 0 :=
  (by decide +kernel : ∀ t : Fin grid6.N, _)

theorem blockIndex6_1 : ∀ t : Fin cfg6.N, win6_1.index t (0 : Fin 2) = 0 ∧ win6_1.index t (1 : Fin 2) = 0 :=
  (by decide +kernel : ∀ t : Fin grid6.N, _)

theorem blockIndex6_2 : ∀ t : Fin cfg6.N, win6_2.index t (0 : Fin 1) = 0 :=
  (by decide +kernel : ∀ t : Fin grid6.N, _)

theorem blockIndex6_3 : ∀ t : Fin cfg6.N, win6_3.index t (0 : Fin 2) = 0 ∧ win6_3.index t (1 : Fin 2) = 0 :=
  (by decide +kernel : ∀ t : Fin grid6.N, _)

theorem blockIndex6_4 : ∀ t : Fin cfg6.N, win6_4.index t (0 : Fin 1) = 0 :=
  (by decide +kernel : ∀ t : Fin grid6.N, _)

theorem blockIndex6_5 : ∀ t : Fin cfg6.N, win6_5.index t (0 : Fin 2) = 0 ∧ win6_5.index t (1 : Fin 2) = 0 :=
  (by decide +kernel : ∀ t : Fin grid6.N, _)

/-- Window 0's block is the whole array of pooled graph features. -/
theorem pooledBlock_eq (c : Dev nD) (t : Fin cfg6.N) :
    (iblk6 V c 0 t : FVec Ideal S2048x128 .f32) = (V c main_v275 : S2048x128.Idx → EReal) := by
  obtain ⟨e0, e1⟩ := blockIndex6_0 t
  funext y
  unfold iblk6
  rw [View.read_apply]
  show V c main_v275 _ = V c main_v275 y
  congr 1
  funext a
  apply Fin.ext
  match a with
  | ⟨0, _⟩ => show win6_0.index t 0 * 2048 + 1 * (y 0).val = (y 0).val; rw [e0]; omega
  | ⟨1, _⟩ => show win6_0.index t 1 * 128 + 1 * (y 1).val = (y 1).val; rw [e1]; omega

/-- Window 1's block is the whole first weight matrix. -/
theorem hiddenWeightBlock_eq (c : Dev nD) (t : Fin cfg6.N) :
    (iblk6 V c 1 t : FVec Ideal S128x128 .f32) = (V c main_arg8 : S128x128.Idx → EReal) := by
  obtain ⟨e0, e1⟩ := blockIndex6_1 t
  funext y
  unfold iblk6
  rw [View.read_apply]
  show V c main_arg8 _ = V c main_arg8 y
  congr 1
  funext a
  apply Fin.ext
  match a with
  | ⟨0, _⟩ => show win6_1.index t 0 * 128 + 1 * (y 0).val = (y 0).val; rw [e0]; omega
  | ⟨1, _⟩ => show win6_1.index t 1 * 128 + 1 * (y 1).val = (y 1).val; rw [e1]; omega

/-- Window 2's block is the whole first bias vector. -/
theorem hiddenBiasBlock_eq (c : Dev nD) (t : Fin cfg6.N) :
    (iblk6 V c 2 t : FVec Ideal S128 .f32) = (V c main_arg9 : S128.Idx → EReal) := by
  have e0 := blockIndex6_2 t
  funext y
  unfold iblk6
  rw [View.read_apply]
  show V c main_arg9 _ = V c main_arg9 y
  congr 1
  funext a
  apply Fin.ext
  match a with
  | ⟨0, _⟩ => show win6_2.index t 0 * 128 + 1 * (y 0).val = (y 0).val; rw [e0]; omega

/-- Window 3's block is the whole second weight matrix. -/
theorem outWeightBlock_eq (c : Dev nD) (t : Fin cfg6.N) :
    (iblk6 V c 3 t : FVec Ideal S128x1 .f32) = (V c main_arg10 : S128x1.Idx → EReal) := by
  obtain ⟨e0, e1⟩ := blockIndex6_3 t
  funext y
  unfold iblk6
  rw [View.read_apply]
  show V c main_arg10 _ = V c main_arg10 y
  congr 1
  funext a
  apply Fin.ext
  match a with
  | ⟨0, _⟩ => show win6_3.index t 0 * 128 + 1 * (y 0).val = (y 0).val; rw [e0]; omega
  | ⟨1, _⟩ => show win6_3.index t 1 * 1 + 1 * (y 1).val = (y 1).val; rw [e1]; omega

/-- Window 4's block is the whole second bias vector. -/
theorem outBiasBlock_eq (c : Dev nD) (t : Fin cfg6.N) :
    (iblk6 V c 4 t : FVec Ideal S1 .f32) = (V c main_arg11 : S1.Idx → EReal) := by
  have e0 := blockIndex6_4 t
  funext y
  unfold iblk6
  rw [View.read_apply]
  show V c main_arg11 _ = V c main_arg11 y
  congr 1
  funext a
  apply Fin.ext
  match a with
  | ⟨0, _⟩ => show win6_4.index t 0 * 1 + 1 * (y 0).val = (y 0).val; rw [e0]; omega

/-! ## From the one block to the array -/

/-- What the one point writes back is the (whole-array) block of the readout of the arrays the region finds. -/
theorem flushed6_eq (c : Dev nD) (t : Fin cfg6.N) :
    (dat6 (F := Ideal) V c).flushed 5 t
      = ((cfg6.win 5).blk t).view.read (Elt Ideal)
          (Cert.Spec.readout (V c main_v275) (V c main_arg8) (V c main_arg9) (V c main_arg10) (V c main_arg11)) := by
  show (cfg6.win 5).cut (grid6.coords t) ((dat6 V c).after 5 t) = _
  rw [after6_5]
  unfold out6_5
  rw [View.canon_unit_zero zeroOffsets2]
  simp only [View.ld_unit_zero (S := S2048x128) zeroOffsets2, View.ld_unit_zero (S := S128x128) zeroOffsets2,
    View.ld_unit_zero (S := S128) zeroOffsets1, View.ld_unit_zero (S := S128x1) zeroOffsets2,
    View.ld_unit_zero (S := S1) zeroOffsets1]
  funext j
  obtain ⟨g, o, rfl⟩ : ∃ (g : Fin 2048) (o : Fin 1), j = ix2 g o := ⟨j 0, j 1, eq_ix2 j⟩
  obtain ⟨e0, e1⟩ := blockIndex6_5 t
  have hemb : ((cfg6.win 5).blk t).view.emb (ix2 g o) = (ix2 g o : S2048x1.Idx) := by
    funext a
    apply Fin.ext
    match a with
    | ⟨0, _⟩ => show win6_5.index t 0 * 2048 + 1 * g.val = g.val; rw [e0]; omega
    | ⟨1, _⟩ => show win6_5.index t 1 * 1 + 1 * o.val = o.val; rw [e1]; omega
  refine (readoutPayload_eq (iblk6 V c 0 t) (V c main_v275 : S2048x128.Idx → EReal)
    (iblk6 V c 1 t) (V c main_arg8 : S128x128.Idx → EReal) (iblk6 V c 2 t) (V c main_arg9 : S128.Idx → EReal)
    (iblk6 V c 3 t) (V c main_arg10 : S128x1.Idx → EReal) (iblk6 V c 4 t) (V c main_arg11 : S1.Idx → EReal) g o
    (pooledBlock_eq V c t) (hiddenWeightBlock_eq V c t) (hiddenBiasBlock_eq V c t) (outWeightBlock_eq V c t)
    (outBiasBlock_eq V c t)).trans ?_
  show _ = Cert.Spec.readout (V c main_v275) (V c main_arg8) (V c main_arg9) (V c main_arg10) (V c main_arg11)
    (((cfg6.win 5).blk t).view.emb (ix2 g o))
  rw [hemb]
  rfl

/-- An index of the array is in the point's block iff each coordinate is in the block's range on its axis. -/
theorem mem_block6 (t : Fin cfg6.N) (i : S2048x1.Idx) :
    i ∈ ((cfg6.win 5).blk t).view.set ↔ ∀ a : Fin 2, win6_5.index t a * S2048x1.size a ≤ (i a).val
      ∧ (i a).val < win6_5.index t a * S2048x1.size a + S2048x1.size a := by
  show i ∈ ((View.whole main_v276).slice (win6_5.rect t)).set ↔ _
  rw [View.set_slice_whole, Rect.mem_set_unit]
  exact Iff.rfl

/-- The one block is the whole array, so after the region the array holds the readout of the arrays the region found. -/
theorem arr6 (c : Dev nD) :
    (dat6 (F := Ideal) V c).arrAt 5 cfg6.N
      = Cert.Spec.readout (V c main_v275) (V c main_arg8) (V c main_arg9) (V c main_arg10) (V c main_arg11) :=
  (dat6 V c).arrAt_eq_of_cover 5 _ (fun t _ => flushed6_eq V c t) fun i => by
    have hi0 : (i 0).val < 2048 := (i 0).isLt
    have hi1 : (i 1).val < 1 := (i 1).isLt
    obtain ⟨e0, e1⟩ := blockIndex6_5 t6_0
    refine ⟨t6_0, flush6_5 t6_0, ?_⟩
    rw [mem_block6]
    intro a
    match a with
    | ⟨0, _⟩ =>
      show win6_5.index t6_0 0 * 2048 ≤ (i 0).val ∧ (i 0).val < win6_5.index t6_0 0 * 2048 + 2048
      rw [e0]; omega
    | ⟨1, _⟩ =>
      show win6_5.index t6_0 1 * 1 ≤ (i 1).val ∧ (i 1).val < win6_5.index t6_0 1 * 1 + 1
      rw [e1]; omega

end Cert.KernelIdeal.ReadoutRegion

end
-- ==== Proof.KValue.lean ====
/-
  The kernel program's result as one function of its twelve argument arrays.

  The program is fourteen segments: seven stretches of host operations and seven kernel regions, alternating. Walking
  the buffers' contents from the launch through the segments: the first stretch leaves the atom features, the edges'
  source and destination nodes and the first layer's edge weights and matrices; each layer is then an edge region (the
  edges' messages from the gathered source rows), a stretch adding the messages into their destination nodes, and a node
  region (the update with the layer's biases and the previous features); after the third layer a stretch takes the mean
  over each graph and the last region is the readout. Every buffer a segment does not write is carried across it
  unchanged, so each stage reads the earlier stages' values and the arguments as launched, and the result buffer ends at
  the network of the twelve arguments.
-/
import proofs.«101888_j76184129896719_1_alg».proof.Proof.Gen.KernelIdeal.Frame
import proofs.«101888_j76184129896719_1_alg».proof.Proof.Stages
import proofs.«101888_j76184129896719_1_alg».proof.Proof.Spec
import proofs.«101888_j76184129896719_1_alg».proof.Proof.LayerSpec
import proofs.«101888_j76184129896719_1_alg».proof.Proof.KHost0
import proofs.«101888_j76184129896719_1_alg».proof.Proof.KHost0Atom
import proofs.«101888_j76184129896719_1_alg».proof.Proof.KHost0Weights
import proofs.«101888_j76184129896719_1_alg».proof.Proof.KHost0Gather
import proofs.«101888_j76184129896719_1_alg».proof.Proof.KHost1
import proofs.«101888_j76184129896719_1_alg».proof.Proof.KHost2
import proofs.«101888_j76184129896719_1_alg».proof.Proof.KHostB
import proofs.«101888_j76184129896719_1_alg».proof.Proof.EdgeRegion0
import proofs.«101888_j76184129896719_1_alg».proof.Proof.EdgeRegion2
import proofs.«101888_j76184129896719_1_alg».proof.Proof.EdgeRegion4
import proofs.«101888_j76184129896719_1_alg».proof.Proof.NodeRegion
import proofs.«101888_j76184129896719_1_alg».proof.Proof.ReadoutRegion

set_option maxRecDepth 16384

noncomputable section

namespace Cert.KernelIdeal.KValue

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg) (c : Dev nD)

/-! ## The argument arrays as launched, and the stages' values -/

abbrev x0 := m ((c : Thread nD τ).loc main_arg0)
abbrev x1 := m ((c : Thread nD τ).loc main_arg1)
abbrev x2 := m ((c : Thread nD τ).loc main_arg2)
abbrev x3 := m ((c : Thread nD τ).loc main_arg3)
abbrev x4 := m ((c : Thread nD τ).loc main_arg4)
abbrev x5 := m ((c : Thread nD τ).loc main_arg5)
abbrev x6 := m ((c : Thread nD τ).loc main_arg6)
abbrev x7 := m ((c : Thread nD τ).loc main_arg7)
abbrev x8 := m ((c : Thread nD τ).loc main_arg8)
abbrev x9 := m ((c : Thread nD τ).loc main_arg9)
abbrev x10 := m ((c : Thread nD τ).loc main_arg10)
abbrev x11 := m ((c : Thread nD τ).loc main_arg11)

/-- The edges' source nodes. -/
def srcN := Cert.Stages.srcRow (F := Ideal) (x1 m c)
/-- The edges' destination nodes. -/
def dstN := Cert.Stages.dstRow (F := Ideal) (x1 m c)
/-- The atom features. -/
def feat0 := Cert.Stages.atomEnc (F := Ideal) (x0 m c) (x4 m c)
/-- The node features after the first layer. -/
def feat1 := Cert.LayerSpec.layer true (feat0 m c) (srcN m c) (dstN m c) (Cert.Stages.ew0 (F := Ideal) (x2 m c) (x5 m c))
  (Cert.LayerSpec.kW0 (x6 m c)) (Cert.Stages.b0 (F := Ideal) (x7 m c))
/-- The node features after the second layer. -/
def feat2 := Cert.LayerSpec.layer true (feat1 m c) (srcN m c) (dstN m c) (Cert.Stages.ew1 (F := Ideal) (x2 m c) (x5 m c))
  (Cert.LayerSpec.kW1 (x6 m c)) (Cert.Stages.b1 (F := Ideal) (x7 m c))
/-- The node features after the third layer. -/
def feat3 := Cert.LayerSpec.layer false (feat2 m c) (srcN m c) (dstN m c) (Cert.Stages.ew2 (F := Ideal) (x2 m c) (x5 m c))
  (Cert.LayerSpec.kW2 (x6 m c)) (Cert.Stages.b2 (F := Ideal) (x7 m c))

/-! ## After the first stretch of host operations -/

theorem at1_v110 : W1 m ρ c (Proc.devRef .tc main_v110) = feat0 m c :=
  Cert.KernelIdeal.KHostA.h0_v110 (W0 m ρ c)
theorem at1_v1 : W1 m ρ c (Proc.devRef .tc main_v1) = srcN m c :=
  Cert.KernelIdeal.KHostA.h0_v1 (W0 m ρ c)
theorem at1_v3 : W1 m ρ c (Proc.devRef .tc main_v3) = dstN m c :=
  Cert.KernelIdeal.KHostA.h0_v3 (W0 m ρ c)
theorem at1_v145 : W1 m ρ c (Proc.devRef .tc main_v145) = Cert.Stages.ew0 (F := Ideal) (x2 m c) (x5 m c) :=
  Cert.KernelIdeal.KHostA.h0_v145 (W0 m ρ c)
theorem at1_v152 : W1 m ρ c (Proc.devRef .tc main_v152) = Host.gather Cert.KernelIdeal.gather_S50000x128_S600000x1_S600000x128_1_0_n_n_0_1_1128 (feat0 m c) (Cert.Stages.srcCol (F := Ideal) (srcN m c)) :=
  Cert.KernelIdeal.KHostA.h0_v152 (W0 m ρ c)
theorem at1_v154 : W1 m ρ c (Proc.devRef .tc main_v154) = Cert.LayerSpec.kW0 (x6 m c) :=
  Cert.KernelIdeal.KHostA.h0_v154 (W0 m ρ c)
theorem at1_arg2 : W1 m ρ c (Proc.devRef .tc main_arg2) = x2 m c :=
  (Cert.KernelIdeal.KHostA.h0_keep (W0 m ρ c) main_arg2 (by decide)).trans (rfl)
theorem at1_arg5 : W1 m ρ c (Proc.devRef .tc main_arg5) = x5 m c :=
  (Cert.KernelIdeal.KHostA.h0_keep (W0 m ρ c) main_arg5 (by decide)).trans (rfl)
theorem at1_arg6 : W1 m ρ c (Proc.devRef .tc main_arg6) = x6 m c :=
  (Cert.KernelIdeal.KHostA.h0_keep (W0 m ρ c) main_arg6 (by decide)).trans (rfl)
theorem at1_arg7 : W1 m ρ c (Proc.devRef .tc main_arg7) = x7 m c :=
  (Cert.KernelIdeal.KHostA.h0_keep (W0 m ρ c) main_arg7 (by decide)).trans (rfl)
theorem at1_arg3 : W1 m ρ c (Proc.devRef .tc main_arg3) = x3 m c :=
  (Cert.KernelIdeal.KHostA.h0_keep (W0 m ρ c) main_arg3 (by decide)).trans (rfl)
theorem at1_arg8 : W1 m ρ c (Proc.devRef .tc main_arg8) = x8 m c :=
  (Cert.KernelIdeal.KHostA.h0_keep (W0 m ρ c) main_arg8 (by decide)).trans (rfl)
theorem at1_arg9 : W1 m ρ c (Proc.devRef .tc main_arg9) = x9 m c :=
  (Cert.KernelIdeal.KHostA.h0_keep (W0 m ρ c) main_arg9 (by decide)).trans (rfl)
theorem at1_arg10 : W1 m ρ c (Proc.devRef .tc main_arg10) = x10 m c :=
  (Cert.KernelIdeal.KHostA.h0_keep (W0 m ρ c) main_arg10 (by decide)).trans (rfl)
theorem at1_arg11 : W1 m ρ c (Proc.devRef .tc main_arg11) = x11 m c :=
  (Cert.KernelIdeal.KHostA.h0_keep (W0 m ρ c) main_arg11 (by decide)).trans (rfl)

/-! ## After the first edge region -/

theorem at2_v155 : W2 m ρ c (Proc.devRef .tc main_v155) = Cert.Spec.msg (Host.gather Cert.KernelIdeal.gather_S50000x128_S600000x1_S600000x128_1_0_n_n_0_1_1128 (feat0 m c) (Cert.Stages.srcCol (F := Ideal) (srcN m c))) (Cert.Stages.ew0 (F := Ideal) (x2 m c) (x5 m c)) (Cert.LayerSpec.kW0 (x6 m c)) := by
  refine (W2_arr m ρ c 3).trans ?_
  refine (Cert.KernelIdeal.EdgeRegion.arr0 (V1 m ρ) c).trans ?_
  show Cert.Spec.msg (W1 m ρ c (Proc.devRef .tc main_v152)) (W1 m ρ c (Proc.devRef .tc main_v145)) (W1 m ρ c (Proc.devRef .tc main_v154)) = _
  rw [at1_v152 m ρ c, at1_v145 m ρ c, at1_v154 m ρ c]
theorem at2_v1 : W2 m ρ c (Proc.devRef .tc main_v1) = srcN m c :=
  (W2_of_ne m ρ c main_v1 (by decide)).trans (at1_v1 m ρ c)
theorem at2_v3 : W2 m ρ c (Proc.devRef .tc main_v3) = dstN m c :=
  (W2_of_ne m ρ c main_v3 (by decide)).trans (at1_v3 m ρ c)
theorem at2_v110 : W2 m ρ c (Proc.devRef .tc main_v110) = feat0 m c :=
  (W2_of_ne m ρ c main_v110 (by decide)).trans (at1_v110 m ρ c)
theorem at2_arg2 : W2 m ρ c (Proc.devRef .tc main_arg2) = x2 m c :=
  (W2_of_ne m ρ c main_arg2 (by decide)).trans (at1_arg2 m ρ c)
theorem at2_arg5 : W2 m ρ c (Proc.devRef .tc main_arg5) = x5 m c :=
  (W2_of_ne m ρ c main_arg5 (by decide)).trans (at1_arg5 m ρ c)
theorem at2_arg6 : W2 m ρ c (Proc.devRef .tc main_arg6) = x6 m c :=
  (W2_of_ne m ρ c main_arg6 (by decide)).trans (at1_arg6 m ρ c)
theorem at2_arg7 : W2 m ρ c (Proc.devRef .tc main_arg7) = x7 m c :=
  (W2_of_ne m ρ c main_arg7 (by decide)).trans (at1_arg7 m ρ c)
theorem at2_arg3 : W2 m ρ c (Proc.devRef .tc main_arg3) = x3 m c :=
  (W2_of_ne m ρ c main_arg3 (by decide)).trans (at1_arg3 m ρ c)
theorem at2_arg8 : W2 m ρ c (Proc.devRef .tc main_arg8) = x8 m c :=
  (W2_of_ne m ρ c main_arg8 (by decide)).trans (at1_arg8 m ρ c)
theorem at2_arg9 : W2 m ρ c (Proc.devRef .tc main_arg9) = x9 m c :=
  (W2_of_ne m ρ c main_arg9 (by decide)).trans (at1_arg9 m ρ c)
theorem at2_arg10 : W2 m ρ c (Proc.devRef .tc main_arg10) = x10 m c :=
  (W2_of_ne m ρ c main_arg10 (by decide)).trans (at1_arg10 m ρ c)
theorem at2_arg11 : W2 m ρ c (Proc.devRef .tc main_arg11) = x11 m c :=
  (W2_of_ne m ρ c main_arg11 (by decide)).trans (at1_arg11 m ρ c)

/-! ## After the stretch that adds the first layer's messages into the nodes -/

theorem at3_v158 : W3 m ρ c (Proc.devRef .tc main_v158) = Host.scatterAdd (F := Ideal) (φ := .f32) Cert.ReferenceIdeal.scatter_S50000x128_S600000x1_S600000x128_1_0_0_1 (Cert.Stages.zerosN (F := Ideal)) (Cert.Stages.dstCol (F := Ideal) (dstN m c)) (Cert.Spec.msg (Host.gather Cert.KernelIdeal.gather_S50000x128_S600000x1_S600000x128_1_0_n_n_0_1_1128 (feat0 m c) (Cert.Stages.srcCol (F := Ideal) (srcN m c))) (Cert.Stages.ew0 (F := Ideal) (x2 m c) (x5 m c)) (Cert.LayerSpec.kW0 (x6 m c))) := by
  refine (Cert.KernelIdeal.KHostA.h1_v158 (W2 m ρ c)).trans ?_
  rw [at2_v3 m ρ c, at2_v155 m ρ c]
theorem at3_v160 : W3 m ρ c (Proc.devRef .tc main_v160) = Cert.Stages.b0 (F := Ideal) (x7 m c) := by
  refine (Cert.KernelIdeal.KHostA.h1_v160 (W2 m ρ c)).trans ?_
  rw [at2_arg7 m ρ c]
theorem at3_v1 : W3 m ρ c (Proc.devRef .tc main_v1) = srcN m c :=
  (Cert.KernelIdeal.KHostA.h1_keep (W2 m ρ c) main_v1 (by decide)).trans (at2_v1 m ρ c)
theorem at3_v3 : W3 m ρ c (Proc.devRef .tc main_v3) = dstN m c :=
  (Cert.KernelIdeal.KHostA.h1_keep (W2 m ρ c) main_v3 (by decide)).trans (at2_v3 m ρ c)
theorem at3_v110 : W3 m ρ c (Proc.devRef .tc main_v110) = feat0 m c :=
  (Cert.KernelIdeal.KHostA.h1_keep (W2 m ρ c) main_v110 (by decide)).trans (at2_v110 m ρ c)
theorem at3_arg2 : W3 m ρ c (Proc.devRef .tc main_arg2) = x2 m c :=
  (Cert.KernelIdeal.KHostA.h1_keep (W2 m ρ c) main_arg2 (by decide)).trans (at2_arg2 m ρ c)
theorem at3_arg5 : W3 m ρ c (Proc.devRef .tc main_arg5) = x5 m c :=
  (Cert.KernelIdeal.KHostA.h1_keep (W2 m ρ c) main_arg5 (by decide)).trans (at2_arg5 m ρ c)
theorem at3_arg6 : W3 m ρ c (Proc.devRef .tc main_arg6) = x6 m c :=
  (Cert.KernelIdeal.KHostA.h1_keep (W2 m ρ c) main_arg6 (by decide)).trans (at2_arg6 m ρ c)
theorem at3_arg7 : W3 m ρ c (Proc.devRef .tc main_arg7) = x7 m c :=
  (Cert.KernelIdeal.KHostA.h1_keep (W2 m ρ c) main_arg7 (by decide)).trans (at2_arg7 m ρ c)
theorem at3_arg3 : W3 m ρ c (Proc.devRef .tc main_arg3) = x3 m c :=
  (Cert.KernelIdeal.KHostA.h1_keep (W2 m ρ c) main_arg3 (by decide)).trans (at2_arg3 m ρ c)
theorem at3_arg8 : W3 m ρ c (Proc.devRef .tc main_arg8) = x8 m c :=
  (Cert.KernelIdeal.KHostA.h1_keep (W2 m ρ c) main_arg8 (by decide)).trans (at2_arg8 m ρ c)
theorem at3_arg9 : W3 m ρ c (Proc.devRef .tc main_arg9) = x9 m c :=
  (Cert.KernelIdeal.KHostA.h1_keep (W2 m ρ c) main_arg9 (by decide)).trans (at2_arg9 m ρ c)
theorem at3_arg10 : W3 m ρ c (Proc.devRef .tc main_arg10) = x10 m c :=
  (Cert.KernelIdeal.KHostA.h1_keep (W2 m ρ c) main_arg10 (by decide)).trans (at2_arg10 m ρ c)
theorem at3_arg11 : W3 m ρ c (Proc.devRef .tc main_arg11) = x11 m c :=
  (Cert.KernelIdeal.KHostA.h1_keep (W2 m ρ c) main_arg11 (by decide)).trans (at2_arg11 m ρ c)

/-! ## After the first node region -/

theorem at4_v161 : W4 m ρ c (Proc.devRef .tc main_v161) = feat1 m c := by
  refine (W4_arr m ρ c 3).trans ?_
  refine (Cert.KernelIdeal.NodeRegion.arr1 (V3 m ρ) c).trans ?_
  show Cert.Spec.node true (W3 m ρ c (Proc.devRef .tc main_v158)) (W3 m ρ c (Proc.devRef .tc main_v160)) (W3 m ρ c (Proc.devRef .tc main_v110)) = _
  rw [at3_v158 m ρ c, at3_v160 m ρ c, at3_v110 m ρ c]
  unfold feat1 Cert.LayerSpec.layer
  rfl
theorem at4_v1 : W4 m ρ c (Proc.devRef .tc main_v1) = srcN m c :=
  (W4_of_ne m ρ c main_v1 (by decide)).trans (at3_v1 m ρ c)
theorem at4_v3 : W4 m ρ c (Proc.devRef .tc main_v3) = dstN m c :=
  (W4_of_ne m ρ c main_v3 (by decide)).trans (at3_v3 m ρ c)
theorem at4_arg2 : W4 m ρ c (Proc.devRef .tc main_arg2) = x2 m c :=
  (W4_of_ne m ρ c main_arg2 (by decide)).trans (at3_arg2 m ρ c)
theorem at4_arg5 : W4 m ρ c (Proc.devRef .tc main_arg5) = x5 m c :=
  (W4_of_ne m ρ c main_arg5 (by decide)).trans (at3_arg5 m ρ c)
theorem at4_arg6 : W4 m ρ c (Proc.devRef .tc main_arg6) = x6 m c :=
  (W4_of_ne m ρ c main_arg6 (by decide)).trans (at3_arg6 m ρ c)
theorem at4_arg7 : W4 m ρ c (Proc.devRef .tc main_arg7) = x7 m c :=
  (W4_of_ne m ρ c main_arg7 (by decide)).trans (at3_arg7 m ρ c)
theorem at4_arg3 : W4 m ρ c (Proc.devRef .tc main_arg3) = x3 m c :=
  (W4_of_ne m ρ c main_arg3 (by decide)).trans (at3_arg3 m ρ c)
theorem at4_arg8 : W4 m ρ c (Proc.devRef .tc main_arg8) = x8 m c :=
  (W4_of_ne m ρ c main_arg8 (by decide)).trans (at3_arg8 m ρ c)
theorem at4_arg9 : W4 m ρ c (Proc.devRef .tc main_arg9) = x9 m c :=
  (W4_of_ne m ρ c main_arg9 (by decide)).trans (at3_arg9 m ρ c)
theorem at4_arg10 : W4 m ρ c (Proc.devRef .tc main_arg10) = x10 m c :=
  (W4_of_ne m ρ c main_arg10 (by decide)).trans (at3_arg10 m ρ c)
theorem at4_arg11 : W4 m ρ c (Proc.devRef .tc main_arg11) = x11 m c :=
  (W4_of_ne m ρ c main_arg11 (by decide)).trans (at3_arg11 m ρ c)

/-! ## After the stretch before the second edge region -/

theorem at5_v196 : W5 m ρ c (Proc.devRef .tc main_v196) = Cert.Stages.ew1 (F := Ideal) (x2 m c) (x5 m c) := by
  refine (Cert.KernelIdeal.KHostA.h2_v196 (W4 m ρ c)).trans ?_
  rw [at4_arg2 m ρ c, at4_arg5 m ρ c]
theorem at5_v203 : W5 m ρ c (Proc.devRef .tc main_v203) = Host.gather Cert.KernelIdeal.gather_S50000x128_S600000x1_S600000x128_1_0_n_n_0_1_1128 (feat1 m c) (Cert.Stages.srcCol (F := Ideal) (srcN m c)) := by
  refine (Cert.KernelIdeal.KHostA.h2_v203 (W4 m ρ c)).trans ?_
  rw [at4_v161 m ρ c, at4_v1 m ρ c]
theorem at5_v205 : W5 m ρ c (Proc.devRef .tc main_v205) = Cert.LayerSpec.kW1 (x6 m c) := by
  refine (Cert.KernelIdeal.KHostA.h2_v205 (W4 m ρ c)).trans ?_
  rw [at4_arg6 m ρ c]
theorem at5_v1 : W5 m ρ c (Proc.devRef .tc main_v1) = srcN m c :=
  (Cert.KernelIdeal.KHostA.h2_keep (W4 m ρ c) main_v1 (by decide)).trans (at4_v1 m ρ c)
theorem at5_v3 : W5 m ρ c (Proc.devRef .tc main_v3) = dstN m c :=
  (Cert.KernelIdeal.KHostA.h2_keep (W4 m ρ c) main_v3 (by decide)).trans (at4_v3 m ρ c)
theorem at5_v161 : W5 m ρ c (Proc.devRef .tc main_v161) = feat1 m c :=
  (Cert.KernelIdeal.KHostA.h2_keep (W4 m ρ c) main_v161 (by decide)).trans (at4_v161 m ρ c)
theorem at5_arg2 : W5 m ρ c (Proc.devRef .tc main_arg2) = x2 m c :=
  (Cert.KernelIdeal.KHostA.h2_keep (W4 m ρ c) main_arg2 (by decide)).trans (at4_arg2 m ρ c)
theorem at5_arg5 : W5 m ρ c (Proc.devRef .tc main_arg5) = x5 m c :=
  (Cert.KernelIdeal.KHostA.h2_keep (W4 m ρ c) main_arg5 (by decide)).trans (at4_arg5 m ρ c)
theorem at5_arg6 : W5 m ρ c (Proc.devRef .tc main_arg6) = x6 m c :=
  (Cert.KernelIdeal.KHostA.h2_keep (W4 m ρ c) main_arg6 (by decide)).trans (at4_arg6 m ρ c)
theorem at5_arg7 : W5 m ρ c (Proc.devRef .tc main_arg7) = x7 m c :=
  (Cert.KernelIdeal.KHostA.h2_keep (W4 m ρ c) main_arg7 (by decide)).trans (at4_arg7 m ρ c)
theorem at5_arg3 : W5 m ρ c (Proc.devRef .tc main_arg3) = x3 m c :=
  (Cert.KernelIdeal.KHostA.h2_keep (W4 m ρ c) main_arg3 (by decide)).trans (at4_arg3 m ρ c)
theorem at5_arg8 : W5 m ρ c (Proc.devRef .tc main_arg8) = x8 m c :=
  (Cert.KernelIdeal.KHostA.h2_keep (W4 m ρ c) main_arg8 (by decide)).trans (at4_arg8 m ρ c)
theorem at5_arg9 : W5 m ρ c (Proc.devRef .tc main_arg9) = x9 m c :=
  (Cert.KernelIdeal.KHostA.h2_keep (W4 m ρ c) main_arg9 (by decide)).trans (at4_arg9 m ρ c)
theorem at5_arg10 : W5 m ρ c (Proc.devRef .tc main_arg10) = x10 m c :=
  (Cert.KernelIdeal.KHostA.h2_keep (W4 m ρ c) main_arg10 (by decide)).trans (at4_arg10 m ρ c)
theorem at5_arg11 : W5 m ρ c (Proc.devRef .tc main_arg11) = x11 m c :=
  (Cert.KernelIdeal.KHostA.h2_keep (W4 m ρ c) main_arg11 (by decide)).trans (at4_arg11 m ρ c)

/-! ## After the second edge region -/

theorem at6_v206 : W6 m ρ c (Proc.devRef .tc main_v206) = Cert.Spec.msg (Host.gather Cert.KernelIdeal.gather_S50000x128_S600000x1_S600000x128_1_0_n_n_0_1_1128 (feat1 m c) (Cert.Stages.srcCol (F := Ideal) (srcN m c))) (Cert.Stages.ew1 (F := Ideal) (x2 m c) (x5 m c)) (Cert.LayerSpec.kW1 (x6 m c)) := by
  refine (W6_arr m ρ c 3).trans ?_
  refine (Cert.KernelIdeal.EdgeRegion.arr2 (V5 m ρ) c).trans ?_
  show Cert.Spec.msg (W5 m ρ c (Proc.devRef .tc main_v203)) (W5 m ρ c (Proc.devRef .tc main_v196)) (W5 m ρ c (Proc.devRef .tc main_v205)) = _
  rw [at5_v203 m ρ c, at5_v196 m ρ c, at5_v205 m ρ c]
theorem at6_v1 : W6 m ρ c (Proc.devRef .tc main_v1) = srcN m c :=
  (W6_of_ne m ρ c main_v1 (by decide)).trans (at5_v1 m ρ c)
theorem at6_v3 : W6 m ρ c (Proc.devRef .tc main_v3) = dstN m c :=
  (W6_of_ne m ρ c main_v3 (by decide)).trans (at5_v3 m ρ c)
theorem at6_v161 : W6 m ρ c (Proc.devRef .tc main_v161) = feat1 m c :=
  (W6_of_ne m ρ c main_v161 (by decide)).trans (at5_v161 m ρ c)
theorem at6_arg2 : W6 m ρ c (Proc.devRef .tc main_arg2) = x2 m c :=
  (W6_of_ne m ρ c main_arg2 (by decide)).trans (at5_arg2 m ρ c)
theorem at6_arg5 : W6 m ρ c (Proc.devRef .tc main_arg5) = x5 m c :=
  (W6_of_ne m ρ c main_arg5 (by decide)).trans (at5_arg5 m ρ c)
theorem at6_arg6 : W6 m ρ c (Proc.devRef .tc main_arg6) = x6 m c :=
  (W6_of_ne m ρ c main_arg6 (by decide)).trans (at5_arg6 m ρ c)
theorem at6_arg7 : W6 m ρ c (Proc.devRef .tc main_arg7) = x7 m c :=
  (W6_of_ne m ρ c main_arg7 (by decide)).trans (at5_arg7 m ρ c)
theorem at6_arg3 : W6 m ρ c (Proc.devRef .tc main_arg3) = x3 m c :=
  (W6_of_ne m ρ c main_arg3 (by decide)).trans (at5_arg3 m ρ c)
theorem at6_arg8 : W6 m ρ c (Proc.devRef .tc main_arg8) = x8 m c :=
  (W6_of_ne m ρ c main_arg8 (by decide)).trans (at5_arg8 m ρ c)
theorem at6_arg9 : W6 m ρ c (Proc.devRef .tc main_arg9) = x9 m c :=
  (W6_of_ne m ρ c main_arg9 (by decide)).trans (at5_arg9 m ρ c)
theorem at6_arg10 : W6 m ρ c (Proc.devRef .tc main_arg10) = x10 m c :=
  (W6_of_ne m ρ c main_arg10 (by decide)).trans (at5_arg10 m ρ c)
theorem at6_arg11 : W6 m ρ c (Proc.devRef .tc main_arg11) = x11 m c :=
  (W6_of_ne m ρ c main_arg11 (by decide)).trans (at5_arg11 m ρ c)

/-! ## After the stretch that adds the second layer's messages into the nodes -/

theorem at7_v209 : W7 m ρ c (Proc.devRef .tc main_v209) = Host.scatterAdd (F := Ideal) (φ := .f32) Cert.ReferenceIdeal.scatter_S50000x128_S600000x1_S600000x128_1_0_0_1 (Cert.Stages.zerosN (F := Ideal)) (Cert.Stages.dstCol (F := Ideal) (dstN m c)) (Cert.Spec.msg (Host.gather Cert.KernelIdeal.gather_S50000x128_S600000x1_S600000x128_1_0_n_n_0_1_1128 (feat1 m c) (Cert.Stages.srcCol (F := Ideal) (srcN m c))) (Cert.Stages.ew1 (F := Ideal) (x2 m c) (x5 m c)) (Cert.LayerSpec.kW1 (x6 m c))) := by
  refine (Cert.KernelIdeal.KHostB.h3_v209 (W6 m ρ c)).trans ?_
  rw [at6_v3 m ρ c, at6_v206 m ρ c]
theorem at7_v211 : W7 m ρ c (Proc.devRef .tc main_v211) = Cert.Stages.b1 (F := Ideal) (x7 m c) := by
  refine (Cert.KernelIdeal.KHostB.h3_v211 (W6 m ρ c)).trans ?_
  rw [at6_arg7 m ρ c]
theorem at7_v1 : W7 m ρ c (Proc.devRef .tc main_v1) = srcN m c :=
  (Cert.KernelIdeal.KHostB.h3_keep_v1 (W6 m ρ c)).trans (at6_v1 m ρ c)
theorem at7_v3 : W7 m ρ c (Proc.devRef .tc main_v3) = dstN m c :=
  (Cert.KernelIdeal.KHostB.h3_keep_v3 (W6 m ρ c)).trans (at6_v3 m ρ c)
theorem at7_v161 : W7 m ρ c (Proc.devRef .tc main_v161) = feat1 m c :=
  (Cert.KernelIdeal.KHostB.h3_keep_v161 (W6 m ρ c)).trans (at6_v161 m ρ c)
theorem at7_arg2 : W7 m ρ c (Proc.devRef .tc main_arg2) = x2 m c :=
  (Cert.KernelIdeal.KHostB.h3_keep_arg2 (W6 m ρ c)).trans (at6_arg2 m ρ c)
theorem at7_arg5 : W7 m ρ c (Proc.devRef .tc main_arg5) = x5 m c :=
  (Cert.KernelIdeal.KHostB.h3_keep_arg5 (W6 m ρ c)).trans (at6_arg5 m ρ c)
theorem at7_arg6 : W7 m ρ c (Proc.devRef .tc main_arg6) = x6 m c :=
  (Cert.KernelIdeal.KHostB.h3_keep_arg6 (W6 m ρ c)).trans (at6_arg6 m ρ c)
theorem at7_arg7 : W7 m ρ c (Proc.devRef .tc main_arg7) = x7 m c :=
  (Cert.KernelIdeal.KHostB.h3_keep_arg7 (W6 m ρ c)).trans (at6_arg7 m ρ c)
theorem at7_arg3 : W7 m ρ c (Proc.devRef .tc main_arg3) = x3 m c :=
  (Cert.KernelIdeal.KHostB.h3_keep_arg3 (W6 m ρ c)).trans (at6_arg3 m ρ c)
theorem at7_arg8 : W7 m ρ c (Proc.devRef .tc main_arg8) = x8 m c :=
  (Cert.KernelIdeal.KHostB.h3_keep_arg8 (W6 m ρ c)).trans (at6_arg8 m ρ c)
theorem at7_arg9 : W7 m ρ c (Proc.devRef .tc main_arg9) = x9 m c :=
  (Cert.KernelIdeal.KHostB.h3_keep_arg9 (W6 m ρ c)).trans (at6_arg9 m ρ c)
theorem at7_arg10 : W7 m ρ c (Proc.devRef .tc main_arg10) = x10 m c :=
  (Cert.KernelIdeal.KHostB.h3_keep_arg10 (W6 m ρ c)).trans (at6_arg10 m ρ c)
theorem at7_arg11 : W7 m ρ c (Proc.devRef .tc main_arg11) = x11 m c :=
  (Cert.KernelIdeal.KHostB.h3_keep_arg11 (W6 m ρ c)).trans (at6_arg11 m ρ c)

/-! ## After the second node region -/

theorem at8_v212 : W8 m ρ c (Proc.devRef .tc main_v212) = feat2 m c := by
  refine (W8_arr m ρ c 3).trans ?_
  refine (Cert.KernelIdeal.NodeRegion.arr3 (V7 m ρ) c).trans ?_
  show Cert.Spec.node true (W7 m ρ c (Proc.devRef .tc main_v209)) (W7 m ρ c (Proc.devRef .tc main_v211)) (W7 m ρ c (Proc.devRef .tc main_v161)) = _
  rw [at7_v209 m ρ c, at7_v211 m ρ c, at7_v161 m ρ c]
  unfold feat2 Cert.LayerSpec.layer
  rfl
theorem at8_v1 : W8 m ρ c (Proc.devRef .tc main_v1) = srcN m c :=
  (W8_of_ne m ρ c main_v1 (by decide)).trans (at7_v1 m ρ c)
theorem at8_v3 : W8 m ρ c (Proc.devRef .tc main_v3) = dstN m c :=
  (W8_of_ne m ρ c main_v3 (by decide)).trans (at7_v3 m ρ c)
theorem at8_arg2 : W8 m ρ c (Proc.devRef .tc main_arg2) = x2 m c :=
  (W8_of_ne m ρ c main_arg2 (by decide)).trans (at7_arg2 m ρ c)
theorem at8_arg5 : W8 m ρ c (Proc.devRef .tc main_arg5) = x5 m c :=
  (W8_of_ne m ρ c main_arg5 (by decide)).trans (at7_arg5 m ρ c)
theorem at8_arg6 : W8 m ρ c (Proc.devRef .tc main_arg6) = x6 m c :=
  (W8_of_ne m ρ c main_arg6 (by decide)).trans (at7_arg6 m ρ c)
theorem at8_arg7 : W8 m ρ c (Proc.devRef .tc main_arg7) = x7 m c :=
  (W8_of_ne m ρ c main_arg7 (by decide)).trans (at7_arg7 m ρ c)
theorem at8_arg3 : W8 m ρ c (Proc.devRef .tc main_arg3) = x3 m c :=
  (W8_of_ne m ρ c main_arg3 (by decide)).trans (at7_arg3 m ρ c)
theorem at8_arg8 : W8 m ρ c (Proc.devRef .tc main_arg8) = x8 m c :=
  (W8_of_ne m ρ c main_arg8 (by decide)).trans (at7_arg8 m ρ c)
theorem at8_arg9 : W8 m ρ c (Proc.devRef .tc main_arg9) = x9 m c :=
  (W8_of_ne m ρ c main_arg9 (by decide)).trans (at7_arg9 m ρ c)
theorem at8_arg10 : W8 m ρ c (Proc.devRef .tc main_arg10) = x10 m c :=
  (W8_of_ne m ρ c main_arg10 (by decide)).trans (at7_arg10 m ρ c)
theorem at8_arg11 : W8 m ρ c (Proc.devRef .tc main_arg11) = x11 m c :=
  (W8_of_ne m ρ c main_arg11 (by decide)).trans (at7_arg11 m ρ c)

/-! ## After the stretch before the third edge region -/

theorem at9_v247 : W9 m ρ c (Proc.devRef .tc main_v247) = Cert.Stages.ew2 (F := Ideal) (x2 m c) (x5 m c) := by
  refine (Cert.KernelIdeal.KHostB.h4_v247 (W8 m ρ c)).trans ?_
  rw [at8_arg2 m ρ c, at8_arg5 m ρ c]
theorem at9_v254 : W9 m ρ c (Proc.devRef .tc main_v254) = Host.gather Cert.KernelIdeal.gather_S50000x128_S600000x1_S600000x128_1_0_n_n_0_1_1128 (feat2 m c) (Cert.Stages.srcCol (F := Ideal) (srcN m c)) := by
  refine (Cert.KernelIdeal.KHostB.h4_v254 (W8 m ρ c)).trans ?_
  rw [at8_v212 m ρ c, at8_v1 m ρ c]
theorem at9_v256 : W9 m ρ c (Proc.devRef .tc main_v256) = Cert.LayerSpec.kW2 (x6 m c) := by
  refine (Cert.KernelIdeal.KHostB.h4_v256 (W8 m ρ c)).trans ?_
  rw [at8_arg6 m ρ c]
theorem at9_v3 : W9 m ρ c (Proc.devRef .tc main_v3) = dstN m c :=
  (Cert.KernelIdeal.KHostB.h4_keep_v3 (W8 m ρ c)).trans (at8_v3 m ρ c)
theorem at9_v212 : W9 m ρ c (Proc.devRef .tc main_v212) = feat2 m c :=
  (Cert.KernelIdeal.KHostB.h4_keep_v212 (W8 m ρ c)).trans (at8_v212 m ρ c)
theorem at9_arg7 : W9 m ρ c (Proc.devRef .tc main_arg7) = x7 m c :=
  (Cert.KernelIdeal.KHostB.h4_keep_arg7 (W8 m ρ c)).trans (at8_arg7 m ρ c)
theorem at9_arg3 : W9 m ρ c (Proc.devRef .tc main_arg3) = x3 m c :=
  (Cert.KernelIdeal.KHostB.h4_keep_arg3 (W8 m ρ c)).trans (at8_arg3 m ρ c)
theorem at9_arg8 : W9 m ρ c (Proc.devRef .tc main_arg8) = x8 m c :=
  (Cert.KernelIdeal.KHostB.h4_keep_arg8 (W8 m ρ c)).trans (at8_arg8 m ρ c)
theorem at9_arg9 : W9 m ρ c (Proc.devRef .tc main_arg9) = x9 m c :=
  (Cert.KernelIdeal.KHostB.h4_keep_arg9 (W8 m ρ c)).trans (at8_arg9 m ρ c)
theorem at9_arg10 : W9 m ρ c (Proc.devRef .tc main_arg10) = x10 m c :=
  (Cert.KernelIdeal.KHostB.h4_keep_arg10 (W8 m ρ c)).trans (at8_arg10 m ρ c)
theorem at9_arg11 : W9 m ρ c (Proc.devRef .tc main_arg11) = x11 m c :=
  (Cert.KernelIdeal.KHostB.h4_keep_arg11 (W8 m ρ c)).trans (at8_arg11 m ρ c)

/-! ## After the third edge region -/

theorem at10_v257 : W10 m ρ c (Proc.devRef .tc main_v257) = Cert.Spec.msg (Host.gather Cert.KernelIdeal.gather_S50000x128_S600000x1_S600000x128_1_0_n_n_0_1_1128 (feat2 m c) (Cert.Stages.srcCol (F := Ideal) (srcN m c))) (Cert.Stages.ew2 (F := Ideal) (x2 m c) (x5 m c)) (Cert.LayerSpec.kW2 (x6 m c)) := by
  refine (W10_arr m ρ c 3).trans ?_
  refine (Cert.KernelIdeal.EdgeRegion.arr4 (V9 m ρ) c).trans ?_
  show Cert.Spec.msg (W9 m ρ c (Proc.devRef .tc main_v254)) (W9 m ρ c (Proc.devRef .tc main_v247)) (W9 m ρ c (Proc.devRef .tc main_v256)) = _
  rw [at9_v254 m ρ c, at9_v247 m ρ c, at9_v256 m ρ c]
theorem at10_v3 : W10 m ρ c (Proc.devRef .tc main_v3) = dstN m c :=
  (W10_of_ne m ρ c main_v3 (by decide)).trans (at9_v3 m ρ c)
theorem at10_v212 : W10 m ρ c (Proc.devRef .tc main_v212) = feat2 m c :=
  (W10_of_ne m ρ c main_v212 (by decide)).trans (at9_v212 m ρ c)
theorem at10_arg7 : W10 m ρ c (Proc.devRef .tc main_arg7) = x7 m c :=
  (W10_of_ne m ρ c main_arg7 (by decide)).trans (at9_arg7 m ρ c)
theorem at10_arg3 : W10 m ρ c (Proc.devRef .tc main_arg3) = x3 m c :=
  (W10_of_ne m ρ c main_arg3 (by decide)).trans (at9_arg3 m ρ c)
theorem at10_arg8 : W10 m ρ c (Proc.devRef .tc main_arg8) = x8 m c :=
  (W10_of_ne m ρ c main_arg8 (by decide)).trans (at9_arg8 m ρ c)
theorem at10_arg9 : W10 m ρ c (Proc.devRef .tc main_arg9) = x9 m c :=
  (W10_of_ne m ρ c main_arg9 (by decide)).trans (at9_arg9 m ρ c)
theorem at10_arg10 : W10 m ρ c (Proc.devRef .tc main_arg10) = x10 m c :=
  (W10_of_ne m ρ c main_arg10 (by decide)).trans (at9_arg10 m ρ c)
theorem at10_arg11 : W10 m ρ c (Proc.devRef .tc main_arg11) = x11 m c :=
  (W10_of_ne m ρ c main_arg11 (by decide)).trans (at9_arg11 m ρ c)

/-! ## After the stretch that adds the third layer's messages into the nodes -/

theorem at11_v260 : W11 m ρ c (Proc.devRef .tc main_v260) = Host.scatterAdd (F := Ideal) (φ := .f32) Cert.ReferenceIdeal.scatter_S50000x128_S600000x1_S600000x128_1_0_0_1 (Cert.Stages.zerosN (F := Ideal)) (Cert.Stages.dstCol (F := Ideal) (dstN m c)) (Cert.Spec.msg (Host.gather Cert.KernelIdeal.gather_S50000x128_S600000x1_S600000x128_1_0_n_n_0_1_1128 (feat2 m c) (Cert.Stages.srcCol (F := Ideal) (srcN m c))) (Cert.Stages.ew2 (F := Ideal) (x2 m c) (x5 m c)) (Cert.LayerSpec.kW2 (x6 m c))) := by
  refine (Cert.KernelIdeal.KHostB.h5_v260 (W10 m ρ c)).trans ?_
  rw [at10_v3 m ρ c, at10_v257 m ρ c]
theorem at11_v262 : W11 m ρ c (Proc.devRef .tc main_v262) = Cert.Stages.b2 (F := Ideal) (x7 m c) := by
  refine (Cert.KernelIdeal.KHostB.h5_v262 (W10 m ρ c)).trans ?_
  rw [at10_arg7 m ρ c]
theorem at11_v212 : W11 m ρ c (Proc.devRef .tc main_v212) = feat2 m c :=
  (Cert.KernelIdeal.KHostB.h5_keep_v212 (W10 m ρ c)).trans (at10_v212 m ρ c)
theorem at11_arg3 : W11 m ρ c (Proc.devRef .tc main_arg3) = x3 m c :=
  (Cert.KernelIdeal.KHostB.h5_keep_arg3 (W10 m ρ c)).trans (at10_arg3 m ρ c)
theorem at11_arg8 : W11 m ρ c (Proc.devRef .tc main_arg8) = x8 m c :=
  (Cert.KernelIdeal.KHostB.h5_keep_arg8 (W10 m ρ c)).trans (at10_arg8 m ρ c)
theorem at11_arg9 : W11 m ρ c (Proc.devRef .tc main_arg9) = x9 m c :=
  (Cert.KernelIdeal.KHostB.h5_keep_arg9 (W10 m ρ c)).trans (at10_arg9 m ρ c)
theorem at11_arg10 : W11 m ρ c (Proc.devRef .tc main_arg10) = x10 m c :=
  (Cert.KernelIdeal.KHostB.h5_keep_arg10 (W10 m ρ c)).trans (at10_arg10 m ρ c)
theorem at11_arg11 : W11 m ρ c (Proc.devRef .tc main_arg11) = x11 m c :=
  (Cert.KernelIdeal.KHostB.h5_keep_arg11 (W10 m ρ c)).trans (at10_arg11 m ρ c)

/-! ## After the third node region -/

theorem at12_v263 : W12 m ρ c (Proc.devRef .tc main_v263) = feat3 m c := by
  refine (W12_arr m ρ c 3).trans ?_
  refine (Cert.KernelIdeal.NodeRegion.arr5 (V11 m ρ) c).trans ?_
  show Cert.Spec.node false (W11 m ρ c (Proc.devRef .tc main_v260)) (W11 m ρ c (Proc.devRef .tc main_v262)) (W11 m ρ c (Proc.devRef .tc main_v212)) = _
  rw [at11_v260 m ρ c, at11_v262 m ρ c, at11_v212 m ρ c]
  unfold feat3 Cert.LayerSpec.layer
  rfl
theorem at12_arg3 : W12 m ρ c (Proc.devRef .tc main_arg3) = x3 m c :=
  (W12_of_ne m ρ c main_arg3 (by decide)).trans (at11_arg3 m ρ c)
theorem at12_arg8 : W12 m ρ c (Proc.devRef .tc main_arg8) = x8 m c :=
  (W12_of_ne m ρ c main_arg8 (by decide)).trans (at11_arg8 m ρ c)
theorem at12_arg9 : W12 m ρ c (Proc.devRef .tc main_arg9) = x9 m c :=
  (W12_of_ne m ρ c main_arg9 (by decide)).trans (at11_arg9 m ρ c)
theorem at12_arg10 : W12 m ρ c (Proc.devRef .tc main_arg10) = x10 m c :=
  (W12_of_ne m ρ c main_arg10 (by decide)).trans (at11_arg10 m ρ c)
theorem at12_arg11 : W12 m ρ c (Proc.devRef .tc main_arg11) = x11 m c :=
  (W12_of_ne m ρ c main_arg11 (by decide)).trans (at11_arg11 m ρ c)

/-! ## After the last stretch: the pooled features -/

theorem at13_v275 : W13 m ρ c (Proc.devRef .tc main_v275) = Cert.Stages.poolG (F := Ideal) (feat3 m c) (x3 m c) := by
  refine (Cert.KernelIdeal.KHostB.h6_v275 (W12 m ρ c)).trans ?_
  rw [at12_v263 m ρ c, at12_arg3 m ρ c]
theorem at13_arg8 : W13 m ρ c (Proc.devRef .tc main_arg8) = x8 m c :=
  (Cert.KernelIdeal.KHostB.h6_keep_arg8 (W12 m ρ c)).trans (at12_arg8 m ρ c)
theorem at13_arg9 : W13 m ρ c (Proc.devRef .tc main_arg9) = x9 m c :=
  (Cert.KernelIdeal.KHostB.h6_keep_arg9 (W12 m ρ c)).trans (at12_arg9 m ρ c)
theorem at13_arg10 : W13 m ρ c (Proc.devRef .tc main_arg10) = x10 m c :=
  (Cert.KernelIdeal.KHostB.h6_keep_arg10 (W12 m ρ c)).trans (at12_arg10 m ρ c)
theorem at13_arg11 : W13 m ρ c (Proc.devRef .tc main_arg11) = x11 m c :=
  (Cert.KernelIdeal.KHostB.h6_keep_arg11 (W12 m ρ c)).trans (at12_arg11 m ρ c)

/-! ## The result -/

/-- The result buffer after the last region: the network of the twelve argument arrays as launched. -/
theorem value : W14 (F := Ideal) m ρ c (Proc.devRef .tc main_v276)
    = Cert.LayerSpec.network (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7))
        (m ((c : Thread nD τ).loc main_arg8)) (m ((c : Thread nD τ).loc main_arg9)) (m ((c : Thread nD τ).loc main_arg10))
        (m ((c : Thread nD τ).loc main_arg11)) := by
  refine (W14_arr m ρ c 5).trans ?_
  refine (Cert.KernelIdeal.ReadoutRegion.arr6 (V13 m ρ) c).trans ?_
  show Cert.Spec.readout (W13 m ρ c (Proc.devRef .tc main_v275)) (W13 m ρ c (Proc.devRef .tc main_arg8))
      (W13 m ρ c (Proc.devRef .tc main_arg9)) (W13 m ρ c (Proc.devRef .tc main_arg10)) (W13 m ρ c (Proc.devRef .tc main_arg11)) = _
  rw [at13_v275 m ρ c, at13_arg8 m ρ c, at13_arg9 m ρ c, at13_arg10 m ρ c, at13_arg11 m ρ c]
  unfold Cert.LayerSpec.network feat3 feat2 feat1 feat0 srcN dstN
  rfl

end Cert.KernelIdeal.KValue

end
-- ==== Proof.LibFold.lean ====
/-
  A general fact about a straight line of host operations: the contents the buffers hold after two lines run one
  after the other are what the second line makes of what the first line left.
-/
import Idealize.ShloMosaic.Lib.StableHlo.Run

noncomputable section

namespace Cert.LibFold

open Idealize.ShloMosaic Idealize.ShloMosaic.StableHlo

/-- The fold of two lines run one after the other is the fold of the second over the fold of the first. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

end Cert.LibFold

end
-- ==== Proof.RefRun.lean ====
/-
  The reference program's host operations, in program order, as five consecutive lines — the shared preamble up to
  the atom features, one line per message-passing layer, and the pooling with the readout — and the program's run
  over them: every weakly fair execution terminates with each buffer at the fold of the five lines over the launch
  contents. Cutting the line at the layers' ends lets each layer be read with the previous layer's features as an
  opaque array.
-/
import proofs.«101888_j76184129896719_1_alg».proof.Proof.Gen.ReferenceIdeal
import proofs.«101888_j76184129896719_1_alg».proof.Proof.LibFold
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The preamble: the edges' two index rows and the atom features (the sum of the nine embedding lookups). -/
abbrev seg0 : List (HloOp τ sig (Elt F)) :=
  [
    unary main_arg1 main_v0 ((extractStridedSlice S1x600000 ![0, 0] · slices_S2x600000_S1x600000_0_0) : (⟨S2x600000, .i32⟩ : BufTy).Contents (Elt F) → (⟨S1x600000, .i32⟩ : BufTy).Contents (Elt F)),
    reshape main_v0 main_v1 rfl shapeCasts_S1x600000_S600000,
    unary main_arg1 main_v2 ((extractStridedSlice S1x600000 ![1, 0] · slices_S2x600000_S1x600000_1_0) : (⟨S2x600000, .i32⟩ : BufTy).Contents (Elt F) → (⟨S1x600000, .i32⟩ : BufTy).Contents (Elt F)),
    reshape main_v2 main_v3 rfl shapeCasts_S1x600000_S600000,
    unary main_arg4 main_v4 ((extractStridedSlice S1x100x128 ![0, 0, 0] · slices_S9x100x128_S1x100x128_0_0_0) : (⟨S9x100x128, .f32⟩ : BufTy).Contents (Elt F) → (⟨S1x100x128, .f32⟩ : BufTy).Contents (Elt F)),
    reshape main_v4 main_v5 rfl shapeCasts_S1x100x128_S100x128,
    unary main_arg0 main_v6 ((extractStridedSlice S50000x1 ![0, 0] · slices_S50000x9_S50000x1_0_0) : (⟨S50000x9, .i32⟩ : BufTy).Contents (Elt F) → (⟨S50000x1, .i32⟩ : BufTy).Contents (Elt F)),
    reshape main_v6 main_v7 rfl shapeCasts_S50000x1_S50000,
    nullary main_c (constantI S_ 32 0#32),
    unary main_c main_v8 (broadcastInDim S50000 ![] bcast_S_S50000 : (⟨S_, .i32⟩ : BufTy).Contents (Elt F) → (⟨S50000, .i32⟩ : BufTy).Contents (Elt F)),
    binary main_v7 main_v8 main_v9 (cmpi .slt : (⟨S50000, .i32⟩ : BufTy).Contents (Elt F) → (⟨S50000, .i32⟩ : BufTy).Contents (Elt F) → (⟨S50000, .i1⟩ : BufTy).Contents (Elt F)),
    nullary main_c_0 (constantI S_ 32 100#32),
    unary main_c_0 main_v10 (broadcastInDim S50000 ![] bcast_S_S50000 : (⟨S_, .i32⟩ : BufTy).Contents (Elt F) → (⟨S50000, .i32⟩ : BufTy).Contents (Elt F)),
    binary main_v7 main_v10 main_v11 (addi : (⟨S50000, .i32⟩ : BufTy).Contents (Elt F) → (⟨S50000, .i32⟩ : BufTy).Contents (Elt F) → (⟨S50000, .i32⟩ : BufTy).Contents (Elt F)),
    ternary main_v9 main_v11 main_v7 main_v12 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    unary main_v12 main_v13 (broadcastInDim S50000x1 ![0] bcast_S50000_S50000x1_0 : (⟨S50000, .i32⟩ : BufTy).Contents (Elt F) → (⟨S50000x1, .i32⟩ : BufTy).Contents (Elt F)),
    binary main_v5 main_v13 main_v14 ((fun x i => Host.gather gather_S100x128_S50000x1_S50000x128_1_0_n_n_0_1_1128 x i) : (⟨S100x128, .f32⟩ : BufTy).Contents (Elt F) → (⟨S50000x1, .i32⟩ : BufTy).Contents (Elt F) → (⟨S50000x128, .f32⟩ : BufTy).Contents (Elt F)),
    unary main_arg4 main_v15 ((extractStridedSlice S1x100x128 ![1, 0, 0] · slices_S9x100x128_S1x100x128_1_0_0) : (⟨S9x100x128, .f32⟩ : BufTy).Contents (Elt F) → (⟨S1x100x128, .f32⟩ : BufTy).Contents (Elt F)),
    reshape main_v15 main_v16 rfl shapeCasts_S1x100x128_S100x128,
    unary main_arg0 main_v17 ((extractStridedSlice S50000x1 ![0, 1] · slices_S50000x9_S50000x1_0_1) : (⟨S50000x9, .i32⟩ : BufTy).Contents (Elt F) → (⟨S50000x1, .i32⟩ : BufTy).Contents (Elt F)),
    reshape main_v17 main_v18 rfl shapeCasts_S50000x1_S50000,
    nullary main_c_1 (constantI S_ 32 0#32),
    unary main_c_1 main_v19 (broadcastInDim S50000 ![] bcast_S_S50000 : (⟨S_, .i32⟩ : BufTy).Contents (Elt F) → (⟨S50000, .i32⟩ : BufTy).Contents (Elt F)),
    binary main_v18 main_v19 main_v20 (cmpi .slt : (⟨S50000, .i32⟩ : BufTy).Contents (Elt F) → (⟨S50000, .i32⟩ : BufTy).Contents (Elt F) → (⟨S50000, .i1⟩ : BufTy).Contents (Elt F)),
    nullary main_c_2 (constantI S_ 32 100#32),
    unary main_c_2 main_v21 (broadcastInDim S50000 ![] bcast_S_S50000 : (⟨S_, .i32⟩ : BufTy).Contents (Elt F) → (⟨S50000, .i32⟩ : BufTy).Contents (Elt F)),
    binary main_v18 main_v21 main_v22 (addi : (⟨S50000, .i32⟩ : BufTy).Contents (Elt F) → (⟨S50000, .i32⟩ : BufTy).Contents (Elt F) → (⟨S50000, .i32⟩ : BufTy).Contents (Elt F)),
    ternary main_v20 main_v22 main_v18 main_v23 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    unary main_v23 main_v24 (broadcastInDim S50000x1 ![0] bcast_S50000_S50000x1_0 : (⟨S50000, .i32⟩ : BufTy).Contents (Elt F) → (⟨S50000x1, .i32⟩ : BufTy).Contents (Elt F)),
    binary main_v16 main_v24 main_v25 ((fun x i => Host.gather gather_S100x128_S50000x1_S50000x128_1_0_n_n_0_1_1128 x i) : (⟨S100x128, .f32⟩ : BufTy).Contents (Elt F) → (⟨S50000x1, .i32⟩ : BufTy).Contents (Elt F) → (⟨S50000x128, .f32⟩ : BufTy).Contents (Elt F)),
    binary main_v14 main_v25 main_v26 (addf : (⟨S50000x128, .f32⟩ : BufTy).Contents (Elt F) → (⟨S50000x128, .f32⟩ : BufTy).Contents (Elt F) → (⟨S50000x128, .f32⟩ : BufTy).Contents (Elt F)),
    unary main_arg4 main_v27 ((extractStridedSlice S1x100x128 ![2, 0, 0] · slices_S9x100x128_S1x100x128_2_0_0) : (⟨S9x100x128, .f32⟩ : BufTy).Contents (Elt F) → (⟨S1x100x128, .f32⟩ : BufTy).Contents (Elt F)),
    reshape main_v27 main_v28 rfl shapeCasts_S1x100x128_S100x128,
    unary main_arg0 main_v29 ((extractStridedSlice S50000x1 ![0, 2] · slices_S50000x9_S50000x1_0_2) : (⟨S50000x9, .i32⟩ : BufTy).Contents (Elt F) → (⟨S50000x1, .i32⟩ : BufTy).Contents (Elt F)),
    reshape main_v29 main_v30 rfl shapeCasts_S50000x1_S50000,
    nullary main_c_3 (constantI S_ 32 0#32),
    unary main_c_3 main_v31 (broadcastInDim S50000 ![] bcast_S_S50000 : (⟨S_, .i32⟩ : BufTy).Contents (Elt F) → (⟨S50000, .i32⟩ : BufTy).Contents (Elt F)),
    binary main_v30 main_v31 main_v32 (cmpi .slt : (⟨S50000, .i32⟩ : BufTy).Contents (Elt F) → (⟨S50000, .i32⟩ : BufTy).Contents (Elt F) → (⟨S50000, .i1⟩ : BufTy).Contents (Elt F)),
    nullary main_c_4 (constantI S_ 32 100#32),
    unary main_c_4 main_v33 (broadcastInDim S50000 ![] bcast_S_S50000 : (⟨S_, .i32⟩ : BufTy).Contents (Elt F) → (⟨S50000, .i32⟩ : BufTy).Contents (Elt F)),
    binary main_v30 main_v33 main_v34 (addi : (⟨S50000, .i32⟩ : BufTy).Contents (Elt F) → (⟨S50000, .i32⟩ : BufTy).Contents (Elt F) → (⟨S50000, .i32⟩ : BufTy).Contents (Elt F)),
    ternary main_v32 main_v34 main_v30 main_v35 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    unary main_v35 main_v36 (broadcastInDim S50000x1 ![0] bcast_S50000_S50000x1_0 : (⟨S50000, .i32⟩ : BufTy).Contents (Elt F) → (⟨S50000x1, .i32⟩ : BufTy).Contents (Elt F)),
    binary main_v28 main_v36 main_v37 ((fun x i => Host.gather gather_S100x128_S50000x1_S50000x128_1_0_n_n_0_1_1128 x i) : (⟨S100x128, .f32⟩ : BufTy).Contents (Elt F) → (⟨S50000x1, .i32⟩ : BufTy).Contents (Elt F) → (⟨S50000x128, .f32⟩ : BufTy).Contents (Elt F)),
    binary main_v26 main_v37 main_v38 (addf : (⟨S50000x128, .f32⟩ : BufTy).Contents (Elt F) → (⟨S50000x128, .f32⟩ : BufTy).Contents (Elt F) → (⟨S50000x128, .f32⟩ : BufTy).Contents (Elt F)),
    unary main_arg4 main_v39 ((extractStridedSlice S1x100x128 ![3, 0, 0] · slices_S9x100x128_S1x100x128_3_0_0) : (⟨S9x100x128, .f32⟩ : BufTy).Contents (Elt F) → (⟨S1x100x128, .f32⟩ : BufTy).Contents (Elt F)),
    reshape main_v39 main_v40 rfl shapeCasts_S1x100x128_S100x128,
    unary main_arg0 main_v41 ((extractStridedSlice S50000x1 ![0, 3] · slices_S50000x9_S50000x1_0_3) : (⟨S50000x9, .i32⟩ : BufTy).Contents (Elt F) → (⟨S50000x1, .i32⟩ : BufTy).Contents (Elt F)),
    reshape main_v41 main_v42 rfl shapeCasts_S50000x1_S50000,
    nullary main_c_5 (constantI S_ 32 0#32),
    unary main_c_5 main_v43 (broadcastInDim S50000 ![] bcast_S_S50000 : (⟨S_, .i32⟩ : BufTy).Contents (Elt F) → (⟨S50000, .i32⟩ : BufTy).Contents (Elt F)),
    binary main_v42 main_v43 main_v44 (cmpi .slt : (⟨S50000, .i32⟩ : BufTy).Contents (Elt F) → (⟨S50000, .i32⟩ : BufTy).Contents (Elt F) → (⟨S50000, .i1⟩ : BufTy).Contents (Elt F)),
    nullary main_c_6 (constantI S_ 32 100#32),
    unary main_c_6 main_v45 (broadcastInDim S50000 ![] bcast_S_S50000 : (⟨S_, .i32⟩ : BufTy).Contents (Elt F) → (⟨S50000, .i32⟩ : BufTy).Contents (Elt F)),
    binary main_v42 main_v45 main_v46 (addi : (⟨S50000, .i32⟩ : BufTy).Contents (Elt F) → (⟨S50000, .i32⟩ : BufTy).Contents (Elt F) → (⟨S50000, .i32⟩ : BufTy).Contents (Elt F)),
    ternary main_v44 main_v46 main_v42 main_v47 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    unary main_v47 main_v48 (broadcastInDim S50000x1 ![0] bcast_S50000_S50000x1_0 : (⟨S50000, .i32⟩ : BufTy).Contents (Elt F) → (⟨S50000x1, .i32⟩ : BufTy).Contents (Elt F)),
    binary main_v40 main_v48 main_v49 ((fun x i => Host.gather gather_S100x128_S50000x1_S50000x128_1_0_n_n_0_1_1128 x i) : (⟨S100x128, .f32⟩ : BufTy).Contents (Elt F) → (⟨S50000x1, .i32⟩ : BufTy).Contents (Elt F) → (⟨S50000x128, .f32⟩ : BufTy).Contents (Elt F)),
    binary main_v38 main_v49 main_v50 (addf : (⟨S50000x128, .f32⟩ : BufTy).Contents (Elt F) → (⟨S50000x128, .f32⟩ : BufTy).Contents (Elt F) → (⟨S50000x128, .f32⟩ : BufTy).Contents (Elt F)),
    unary main_arg4 main_v51 ((extractStridedSlice S1x100x128 ![4, 0, 0] · slices_S9x100x128_S1x100x128_4_0_0) : (⟨S9x100x128, .f32⟩ : BufTy).Contents (Elt F) → (⟨S1x100x128, .f32⟩ : BufTy).Contents (Elt F)),
    reshape main_v51 main_v52 rfl shapeCasts_S1x100x128_S100x128,
    unary main_arg0 main_v53 ((extractStridedSlice S50000x1 ![0, 4] · slices_S50000x9_S50000x1_0_4) : (⟨S50000x9, .i32⟩ : BufTy).Contents (Elt F) → (⟨S50000x1, .i32⟩ : BufTy).Contents (Elt F)),
    reshape main_v53 main_v54 rfl shapeCasts_S50000x1_S50000,
    nullary main_c_7 (constantI S_ 32 0#32),
    unary main_c_7 main_v55 (broadcastInDim S50000 ![] bcast_S_S50000 : (⟨S_, .i32⟩ : BufTy).Contents (Elt F) → (⟨S50000, .i32⟩ : BufTy).Contents (Elt F)),
    binary main_v54 main_v55 main_v56 (cmpi .slt : (⟨S50000, .i32⟩ : BufTy).Contents (Elt F) → (⟨S50000, .i32⟩ : BufTy).Contents (Elt F) → (⟨S50000, .i1⟩ : BufTy).Contents (Elt F)),
    nullary main_c_8 (constantI S_ 32 100#32),
    unary main_c_8 main_v57 (broadcastInDim S50000 ![] bcast_S_S50000 : (⟨S_, .i32⟩ : BufTy).Contents (Elt F) → (⟨S50000, .i32⟩ : BufTy).Contents (Elt F)),
    binary main_v54 main_v57 main_v58 (addi : (⟨S50000, .i32⟩ : BufTy).Contents (Elt F) → (⟨S50000, .i32⟩ : BufTy).Contents (Elt F) → (⟨S50000, .i32⟩ : BufTy).Contents (Elt F)),
    ternary main_v56 main_v58 main_v54 main_v59 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    unary main_v59 main_v60 (broadcastInDim S50000x1 ![0] bcast_S50000_S50000x1_0 : (⟨S50000, .i32⟩ : BufTy).Contents (Elt F) → (⟨S50000x1, .i32⟩ : BufTy).Contents (Elt F)),
    binary main_v52 main_v60 main_v61 ((fun x i => Host.gather gather_S100x128_S50000x1_S50000x128_1_0_n_n_0_1_1128 x i) : (⟨S100x128, .f32⟩ : BufTy).Contents (Elt F) → (⟨S50000x1, .i32⟩ : BufTy).Contents (Elt F) → (⟨S50000x128, .f32⟩ : BufTy).Contents (Elt F)),
    binary main_v50 main_v61 main_v62 (addf : (⟨S50000x128, .f32⟩ : BufTy).Contents (Elt F) → (⟨S50000x128, .f32⟩ : BufTy).Contents (Elt F) → (⟨S50000x128, .f32⟩ : BufTy).Contents (Elt F)),
    unary main_arg4 main_v63 ((extractStridedSlice S1x100x128 ![5, 0, 0] · slices_S9x100x128_S1x100x128_5_0_0) : (⟨S9x100x128, .f32⟩ : BufTy).Contents (Elt F) → (⟨S1x100x128, .f32⟩ : BufTy).Contents (Elt F)),
    reshape main_v63 main_v64 rfl shapeCasts_S1x100x128_S100x128,
    unary main_arg0 main_v65 ((extractStridedSlice S50000x1 ![0, 5] · slices_S50000x9_S50000x1_0_5) : (⟨S50000x9, .i32⟩ : BufTy).Contents (Elt F) → (⟨S50000x1, .i32⟩ : BufTy).Contents (Elt F)),
    reshape main_v65 main_v66 rfl shapeCasts_S50000x1_S50000,
    nullary main_c_9 (constantI S_ 32 0#32),
    unary main_c_9 main_v67 (broadcastInDim S50000 ![] bcast_S_S50000 : (⟨S_, .i32⟩ : BufTy).Contents (Elt F) → (⟨S50000, .i32⟩ : BufTy).Contents (Elt F)),
    binary main_v66 main_v67 main_v68 (cmpi .slt : (⟨S50000, .i32⟩ : BufTy).Contents (Elt F) → (⟨S50000, .i32⟩ : BufTy).Contents (Elt F) → (⟨S50000, .i1⟩ : BufTy).Contents (Elt F)),
    nullary main_c_10 (constantI S_ 32 100#32),
    unary main_c_10 main_v69 (broadcastInDim S50000 ![] bcast_S_S50000 : (⟨S_, .i32⟩ : BufTy).Contents (Elt F) → (⟨S50000, .i32⟩ : BufTy).Contents (Elt F)),
    binary main_v66 main_v69 main_v70 (addi : (⟨S50000, .i32⟩ : BufTy).Contents (Elt F) → (⟨S50000, .i32⟩ : BufTy).Contents (Elt F) → (⟨S50000, .i32⟩ : BufTy).Contents (Elt F)),
    ternary main_v68 main_v70 main_v66 main_v71 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    unary main_v71 main_v72 (broadcastInDim S50000x1 ![0] bcast_S50000_S50000x1_0 : (⟨S50000, .i32⟩ : BufTy).Contents (Elt F) → (⟨S50000x1, .i32⟩ : BufTy).Contents (Elt F)),
    binary main_v64 main_v72 main_v73 ((fun x i => Host.gather gather_S100x128_S50000x1_S50000x128_1_0_n_n_0_1_1128 x i) : (⟨S100x128, .f32⟩ : BufTy).Contents (Elt F) → (⟨S50000x1, .i32⟩ : BufTy).Contents (Elt F) → (⟨S50000x128, .f32⟩ : BufTy).Contents (Elt F)),
    binary main_v62 main_v73 main_v74 (addf : (⟨S50000x128, .f32⟩ : BufTy).Contents (Elt F) → (⟨S50000x128, .f32⟩ : BufTy).Contents (Elt F) → (⟨S50000x128, .f32⟩ : BufTy).Contents (Elt F)),
    unary main_arg4 main_v75 ((extractStridedSlice S1x100x128 ![6, 0, 0] · slices_S9x100x128_S1x100x128_6_0_0) : (⟨S9x100x128, .f32⟩ : BufTy).Contents (Elt F) → (⟨S1x100x128, .f32⟩ : BufTy).Contents (Elt F)),
    reshape main_v75 main_v76 rfl shapeCasts_S1x100x128_S100x128,
    unary main_arg0 main_v77 ((extractStridedSlice S50000x1 ![0, 6] · slices_S50000x9_S50000x1_0_6) : (⟨S50000x9, .i32⟩ : BufTy).Contents (Elt F) → (⟨S50000x1, .i32⟩ : BufTy).Contents (Elt F)),
    reshape main_v77 main_v78 rfl shapeCasts_S50000x1_S50000,
    nullary main_c_11 (constantI S_ 32 0#32),
    unary main_c_11 main_v79 (broadcastInDim S50000 ![] bcast_S_S50000 : (⟨S_, .i32⟩ : BufTy).Contents (Elt F) → (⟨S50000, .i32⟩ : BufTy).Contents (Elt F)),
    binary main_v78 main_v79 main_v80 (cmpi .slt : (⟨S50000, .i32⟩ : BufTy).Contents (Elt F) → (⟨S50000, .i32⟩ : BufTy).Contents (Elt F) → (⟨S50000, .i1⟩ : BufTy).Contents (Elt F)),
    nullary main_c_12 (constantI S_ 32 100#32),
    unary main_c_12 main_v81 (broadcastInDim S50000 ![] bcast_S_S50000 : (⟨S_, .i32⟩ : BufTy).Contents (Elt F) → (⟨S50000, .i32⟩ : BufTy).Contents (Elt F)),
    binary main_v78 main_v81 main_v82 (addi : (⟨S50000, .i32⟩ : BufTy).Contents (Elt F) → (⟨S50000, .i32⟩ : BufTy).Contents (Elt F) → (⟨S50000, .i32⟩ : BufTy).Contents (Elt F)),
    ternary main_v80 main_v82 main_v78 main_v83 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    unary main_v83 main_v84 (broadcastInDim S50000x1 ![0] bcast_S50000_S50000x1_0 : (⟨S50000, .i32⟩ : BufTy).Contents (Elt F) → (⟨S50000x1, .i32⟩ : BufTy).Contents (Elt F)),
    binary main_v76 main_v84 main_v85 ((fun x i => Host.gather gather_S100x128_S50000x1_S50000x128_1_0_n_n_0_1_1128 x i) : (⟨S100x128, .f32⟩ : BufTy).Contents (Elt F) → (⟨S50000x1, .i32⟩ : BufTy).Contents (Elt F) → (⟨S50000x128, .f32⟩ : BufTy).Contents (Elt F)),
    binary main_v74 main_v85 main_v86 (addf : (⟨S50000x128, .f32⟩ : BufTy).Contents (Elt F) → (⟨S50000x128, .f32⟩ : BufTy).Contents (Elt F) → (⟨S50000x128, .f32⟩ : BufTy).Contents (Elt F)),
    unary main_arg4 main_v87 ((extractStridedSlice S1x100x128 ![7, 0, 0] · slices_S9x100x128_S1x100x128_7_0_0) : (⟨S9x100x128, .f32⟩ : BufTy).Contents (Elt F) → (⟨S1x100x128, .f32⟩ : BufTy).Contents (Elt F)),
    reshape main_v87 main_v88 rfl shapeCasts_S1x100x128_S100x128,
    unary main_arg0 main_v89 ((extractStridedSlice S50000x1 ![0, 7] · slices_S50000x9_S50000x1_0_7) : (⟨S50000x9, .i32⟩ : BufTy).Contents (Elt F) → (⟨S50000x1, .i32⟩ : BufTy).Contents (Elt F)),
    reshape main_v89 main_v90 rfl shapeCasts_S50000x1_S50000,
    nullary main_c_13 (constantI S_ 32 0#32),
    unary main_c_13 main_v91 (broadcastInDim S50000 ![] bcast_S_S50000 : (⟨S_, .i32⟩ : BufTy).Contents (Elt F) → (⟨S50000, .i32⟩ : BufTy).Contents (Elt F)),
    binary main_v90 main_v91 main_v92 (cmpi .slt : (⟨S50000, .i32⟩ : BufTy).Contents (Elt F) → (⟨S50000, .i32⟩ : BufTy).Contents (Elt F) → (⟨S50000, .i1⟩ : BufTy).Contents (Elt F)),
    nullary main_c_14 (constantI S_ 32 100#32),
    unary main_c_14 main_v93 (broadcastInDim S50000 ![] bcast_S_S50000 : (⟨S_, .i32⟩ : BufTy).Contents (Elt F) → (⟨S50000, .i32⟩ : BufTy).Contents (Elt F)),
    binary main_v90 main_v93 main_v94 (addi : (⟨S50000, .i32⟩ : BufTy).Contents (Elt F) → (⟨S50000, .i32⟩ : BufTy).Contents (Elt F) → (⟨S50000, .i32⟩ : BufTy).Contents (Elt F)),
    ternary main_v92 main_v94 main_v90 main_v95 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    unary main_v95 main_v96 (broadcastInDim S50000x1 ![0] bcast_S50000_S50000x1_0 : (⟨S50000, .i32⟩ : BufTy).Contents (Elt F) → (⟨S50000x1, .i32⟩ : BufTy).Contents (Elt F)),
    binary main_v88 main_v96 main_v97 ((fun x i => Host.gather gather_S100x128_S50000x1_S50000x128_1_0_n_n_0_1_1128 x i) : (⟨S100x128, .f32⟩ : BufTy).Contents (Elt F) → (⟨S50000x1, .i32⟩ : BufTy).Contents (Elt F) → (⟨S50000x128, .f32⟩ : BufTy).Contents (Elt F)),
    binary main_v86 main_v97 main_v98 (addf : (⟨S50000x128, .f32⟩ : BufTy).Contents (Elt F) → (⟨S50000x128, .f32⟩ : BufTy).Contents (Elt F) → (⟨S50000x128, .f32⟩ : BufTy).Contents (Elt F)),
    unary main_arg4 main_v99 ((extractStridedSlice S1x100x128 ![8, 0, 0] · slices_S9x100x128_S1x100x128_8_0_0) : (⟨S9x100x128, .f32⟩ : BufTy).Contents (Elt F) → (⟨S1x100x128, .f32⟩ : BufTy).Contents (Elt F)),
    reshape main_v99 main_v100 rfl shapeCasts_S1x100x128_S100x128,
    unary main_arg0 main_v101 ((extractStridedSlice S50000x1 ![0, 8] · slices_S50000x9_S50000x1_0_8) : (⟨S50000x9, .i32⟩ : BufTy).Contents (Elt F) → (⟨S50000x1, .i32⟩ : BufTy).Contents (Elt F)),
    reshape main_v101 main_v102 rfl shapeCasts_S50000x1_S50000,
    nullary main_c_15 (constantI S_ 32 0#32),
    unary main_c_15 main_v103 (broadcastInDim S50000 ![] bcast_S_S50000 : (⟨S_, .i32⟩ : BufTy).Contents (Elt F) → (⟨S50000, .i32⟩ : BufTy).Contents (Elt F)),
    binary main_v102 main_v103 main_v104 (cmpi .slt : (⟨S50000, .i32⟩ : BufTy).Contents (Elt F) → (⟨S50000, .i32⟩ : BufTy).Contents (Elt F) → (⟨S50000, .i1⟩ : BufTy).Contents (Elt F)),
    nullary main_c_16 (constantI S_ 32 100#32),
    unary main_c_16 main_v105 (broadcastInDim S50000 ![] bcast_S_S50000 : (⟨S_, .i32⟩ : BufTy).Contents (Elt F) → (⟨S50000, .i32⟩ : BufTy).Contents (Elt F)),
    binary main_v102 main_v105 main_v106 (addi : (⟨S50000, .i32⟩ : BufTy).Contents (Elt F) → (⟨S50000, .i32⟩ : BufTy).Contents (Elt F) → (⟨S50000, .i32⟩ : BufTy).Contents (Elt F)),
    ternary main_v104 main_v106 main_v102 main_v107 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    unary main_v107 main_v108 (broadcastInDim S50000x1 ![0] bcast_S50000_S50000x1_0 : (⟨S50000, .i32⟩ : BufTy).Contents (Elt F) → (⟨S50000x1, .i32⟩ : BufTy).Contents (Elt F)),
    binary main_v100 main_v108 main_v109 ((fun x i => Host.gather gather_S100x128_S50000x1_S50000x128_1_0_n_n_0_1_1128 x i) : (⟨S100x128, .f32⟩ : BufTy).Contents (Elt F) → (⟨S50000x1, .i32⟩ : BufTy).Contents (Elt F) → (⟨S50000x128, .f32⟩ : BufTy).Contents (Elt F)),
    binary main_v98 main_v109 main_v110 (addf : (⟨S50000x128, .f32⟩ : BufTy).Contents (Elt F) → (⟨S50000x128, .f32⟩ : BufTy).Contents (Elt F) → (⟨S50000x128, .f32⟩ : BufTy).Contents (Elt F)) ]

set_option maxRecDepth 8192 in
theorem seg0_sub : (seg0 : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩

set_option maxRecDepth 8192 in
theorem seg0_fresh : ∀ op ∈ (seg0 : List (HloOp τ sig (Elt F))), op.fresh = ∅ := by
  intro _ h; (repeat (cases h with | head => rfl | tail _ h => ?_)); exact nomatch h

/-- Layer 0: its edge weights, the three weighted gathered products summed, the scatter to the destination nodes, the bias, the rectifier, the residual. -/
abbrev seg1 : List (HloOp τ sig (Elt F)) :=
  [
    unary main_arg5 main_v111 ((extractStridedSlice S1x1x8x3 ![0, 0, 0, 0] · slices_S3x3x8x3_S1x1x8x3_0_0_0_0) : (⟨S3x3x8x3, .f32⟩ : BufTy).Contents (Elt F) → (⟨S1x1x8x3, .f32⟩ : BufTy).Contents (Elt F)),
    reshape main_v111 main_v112 rfl shapeCasts_S1x1x8x3_S8x3,
    unary main_arg2 main_v113 ((extractStridedSlice S600000x1 ![0, 0] · slices_S600000x3_S600000x1_0_0) : (⟨S600000x3, .i32⟩ : BufTy).Contents (Elt F) → (⟨S600000x1, .i32⟩ : BufTy).Contents (Elt F)),
    reshape main_v113 main_v114 rfl shapeCasts_S600000x1_S600000,
    nullary main_c_17 (constantI S_ 32 0#32),
    unary main_c_17 main_v115 (broadcastInDim S600000 ![] bcast_S_S600000 : (⟨S_, .i32⟩ : BufTy).Contents (Elt F) → (⟨S600000, .i32⟩ : BufTy).Contents (Elt F)),
    binary main_v114 main_v115 main_v116 (cmpi .slt : (⟨S600000, .i32⟩ : BufTy).Contents (Elt F) → (⟨S600000, .i32⟩ : BufTy).Contents (Elt F) → (⟨S600000, .i1⟩ : BufTy).Contents (Elt F)),
    nullary main_c_18 (constantI S_ 32 8#32),
    unary main_c_18 main_v117 (broadcastInDim S600000 ![] bcast_S_S600000 : (⟨S_, .i32⟩ : BufTy).Contents (Elt F) → (⟨S600000, .i32⟩ : BufTy).Contents (Elt F)),
    binary main_v114 main_v117 main_v118 (addi : (⟨S600000, .i32⟩ : BufTy).Contents (Elt F) → (⟨S600000, .i32⟩ : BufTy).Contents (Elt F) → (⟨S600000, .i32⟩ : BufTy).Contents (Elt F)),
    ternary main_v116 main_v118 main_v114 main_v119 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v119 main_v120 (broadcastInDim S600000x1 ![0] bcast_S600000_S600000x1_0 : (⟨S600000, .i32⟩ : BufTy).Contents (Elt F) → (⟨S600000x1, .i32⟩ : BufTy).Contents (Elt F)),
    binary main_v112 main_v120 main_v121 ((fun x i => Host.gather gather_S8x3_S600000x1_S600000x3_1_0_n_n_0_1_13 x i) : (⟨S8x3, .f32⟩ : BufTy).Contents (Elt F) → (⟨S600000x1, .i32⟩ : BufTy).Contents (Elt F) → (⟨S600000x3, .f32⟩ : BufTy).Contents (Elt F)),
    unary main_arg5 main_v122 ((extractStridedSlice S1x1x8x3 ![0, 1, 0, 0] · slices_S3x3x8x3_S1x1x8x3_0_1_0_0) : (⟨S3x3x8x3, .f32⟩ : BufTy).Contents (Elt F) → (⟨S1x1x8x3, .f32⟩ : BufTy).Contents (Elt F)),
    reshape main_v122 main_v123 rfl shapeCasts_S1x1x8x3_S8x3,
    unary main_arg2 main_v124 ((extractStridedSlice S600000x1 ![0, 1] · slices_S600000x3_S600000x1_0_1) : (⟨S600000x3, .i32⟩ : BufTy).Contents (Elt F) → (⟨S600000x1, .i32⟩ : BufTy).Contents (Elt F)),
    reshape main_v124 main_v125 rfl shapeCasts_S600000x1_S600000,
    nullary main_c_19 (constantI S_ 32 0#32),
    unary main_c_19 main_v126 (broadcastInDim S600000 ![] bcast_S_S600000 : (⟨S_, .i32⟩ : BufTy).Contents (Elt F) → (⟨S600000, .i32⟩ : BufTy).Contents (Elt F)),
    binary main_v125 main_v126 main_v127 (cmpi .slt : (⟨S600000, .i32⟩ : BufTy).Contents (Elt F) → (⟨S600000, .i32⟩ : BufTy).Contents (Elt F) → (⟨S600000, .i1⟩ : BufTy).Contents (Elt F)),
    nullary main_c_20 (constantI S_ 32 8#32),
    unary main_c_20 main_v128 (broadcastInDim S600000 ![] bcast_S_S600000 : (⟨S_, .i32⟩ : BufTy).Contents (Elt F) → (⟨S600000, .i32⟩ : BufTy).Contents (Elt F)),
    binary main_v125 main_v128 main_v129 (addi : (⟨S600000, .i32⟩ : BufTy).Contents (Elt F) → (⟨S600000, .i32⟩ : BufTy).Contents (Elt F) → (⟨S600000, .i32⟩ : BufTy).Contents (Elt F)),
    ternary main_v127 main_v129 main_v125 main_v130 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v130 main_v131 (broadcastInDim S600000x1 ![0] bcast_S600000_S600000x1_0 : (⟨S600000, .i32⟩ : BufTy).Contents (Elt F) → (⟨S600000x1, .i32⟩ : BufTy).Contents (Elt F)),
    binary main_v123 main_v131 main_v132 ((fun x i => Host.gather gather_S8x3_S600000x1_S600000x3_1_0_n_n_0_1_13 x i) : (⟨S8x3, .f32⟩ : BufTy).Contents (Elt F) → (⟨S600000x1, .i32⟩ : BufTy).Contents (Elt F) → (⟨S600000x3, .f32⟩ : BufTy).Contents (Elt F)),
    binary main_v121 main_v132 main_v133 (addf : (⟨S600000x3, .f32⟩ : BufTy).Contents (Elt F) → (⟨S600000x3, .f32⟩ : BufTy).Contents (Elt F) → (⟨S600000x3, .f32⟩ : BufTy).Contents (Elt F)),
    unary main_arg5 main_v134 ((extractStridedSlice S1x1x8x3 ![0, 2, 0, 0] · slices_S3x3x8x3_S1x1x8x3_0_2_0_0) : (⟨S3x3x8x3, .f32⟩ : BufTy).Contents (Elt F) → (⟨S1x1x8x3, .f32⟩ : BufTy).Contents (Elt F)),
    reshape main_v134 main_v135 rfl shapeCasts_S1x1x8x3_S8x3,
    unary main_arg2 main_v136 ((extractStridedSlice S600000x1 ![0, 2] · slices_S600000x3_S600000x1_0_2) : (⟨S600000x3, .i32⟩ : BufTy).Contents (Elt F) → (⟨S600000x1, .i32⟩ : BufTy).Contents (Elt F)),
    reshape main_v136 main_v137 rfl shapeCasts_S600000x1_S600000,
    nullary main_c_21 (constantI S_ 32 0#32),
    unary main_c_21 main_v138 (broadcastInDim S600000 ![] bcast_S_S600000 : (⟨S_, .i32⟩ : BufTy).Contents (Elt F) → (⟨S600000, .i32⟩ : BufTy).Contents (Elt F)),
    binary main_v137 main_v138 main_v139 (cmpi .slt : (⟨S600000, .i32⟩ : BufTy).Contents (Elt F) → (⟨S600000, .i32⟩ : BufTy).Contents (Elt F) → (⟨S600000, .i1⟩ : BufTy).Contents (Elt F)),
    nullary main_c_22 (constantI S_ 32 8#32),
    unary main_c_22 main_v140 (broadcastInDim S600000 ![] bcast_S_S600000 : (⟨S_, .i32⟩ : BufTy).Contents (Elt F) → (⟨S600000, .i32⟩ : BufTy).Contents (Elt F)),
    binary main_v137 main_v140 main_v141 (addi : (⟨S600000, .i32⟩ : BufTy).Contents (Elt F) → (⟨S600000, .i32⟩ : BufTy).Contents (Elt F) → (⟨S600000, .i32⟩ : BufTy).Contents (Elt F)),
    ternary main_v139 main_v141 main_v137 main_v142 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v142 main_v143 (broadcastInDim S600000x1 ![0] bcast_S600000_S600000x1_0 : (⟨S600000, .i32⟩ : BufTy).Contents (Elt F) → (⟨S600000x1, .i32⟩ : BufTy).Contents (Elt F)),
    binary main_v135 main_v143 main_v144 ((fun x i => Host.gather gather_S8x3_S600000x1_S600000x3_1_0_n_n_0_1_13 x i) : (⟨S8x3, .f32⟩ : BufTy).Contents (Elt F) → (⟨S600000x1, .i32⟩ : BufTy).Contents (Elt F) → (⟨S600000x3, .f32⟩ : BufTy).Contents (Elt F)),
    binary main_v133 main_v144 main_v145 (addf : (⟨S600000x3, .f32⟩ : BufTy).Contents (Elt F) → (⟨S600000x3, .f32⟩ : BufTy).Contents (Elt F) → (⟨S600000x3, .f32⟩ : BufTy).Contents (Elt F)),
    nullary main_cst (constant S_ .f32 0x00000000#32),
    unary main_cst main_v146 (broadcastInDim S600000x128 ![] bcast_S_S600000x128 : (⟨S_, .f32⟩ : BufTy).Contents (Elt F) → (⟨S600000x128, .f32⟩ : BufTy).Contents (Elt F)),
    unary main_arg6 main_v147 ((extractStridedSlice S1x1x128x128 ![0, 0, 0, 0] · slices_S3x3x128x128_S1x1x128x128_0_0_0_0) : (⟨S3x3x128x128, .f32⟩ : BufTy).Contents (Elt F) → (⟨S1x1x128x128, .f32⟩ : BufTy).Contents (Elt F)),
    reshape main_v147 main_v148 rfl shapeCasts_S1x1x128x128_S128x128,
    binary main_v110 main_v148 main_v149 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_v145 main_v150 ((extractStridedSlice S600000x1 ![0, 0] · slices_S600000x3_S600000x1_0_0) : (⟨S600000x3, .f32⟩ : BufTy).Contents (Elt F) → (⟨S600000x1, .f32⟩ : BufTy).Contents (Elt F)),
    nullary main_c_23 (constantI S_ 32 0#32),
    unary main_c_23 main_v151 (broadcastInDim S600000 ![] bcast_S_S600000 : (⟨S_, .i32⟩ : BufTy).Contents (Elt F) → (⟨S600000, .i32⟩ : BufTy).Contents (Elt F)),
    binary main_v1 main_v151 main_v152 (cmpi .slt : (⟨S600000, .i32⟩ : BufTy).Contents (Elt F) → (⟨S600000, .i32⟩ : BufTy).Contents (Elt F) → (⟨S600000, .i1⟩ : BufTy).Contents (Elt F)),
    nullary main_c_24 (constantI S_ 32 50000#32),
    unary main_c_24 main_v153 (broadcastInDim S600000 ![] bcast_S_S600000 : (⟨S_, .i32⟩ : BufTy).Contents (Elt F) → (⟨S600000, .i32⟩ : BufTy).Contents (Elt F)),
    binary main_v1 main_v153 main_v154 (addi : (⟨S600000, .i32⟩ : BufTy).Contents (Elt F) → (⟨S600000, .i32⟩ : BufTy).Contents (Elt F) → (⟨S600000, .i32⟩ : BufTy).Contents (Elt F)),
    ternary main_v152 main_v154 main_v1 main_v155 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v155 main_v156 (broadcastInDim S600000x1 ![0] bcast_S600000_S600000x1_0 : (⟨S600000, .i32⟩ : BufTy).Contents (Elt F) → (⟨S600000x1, .i32⟩ : BufTy).Contents (Elt F)),
    binary main_v149 main_v156 main_v157 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    unary main_v150 main_v158 (broadcastInDim S600000x128 ![0, 1] bcast_S600000x1_S600000x128_0_1 : (⟨S600000x1, .f32⟩ : BufTy).Contents (Elt F) → (⟨S600000x128, .f32⟩ : BufTy).Contents (Elt F)),
    binary main_v158 main_v157 main_v159 (mulf : (⟨S600000x128, .f32⟩ : BufTy).Contents (Elt F) → (⟨S600000x128, .f32⟩ : BufTy).Contents (Elt F) → (⟨S600000x128, .f32⟩ : BufTy).Contents (Elt F)),
    binary main_v146 main_v159 main_v160 (addf : (⟨S600000x128, .f32⟩ : BufTy).Contents (Elt F) → (⟨S600000x128, .f32⟩ : BufTy).Contents (Elt F) → (⟨S600000x128, .f32⟩ : BufTy).Contents (Elt F)),
    unary main_arg6 main_v161 ((extractStridedSlice S1x1x128x128 ![0, 1, 0, 0] · slices_S3x3x128x128_S1x1x128x128_0_1_0_0) : (⟨S3x3x128x128, .f32⟩ : BufTy).Contents (Elt F) → (⟨S1x1x128x128, .f32⟩ : BufTy).Contents (Elt F)),
    reshape main_v161 main_v162 rfl shapeCasts_S1x1x128x128_S128x128,
    binary main_v110 main_v162 main_v163 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_v145 main_v164 ((extractStridedSlice S600000x1 ![0, 1] · slices_S600000x3_S600000x1_0_1) : (⟨S600000x3, .f32⟩ : BufTy).Contents (Elt F) → (⟨S600000x1, .f32⟩ : BufTy).Contents (Elt F)),
    nullary main_c_25 (constantI S_ 32 0#32),
    unary main_c_25 main_v165 (broadcastInDim S600000 ![] bcast_S_S600000 : (⟨S_, .i32⟩ : BufTy).Contents (Elt F) → (⟨S600000, .i32⟩ : BufTy).Contents (Elt F)),
    binary main_v1 main_v165 main_v166 (cmpi .slt : (⟨S600000, .i32⟩ : BufTy).Contents (Elt F) → (⟨S600000, .i32⟩ : BufTy).Contents (Elt F) → (⟨S600000, .i1⟩ : BufTy).Contents (Elt F)),
    nullary main_c_26 (constantI S_ 32 50000#32),
    unary main_c_26 main_v167 (broadcastInDim S600000 ![] bcast_S_S600000 : (⟨S_, .i32⟩ : BufTy).Contents (Elt F) → (⟨S600000, .i32⟩ : BufTy).Contents (Elt F)),
    binary main_v1 main_v167 main_v168 (addi : (⟨S600000, .i32⟩ : BufTy).Contents (Elt F) → (⟨S600000, .i32⟩ : BufTy).Contents (Elt F) → (⟨S600000, .i32⟩ : BufTy).Contents (Elt F)),
    ternary main_v166 main_v168 main_v1 main_v169 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v169 main_v170 (broadcastInDim S600000x1 ![0] bcast_S600000_S600000x1_0 : (⟨S600000, .i32⟩ : BufTy).Contents (Elt F) → (⟨S600000x1, .i32⟩ : BufTy).Contents (Elt F)),
    binary main_v163 main_v170 main_v171 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    unary main_v164 main_v172 (broadcastInDim S600000x128 ![0, 1] bcast_S600000x1_S600000x128_0_1 : (⟨S600000x1, .f32⟩ : BufTy).Contents (Elt F) → (⟨S600000x128, .f32⟩ : BufTy).Contents (Elt F)),
    binary main_v172 main_v171 main_v173 (mulf : (⟨S600000x128, .f32⟩ : BufTy).Contents (Elt F) → (⟨S600000x128, .f32⟩ : BufTy).Contents (Elt F) → (⟨S600000x128, .f32⟩ : BufTy).Contents (Elt F)),
    binary main_v160 main_v173 main_v174 (addf : (⟨S600000x128, .f32⟩ : BufTy).Contents (Elt F) → (⟨S600000x128, .f32⟩ : BufTy).Contents (Elt F) → (⟨S600000x128, .f32⟩ : BufTy).Contents (Elt F)),
    unary main_arg6 main_v175 ((extractStridedSlice S1x1x128x128 ![0, 2, 0, 0] · slices_S3x3x128x128_S1x1x128x128_0_2_0_0) : (⟨S3x3x128x128, .f32⟩ : BufTy).Contents (Elt F) → (⟨S1x1x128x128, .f32⟩ : BufTy).Contents (Elt F)),
    reshape main_v175 main_v176 rfl shapeCasts_S1x1x128x128_S128x128,
    binary main_v110 main_v176 main_v177 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_v145 main_v178 ((extractStridedSlice S600000x1 ![0, 2] · slices_S600000x3_S600000x1_0_2) : (⟨S600000x3, .f32⟩ : BufTy).Contents (Elt F) → (⟨S600000x1, .f32⟩ : BufTy).Contents (Elt F)),
    nullary main_c_27 (constantI S_ 32 0#32),
    unary main_c_27 main_v179 (broadcastInDim S600000 ![] bcast_S_S600000 : (⟨S_, .i32⟩ : BufTy).Contents (Elt F) → (⟨S600000, .i32⟩ : BufTy).Contents (Elt F)),
    binary main_v1 main_v179 main_v180 (cmpi .slt : (⟨S600000, .i32⟩ : BufTy).Contents (Elt F) → (⟨S600000, .i32⟩ : BufTy).Contents (Elt F) → (⟨S600000, .i1⟩ : BufTy).Contents (Elt F)),
    nullary main_c_28 (constantI S_ 32 50000#32),
    unary main_c_28 main_v181 (broadcastInDim S600000 ![] bcast_S_S600000 : (⟨S_, .i32⟩ : BufTy).Contents (Elt F) → (⟨S600000, .i32⟩ : BufTy).Contents (Elt F)),
    binary main_v1 main_v181 main_v182 (addi : (⟨S600000, .i32⟩ : BufTy).Contents (Elt F) → (⟨S600000, .i32⟩ : BufTy).Contents (Elt F) → (⟨S600000, .i32⟩ : BufTy).Contents (Elt F)),
    ternary main_v180 main_v182 main_v1 main_v183 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v183 main_v184 (broadcastInDim S600000x1 ![0] bcast_S600000_S600000x1_0 : (⟨S600000, .i32⟩ : BufTy).Contents (Elt F) → (⟨S600000x1, .i32⟩ : BufTy).Contents (Elt F)),
    binary main_v177 main_v184 main_v185 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    unary main_v178 main_v186 (broadcastInDim S600000x128 ![0, 1] bcast_S600000x1_S600000x128_0_1 : (⟨S600000x1, .f32⟩ : BufTy).Contents (Elt F) → (⟨S600000x128, .f32⟩ : BufTy).Contents (Elt F)),
    binary main_v186 main_v185 main_v187 (mulf : (⟨S600000x128, .f32⟩ : BufTy).Contents (Elt F) → (⟨S600000x128, .f32⟩ : BufTy).Contents (Elt F) → (⟨S600000x128, .f32⟩ : BufTy).Contents (Elt F)),
    binary main_v174 main_v187 main_v188 (addf : (⟨S600000x128, .f32⟩ : BufTy).Contents (Elt F) → (⟨S600000x128, .f32⟩ : BufTy).Contents (Elt F) → (⟨S600000x128, .f32⟩ : BufTy).Contents (Elt F)),
    nullary main_cst_29 (constant S_ .f32 0x00000000#32),
    unary main_cst_29 main_v189 (broadcastInDim S50000x128 ![] bcast_S_S50000x128 : (⟨S_, .f32⟩ : BufTy).Contents (Elt F) → (⟨S50000x128, .f32⟩ : BufTy).Contents (Elt F)),
    unary main_v3 main_v190 (broadcastInDim S600000x1 ![0] bcast_S600000_S600000x1_0 : (⟨S600000, .i32⟩ : BufTy).Contents (Elt F) → (⟨S600000x1, .i32⟩ : BufTy).Contents (Elt F)),
    ternary main_v189 main_v190 main_v188 main_v191 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    unary main_arg7 main_v192 ((extractStridedSlice S1x3x128 ![0, 0, 0] · slices_S3x3x128_S1x3x128_0_0_0) : (⟨S3x3x128, .f32⟩ : BufTy).Contents (Elt F) → (⟨S1x3x128, .f32⟩ : BufTy).Contents (Elt F)),
    reshape main_v192 main_v193 rfl shapeCasts_S1x3x128_S3x128,
    nullary main_cst_30 (constant S_ .f32 0x00000000#32),
    binary main_v193 main_cst_30 main_v194 ((fun x v => Host.reduceAdd x v reducesTo_S3x128_S128_d0 h_S_) : (⟨S3x128, .f32⟩ : BufTy).Contents (Elt F) → (⟨S_, .f32⟩ : BufTy).Contents (Elt F) → (⟨S128, .f32⟩ : BufTy).Contents (Elt F)),
    unary main_v194 main_v195 (broadcastInDim S1x128 ![1] bcast_S128_S1x128_1 : (⟨S128, .f32⟩ : BufTy).Contents (Elt F) → (⟨S1x128, .f32⟩ : BufTy).Contents (Elt F)),
    unary main_v195 main_v196 (broadcastInDim S50000x128 ![0, 1] bcast_S1x128_S50000x128_0_1 : (⟨S1x128, .f32⟩ : BufTy).Contents (Elt F) → (⟨S50000x128, .f32⟩ : BufTy).Contents (Elt F)),
    binary main_v191 main_v196 main_v197 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S50000x128, .f32⟩) main_call0_v0) (broadcastInDim S50000x128 ![] bcast_S_S50000x128),
    TRef.binary (TRef.of (T := ⟨S50000x128, .f32⟩) main_v197) (TRef.of (T := ⟨S50000x128, .f32⟩) main_call0_v0) (TRef.of (T := ⟨S50000x128, .f32⟩) main_v198) maximumf,
    binary main_v198 main_v110 main_v199 (addf : (⟨S50000x128, .f32⟩ : BufTy).Contents (Elt F) → (⟨S50000x128, .f32⟩ : BufTy).Contents (Elt F) → (⟨S50000x128, .f32⟩ : BufTy).Contents (Elt F)) ]

set_option maxRecDepth 8192 in
theorem seg1_sub : (seg1 : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., unary_bufs_sub .., reshape_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., binary_bufs_sub .., unary_bufs_sub .., reshape_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., binary_bufs_sub .., unary_bufs_sub .., reshape_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., binary_bufs_sub .., nullary_bufs_sub .., unary_bufs_sub .., unary_bufs_sub .., ternary_bufs_sub .., unary_bufs_sub .., reshape_bufs_sub .., nullary_bufs_sub .., binary_bufs_sub .., unary_bufs_sub .., unary_bufs_sub .., binary_bufs_sub .., nullary_bufs_sub .., unary_bufs_sub .., binary_bufs_sub .., binary_bufs_sub ..⟩

set_option maxRecDepth 8192 in
theorem seg1_fresh : ∀ op ∈ (seg1 : List (HloOp τ sig (Elt F))), op.fresh = ∅ := by
  intro _ h; (repeat (cases h with | head => rfl | tail _ h => ?_)); exact nomatch h

/-- Layer 1, the same operations on layer 0's features. -/
abbrev seg2 : List (HloOp τ sig (Elt F)) :=
  [
    unary main_arg5 main_v200 ((extractStridedSlice S1x1x8x3 ![1, 0, 0, 0] · slices_S3x3x8x3_S1x1x8x3_1_0_0_0) : (⟨S3x3x8x3, .f32⟩ : BufTy).Contents (Elt F) → (⟨S1x1x8x3, .f32⟩ : BufTy).Contents (Elt F)),
    reshape main_v200 main_v201 rfl shapeCasts_S1x1x8x3_S8x3,
    unary main_arg2 main_v202 ((extractStridedSlice S600000x1 ![0, 0] · slices_S600000x3_S600000x1_0_0) : (⟨S600000x3, .i32⟩ : BufTy).Contents (Elt F) → (⟨S600000x1, .i32⟩ : BufTy).Contents (Elt F)),
    reshape main_v202 main_v203 rfl shapeCasts_S600000x1_S600000,
    nullary main_c_31 (constantI S_ 32 0#32),
    unary main_c_31 main_v204 (broadcastInDim S600000 ![] bcast_S_S600000 : (⟨S_, .i32⟩ : BufTy).Contents (Elt F) → (⟨S600000, .i32⟩ : BufTy).Contents (Elt F)),
    binary main_v203 main_v204 main_v205 (cmpi .slt : (⟨S600000, .i32⟩ : BufTy).Contents (Elt F) → (⟨S600000, .i32⟩ : BufTy).Contents (Elt F) → (⟨S600000, .i1⟩ : BufTy).Contents (Elt F)),
    nullary main_c_32 (constantI S_ 32 8#32),
    unary main_c_32 main_v206 (broadcastInDim S600000 ![] bcast_S_S600000 : (⟨S_, .i32⟩ : BufTy).Contents (Elt F) → (⟨S600000, .i32⟩ : BufTy).Contents (Elt F)),
    binary main_v203 main_v206 main_v207 (addi : (⟨S600000, .i32⟩ : BufTy).Contents (Elt F) → (⟨S600000, .i32⟩ : BufTy).Contents (Elt F) → (⟨S600000, .i32⟩ : BufTy).Contents (Elt F)),
    ternary main_v205 main_v207 main_v203 main_v208 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v208 main_v209 (broadcastInDim S600000x1 ![0] bcast_S600000_S600000x1_0 : (⟨S600000, .i32⟩ : BufTy).Contents (Elt F) → (⟨S600000x1, .i32⟩ : BufTy).Contents (Elt F)),
    binary main_v201 main_v209 main_v210 ((fun x i => Host.gather gather_S8x3_S600000x1_S600000x3_1_0_n_n_0_1_13 x i) : (⟨S8x3, .f32⟩ : BufTy).Contents (Elt F) → (⟨S600000x1, .i32⟩ : BufTy).Contents (Elt F) → (⟨S600000x3, .f32⟩ : BufTy).Contents (Elt F)),
    unary main_arg5 main_v211 ((extractStridedSlice S1x1x8x3 ![1, 1, 0, 0] · slices_S3x3x8x3_S1x1x8x3_1_1_0_0) : (⟨S3x3x8x3, .f32⟩ : BufTy).Contents (Elt F) → (⟨S1x1x8x3, .f32⟩ : BufTy).Contents (Elt F)),
    reshape main_v211 main_v212 rfl shapeCasts_S1x1x8x3_S8x3,
    unary main_arg2 main_v213 ((extractStridedSlice S600000x1 ![0, 1] · slices_S600000x3_S600000x1_0_1) : (⟨S600000x3, .i32⟩ : BufTy).Contents (Elt F) → (⟨S600000x1, .i32⟩ : BufTy).Contents (Elt F)),
    reshape main_v213 main_v214 rfl shapeCasts_S600000x1_S600000,
    nullary main_c_33 (constantI S_ 32 0#32),
    unary main_c_33 main_v215 (broadcastInDim S600000 ![] bcast_S_S600000 : (⟨S_, .i32⟩ : BufTy).Contents (Elt F) → (⟨S600000, .i32⟩ : BufTy).Contents (Elt F)),
    binary main_v214 main_v215 main_v216 (cmpi .slt : (⟨S600000, .i32⟩ : BufTy).Contents (Elt F) → (⟨S600000, .i32⟩ : BufTy).Contents (Elt F) → (⟨S600000, .i1⟩ : BufTy).Contents (Elt F)),
    nullary main_c_34 (constantI S_ 32 8#32),
    unary main_c_34 main_v217 (broadcastInDim S600000 ![] bcast_S_S600000 : (⟨S_, .i32⟩ : BufTy).Contents (Elt F) → (⟨S600000, .i32⟩ : BufTy).Contents (Elt F)),
    binary main_v214 main_v217 main_v218 (addi : (⟨S600000, .i32⟩ : BufTy).Contents (Elt F) → (⟨S600000, .i32⟩ : BufTy).Contents (Elt F) → (⟨S600000, .i32⟩ : BufTy).Contents (Elt F)),
    ternary main_v216 main_v218 main_v214 main_v219 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v219 main_v220 (broadcastInDim S600000x1 ![0] bcast_S600000_S600000x1_0 : (⟨S600000, .i32⟩ : BufTy).Contents (Elt F) → (⟨S600000x1, .i32⟩ : BufTy).Contents (Elt F)),
    binary main_v212 main_v220 main_v221 ((fun x i => Host.gather gather_S8x3_S600000x1_S600000x3_1_0_n_n_0_1_13 x i) : (⟨S8x3, .f32⟩ : BufTy).Contents (Elt F) → (⟨S600000x1, .i32⟩ : BufTy).Contents (Elt F) → (⟨S600000x3, .f32⟩ : BufTy).Contents (Elt F)),
    binary main_v210 main_v221 main_v222 (addf : (⟨S600000x3, .f32⟩ : BufTy).Contents (Elt F) → (⟨S600000x3, .f32⟩ : BufTy).Contents (Elt F) → (⟨S600000x3, .f32⟩ : BufTy).Contents (Elt F)),
    unary main_arg5 main_v223 ((extractStridedSlice S1x1x8x3 ![1, 2, 0, 0] · slices_S3x3x8x3_S1x1x8x3_1_2_0_0) : (⟨S3x3x8x3, .f32⟩ : BufTy).Contents (Elt F) → (⟨S1x1x8x3, .f32⟩ : BufTy).Contents (Elt F)),
    reshape main_v223 main_v224 rfl shapeCasts_S1x1x8x3_S8x3,
    unary main_arg2 main_v225 ((extractStridedSlice S600000x1 ![0, 2] · slices_S600000x3_S600000x1_0_2) : (⟨S600000x3, .i32⟩ : BufTy).Contents (Elt F) → (⟨S600000x1, .i32⟩ : BufTy).Contents (Elt F)),
    reshape main_v225 main_v226 rfl shapeCasts_S600000x1_S600000,
    nullary main_c_35 (constantI S_ 32 0#32),
    unary main_c_35 main_v227 (broadcastInDim S600000 ![] bcast_S_S600000 : (⟨S_, .i32⟩ : BufTy).Contents (Elt F) → (⟨S600000, .i32⟩ : BufTy).Contents (Elt F)),
    binary main_v226 main_v227 main_v228 (cmpi .slt : (⟨S600000, .i32⟩ : BufTy).Contents (Elt F) → (⟨S600000, .i32⟩ : BufTy).Contents (Elt F) → (⟨S600000, .i1⟩ : BufTy).Contents (Elt F)),
    nullary main_c_36 (constantI S_ 32 8#32),
    unary main_c_36 main_v229 (broadcastInDim S600000 ![] bcast_S_S600000 : (⟨S_, .i32⟩ : BufTy).Contents (Elt F) → (⟨S600000, .i32⟩ : BufTy).Contents (Elt F)),
    binary main_v226 main_v229 main_v230 (addi : (⟨S600000, .i32⟩ : BufTy).Contents (Elt F) → (⟨S600000, .i32⟩ : BufTy).Contents (Elt F) → (⟨S600000, .i32⟩ : BufTy).Contents (Elt F)),
    ternary main_v228 main_v230 main_v226 main_v231 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v231 main_v232 (broadcastInDim S600000x1 ![0] bcast_S600000_S600000x1_0 : (⟨S600000, .i32⟩ : BufTy).Contents (Elt F) → (⟨S600000x1, .i32⟩ : BufTy).Contents (Elt F)),
    binary main_v224 main_v232 main_v233 ((fun x i => Host.gather gather_S8x3_S600000x1_S600000x3_1_0_n_n_0_1_13 x i) : (⟨S8x3, .f32⟩ : BufTy).Contents (Elt F) → (⟨S600000x1, .i32⟩ : BufTy).Contents (Elt F) → (⟨S600000x3, .f32⟩ : BufTy).Contents (Elt F)),
    binary main_v222 main_v233 main_v234 (addf : (⟨S600000x3, .f32⟩ : BufTy).Contents (Elt F) → (⟨S600000x3, .f32⟩ : BufTy).Contents (Elt F) → (⟨S600000x3, .f32⟩ : BufTy).Contents (Elt F)),
    nullary main_cst_37 (constant S_ .f32 0x00000000#32),
    unary main_cst_37 main_v235 (broadcastInDim S600000x128 ![] bcast_S_S600000x128 : (⟨S_, .f32⟩ : BufTy).Contents (Elt F) → (⟨S600000x128, .f32⟩ : BufTy).Contents (Elt F)),
    unary main_arg6 main_v236 ((extractStridedSlice S1x1x128x128 ![1, 0, 0, 0] · slices_S3x3x128x128_S1x1x128x128_1_0_0_0) : (⟨S3x3x128x128, .f32⟩ : BufTy).Contents (Elt F) → (⟨S1x1x128x128, .f32⟩ : BufTy).Contents (Elt F)),
    reshape main_v236 main_v237 rfl shapeCasts_S1x1x128x128_S128x128,
    binary main_v199 main_v237 main_v238 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_v234 main_v239 ((extractStridedSlice S600000x1 ![0, 0] · slices_S600000x3_S600000x1_0_0) : (⟨S600000x3, .f32⟩ : BufTy).Contents (Elt F) → (⟨S600000x1, .f32⟩ : BufTy).Contents (Elt F)),
    nullary main_c_38 (constantI S_ 32 0#32),
    unary main_c_38 main_v240 (broadcastInDim S600000 ![] bcast_S_S600000 : (⟨S_, .i32⟩ : BufTy).Contents (Elt F) → (⟨S600000, .i32⟩ : BufTy).Contents (Elt F)),
    binary main_v1 main_v240 main_v241 (cmpi .slt : (⟨S600000, .i32⟩ : BufTy).Contents (Elt F) → (⟨S600000, .i32⟩ : BufTy).Contents (Elt F) → (⟨S600000, .i1⟩ : BufTy).Contents (Elt F)),
    nullary main_c_39 (constantI S_ 32 50000#32),
    unary main_c_39 main_v242 (broadcastInDim S600000 ![] bcast_S_S600000 : (⟨S_, .i32⟩ : BufTy).Contents (Elt F) → (⟨S600000, .i32⟩ : BufTy).Contents (Elt F)),
    binary main_v1 main_v242 main_v243 (addi : (⟨S600000, .i32⟩ : BufTy).Contents (Elt F) → (⟨S600000, .i32⟩ : BufTy).Contents (Elt F) → (⟨S600000, .i32⟩ : BufTy).Contents (Elt F)),
    ternary main_v241 main_v243 main_v1 main_v244 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v244 main_v245 (broadcastInDim S600000x1 ![0] bcast_S600000_S600000x1_0 : (⟨S600000, .i32⟩ : BufTy).Contents (Elt F) → (⟨S600000x1, .i32⟩ : BufTy).Contents (Elt F)),
    binary main_v238 main_v245 main_v246 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    unary main_v239 main_v247 (broadcastInDim S600000x128 ![0, 1] bcast_S600000x1_S600000x128_0_1 : (⟨S600000x1, .f32⟩ : BufTy).Contents (Elt F) → (⟨S600000x128, .f32⟩ : BufTy).Contents (Elt F)),
    binary main_v247 main_v246 main_v248 (mulf : (⟨S600000x128, .f32⟩ : BufTy).Contents (Elt F) → (⟨S600000x128, .f32⟩ : BufTy).Contents (Elt F) → (⟨S600000x128, .f32⟩ : BufTy).Contents (Elt F)),
    binary main_v235 main_v248 main_v249 (addf : (⟨S600000x128, .f32⟩ : BufTy).Contents (Elt F) → (⟨S600000x128, .f32⟩ : BufTy).Contents (Elt F) → (⟨S600000x128, .f32⟩ : BufTy).Contents (Elt F)),
    unary main_arg6 main_v250 ((extractStridedSlice S1x1x128x128 ![1, 1, 0, 0] · slices_S3x3x128x128_S1x1x128x128_1_1_0_0) : (⟨S3x3x128x128, .f32⟩ : BufTy).Contents (Elt F) → (⟨S1x1x128x128, .f32⟩ : BufTy).Contents (Elt F)),
    reshape main_v250 main_v251 rfl shapeCasts_S1x1x128x128_S128x128,
    binary main_v199 main_v251 main_v252 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_v234 main_v253 ((extractStridedSlice S600000x1 ![0, 1] · slices_S600000x3_S600000x1_0_1) : (⟨S600000x3, .f32⟩ : BufTy).Contents (Elt F) → (⟨S600000x1, .f32⟩ : BufTy).Contents (Elt F)),
    nullary main_c_40 (constantI S_ 32 0#32),
    unary main_c_40 main_v254 (broadcastInDim S600000 ![] bcast_S_S600000 : (⟨S_, .i32⟩ : BufTy).Contents (Elt F) → (⟨S600000, .i32⟩ : BufTy).Contents (Elt F)),
    binary main_v1 main_v254 main_v255 (cmpi .slt : (⟨S600000, .i32⟩ : BufTy).Contents (Elt F) → (⟨S600000, .i32⟩ : BufTy).Contents (Elt F) → (⟨S600000, .i1⟩ : BufTy).Contents (Elt F)),
    nullary main_c_41 (constantI S_ 32 50000#32),
    unary main_c_41 main_v256 (broadcastInDim S600000 ![] bcast_S_S600000 : (⟨S_, .i32⟩ : BufTy).Contents (Elt F) → (⟨S600000, .i32⟩ : BufTy).Contents (Elt F)),
    binary main_v1 main_v256 main_v257 (addi : (⟨S600000, .i32⟩ : BufTy).Contents (Elt F) → (⟨S600000, .i32⟩ : BufTy).Contents (Elt F) → (⟨S600000, .i32⟩ : BufTy).Contents (Elt F)),
    ternary main_v255 main_v257 main_v1 main_v258 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v258 main_v259 (broadcastInDim S600000x1 ![0] bcast_S600000_S600000x1_0 : (⟨S600000, .i32⟩ : BufTy).Contents (Elt F) → (⟨S600000x1, .i32⟩ : BufTy).Contents (Elt F)),
    binary main_v252 main_v259 main_v260 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    unary main_v253 main_v261 (broadcastInDim S600000x128 ![0, 1] bcast_S600000x1_S600000x128_0_1 : (⟨S600000x1, .f32⟩ : BufTy).Contents (Elt F) → (⟨S600000x128, .f32⟩ : BufTy).Contents (Elt F)),
    binary main_v261 main_v260 main_v262 (mulf : (⟨S600000x128, .f32⟩ : BufTy).Contents (Elt F) → (⟨S600000x128, .f32⟩ : BufTy).Contents (Elt F) → (⟨S600000x128, .f32⟩ : BufTy).Contents (Elt F)),
    binary main_v249 main_v262 main_v263 (addf : (⟨S600000x128, .f32⟩ : BufTy).Contents (Elt F) → (⟨S600000x128, .f32⟩ : BufTy).Contents (Elt F) → (⟨S600000x128, .f32⟩ : BufTy).Contents (Elt F)),
    unary main_arg6 main_v264 ((extractStridedSlice S1x1x128x128 ![1, 2, 0, 0] · slices_S3x3x128x128_S1x1x128x128_1_2_0_0) : (⟨S3x3x128x128, .f32⟩ : BufTy).Contents (Elt F) → (⟨S1x1x128x128, .f32⟩ : BufTy).Contents (Elt F)),
    reshape main_v264 main_v265 rfl shapeCasts_S1x1x128x128_S128x128,
    binary main_v199 main_v265 main_v266 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_v234 main_v267 ((extractStridedSlice S600000x1 ![0, 2] · slices_S600000x3_S600000x1_0_2) : (⟨S600000x3, .f32⟩ : BufTy).Contents (Elt F) → (⟨S600000x1, .f32⟩ : BufTy).Contents (Elt F)),
    nullary main_c_42 (constantI S_ 32 0#32),
    unary main_c_42 main_v268 (broadcastInDim S600000 ![] bcast_S_S600000 : (⟨S_, .i32⟩ : BufTy).Contents (Elt F) → (⟨S600000, .i32⟩ : BufTy).Contents (Elt F)),
    binary main_v1 main_v268 main_v269 (cmpi .slt : (⟨S600000, .i32⟩ : BufTy).Contents (Elt F) → (⟨S600000, .i32⟩ : BufTy).Contents (Elt F) → (⟨S600000, .i1⟩ : BufTy).Contents (Elt F)),
    nullary main_c_43 (constantI S_ 32 50000#32),
    unary main_c_43 main_v270 (broadcastInDim S600000 ![] bcast_S_S600000 : (⟨S_, .i32⟩ : BufTy).Contents (Elt F) → (⟨S600000, .i32⟩ : BufTy).Contents (Elt F)),
    binary main_v1 main_v270 main_v271 (addi : (⟨S600000, .i32⟩ : BufTy).Contents (Elt F) → (⟨S600000, .i32⟩ : BufTy).Contents (Elt F) → (⟨S600000, .i32⟩ : BufTy).Contents (Elt F)),
    ternary main_v269 main_v271 main_v1 main_v272 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v272 main_v273 (broadcastInDim S600000x1 ![0] bcast_S600000_S600000x1_0 : (⟨S600000, .i32⟩ : BufTy).Contents (Elt F) → (⟨S600000x1, .i32⟩ : BufTy).Contents (Elt F)),
    binary main_v266 main_v273 main_v274 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    unary main_v267 main_v275 (broadcastInDim S600000x128 ![0, 1] bcast_S600000x1_S600000x128_0_1 : (⟨S600000x1, .f32⟩ : BufTy).Contents (Elt F) → (⟨S600000x128, .f32⟩ : BufTy).Contents (Elt F)),
    binary main_v275 main_v274 main_v276 (mulf : (⟨S600000x128, .f32⟩ : BufTy).Contents (Elt F) → (⟨S600000x128, .f32⟩ : BufTy).Contents (Elt F) → (⟨S600000x128, .f32⟩ : BufTy).Contents (Elt F)),
    binary main_v263 main_v276 main_v277 (addf : (⟨S600000x128, .f32⟩ : BufTy).Contents (Elt F) → (⟨S600000x128, .f32⟩ : BufTy).Contents (Elt F) → (⟨S600000x128, .f32⟩ : BufTy).Contents (Elt F)),
    nullary main_cst_44 (constant S_ .f32 0x00000000#32),
    unary main_cst_44 main_v278 (broadcastInDim S50000x128 ![] bcast_S_S50000x128 : (⟨S_, .f32⟩ : BufTy).Contents (Elt F) → (⟨S50000x128, .f32⟩ : BufTy).Contents (Elt F)),
    unary main_v3 main_v279 (broadcastInDim S600000x1 ![0] bcast_S600000_S600000x1_0 : (⟨S600000, .i32⟩ : BufTy).Contents (Elt F) → (⟨S600000x1, .i32⟩ : BufTy).Contents (Elt F)),
    ternary main_v278 main_v279 main_v277 main_v280 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    unary main_arg7 main_v281 ((extractStridedSlice S1x3x128 ![1, 0, 0] · slices_S3x3x128_S1x3x128_1_0_0) : (⟨S3x3x128, .f32⟩ : BufTy).Contents (Elt F) → (⟨S1x3x128, .f32⟩ : BufTy).Contents (Elt F)),
    reshape main_v281 main_v282 rfl shapeCasts_S1x3x128_S3x128,
    nullary main_cst_45 (constant S_ .f32 0x00000000#32),
    binary main_v282 main_cst_45 main_v283 ((fun x v => Host.reduceAdd x v reducesTo_S3x128_S128_d0 h_S_) : (⟨S3x128, .f32⟩ : BufTy).Contents (Elt F) → (⟨S_, .f32⟩ : BufTy).Contents (Elt F) → (⟨S128, .f32⟩ : BufTy).Contents (Elt F)),
    unary main_v283 main_v284 (broadcastInDim S1x128 ![1] bcast_S128_S1x128_1 : (⟨S128, .f32⟩ : BufTy).Contents (Elt F) → (⟨S1x128, .f32⟩ : BufTy).Contents (Elt F)),
    unary main_v284 main_v285 (broadcastInDim S50000x128 ![0, 1] bcast_S1x128_S50000x128_0_1 : (⟨S1x128, .f32⟩ : BufTy).Contents (Elt F) → (⟨S50000x128, .f32⟩ : BufTy).Contents (Elt F)),
    binary main_v280 main_v285 main_v286 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v286) (TRef.of (T := ⟨S50000x128, .f32⟩) main_call1_v0) (TRef.of (T := ⟨S50000x128, .f32⟩) main_v287) maximumf,
    binary main_v287 main_v199 main_v288 (addf : (⟨S50000x128, .f32⟩ : BufTy).Contents (Elt F) → (⟨S50000x128, .f32⟩ : BufTy).Contents (Elt F) → (⟨S50000x128, .f32⟩ : BufTy).Contents (Elt F)) ]

set_option maxRecDepth 8192 in
theorem seg2_sub : (seg2 : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., unary_bufs_sub .., reshape_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., binary_bufs_sub .., unary_bufs_sub .., reshape_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., binary_bufs_sub .., unary_bufs_sub .., reshape_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., binary_bufs_sub .., nullary_bufs_sub .., unary_bufs_sub .., unary_bufs_sub .., ternary_bufs_sub .., unary_bufs_sub .., reshape_bufs_sub .., nullary_bufs_sub .., binary_bufs_sub .., unary_bufs_sub .., unary_bufs_sub .., binary_bufs_sub .., nullary_bufs_sub .., unary_bufs_sub .., binary_bufs_sub .., binary_bufs_sub ..⟩

set_option maxRecDepth 8192 in
theorem seg2_fresh : ∀ op ∈ (seg2 : List (HloOp τ sig (Elt F))), op.fresh = ∅ := by
  intro _ h; (repeat (cases h with | head => rfl | tail _ h => ?_)); exact nomatch h

/-- Layer 2, the same without the rectifier. -/
abbrev seg3 : List (HloOp τ sig (Elt F)) :=
  [
    unary main_arg5 main_v289 ((extractStridedSlice S1x1x8x3 ![2, 0, 0, 0] · slices_S3x3x8x3_S1x1x8x3_2_0_0_0) : (⟨S3x3x8x3, .f32⟩ : BufTy).Contents (Elt F) → (⟨S1x1x8x3, .f32⟩ : BufTy).Contents (Elt F)),
    reshape main_v289 main_v290 rfl shapeCasts_S1x1x8x3_S8x3,
    unary main_arg2 main_v291 ((extractStridedSlice S600000x1 ![0, 0] · slices_S600000x3_S600000x1_0_0) : (⟨S600000x3, .i32⟩ : BufTy).Contents (Elt F) → (⟨S600000x1, .i32⟩ : BufTy).Contents (Elt F)),
    reshape main_v291 main_v292 rfl shapeCasts_S600000x1_S600000,
    nullary main_c_46 (constantI S_ 32 0#32),
    unary main_c_46 main_v293 (broadcastInDim S600000 ![] bcast_S_S600000 : (⟨S_, .i32⟩ : BufTy).Contents (Elt F) → (⟨S600000, .i32⟩ : BufTy).Contents (Elt F)),
    binary main_v292 main_v293 main_v294 (cmpi .slt : (⟨S600000, .i32⟩ : BufTy).Contents (Elt F) → (⟨S600000, .i32⟩ : BufTy).Contents (Elt F) → (⟨S600000, .i1⟩ : BufTy).Contents (Elt F)),
    nullary main_c_47 (constantI S_ 32 8#32),
    unary main_c_47 main_v295 (broadcastInDim S600000 ![] bcast_S_S600000 : (⟨S_, .i32⟩ : BufTy).Contents (Elt F) → (⟨S600000, .i32⟩ : BufTy).Contents (Elt F)),
    binary main_v292 main_v295 main_v296 (addi : (⟨S600000, .i32⟩ : BufTy).Contents (Elt F) → (⟨S600000, .i32⟩ : BufTy).Contents (Elt F) → (⟨S600000, .i32⟩ : BufTy).Contents (Elt F)),
    ternary main_v294 main_v296 main_v292 main_v297 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v297 main_v298 (broadcastInDim S600000x1 ![0] bcast_S600000_S600000x1_0 : (⟨S600000, .i32⟩ : BufTy).Contents (Elt F) → (⟨S600000x1, .i32⟩ : BufTy).Contents (Elt F)),
    binary main_v290 main_v298 main_v299 ((fun x i => Host.gather gather_S8x3_S600000x1_S600000x3_1_0_n_n_0_1_13 x i) : (⟨S8x3, .f32⟩ : BufTy).Contents (Elt F) → (⟨S600000x1, .i32⟩ : BufTy).Contents (Elt F) → (⟨S600000x3, .f32⟩ : BufTy).Contents (Elt F)),
    unary main_arg5 main_v300 ((extractStridedSlice S1x1x8x3 ![2, 1, 0, 0] · slices_S3x3x8x3_S1x1x8x3_2_1_0_0) : (⟨S3x3x8x3, .f32⟩ : BufTy).Contents (Elt F) → (⟨S1x1x8x3, .f32⟩ : BufTy).Contents (Elt F)),
    reshape main_v300 main_v301 rfl shapeCasts_S1x1x8x3_S8x3,
    unary main_arg2 main_v302 ((extractStridedSlice S600000x1 ![0, 1] · slices_S600000x3_S600000x1_0_1) : (⟨S600000x3, .i32⟩ : BufTy).Contents (Elt F) → (⟨S600000x1, .i32⟩ : BufTy).Contents (Elt F)),
    reshape main_v302 main_v303 rfl shapeCasts_S600000x1_S600000,
    nullary main_c_48 (constantI S_ 32 0#32),
    unary main_c_48 main_v304 (broadcastInDim S600000 ![] bcast_S_S600000 : (⟨S_, .i32⟩ : BufTy).Contents (Elt F) → (⟨S600000, .i32⟩ : BufTy).Contents (Elt F)),
    binary main_v303 main_v304 main_v305 (cmpi .slt : (⟨S600000, .i32⟩ : BufTy).Contents (Elt F) → (⟨S600000, .i32⟩ : BufTy).Contents (Elt F) → (⟨S600000, .i1⟩ : BufTy).Contents (Elt F)),
    nullary main_c_49 (constantI S_ 32 8#32),
    unary main_c_49 main_v306 (broadcastInDim S600000 ![] bcast_S_S600000 : (⟨S_, .i32⟩ : BufTy).Contents (Elt F) → (⟨S600000, .i32⟩ : BufTy).Contents (Elt F)),
    binary main_v303 main_v306 main_v307 (addi : (⟨S600000, .i32⟩ : BufTy).Contents (Elt F) → (⟨S600000, .i32⟩ : BufTy).Contents (Elt F) → (⟨S600000, .i32⟩ : BufTy).Contents (Elt F)),
    ternary main_v305 main_v307 main_v303 main_v308 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v308 main_v309 (broadcastInDim S600000x1 ![0] bcast_S600000_S600000x1_0 : (⟨S600000, .i32⟩ : BufTy).Contents (Elt F) → (⟨S600000x1, .i32⟩ : BufTy).Contents (Elt F)),
    binary main_v301 main_v309 main_v310 ((fun x i => Host.gather gather_S8x3_S600000x1_S600000x3_1_0_n_n_0_1_13 x i) : (⟨S8x3, .f32⟩ : BufTy).Contents (Elt F) → (⟨S600000x1, .i32⟩ : BufTy).Contents (Elt F) → (⟨S600000x3, .f32⟩ : BufTy).Contents (Elt F)),
    binary main_v299 main_v310 main_v311 (addf : (⟨S600000x3, .f32⟩ : BufTy).Contents (Elt F) → (⟨S600000x3, .f32⟩ : BufTy).Contents (Elt F) → (⟨S600000x3, .f32⟩ : BufTy).Contents (Elt F)),
    unary main_arg5 main_v312 ((extractStridedSlice S1x1x8x3 ![2, 2, 0, 0] · slices_S3x3x8x3_S1x1x8x3_2_2_0_0) : (⟨S3x3x8x3, .f32⟩ : BufTy).Contents (Elt F) → (⟨S1x1x8x3, .f32⟩ : BufTy).Contents (Elt F)),
    reshape main_v312 main_v313 rfl shapeCasts_S1x1x8x3_S8x3,
    unary main_arg2 main_v314 ((extractStridedSlice S600000x1 ![0, 2] · slices_S600000x3_S600000x1_0_2) : (⟨S600000x3, .i32⟩ : BufTy).Contents (Elt F) → (⟨S600000x1, .i32⟩ : BufTy).Contents (Elt F)),
    reshape main_v314 main_v315 rfl shapeCasts_S600000x1_S600000,
    nullary main_c_50 (constantI S_ 32 0#32),
    unary main_c_50 main_v316 (broadcastInDim S600000 ![] bcast_S_S600000 : (⟨S_, .i32⟩ : BufTy).Contents (Elt F) → (⟨S600000, .i32⟩ : BufTy).Contents (Elt F)),
    binary main_v315 main_v316 main_v317 (cmpi .slt : (⟨S600000, .i32⟩ : BufTy).Contents (Elt F) → (⟨S600000, .i32⟩ : BufTy).Contents (Elt F) → (⟨S600000, .i1⟩ : BufTy).Contents (Elt F)),
    nullary main_c_51 (constantI S_ 32 8#32),
    unary main_c_51 main_v318 (broadcastInDim S600000 ![] bcast_S_S600000 : (⟨S_, .i32⟩ : BufTy).Contents (Elt F) → (⟨S600000, .i32⟩ : BufTy).Contents (Elt F)),
    binary main_v315 main_v318 main_v319 (addi : (⟨S600000, .i32⟩ : BufTy).Contents (Elt F) → (⟨S600000, .i32⟩ : BufTy).Contents (Elt F) → (⟨S600000, .i32⟩ : BufTy).Contents (Elt F)),
    ternary main_v317 main_v319 main_v315 main_v320 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v320 main_v321 (broadcastInDim S600000x1 ![0] bcast_S600000_S600000x1_0 : (⟨S600000, .i32⟩ : BufTy).Contents (Elt F) → (⟨S600000x1, .i32⟩ : BufTy).Contents (Elt F)),
    binary main_v313 main_v321 main_v322 ((fun x i => Host.gather gather_S8x3_S600000x1_S600000x3_1_0_n_n_0_1_13 x i) : (⟨S8x3, .f32⟩ : BufTy).Contents (Elt F) → (⟨S600000x1, .i32⟩ : BufTy).Contents (Elt F) → (⟨S600000x3, .f32⟩ : BufTy).Contents (Elt F)),
    binary main_v311 main_v322 main_v323 (addf : (⟨S600000x3, .f32⟩ : BufTy).Contents (Elt F) → (⟨S600000x3, .f32⟩ : BufTy).Contents (Elt F) → (⟨S600000x3, .f32⟩ : BufTy).Contents (Elt F)),
    nullary main_cst_52 (constant S_ .f32 0x00000000#32),
    unary main_cst_52 main_v324 (broadcastInDim S600000x128 ![] bcast_S_S600000x128 : (⟨S_, .f32⟩ : BufTy).Contents (Elt F) → (⟨S600000x128, .f32⟩ : BufTy).Contents (Elt F)),
    unary main_arg6 main_v325 ((extractStridedSlice S1x1x128x128 ![2, 0, 0, 0] · slices_S3x3x128x128_S1x1x128x128_2_0_0_0) : (⟨S3x3x128x128, .f32⟩ : BufTy).Contents (Elt F) → (⟨S1x1x128x128, .f32⟩ : BufTy).Contents (Elt F)),
    reshape main_v325 main_v326 rfl shapeCasts_S1x1x128x128_S128x128,
    binary main_v288 main_v326 main_v327 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_v323 main_v328 ((extractStridedSlice S600000x1 ![0, 0] · slices_S600000x3_S600000x1_0_0) : (⟨S600000x3, .f32⟩ : BufTy).Contents (Elt F) → (⟨S600000x1, .f32⟩ : BufTy).Contents (Elt F)),
    nullary main_c_53 (constantI S_ 32 0#32),
    unary main_c_53 main_v329 (broadcastInDim S600000 ![] bcast_S_S600000 : (⟨S_, .i32⟩ : BufTy).Contents (Elt F) → (⟨S600000, .i32⟩ : BufTy).Contents (Elt F)),
    binary main_v1 main_v329 main_v330 (cmpi .slt : (⟨S600000, .i32⟩ : BufTy).Contents (Elt F) → (⟨S600000, .i32⟩ : BufTy).Contents (Elt F) → (⟨S600000, .i1⟩ : BufTy).Contents (Elt F)),
    nullary main_c_54 (constantI S_ 32 50000#32),
    unary main_c_54 main_v331 (broadcastInDim S600000 ![] bcast_S_S600000 : (⟨S_, .i32⟩ : BufTy).Contents (Elt F) → (⟨S600000, .i32⟩ : BufTy).Contents (Elt F)),
    binary main_v1 main_v331 main_v332 (addi : (⟨S600000, .i32⟩ : BufTy).Contents (Elt F) → (⟨S600000, .i32⟩ : BufTy).Contents (Elt F) → (⟨S600000, .i32⟩ : BufTy).Contents (Elt F)),
    ternary main_v330 main_v332 main_v1 main_v333 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v333 main_v334 (broadcastInDim S600000x1 ![0] bcast_S600000_S600000x1_0 : (⟨S600000, .i32⟩ : BufTy).Contents (Elt F) → (⟨S600000x1, .i32⟩ : BufTy).Contents (Elt F)),
    binary main_v327 main_v334 main_v335 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    unary main_v328 main_v336 (broadcastInDim S600000x128 ![0, 1] bcast_S600000x1_S600000x128_0_1 : (⟨S600000x1, .f32⟩ : BufTy).Contents (Elt F) → (⟨S600000x128, .f32⟩ : BufTy).Contents (Elt F)),
    binary main_v336 main_v335 main_v337 (mulf : (⟨S600000x128, .f32⟩ : BufTy).Contents (Elt F) → (⟨S600000x128, .f32⟩ : BufTy).Contents (Elt F) → (⟨S600000x128, .f32⟩ : BufTy).Contents (Elt F)),
    binary main_v324 main_v337 main_v338 (addf : (⟨S600000x128, .f32⟩ : BufTy).Contents (Elt F) → (⟨S600000x128, .f32⟩ : BufTy).Contents (Elt F) → (⟨S600000x128, .f32⟩ : BufTy).Contents (Elt F)),
    unary main_arg6 main_v339 ((extractStridedSlice S1x1x128x128 ![2, 1, 0, 0] · slices_S3x3x128x128_S1x1x128x128_2_1_0_0) : (⟨S3x3x128x128, .f32⟩ : BufTy).Contents (Elt F) → (⟨S1x1x128x128, .f32⟩ : BufTy).Contents (Elt F)),
    reshape main_v339 main_v340 rfl shapeCasts_S1x1x128x128_S128x128,
    binary main_v288 main_v340 main_v341 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_v323 main_v342 ((extractStridedSlice S600000x1 ![0, 1] · slices_S600000x3_S600000x1_0_1) : (⟨S600000x3, .f32⟩ : BufTy).Contents (Elt F) → (⟨S600000x1, .f32⟩ : BufTy).Contents (Elt F)),
    nullary main_c_55 (constantI S_ 32 0#32),
    unary main_c_55 main_v343 (broadcastInDim S600000 ![] bcast_S_S600000 : (⟨S_, .i32⟩ : BufTy).Contents (Elt F) → (⟨S600000, .i32⟩ : BufTy).Contents (Elt F)),
    binary main_v1 main_v343 main_v344 (cmpi .slt : (⟨S600000, .i32⟩ : BufTy).Contents (Elt F) → (⟨S600000, .i32⟩ : BufTy).Contents (Elt F) → (⟨S600000, .i1⟩ : BufTy).Contents (Elt F)),
    nullary main_c_56 (constantI S_ 32 50000#32),
    unary main_c_56 main_v345 (broadcastInDim S600000 ![] bcast_S_S600000 : (⟨S_, .i32⟩ : BufTy).Contents (Elt F) → (⟨S600000, .i32⟩ : BufTy).Contents (Elt F)),
    binary main_v1 main_v345 main_v346 (addi : (⟨S600000, .i32⟩ : BufTy).Contents (Elt F) → (⟨S600000, .i32⟩ : BufTy).Contents (Elt F) → (⟨S600000, .i32⟩ : BufTy).Contents (Elt F)),
    ternary main_v344 main_v346 main_v1 main_v347 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v347 main_v348 (broadcastInDim S600000x1 ![0] bcast_S600000_S600000x1_0 : (⟨S600000, .i32⟩ : BufTy).Contents (Elt F) → (⟨S600000x1, .i32⟩ : BufTy).Contents (Elt F)),
    binary main_v341 main_v348 main_v349 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    unary main_v342 main_v350 (broadcastInDim S600000x128 ![0, 1] bcast_S600000x1_S600000x128_0_1 : (⟨S600000x1, .f32⟩ : BufTy).Contents (Elt F) → (⟨S600000x128, .f32⟩ : BufTy).Contents (Elt F)),
    binary main_v350 main_v349 main_v351 (mulf : (⟨S600000x128, .f32⟩ : BufTy).Contents (Elt F) → (⟨S600000x128, .f32⟩ : BufTy).Contents (Elt F) → (⟨S600000x128, .f32⟩ : BufTy).Contents (Elt F)),
    binary main_v338 main_v351 main_v352 (addf : (⟨S600000x128, .f32⟩ : BufTy).Contents (Elt F) → (⟨S600000x128, .f32⟩ : BufTy).Contents (Elt F) → (⟨S600000x128, .f32⟩ : BufTy).Contents (Elt F)),
    unary main_arg6 main_v353 ((extractStridedSlice S1x1x128x128 ![2, 2, 0, 0] · slices_S3x3x128x128_S1x1x128x128_2_2_0_0) : (⟨S3x3x128x128, .f32⟩ : BufTy).Contents (Elt F) → (⟨S1x1x128x128, .f32⟩ : BufTy).Contents (Elt F)),
    reshape main_v353 main_v354 rfl shapeCasts_S1x1x128x128_S128x128,
    binary main_v288 main_v354 main_v355 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_v323 main_v356 ((extractStridedSlice S600000x1 ![0, 2] · slices_S600000x3_S600000x1_0_2) : (⟨S600000x3, .f32⟩ : BufTy).Contents (Elt F) → (⟨S600000x1, .f32⟩ : BufTy).Contents (Elt F)),
    nullary main_c_57 (constantI S_ 32 0#32),
    unary main_c_57 main_v357 (broadcastInDim S600000 ![] bcast_S_S600000 : (⟨S_, .i32⟩ : BufTy).Contents (Elt F) → (⟨S600000, .i32⟩ : BufTy).Contents (Elt F)),
    binary main_v1 main_v357 main_v358 (cmpi .slt : (⟨S600000, .i32⟩ : BufTy).Contents (Elt F) → (⟨S600000, .i32⟩ : BufTy).Contents (Elt F) → (⟨S600000, .i1⟩ : BufTy).Contents (Elt F)),
    nullary main_c_58 (constantI S_ 32 50000#32),
    unary main_c_58 main_v359 (broadcastInDim S600000 ![] bcast_S_S600000 : (⟨S_, .i32⟩ : BufTy).Contents (Elt F) → (⟨S600000, .i32⟩ : BufTy).Contents (Elt F)),
    binary main_v1 main_v359 main_v360 (addi : (⟨S600000, .i32⟩ : BufTy).Contents (Elt F) → (⟨S600000, .i32⟩ : BufTy).Contents (Elt F) → (⟨S600000, .i32⟩ : BufTy).Contents (Elt F)),
    ternary main_v358 main_v360 main_v1 main_v361 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v361 main_v362 (broadcastInDim S600000x1 ![0] bcast_S600000_S600000x1_0 : (⟨S600000, .i32⟩ : BufTy).Contents (Elt F) → (⟨S600000x1, .i32⟩ : BufTy).Contents (Elt F)),
    binary main_v355 main_v362 main_v363 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    unary main_v356 main_v364 (broadcastInDim S600000x128 ![0, 1] bcast_S600000x1_S600000x128_0_1 : (⟨S600000x1, .f32⟩ : BufTy).Contents (Elt F) → (⟨S600000x128, .f32⟩ : BufTy).Contents (Elt F)),
    binary main_v364 main_v363 main_v365 (mulf : (⟨S600000x128, .f32⟩ : BufTy).Contents (Elt F) → (⟨S600000x128, .f32⟩ : BufTy).Contents (Elt F) → (⟨S600000x128, .f32⟩ : BufTy).Contents (Elt F)),
    binary main_v352 main_v365 main_v366 (addf : (⟨S600000x128, .f32⟩ : BufTy).Contents (Elt F) → (⟨S600000x128, .f32⟩ : BufTy).Contents (Elt F) → (⟨S600000x128, .f32⟩ : BufTy).Contents (Elt F)),
    nullary main_cst_59 (constant S_ .f32 0x00000000#32),
    unary main_cst_59 main_v367 (broadcastInDim S50000x128 ![] bcast_S_S50000x128 : (⟨S_, .f32⟩ : BufTy).Contents (Elt F) → (⟨S50000x128, .f32⟩ : BufTy).Contents (Elt F)),
    unary main_v3 main_v368 (broadcastInDim S600000x1 ![0] bcast_S600000_S600000x1_0 : (⟨S600000, .i32⟩ : BufTy).Contents (Elt F) → (⟨S600000x1, .i32⟩ : BufTy).Contents (Elt F)),
    ternary main_v367 main_v368 main_v366 main_v369 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    unary main_arg7 main_v370 ((extractStridedSlice S1x3x128 ![2, 0, 0] · slices_S3x3x128_S1x3x128_2_0_0) : (⟨S3x3x128, .f32⟩ : BufTy).Contents (Elt F) → (⟨S1x3x128, .f32⟩ : BufTy).Contents (Elt F)),
    reshape main_v370 main_v371 rfl shapeCasts_S1x3x128_S3x128,
    nullary main_cst_60 (constant S_ .f32 0x00000000#32),
    binary main_v371 main_cst_60 main_v372 ((fun x v => Host.reduceAdd x v reducesTo_S3x128_S128_d0 h_S_) : (⟨S3x128, .f32⟩ : BufTy).Contents (Elt F) → (⟨S_, .f32⟩ : BufTy).Contents (Elt F) → (⟨S128, .f32⟩ : BufTy).Contents (Elt F)),
    unary main_v372 main_v373 (broadcastInDim S1x128 ![1] bcast_S128_S1x128_1 : (⟨S128, .f32⟩ : BufTy).Contents (Elt F) → (⟨S1x128, .f32⟩ : BufTy).Contents (Elt F)),
    unary main_v373 main_v374 (broadcastInDim S50000x128 ![0, 1] bcast_S1x128_S50000x128_0_1 : (⟨S1x128, .f32⟩ : BufTy).Contents (Elt F) → (⟨S50000x128, .f32⟩ : BufTy).Contents (Elt F)),
    binary main_v369 main_v374 main_v375 (addf : (⟨S50000x128, .f32⟩ : BufTy).Contents (Elt F) → (⟨S50000x128, .f32⟩ : BufTy).Contents (Elt F) → (⟨S50000x128, .f32⟩ : BufTy).Contents (Elt F)),
    binary main_v375 main_v288 main_v376 (addf : (⟨S50000x128, .f32⟩ : BufTy).Contents (Elt F) → (⟨S50000x128, .f32⟩ : BufTy).Contents (Elt F) → (⟨S50000x128, .f32⟩ : BufTy).Contents (Elt F)) ]

set_option maxRecDepth 8192 in
theorem seg3_sub : (seg3 : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., unary_bufs_sub .., reshape_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., binary_bufs_sub .., unary_bufs_sub .., reshape_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., binary_bufs_sub .., unary_bufs_sub .., reshape_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., binary_bufs_sub .., nullary_bufs_sub .., unary_bufs_sub .., unary_bufs_sub .., ternary_bufs_sub .., unary_bufs_sub .., reshape_bufs_sub .., nullary_bufs_sub .., binary_bufs_sub .., unary_bufs_sub .., unary_bufs_sub .., binary_bufs_sub .., binary_bufs_sub ..⟩

set_option maxRecDepth 8192 in
theorem seg3_fresh : ∀ op ∈ (seg3 : List (HloOp τ sig (Elt F))), op.fresh = ∅ := by
  intro _ h; (repeat (cases h with | head => rfl | tail _ h => ?_)); exact nomatch h

/-- The mean pooling over the graphs and the two affine maps of the readout. -/
abbrev seg4 : List (HloOp τ sig (Elt F)) :=
  [
    nullary main_cst_61 (constant S_ .f32 0x00000000#32),
    unary main_cst_61 main_v377 (broadcastInDim S2048x128 ![] bcast_S_S2048x128 : (⟨S_, .f32⟩ : BufTy).Contents (Elt F) → (⟨S2048x128, .f32⟩ : BufTy).Contents (Elt F)),
    unary main_arg3 main_v378 (broadcastInDim S50000x1 ![0] bcast_S50000_S50000x1_0 : (⟨S50000, .i32⟩ : BufTy).Contents (Elt F) → (⟨S50000x1, .i32⟩ : BufTy).Contents (Elt F)),
    ternary main_v377 main_v378 main_v376 main_v379 ((fun x i u => Host.scatterAdd scatter_S2048x128_S50000x1_S50000x128_1_0_0_1 x i u) : (⟨S2048x128, .f32⟩ : BufTy).Contents (Elt F) → (⟨S50000x1, .i32⟩ : BufTy).Contents (Elt F) → (⟨S50000x128, .f32⟩ : BufTy).Contents (Elt F) → (⟨S2048x128, .f32⟩ : BufTy).Contents (Elt F)),
    nullary main_cst_62 (constant S_ .f32 0x3F800000#32),
    unary main_cst_62 main_v380 (broadcastInDim S50000 ![] bcast_S_S50000 : (⟨S_, .f32⟩ : BufTy).Contents (Elt F) → (⟨S50000, .f32⟩ : BufTy).Contents (Elt F)),
    nullary main_cst_63 (constant S_ .f32 0x00000000#32),
    unary main_cst_63 main_v381 (broadcastInDim S2048 ![] bcast_S_S2048 : (⟨S_, .f32⟩ : BufTy).Contents (Elt F) → (⟨S2048, .f32⟩ : BufTy).Contents (Elt F)),
    unary main_arg3 main_v382 (broadcastInDim S50000x1 ![0] bcast_S50000_S50000x1_0 : (⟨S50000, .i32⟩ : BufTy).Contents (Elt F) → (⟨S50000x1, .i32⟩ : BufTy).Contents (Elt F)),
    ternary main_v381 main_v382 main_v380 main_v383 ((fun x i u => Host.scatterAdd scatter_S2048_S50000x1_S50000_n_0_0_1 x i u) : (⟨S2048, .f32⟩ : BufTy).Contents (Elt F) → (⟨S50000x1, .i32⟩ : BufTy).Contents (Elt F) → (⟨S50000, .f32⟩ : BufTy).Contents (Elt F) → (⟨S2048, .f32⟩ : BufTy).Contents (Elt F)),
    nullary main_cst_64 (constant S_ .f32 0x3F800000#32),
    unary main_cst_64 main_v384 (broadcastInDim S2048 ![] bcast_S_S2048 : (⟨S_, .f32⟩ : BufTy).Contents (Elt F) → (⟨S2048, .f32⟩ : BufTy).Contents (Elt F)),
    binary main_v383 main_v384 main_v385 (maximumf : (⟨S2048, .f32⟩ : BufTy).Contents (Elt F) → (⟨S2048, .f32⟩ : BufTy).Contents (Elt F) → (⟨S2048, .f32⟩ : BufTy).Contents (Elt F)),
    unary main_v385 main_v386 (broadcastInDim S2048x1 ![0] bcast_S2048_S2048x1_0 : (⟨S2048, .f32⟩ : BufTy).Contents (Elt F) → (⟨S2048x1, .f32⟩ : BufTy).Contents (Elt F)),
    unary main_v386 main_v387 (broadcastInDim S2048x128 ![0, 1] bcast_S2048x1_S2048x128_0_1 : (⟨S2048x1, .f32⟩ : BufTy).Contents (Elt F) → (⟨S2048x128, .f32⟩ : BufTy).Contents (Elt F)),
    binary main_v379 main_v387 main_v388 (Host.divf : (⟨S2048x128, .f32⟩ : BufTy).Contents (Elt F) → (⟨S2048x128, .f32⟩ : BufTy).Contents (Elt F) → (⟨S2048x128, .f32⟩ : BufTy).Contents (Elt F)),
    binary main_v388 main_arg8 main_v389 ((fun l r => Host.dotGeneral dot_S2048x128_S128x128_S2048x128_1_0_0_1_n_n none l r) : (⟨S2048x128, .f32⟩ : BufTy).Contents (Elt F) → (⟨S128x128, .f32⟩ : BufTy).Contents (Elt F) → (⟨S2048x128, .f32⟩ : BufTy).Contents (Elt F)),
    unary main_arg9 main_v390 (broadcastInDim S1x128 ![1] bcast_S128_S1x128_1 : (⟨S128, .f32⟩ : BufTy).Contents (Elt F) → (⟨S1x128, .f32⟩ : BufTy).Contents (Elt F)),
    unary main_v390 main_v391 (broadcastInDim S2048x128 ![0, 1] bcast_S1x128_S2048x128_0_1 : (⟨S1x128, .f32⟩ : BufTy).Contents (Elt F) → (⟨S2048x128, .f32⟩ : BufTy).Contents (Elt F)),
    binary main_v389 main_v391 main_v392 (addf : (⟨S2048x128, .f32⟩ : BufTy).Contents (Elt F) → (⟨S2048x128, .f32⟩ : BufTy).Contents (Elt F) → (⟨S2048x128, .f32⟩ : BufTy).Contents (Elt F)),
    binary main_v392 main_arg10 main_v393 ((fun l r => Host.dotGeneral dot_S2048x128_S128x1_S2048x1_1_0_0_1_n_n none l r) : (⟨S2048x128, .f32⟩ : BufTy).Contents (Elt F) → (⟨S128x1, .f32⟩ : BufTy).Contents (Elt F) → (⟨S2048x1, .f32⟩ : BufTy).Contents (Elt F)),
    unary main_arg11 main_v394 (broadcastInDim S1x1 ![1] bcast_S1_S1x1_1 : (⟨S1, .f32⟩ : BufTy).Contents (Elt F) → (⟨S1x1, .f32⟩ : BufTy).Contents (Elt F)),
    unary main_v394 main_v395 (broadcastInDim S2048x1 ![0, 1] bcast_S1x1_S2048x1_0_1 : (⟨S1x1, .f32⟩ : BufTy).Contents (Elt F) → (⟨S2048x1, .f32⟩ : BufTy).Contents (Elt F)),
    binary main_v393 main_v395 main_v396 (addf : (⟨S2048x1, .f32⟩ : BufTy).Contents (Elt F) → (⟨S2048x1, .f32⟩ : BufTy).Contents (Elt F) → (⟨S2048x1, .f32⟩ : BufTy).Contents (Elt F)) ]

set_option maxRecDepth 8192 in
theorem seg4_sub : (seg4 : List (HloOp τ sig (Elt F))).Forall fun op => op.bufs ⊆ tcRefs τ sig :=
  ⟨nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub .., binary_bufs_sub .., unary_bufs_sub .., unary_bufs_sub .., binary_bufs_sub ..⟩

set_option maxRecDepth 8192 in
theorem seg4_fresh : ∀ op ∈ (seg4 : List (HloOp τ sig (Elt F))), op.fresh = ∅ := by
  intro _ h; (repeat (cases h with | head => rfl | tail _ h => ?_)); exact nomatch h

/-- The whole program: the five lines one after the other. -/
abbrev ops : List (HloOp τ sig (Elt F)) := seg0 ++ (seg1 ++ (seg2 ++ (seg3 ++ seg4)))

set_option maxRecDepth 400000 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig := by
  refine List.forall_iff_forall_mem.mpr fun op h => ?_
  simp only [ops, List.mem_append] at h
  rcases h with h | h | h | h | h
  · exact List.forall_iff_forall_mem.mp seg0_sub op h
  · exact List.forall_iff_forall_mem.mp seg1_sub op h
  · exact List.forall_iff_forall_mem.mp seg2_sub op h
  · exact List.forall_iff_forall_mem.mp seg3_sub op h
  · exact List.forall_iff_forall_mem.mp seg4_sub op h

theorem ops_fresh : ∀ op ∈ (ops : List (HloOp τ sig (Elt F))), op.fresh = ∅ := by
  intro op h
  simp only [ops, List.mem_append] at h
  rcases h with h | h | h | h | h
  · exact seg0_fresh op h
  · exact seg1_fresh op h
  · exact seg2_fresh op h
  · exact seg3_fresh op h
  · exact seg4_fresh op h

/-- The fold of the whole program is the five lines' folds, each over what the previous left. -/
theorem after_ops (V : Valuation τ sig (Elt F)) :
    after ops V = after seg4 (after seg3 (after seg2 (after seg1 (after seg0 V)))) := by
  simp only [ops, Cert.LibFold.after_append]

/-- On every device, from any memory with zero counters: every weakly fair execution of the program terminates with
    each buffer at the fold of the operations over the launch contents. -/
theorem run (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = after ops (launchContents m c) (Proc.devRef .tc b) :=
  run_seq scopedRefs_eq scopedSems_eq defs main (fun _ => ops) main_eq (fun _ => ops_sub) m ρ (fun _ => ops_fresh)

end Cert.ReferenceIdeal.RefRun

end
-- ==== Proof.RefFrame.lean ====
/-
  The reference program writes none of its argument arrays, and after the preamble none of the edges' two index
  rows: each of the five lines of host operations leaves those buffers as it found them, so the whole fold at an
  argument's buffer is the launch contents.
-/
import proofs.«101888_j76184129896719_1_alg».proof.Proof.RefRun

noncomputable section

namespace Cert.ReferenceIdeal.RefFrame

open Cert.ReferenceIdeal Cert.ReferenceIdeal.Gen Cert.ReferenceIdeal.RefRun Idealize.ShloMosaic Idealize.ShloMosaic.TcCoe Idealize.SL.Sem Idealize.ShloMosaic.StableHlo

variable {F : FTy → Type} [FloatOps F]

set_option maxHeartbeats 4000000 in
theorem seg0_arg0 (U : Valuation τ sig (Elt F)) : after seg0 U (Proc.devRef .tc main_arg0) = U (Proc.devRef .tc main_arg0) := by
  after_results_simp
set_option maxHeartbeats 4000000 in
theorem seg0_arg1 (U : Valuation τ sig (Elt F)) : after seg0 U (Proc.devRef .tc main_arg1) = U (Proc.devRef .tc main_arg1) := by
  after_results_simp
set_option maxHeartbeats 4000000 in
theorem seg0_arg2 (U : Valuation τ sig (Elt F)) : after seg0 U (Proc.devRef .tc main_arg2) = U (Proc.devRef .tc main_arg2) := by
  after_results_simp
set_option maxHeartbeats 4000000 in
theorem seg0_arg3 (U : Valuation τ sig (Elt F)) : after seg0 U (Proc.devRef .tc main_arg3) = U (Proc.devRef .tc main_arg3) := by
  after_results_simp
set_option maxHeartbeats 4000000 in
theorem seg0_arg4 (U : Valuation τ sig (Elt F)) : after seg0 U (Proc.devRef .tc main_arg4) = U (Proc.devRef .tc main_arg4) := by
  after_results_simp
set_option maxHeartbeats 4000000 in
theorem seg0_arg5 (U : Valuation τ sig (Elt F)) : after seg0 U (Proc.devRef .tc main_arg5) = U (Proc.devRef .tc main_arg5) := by
  after_results_simp
set_option maxHeartbeats 4000000 in
theorem seg0_arg6 (U : Valuation τ sig (Elt F)) : after seg0 U (Proc.devRef .tc main_arg6) = U (Proc.devRef .tc main_arg6) := by
  after_results_simp
set_option maxHeartbeats 4000000 in
theorem seg0_arg7 (U : Valuation τ sig (Elt F)) : after seg0 U (Proc.devRef .tc main_arg7) = U (Proc.devRef .tc main_arg7) := by
  after_results_simp
set_option maxHeartbeats 4000000 in
theorem seg0_arg8 (U : Valuation τ sig (Elt F)) : after seg0 U (Proc.devRef .tc main_arg8) = U (Proc.devRef .tc main_arg8) := by
  after_results_simp
set_option maxHeartbeats 4000000 in
theorem seg0_arg9 (U : Valuation τ sig (Elt F)) : after seg0 U (Proc.devRef .tc main_arg9) = U (Proc.devRef .tc main_arg9) := by
  after_results_simp
set_option maxHeartbeats 4000000 in
theorem seg0_arg10 (U : Valuation τ sig (Elt F)) : after seg0 U (Proc.devRef .tc main_arg10) = U (Proc.devRef .tc main_arg10) := by
  after_results_simp
set_option maxHeartbeats 4000000 in
theorem seg0_arg11 (U : Valuation τ sig (Elt F)) : after seg0 U (Proc.devRef .tc main_arg11) = U (Proc.devRef .tc main_arg11) := by
  after_results_simp
set_option maxHeartbeats 4000000 in
theorem seg1_arg0 (U : Valuation τ sig (Elt F)) : after seg1 U (Proc.devRef .tc main_arg0) = U (Proc.devRef .tc main_arg0) := by
  after_results_simp
set_option maxHeartbeats 4000000 in
theorem seg1_arg1 (U : Valuation τ sig (Elt F)) : after seg1 U (Proc.devRef .tc main_arg1) = U (Proc.devRef .tc main_arg1) := by
  after_results_simp
set_option maxHeartbeats 4000000 in
theorem seg1_arg2 (U : Valuation τ sig (Elt F)) : after seg1 U (Proc.devRef .tc main_arg2) = U (Proc.devRef .tc main_arg2) := by
  after_results_simp
set_option maxHeartbeats 4000000 in
theorem seg1_arg3 (U : Valuation τ sig (Elt F)) : after seg1 U (Proc.devRef .tc main_arg3) = U (Proc.devRef .tc main_arg3) := by
  after_results_simp
set_option maxHeartbeats 4000000 in
theorem seg1_arg4 (U : Valuation τ sig (Elt F)) : after seg1 U (Proc.devRef .tc main_arg4) = U (Proc.devRef .tc main_arg4) := by
  after_results_simp
set_option maxHeartbeats 4000000 in
theorem seg1_arg5 (U : Valuation τ sig (Elt F)) : after seg1 U (Proc.devRef .tc main_arg5) = U (Proc.devRef .tc main_arg5) := by
  after_results_simp
set_option maxHeartbeats 4000000 in
theorem seg1_arg6 (U : Valuation τ sig (Elt F)) : after seg1 U (Proc.devRef .tc main_arg6) = U (Proc.devRef .tc main_arg6) := by
  after_results_simp
set_option maxHeartbeats 4000000 in
theorem seg1_arg7 (U : Valuation τ sig (Elt F)) : after seg1 U (Proc.devRef .tc main_arg7) = U (Proc.devRef .tc main_arg7) := by
  after_results_simp
set_option maxHeartbeats 4000000 in
theorem seg1_arg8 (U : Valuation τ sig (Elt F)) : after seg1 U (Proc.devRef .tc main_arg8) = U (Proc.devRef .tc main_arg8) := by
  after_results_simp
set_option maxHeartbeats 4000000 in
theorem seg1_arg9 (U : Valuation τ sig (Elt F)) : after seg1 U (Proc.devRef .tc main_arg9) = U (Proc.devRef .tc main_arg9) := by
  after_results_simp
set_option maxHeartbeats 4000000 in
theorem seg1_arg10 (U : Valuation τ sig (Elt F)) : after seg1 U (Proc.devRef .tc main_arg10) = U (Proc.devRef .tc main_arg10) := by
  after_results_simp
set_option maxHeartbeats 4000000 in
theorem seg1_arg11 (U : Valuation τ sig (Elt F)) : after seg1 U (Proc.devRef .tc main_arg11) = U (Proc.devRef .tc main_arg11) := by
  after_results_simp
set_option maxHeartbeats 4000000 in
theorem seg2_arg0 (U : Valuation τ sig (Elt F)) : after seg2 U (Proc.devRef .tc main_arg0) = U (Proc.devRef .tc main_arg0) := by
  after_results_simp
set_option maxHeartbeats 4000000 in
theorem seg2_arg1 (U : Valuation τ sig (Elt F)) : after seg2 U (Proc.devRef .tc main_arg1) = U (Proc.devRef .tc main_arg1) := by
  after_results_simp
set_option maxHeartbeats 4000000 in
theorem seg2_arg2 (U : Valuation τ sig (Elt F)) : after seg2 U (Proc.devRef .tc main_arg2) = U (Proc.devRef .tc main_arg2) := by
  after_results_simp
set_option maxHeartbeats 4000000 in
theorem seg2_arg3 (U : Valuation τ sig (Elt F)) : after seg2 U (Proc.devRef .tc main_arg3) = U (Proc.devRef .tc main_arg3) := by
  after_results_simp
set_option maxHeartbeats 4000000 in
theorem seg2_arg4 (U : Valuation τ sig (Elt F)) : after seg2 U (Proc.devRef .tc main_arg4) = U (Proc.devRef .tc main_arg4) := by
  after_results_simp
set_option maxHeartbeats 4000000 in
theorem seg2_arg5 (U : Valuation τ sig (Elt F)) : after seg2 U (Proc.devRef .tc main_arg5) = U (Proc.devRef .tc main_arg5) := by
  after_results_simp
set_option maxHeartbeats 4000000 in
theorem seg2_arg6 (U : Valuation τ sig (Elt F)) : after seg2 U (Proc.devRef .tc main_arg6) = U (Proc.devRef .tc main_arg6) := by
  after_results_simp
set_option maxHeartbeats 4000000 in
theorem seg2_arg7 (U : Valuation τ sig (Elt F)) : after seg2 U (Proc.devRef .tc main_arg7) = U (Proc.devRef .tc main_arg7) := by
  after_results_simp
set_option maxHeartbeats 4000000 in
theorem seg2_arg8 (U : Valuation τ sig (Elt F)) : after seg2 U (Proc.devRef .tc main_arg8) = U (Proc.devRef .tc main_arg8) := by
  after_results_simp
set_option maxHeartbeats 4000000 in
theorem seg2_arg9 (U : Valuation τ sig (Elt F)) : after seg2 U (Proc.devRef .tc main_arg9) = U (Proc.devRef .tc main_arg9) := by
  after_results_simp
set_option maxHeartbeats 4000000 in
theorem seg2_arg10 (U : Valuation τ sig (Elt F)) : after seg2 U (Proc.devRef .tc main_arg10) = U (Proc.devRef .tc main_arg10) := by
  after_results_simp
set_option maxHeartbeats 4000000 in
theorem seg2_arg11 (U : Valuation τ sig (Elt F)) : after seg2 U (Proc.devRef .tc main_arg11) = U (Proc.devRef .tc main_arg11) := by
  after_results_simp
set_option maxHeartbeats 4000000 in
theorem seg3_arg0 (U : Valuation τ sig (Elt F)) : after seg3 U (Proc.devRef .tc main_arg0) = U (Proc.devRef .tc main_arg0) := by
  after_results_simp
set_option maxHeartbeats 4000000 in
theorem seg3_arg1 (U : Valuation τ sig (Elt F)) : after seg3 U (Proc.devRef .tc main_arg1) = U (Proc.devRef .tc main_arg1) := by
  after_results_simp
set_option maxHeartbeats 4000000 in
theorem seg3_arg2 (U : Valuation τ sig (Elt F)) : after seg3 U (Proc.devRef .tc main_arg2) = U (Proc.devRef .tc main_arg2) := by
  after_results_simp
set_option maxHeartbeats 4000000 in
theorem seg3_arg3 (U : Valuation τ sig (Elt F)) : after seg3 U (Proc.devRef .tc main_arg3) = U (Proc.devRef .tc main_arg3) := by
  after_results_simp
set_option maxHeartbeats 4000000 in
theorem seg3_arg4 (U : Valuation τ sig (Elt F)) : after seg3 U (Proc.devRef .tc main_arg4) = U (Proc.devRef .tc main_arg4) := by
  after_results_simp
set_option maxHeartbeats 4000000 in
theorem seg3_arg5 (U : Valuation τ sig (Elt F)) : after seg3 U (Proc.devRef .tc main_arg5) = U (Proc.devRef .tc main_arg5) := by
  after_results_simp
set_option maxHeartbeats 4000000 in
theorem seg3_arg6 (U : Valuation τ sig (Elt F)) : after seg3 U (Proc.devRef .tc main_arg6) = U (Proc.devRef .tc main_arg6) := by
  after_results_simp
set_option maxHeartbeats 4000000 in
theorem seg3_arg7 (U : Valuation τ sig (Elt F)) : after seg3 U (Proc.devRef .tc main_arg7) = U (Proc.devRef .tc main_arg7) := by
  after_results_simp
set_option maxHeartbeats 4000000 in
theorem seg3_arg8 (U : Valuation τ sig (Elt F)) : after seg3 U (Proc.devRef .tc main_arg8) = U (Proc.devRef .tc main_arg8) := by
  after_results_simp
set_option maxHeartbeats 4000000 in
theorem seg3_arg9 (U : Valuation τ sig (Elt F)) : after seg3 U (Proc.devRef .tc main_arg9) = U (Proc.devRef .tc main_arg9) := by
  after_results_simp
set_option maxHeartbeats 4000000 in
theorem seg3_arg10 (U : Valuation τ sig (Elt F)) : after seg3 U (Proc.devRef .tc main_arg10) = U (Proc.devRef .tc main_arg10) := by
  after_results_simp
set_option maxHeartbeats 4000000 in
theorem seg3_arg11 (U : Valuation τ sig (Elt F)) : after seg3 U (Proc.devRef .tc main_arg11) = U (Proc.devRef .tc main_arg11) := by
  after_results_simp
set_option maxHeartbeats 4000000 in
theorem seg4_arg0 (U : Valuation τ sig (Elt F)) : after seg4 U (Proc.devRef .tc main_arg0) = U (Proc.devRef .tc main_arg0) := by
  after_results_simp
set_option maxHeartbeats 4000000 in
theorem seg4_arg1 (U : Valuation τ sig (Elt F)) : after seg4 U (Proc.devRef .tc main_arg1) = U (Proc.devRef .tc main_arg1) := by
  after_results_simp
set_option maxHeartbeats 4000000 in
theorem seg4_arg2 (U : Valuation τ sig (Elt F)) : after seg4 U (Proc.devRef .tc main_arg2) = U (Proc.devRef .tc main_arg2) := by
  after_results_simp
set_option maxHeartbeats 4000000 in
theorem seg4_arg3 (U : Valuation τ sig (Elt F)) : after seg4 U (Proc.devRef .tc main_arg3) = U (Proc.devRef .tc main_arg3) := by
  after_results_simp
set_option maxHeartbeats 4000000 in
theorem seg4_arg4 (U : Valuation τ sig (Elt F)) : after seg4 U (Proc.devRef .tc main_arg4) = U (Proc.devRef .tc main_arg4) := by
  after_results_simp
set_option maxHeartbeats 4000000 in
theorem seg4_arg5 (U : Valuation τ sig (Elt F)) : after seg4 U (Proc.devRef .tc main_arg5) = U (Proc.devRef .tc main_arg5) := by
  after_results_simp
set_option maxHeartbeats 4000000 in
theorem seg4_arg6 (U : Valuation τ sig (Elt F)) : after seg4 U (Proc.devRef .tc main_arg6) = U (Proc.devRef .tc main_arg6) := by
  after_results_simp
set_option maxHeartbeats 4000000 in
theorem seg4_arg7 (U : Valuation τ sig (Elt F)) : after seg4 U (Proc.devRef .tc main_arg7) = U (Proc.devRef .tc main_arg7) := by
  after_results_simp
set_option maxHeartbeats 4000000 in
theorem seg4_arg8 (U : Valuation τ sig (Elt F)) : after seg4 U (Proc.devRef .tc main_arg8) = U (Proc.devRef .tc main_arg8) := by
  after_results_simp
set_option maxHeartbeats 4000000 in
theorem seg4_arg9 (U : Valuation τ sig (Elt F)) : after seg4 U (Proc.devRef .tc main_arg9) = U (Proc.devRef .tc main_arg9) := by
  after_results_simp
set_option maxHeartbeats 4000000 in
theorem seg4_arg10 (U : Valuation τ sig (Elt F)) : after seg4 U (Proc.devRef .tc main_arg10) = U (Proc.devRef .tc main_arg10) := by
  after_results_simp
set_option maxHeartbeats 4000000 in
theorem seg4_arg11 (U : Valuation τ sig (Elt F)) : after seg4 U (Proc.devRef .tc main_arg11) = U (Proc.devRef .tc main_arg11) := by
  after_results_simp
set_option maxHeartbeats 4000000 in
theorem seg1_v1 (U : Valuation τ sig (Elt F)) : after seg1 U (Proc.devRef .tc main_v1) = U (Proc.devRef .tc main_v1) := by
  after_results_simp
set_option maxHeartbeats 4000000 in
theorem seg1_v3 (U : Valuation τ sig (Elt F)) : after seg1 U (Proc.devRef .tc main_v3) = U (Proc.devRef .tc main_v3) := by
  after_results_simp
set_option maxHeartbeats 4000000 in
theorem seg2_v1 (U : Valuation τ sig (Elt F)) : after seg2 U (Proc.devRef .tc main_v1) = U (Proc.devRef .tc main_v1) := by
  after_results_simp
set_option maxHeartbeats 4000000 in
theorem seg2_v3 (U : Valuation τ sig (Elt F)) : after seg2 U (Proc.devRef .tc main_v3) = U (Proc.devRef .tc main_v3) := by
  after_results_simp
set_option maxHeartbeats 4000000 in
theorem seg3_v1 (U : Valuation τ sig (Elt F)) : after seg3 U (Proc.devRef .tc main_v1) = U (Proc.devRef .tc main_v1) := by
  after_results_simp
set_option maxHeartbeats 4000000 in
theorem seg3_v3 (U : Valuation τ sig (Elt F)) : after seg3 U (Proc.devRef .tc main_v3) = U (Proc.devRef .tc main_v3) := by
  after_results_simp
set_option maxHeartbeats 4000000 in
theorem seg4_v1 (U : Valuation τ sig (Elt F)) : after seg4 U (Proc.devRef .tc main_v1) = U (Proc.devRef .tc main_v1) := by
  after_results_simp
set_option maxHeartbeats 4000000 in
theorem seg4_v3 (U : Valuation τ sig (Elt F)) : after seg4 U (Proc.devRef .tc main_v3) = U (Proc.devRef .tc main_v3) := by
  after_results_simp

/-- The whole program leaves each argument array at its launch contents. -/
theorem ops_arg0 (U : Valuation τ sig (Elt F)) : after ops U (Proc.devRef .tc main_arg0) = U (Proc.devRef .tc main_arg0) := by
  rw [after_ops, seg4_arg0, seg3_arg0, seg2_arg0, seg1_arg0, seg0_arg0]
theorem ops_arg1 (U : Valuation τ sig (Elt F)) : after ops U (Proc.devRef .tc main_arg1) = U (Proc.devRef .tc main_arg1) := by
  rw [after_ops, seg4_arg1, seg3_arg1, seg2_arg1, seg1_arg1, seg0_arg1]
theorem ops_arg2 (U : Valuation τ sig (Elt F)) : after ops U (Proc.devRef .tc main_arg2) = U (Proc.devRef .tc main_arg2) := by
  rw [after_ops, seg4_arg2, seg3_arg2, seg2_arg2, seg1_arg2, seg0_arg2]
theorem ops_arg3 (U : Valuation τ sig (Elt F)) : after ops U (Proc.devRef .tc main_arg3) = U (Proc.devRef .tc main_arg3) := by
  rw [after_ops, seg4_arg3, seg3_arg3, seg2_arg3, seg1_arg3, seg0_arg3]
theorem ops_arg4 (U : Valuation τ sig (Elt F)) : after ops U (Proc.devRef .tc main_arg4) = U (Proc.devRef .tc main_arg4) := by
  rw [after_ops, seg4_arg4, seg3_arg4, seg2_arg4, seg1_arg4, seg0_arg4]
theorem ops_arg5 (U : Valuation τ sig (Elt F)) : after ops U (Proc.devRef .tc main_arg5) = U (Proc.devRef .tc main_arg5) := by
  rw [after_ops, seg4_arg5, seg3_arg5, seg2_arg5, seg1_arg5, seg0_arg5]
theorem ops_arg6 (U : Valuation τ sig (Elt F)) : after ops U (Proc.devRef .tc main_arg6) = U (Proc.devRef .tc main_arg6) := by
  rw [after_ops, seg4_arg6, seg3_arg6, seg2_arg6, seg1_arg6, seg0_arg6]
theorem ops_arg7 (U : Valuation τ sig (Elt F)) : after ops U (Proc.devRef .tc main_arg7) = U (Proc.devRef .tc main_arg7) := by
  rw [after_ops, seg4_arg7, seg3_arg7, seg2_arg7, seg1_arg7, seg0_arg7]
theorem ops_arg8 (U : Valuation τ sig (Elt F)) : after ops U (Proc.devRef .tc main_arg8) = U (Proc.devRef .tc main_arg8) := by
  rw [after_ops, seg4_arg8, seg3_arg8, seg2_arg8, seg1_arg8, seg0_arg8]
theorem ops_arg9 (U : Valuation τ sig (Elt F)) : after ops U (Proc.devRef .tc main_arg9) = U (Proc.devRef .tc main_arg9) := by
  rw [after_ops, seg4_arg9, seg3_arg9, seg2_arg9, seg1_arg9, seg0_arg9]
theorem ops_arg10 (U : Valuation τ sig (Elt F)) : after ops U (Proc.devRef .tc main_arg10) = U (Proc.devRef .tc main_arg10) := by
  rw [after_ops, seg4_arg10, seg3_arg10, seg2_arg10, seg1_arg10, seg0_arg10]
theorem ops_arg11 (U : Valuation τ sig (Elt F)) : after ops U (Proc.devRef .tc main_arg11) = U (Proc.devRef .tc main_arg11) := by
  rw [after_ops, seg4_arg11, seg3_arg11, seg2_arg11, seg1_arg11, seg0_arg11]

end Cert.ReferenceIdeal.RefFrame

end
-- ==== Proof.LibHostDot.lean ====
/-
  A general fact, at the exact instance (floats as extended reals): the host's product of an [M, K] matrix by a
  [K, N] matrix contracted over K, read at (p, q), is the sum over k of x(p, k) · w(k, q); and a vector broadcast
  first to one row [1, N] and then down the rows to [M, N] (the host's two `broadcast_in_dim`s of a bias) reads, at
  (p, q), the vector at q; a scalar broadcast to [M, N] reads the scalar everywhere.
-/
import Idealize.ShloMosaic.PureOps.Ideal.Laws
import Idealize.ShloMosaic.Lib.ValueIdx
import Idealize.ShloMosaic.Lib.Pipeline.Value

noncomputable section

namespace Cert.LibHostDot

open Idealize.ShloMosaic Idealize.ShloMosaic.ValueIdx

variable {α : Type} {M K N : Nat}

/-- The host's product of an [M, K] by a [K, N] matrix, read at (p, q): the sum over the contracted coordinate k of
    x(p, k) · w(k, q). The four hypotheses say which operand coordinate each of the product's index maps takes from
    the output index and which from the contraction index. -/
theorem dotGeneral_rc {φ₁ φ₂ : FTy} (D : DotDims ⟨2, ![M, K]⟩ ⟨2, ![K, N]⟩ ⟨2, ![M, N]⟩) (hr : D.contr.rank = 1)
    (hs : D.contr.size ⟨0, by omega⟩ = K)
    (hl0 : ∀ (i : (⟨2, ![M, N]⟩ : Shape).Idx) (c : D.contr.Idx), (D.lhsIdx i c 0).val = (i 0).val)
    (hl1 : ∀ (i : (⟨2, ![M, N]⟩ : Shape).Idx) (c : D.contr.Idx), (D.lhsIdx i c 1).val = (c ⟨0, by omega⟩).val)
    (hr0 : ∀ (i : (⟨2, ![M, N]⟩ : Shape).Idx) (c : D.contr.Idx), (D.rhsIdx i c 0).val = (c ⟨0, by omega⟩).val)
    (hr1 : ∀ (i : (⟨2, ![M, N]⟩ : Shape).Idx) (c : D.contr.Idx), (D.rhsIdx i c 1).val = (i 1).val)
    (prec : Option ContractPrecision)
    (x : FVec Ideal ⟨2, ![M, K]⟩ φ₁) (w : FVec Ideal ⟨2, ![K, N]⟩ φ₂) (p : Fin M) (q : Fin N) :
    Host.dotGeneral D prec x w (ix2 p q) = ∑ k : Fin K, x (ix2 p k) * w (ix2 k q) := by
  refine (Ideal.dotGeneral_apply D prec .single x w (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

/-- An [N] vector broadcast to one row [1, N] and then down the rows to [M, N] reads, at (p, q), the vector at q
    (N is not 1: the vector's axis is a real axis). -/
theorem rowBroadcastInDim_rc (hN : N ≠ 1) (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    broadcastInDim ⟨2, ![M, N]⟩ ![0, 1] h2 (broadcastInDim ⟨2, ![1, N]⟩ ![1] h1 b) (ix2 p q) = b (ix1 q) := by
  refine (broadcastInDim_apply ![0, 1] h2 _ (ix2 p q) (ix2 (0 : Fin 1) q) fun a => ?_).trans
    (broadcastInDim_apply ![1] h1 b (ix2 (0 : Fin 1) q) (ix1 q) fun a => ?_)
  · match a with
    | ⟨0, _⟩ => show 0 = if (1 : Nat) = 1 then 0 else p.val; rw [if_pos rfl]
    | ⟨1, _⟩ => show q.val = if N = 1 then 0 else q.val; rw [if_neg hN]
  · match a with
    | ⟨0, _⟩ => show q.val = if N = 1 then 0 else q.val; rw [if_neg hN]

/-- A scalar broadcast to any shape reads the scalar at every index. -/
theorem scalarBroadcastInDim_apply {t : Shape} (h : (⟨0, ![]⟩ : Shape).BroadcastsInDim t (![] : Fin 0 → Fin t.rank))
    (x : (⟨0, ![]⟩ : Shape).Idx → α) (j : t.Idx) (u : (⟨0, ![]⟩ : Shape).Idx) :
    broadcastInDim t ![] h x j = x u :=
  broadcastInDim_apply ![] h x j u fun a => a.elim0

end Cert.LibHostDot

end
-- ==== Proof.RefTail.lean ====
/-
  The reference's node update and readout as functions of the arrays they read, and that they are, entry by entry,
  the update and the readout of the specification: the sum of the three channel biases is the host's sum over the
  first axis from the zero word, broadcast down the rows; the rectifier is the maximum with the zero word; the
  readout is two products, each followed by its bias broadcast down the rows.
-/
import proofs.«101888_j76184129896719_1_alg».proof.Proof.Gen.ReferenceIdeal
import proofs.«101888_j76184129896719_1_alg».proof.Proof.LibHostDot
import proofs.«101888_j76184129896719_1_alg».proof.Proof.Spec
import Idealize.ShloMosaic.PureOps.Ideal.Laws
import Idealize.ShloMosaic.Lib.Pipeline.Value

noncomputable section

namespace Cert.RefTail

open Cert.ReferenceIdeal Cert.ReferenceIdeal.Gen Idealize.ShloMosaic Idealize.ShloMosaic.ValueIdx

/-- The three channel biases summed, as the reference lays the sum out over the node features. -/
def biasRows (B3 : FVec Ideal S3x128 .f32) : FVec Ideal S50000x128 .f32 :=
  broadcastInDim S50000x128 ![0, 1] bcast_S1x128_S50000x128_0_1 (broadcastInDim S1x128 ![1] bcast_S128_S1x128_1
    (Host.reduceAdd (F := Ideal) B3 (constant (F := Ideal) S_ .f32 0x00000000#32) reducesTo_S3x128_S128_d0 h_S_))

/-- The update of a rectifying layer. -/
def refNodeR (AGG : FVec Ideal S50000x128 .f32) (B3 : FVec Ideal S3x128 .f32) (H : FVec Ideal S50000x128 .f32) : FVec Ideal S50000x128 .f32 :=
  addf (maximumf (addf AGG (biasRows B3)) (broadcastInDim S50000x128 ![] bcast_S_S50000x128 (constant (F := Ideal) S_ .f32 0x00000000#32))) H

/-- The update of the last layer, which does not rectify. -/
def refNodeL (AGG : FVec Ideal S50000x128 .f32) (B3 : FVec Ideal S3x128 .f32) (H : FVec Ideal S50000x128 .f32) : FVec Ideal S50000x128 .f32 :=
  addf (addf AGG (biasRows B3)) H

/-- The host's sum of the three bias rows at column j: the zero word plus the three entries. -/
theorem biasSum_at (B3 : FVec Ideal S3x128 .f32) (j : Fin 128) :
    Host.reduceAdd (F := Ideal) B3 (constant (F := Ideal) S_ .f32 0x00000000#32) reducesTo_S3x128_S128_d0 h_S_ (ix1 j)
      = Ideal.ofBits .f32 0x00000000#32 + ∑ k : Fin 3, B3 (ix2 k j) := by
  show Ideal.hostReduceAdd reducesTo_S3x128_S128_d0 B3 (Ideal.ofBits .f32 0x00000000#32) (ix1 j) = _
  rw [Ideal.hostReduceAdd_single reducesTo_S3x128_S128_d0 (by decide)]
  refine congrArg (_ + ·) (Finset.sum_congr rfl fun k _ => congrArg B3 (funext fun a => Fin.ext (by
    match a with
    | ⟨0, _⟩ => rfl
    | ⟨1, _⟩ => rfl)))

theorem biasRows_at (B3 : FVec Ideal S3x128 .f32) (n : Fin 50000) (j : Fin 128) :
    biasRows B3 (ix2 n j) = ∑ k : Fin 3, B3 (ix2 k j) := by
  unfold biasRows
  rw [Cert.LibHostDot.rowBroadcastInDim_rc (by decide) _ bcast_S128_S1x128_1 bcast_S1x128_S50000x128_0_1 n j, biasSum_at,
    Ideal.ofBits_zero_f32, zero_add]

theorem zeroRows_at (n : Fin 50000) (j : Fin 128) :
    broadcastInDim S50000x128 ![] bcast_S_S50000x128 (constant (F := Ideal) S_ .f32 0x00000000#32) (ix2 n j) = Cert.Spec.zeroWord :=
  Cert.LibHostDot.scalarBroadcastInDim_apply bcast_S_S50000x128 _ (ix2 n j) (fun a => a.elim0)

theorem refNodeR_eq (AGG : FVec Ideal S50000x128 .f32) (B3 : FVec Ideal S3x128 .f32) (H : FVec Ideal S50000x128 .f32) :
    refNodeR AGG B3 H = Cert.Spec.node true AGG B3 H := by
  funext i
  obtain ⟨n, j, rfl⟩ : ∃ (n : Fin 50000) (j : Fin 128), i = ix2 n j := ⟨i 0, i 1, eq_ix2 i⟩
  rw [Cert.Spec.node_apply]
  unfold Cert.Spec.nodeAt refNodeR
  show max (AGG (ix2 n j) + biasRows B3 (ix2 n j))
      (broadcastInDim S50000x128 ![] bcast_S_S50000x128 (constant (F := Ideal) S_ .f32 0x00000000#32) (ix2 n j)) + H (ix2 n j) = _
  rw [biasRows_at, zeroRows_at]
  rfl

theorem refNodeL_eq (AGG : FVec Ideal S50000x128 .f32) (B3 : FVec Ideal S3x128 .f32) (H : FVec Ideal S50000x128 .f32) :
    refNodeL AGG B3 H = Cert.Spec.node false AGG B3 H := by
  funext i
  obtain ⟨n, j, rfl⟩ : ∃ (n : Fin 50000) (j : Fin 128), i = ix2 n j := ⟨i 0, i 1, eq_ix2 i⟩
  rw [Cert.Spec.node_apply]
  unfold Cert.Spec.nodeAt refNodeL
  show (AGG (ix2 n j) + biasRows B3 (ix2 n j)) + H (ix2 n j) = _
  rw [biasRows_at]
  rfl

/-! ## The readout -/

/-- How the product `dot_S2048x128_S128x128_S2048x128_1_0_0_1_n_n` indexes its operands: the left operand at (output row, contraction index), the right
    at (contraction index, output column). -/
theorem d1_l0 (i : S2048x128.Idx) (q : dot_S2048x128_S128x128_S2048x128_1_0_0_1_n_n.contr.Idx) : (dot_S2048x128_S128x128_S2048x128_1_0_0_1_n_n.lhsIdx i q 0).val = (i 0).val := by
  unfold DotDims.lhsIdx
  rw [dif_neg (show ¬(0 : Fin _) ∈ dot_S2048x128_S128x128_S2048x128_1_0_0_1_n_n.lhsBatch by decide), dif_pos (show (0 : Fin _) ∈ dot_S2048x128_S128x128_S2048x128_1_0_0_1_n_n.lhsNonContracting by decide)]
  rfl
theorem d1_l1 (i : S2048x128.Idx) (q : dot_S2048x128_S128x128_S2048x128_1_0_0_1_n_n.contr.Idx) : (dot_S2048x128_S128x128_S2048x128_1_0_0_1_n_n.lhsIdx i q 1).val = (q ⟨0, by decide⟩).val :=
  dot_S2048x128_S128x128_S2048x128_1_0_0_1_n_n.lhsIdx_val_of_single rfl i q
theorem d1_r0 (i : S2048x128.Idx) (q : dot_S2048x128_S128x128_S2048x128_1_0_0_1_n_n.contr.Idx) : (dot_S2048x128_S128x128_S2048x128_1_0_0_1_n_n.rhsIdx i q 0).val = (q ⟨0, by decide⟩).val :=
  dot_S2048x128_S128x128_S2048x128_1_0_0_1_n_n.rhsIdx_val_of_single rfl i q
theorem d1_r1 (i : S2048x128.Idx) (q : dot_S2048x128_S128x128_S2048x128_1_0_0_1_n_n.contr.Idx) : (dot_S2048x128_S128x128_S2048x128_1_0_0_1_n_n.rhsIdx i q 1).val = (i 1).val := by
  unfold DotDims.rhsIdx
  rw [dif_neg (show ¬(1 : Fin _) ∈ dot_S2048x128_S128x128_S2048x128_1_0_0_1_n_n.rhsBatch by decide), dif_pos (show (1 : Fin _) ∈ dot_S2048x128_S128x128_S2048x128_1_0_0_1_n_n.rhsNonContracting by decide)]
  rfl

/-- How the product `dot_S2048x128_S128x1_S2048x1_1_0_0_1_n_n` indexes its operands: the left operand at (output row, contraction index), the right
    at (contraction index, output column). -/
theorem d2_l0 (i : S2048x1.Idx) (q : dot_S2048x128_S128x1_S2048x1_1_0_0_1_n_n.contr.Idx) : (dot_S2048x128_S128x1_S2048x1_1_0_0_1_n_n.lhsIdx i q 0).val = (i 0).val := by
  unfold DotDims.lhsIdx
  rw [dif_neg (show ¬(0 : Fin _) ∈ dot_S2048x128_S128x1_S2048x1_1_0_0_1_n_n.lhsBatch by decide), dif_pos (show (0 : Fin _) ∈ dot_S2048x128_S128x1_S2048x1_1_0_0_1_n_n.lhsNonContracting by decide)]
  rfl
theorem d2_l1 (i : S2048x1.Idx) (q : dot_S2048x128_S128x1_S2048x1_1_0_0_1_n_n.contr.Idx) : (dot_S2048x128_S128x1_S2048x1_1_0_0_1_n_n.lhsIdx i q 1).val = (q ⟨0, by decide⟩).val :=
  dot_S2048x128_S128x1_S2048x1_1_0_0_1_n_n.lhsIdx_val_of_single rfl i q
theorem d2_r0 (i : S2048x1.Idx) (q : dot_S2048x128_S128x1_S2048x1_1_0_0_1_n_n.contr.Idx) : (dot_S2048x128_S128x1_S2048x1_1_0_0_1_n_n.rhsIdx i q 0).val = (q ⟨0, by decide⟩).val :=
  dot_S2048x128_S128x1_S2048x1_1_0_0_1_n_n.rhsIdx_val_of_single rfl i q
theorem d2_r1 (i : S2048x1.Idx) (q : dot_S2048x128_S128x1_S2048x1_1_0_0_1_n_n.contr.Idx) : (dot_S2048x128_S128x1_S2048x1_1_0_0_1_n_n.rhsIdx i q 1).val = (i 1).val := by
  unfold DotDims.rhsIdx
  rw [dif_neg (show ¬(1 : Fin _) ∈ dot_S2048x128_S128x1_S2048x1_1_0_0_1_n_n.rhsBatch by decide), dif_pos (show (1 : Fin _) ∈ dot_S2048x128_S128x1_S2048x1_1_0_0_1_n_n.rhsNonContracting by decide)]
  rfl

/-- The reference's readout of the pooled features. -/
def refReadout (HG : FVec Ideal S2048x128 .f32) (w1 : FVec Ideal S128x128 .f32) (b1 : FVec Ideal S128 .f32) (w2 : FVec Ideal S128x1 .f32) (b2 : FVec Ideal S1 .f32) : FVec Ideal S2048x1 .f32 :=
  addf (Host.dotGeneral (F := Ideal) dot_S2048x128_S128x1_S2048x1_1_0_0_1_n_n none
      (addf (Host.dotGeneral (F := Ideal) dot_S2048x128_S128x128_S2048x128_1_0_0_1_n_n none HG w1)
        (broadcastInDim S2048x128 ![0, 1] bcast_S1x128_S2048x128_0_1 (broadcastInDim S1x128 ![1] bcast_S128_S1x128_1 b1))) w2)
    (broadcastInDim S2048x1 ![0, 1] bcast_S1x1_S2048x1_0_1 (broadcastInDim S1x1 ![1] bcast_S1_S1x1_1 b2))

/-- The one-entry bias laid out over the graphs reads the entry everywhere. -/
theorem bias2_at (b2 : FVec Ideal S1 .f32) (g : Fin 2048) (o : Fin 1) :
    broadcastInDim S2048x1 ![0, 1] bcast_S1x1_S2048x1_0_1 (broadcastInDim S1x1 ![1] bcast_S1_S1x1_1 b2) (ix2 g o) = b2 (ix1 o) := by
  obtain rfl : o = 0 := Subsingleton.elim _ _
  refine (broadcastInDim_apply ![0, 1] bcast_S1x1_S2048x1_0_1 _ (ix2 g (0 : Fin 1)) (ix2 (0 : Fin 1) (0 : Fin 1)) fun a => ?_).trans
    (broadcastInDim_apply ![1] bcast_S1_S1x1_1 b2 (ix2 (0 : Fin 1) (0 : Fin 1)) (ix1 (0 : Fin 1)) fun a => ?_)
  · match a with
    | ⟨0, _⟩ => show 0 = if (1 : Nat) = 1 then 0 else g.val; rw [if_pos rfl]
    | ⟨1, _⟩ => show 0 = if (1 : Nat) = 1 then 0 else 0; rw [if_pos rfl]
  · match a with
    | ⟨0, _⟩ => show 0 = if (1 : Nat) = 1 then 0 else 0; rw [if_pos rfl]

theorem refReadout_eq (HG : FVec Ideal S2048x128 .f32) (w1 : FVec Ideal S128x128 .f32) (b1 : FVec Ideal S128 .f32) (w2 : FVec Ideal S128x1 .f32) (b2 : FVec Ideal S1 .f32) :
    refReadout HG w1 b1 w2 b2 = Cert.Spec.readout HG w1 b1 w2 b2 := by
  funext i
  obtain ⟨g, o, rfl⟩ : ∃ (g : Fin 2048) (o : Fin 1), i = ix2 g o := ⟨i 0, i 1, eq_ix2 i⟩
  unfold Cert.Spec.readout refReadout
  rw [Cert.LibDense.affine_apply]
  show Host.dotGeneral (F := Ideal) dot_S2048x128_S128x1_S2048x1_1_0_0_1_n_n none _ w2 (ix2 g o) + _ = _
  rw [bias2_at, Cert.LibHostDot.dotGeneral_rc (M := 2048) (K := 128) (N := 1) dot_S2048x128_S128x1_S2048x1_1_0_0_1_n_n rfl rfl d2_l0 d2_l1 d2_r0 d2_r1 none _ w2 g o]
  refine congrArg (· + _) (Finset.sum_congr rfl fun k _ => congrArg (· * _) ?_)
  rw [Cert.LibDense.affine_apply]
  show Host.dotGeneral (F := Ideal) dot_S2048x128_S128x128_S2048x128_1_0_0_1_n_n none HG w1 (ix2 g k) + _ = _
  rw [Cert.LibHostDot.rowBroadcastInDim_rc (by decide) b1 bcast_S128_S1x128_1 bcast_S1x128_S2048x128_0_1 g k,
    Cert.LibHostDot.dotGeneral_rc (M := 2048) (K := 128) (N := 128) dot_S2048x128_S128x128_S2048x128_1_0_0_1_n_n rfl rfl d1_l0 d1_l1 d1_r0 d1_r1 none HG w1 g k]

end Cert.RefTail

end
-- ==== Proof.LibGatherRows.lean ====
/-
  General facts about a gather of whole ROWS of an [N, F] array, and of single entries of an [N] vector, the row each
  result row e reads taken from an [E, 1] array of signed integers (what indexing an array's first axis by a list of
  node numbers lowers to): read at (e, f), the result is the operand's entry (rowOf e, f), where rowOf e is row e's
  integer read signed and clamped into [0, N − 1], as the gather clamps every start index. The row function is the same
  for the matrix and for the vector: it depends on the integers only.
-/
import Idealize.ShloMosaic.PureOps.Ideal
import Idealize.ShloMosaic.PureOps.Contract
import Idealize.ShloMosaic.Lib.ValueIdx

noncomputable section

namespace Cert.LibGatherRows

open Idealize.ShloMosaic Idealize.ShloMosaic.ValueIdx

variable {α : Type} {N E F : Nat}

/-- The row that result row e reads: its integer, read signed, clamped into [0, N − 1]. -/
def rowOf (hN : 0 < N) {w : Nat} (idx : IVec ⟨2, ![E, 1]⟩ w) (e : Fin E) : Fin N :=
  ⟨min (idx (ix2 e (0 : Fin 1))).toInt.toNat (N - 1), by omega⟩

/-- An integer that is a node number is its own clamped row. -/
theorem rowOf_of_toInt (hN : 0 < N) {w : Nat} (idx : IVec ⟨2, ![E, 1]⟩ w) (e : Fin E) (n : Fin N)
    (h : (idx (ix2 e (0 : Fin 1))).toInt = (n.val : Int)) : rowOf hN idx e = n := by
  apply Fin.ext
  show min (idx (ix2 e (0 : Fin 1))).toInt.toNat (N - 1) = n.val
  rw [h]
  have := n.isLt
  simp only [Int.toNat_natCast]
  omega

/-! ## Rows of a matrix -/

/-- The dimension numbers of a gather of whole rows: the result's second axis is the row's, the operand's first axis is
    the one the integer addresses and is collapsed, each result row has one integer. -/
abbrev rowDims (N E F : Nat)
    (wf : GatherDims.WF ⟨2, ![N, F]⟩ ⟨2, ![E, 1]⟩ ⟨2, ![E, F]⟩ [1] [0] [] [0] [] 1 ![1, F]) :
    GatherDims ⟨2, ![N, F]⟩ ⟨2, ![E, 1]⟩ ⟨2, ![E, F]⟩ where
  offsetDims := [1]
  collapsedSliceDims := [0]
  operandBatchingDims := []
  startIndicesBatchingDims := []
  startIndexMap := [0]
  indexVectorDim := 1
  sliceSizes := ![1, F]
  wf := wf

/-- THE GATHER OF ROWS READ AT (e, f): the operand at (rowOf e, f). -/
theorem gather_rows_apply (hN : 0 < N) {w : Nat}
    (wf : GatherDims.WF ⟨2, ![N, F]⟩ ⟨2, ![E, 1]⟩ ⟨2, ![E, F]⟩ [1] [0] [] [0] [] 1 ![1, F])
    (x : (⟨2, ![N, F]⟩ : Shape).Idx → α) (idx : IVec ⟨2, ![E, 1]⟩ w) (e : Fin E) (f : Fin F) :
    Host.gather (rowDims N E F wf) x idx (ix2 e f) = x (ix2 (rowOf hN idx e) f) := by
  unfold Host.gather
  congr 1
  funext a
  refine Fin.ext ?_
  match a with
  | ⟨0, _⟩ =>
    show (rowDims N E F wf).start (ix2 e f) idx 0 + (rowDims N E F wf).batchCoord (ix2 e f) 0
      + (rowDims N E F wf).offCoord (ix2 e f) 0 = min (idx (ix2 e (0 : Fin 1))).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N E F wf).startIndexMap from List.mem_singleton.mpr rfl)]
    have hsi : (rowDims N E F wf).siIdx (ix2 e f) ⟨List.idxOf (0 : Fin 2) (rowDims N E F wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowDims N E F wf).start (ix2 e f) idx 1 + (rowDims N E F wf).batchCoord (ix2 e f) 1
      + (rowDims N E F wf).offCoord (ix2 e f) 1 = f.val
    rw [GatherDims.batchCoord_eq_zero _ _ _ List.not_mem_nil]
    unfold GatherDims.start
    rw [dif_neg (show ¬ (1 : Fin 2) ∈ ([0] : List (Fin 2)) by decide)]
    unfold GatherDims.offCoord
    have h : (1 : Fin 2) ∈ (rowDims N E F wf).sKept := by
      show (1 : Fin 2) ∈ ([1] : List (Fin 2))
      decide
    rw [dif_pos h]
    simp only [Nat.zero_add]
    rfl

/-! ## Entries of a vector -/

/-- The dimension numbers of a gather of single entries of a vector: no result axis is the slice's, the operand's one
    axis is addressed and collapsed, each result entry has one integer. -/
abbrev vecDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE GATHER OF ENTRIES READ AT e: the operand at rowOf e. -/
theorem gather_vec_apply (hN : 0 < N) {w : Nat}
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecDims N E wf) x idx (ix1 e) = x (ix1 (rowOf hN idx e)) := by
  unfold Host.gather
  congr 1
  funext a
  obtain rfl : a = 0 := Subsingleton.elim _ _
  refine Fin.ext ?_
  show (vecDims N E wf).start (ix1 e) idx 0 + (vecDims N E wf).batchCoord (ix1 e) 0
    + (vecDims N E wf).offCoord (ix1 e) 0 = min (idx (ix2 e (0 : Fin 1))).toInt.toNat (N - 1)
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims N E wf).startIndexMap from List.mem_singleton.mpr rfl)]
  have hsi : (vecDims N E wf).siIdx (ix1 e) ⟨List.idxOf (0 : Fin 1) (vecDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end Cert.LibGatherRows

end
-- ==== Proof.RefMsg.lean ====
/-
  The reference program's edge messages, read entry by entry, and the two programs' ways of cutting one layer's weight
  matrices out of the [3, 3, 128, 128] array.

  The reference computes, for each of the three bond channels c, the node features times the channel's matrix
  (a [50000, 128] by [128, 128] product), gathers the rows of the product at the edges' source nodes, scales row e by
  the edge's weight for the channel — column c of the [600000, 3] edge-weight array, cut out as a [600000, 1] column and
  broadcast along the row — and adds the three scaled arrays onto the zero word. Read at (e, j) this is the
  specification's message: a gather of rows of a product is the product of the gathered rows, so the sum over k runs
  over the source node's features.

  The kernel program's own gather of the source rows reads the same rows; and its slice of layer l's three matrices
  ([1, 3, 128, 128] with the unit axis dropped) at (c, k, j) is the reference's slice of the one matrix
  ([1, 1, 128, 128] with both unit axes dropped) at (k, j): both are the weight array at (l, c, k, j).
-/
import proofs.«101888_j76184129896719_1_alg».proof.ReferenceIdeal
import proofs.«101888_j76184129896719_1_alg».proof.KernelIdeal
import proofs.«101888_j76184129896719_1_alg».proof.Proof.Gen.ReferenceIdeal
import proofs.«101888_j76184129896719_1_alg».proof.Proof.Gen.KernelIdeal
import proofs.«101888_j76184129896719_1_alg».proof.Proof.LibGatherRows
import proofs.«101888_j76184129896719_1_alg».proof.Proof.LibHostDot
import proofs.«101888_j76184129896719_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option synthInstance.maxSize 4096

noncomputable section

namespace Cert.RefMsg

open Idealize.ShloMosaic Idealize.ShloMosaic.ValueIdx

/-! ## The reference's messages -/

section Reference
open Cert.ReferenceIdeal Cert.ReferenceIdeal.Gen

/-- The reference's message array as a function of the node features, the edges' source nodes, the edge weights and
    one layer's three weight matrices. -/
def refMsg (H : (⟨S50000x128, .f32⟩ : BufTy).Contents (Elt Ideal)) (IDX : (⟨S600000x1, .i32⟩ : BufTy).Contents (Elt Ideal))
    (EW : (⟨S600000x3, .f32⟩ : BufTy).Contents (Elt Ideal)) (Wa Wb Wc : (⟨S128x128, .f32⟩ : BufTy).Contents (Elt Ideal)) :
    (⟨S600000x128, .f32⟩ : BufTy).Contents (Elt Ideal) :=
  addf (F := Ideal) (addf (F := Ideal) (addf (F := Ideal) (broadcastInDim S600000x128 ![] bcast_S_S600000x128 (constant (F := Ideal) S_ .f32 0x00000000#32))
        (mulf (F := Ideal) (broadcastInDim S600000x128 ![0, 1] bcast_S600000x1_S600000x128_0_1 (extractStridedSlice S600000x1 ![0, 0] EW slices_S600000x3_S600000x1_0_0)) (Host.gather gather_S50000x128_S600000x1_S600000x128_1_0_n_n_0_1_1128 (Host.dotGeneral (F := Ideal) (φ₁ := .f32) (φ₂ := .f32) dot_S50000x128_S128x128_S50000x128_1_0_0_1_n_n none H Wa) IDX)))
        (mulf (F := Ideal) (broadcastInDim S600000x128 ![0, 1] bcast_S600000x1_S600000x128_0_1 (extractStridedSlice S600000x1 ![0, 1] EW slices_S600000x3_S600000x1_0_1)) (Host.gather gather_S50000x128_S600000x1_S600000x128_1_0_n_n_0_1_1128 (Host.dotGeneral (F := Ideal) (φ₁ := .f32) (φ₂ := .f32) dot_S50000x128_S128x128_S50000x128_1_0_0_1_n_n none H Wb) IDX)))
        (mulf (F := Ideal) (broadcastInDim S600000x128 ![0, 1] bcast_S600000x1_S600000x128_0_1 (extractStridedSlice S600000x1 ![0, 2] EW slices_S600000x3_S600000x1_0_2)) (Host.gather gather_S50000x128_S600000x1_S600000x128_1_0_n_n_0_1_1128 (Host.dotGeneral (F := Ideal) (φ₁ := .f32) (φ₂ := .f32) dot_S50000x128_S128x128_S50000x128_1_0_0_1_n_n none H Wc) IDX))

/-- A column of a matrix (the slice of width one at column offset o), broadcast along the rows to N columns, reads at
    (e, j) the matrix at (e, c), where c is the column the offset names. -/
theorem colBroadcast_apply {α : Type} {E C N : Nat} (hE : E ≠ 1) (o : Nat) (X : (⟨2, ![E, C]⟩ : Shape).Idx → α)
    (hs : (⟨2, ![E, C]⟩ : Shape).Slices ![0, o] ⟨2, ![E, 1]⟩)
    (hb : (⟨2, ![E, 1]⟩ : Shape).BroadcastsInDim ⟨2, ![E, N]⟩ ![0, 1])
    (e : Fin E) (j : Fin N) (c : Fin C) (hc : c.val = o) :
    broadcastInDim ⟨2, ![E, N]⟩ ![0, 1] hb (extractStridedSlice ⟨2, ![E, 1]⟩ ![0, o] X hs) (ix2 e j) = X (ix2 e c) := by
  refine (broadcastInDim_apply ![0, 1] hb _ (ix2 e j) (ix2 e (0 : Fin 1)) fun a => ?_).trans
    (slice2_axis1_apply o X hs e (0 : Fin 1) c (by rw [hc]; rfl))
  match a with
  | ⟨0, _⟩ => show e.val = if E = 1 then 0 else e.val; rw [if_neg hE]
  | ⟨1, _⟩ => show 0 = if (1 : Nat) = 1 then 0 else j.val; rw [if_pos rfl]

/-- The product's index maps at the product's dimension numbers: the left operand is read at (row of the result, k), the
    right at (k, column of the result). -/
theorem dot_lhs0 (i : S50000x128.Idx) (q : dot_S50000x128_S128x128_S50000x128_1_0_0_1_n_n.contr.Idx) :
    (dot_S50000x128_S128x128_S50000x128_1_0_0_1_n_n.lhsIdx i q 0).val = (i 0).val := by
  unfold DotDims.lhsIdx
  rw [dif_neg (show ¬(0 : Fin S50000x128.rank) ∈ dot_S50000x128_S128x128_S50000x128_1_0_0_1_n_n.lhsBatch by decide),
    dif_pos (show (0 : Fin S50000x128.rank) ∈ dot_S50000x128_S128x128_S50000x128_1_0_0_1_n_n.lhsNonContracting by decide)]
  rfl
theorem dot_lhs1 (i : S50000x128.Idx) (q : dot_S50000x128_S128x128_S50000x128_1_0_0_1_n_n.contr.Idx) :
    (dot_S50000x128_S128x128_S50000x128_1_0_0_1_n_n.lhsIdx i q 1).val = (q ⟨0, by decide⟩).val :=
  dot_S50000x128_S128x128_S50000x128_1_0_0_1_n_n.lhsIdx_val_of_single rfl i q
theorem dot_rhs0 (i : S50000x128.Idx) (q : dot_S50000x128_S128x128_S50000x128_1_0_0_1_n_n.contr.Idx) :
    (dot_S50000x128_S128x128_S50000x128_1_0_0_1_n_n.rhsIdx i q 0).val = (q ⟨0, by decide⟩).val :=
  dot_S50000x128_S128x128_S50000x128_1_0_0_1_n_n.rhsIdx_val_of_single rfl i q
theorem dot_rhs1 (i : S50000x128.Idx) (q : dot_S50000x128_S128x128_S50000x128_1_0_0_1_n_n.contr.Idx) :
    (dot_S50000x128_S128x128_S50000x128_1_0_0_1_n_n.rhsIdx i q 1).val = (i 1).val := by
  unfold DotDims.rhsIdx
  rw [dif_neg (show ¬(1 : Fin S128x128.rank) ∈ dot_S50000x128_S128x128_S50000x128_1_0_0_1_n_n.rhsBatch by decide),
    dif_pos (show (1 : Fin S128x128.rank) ∈ dot_S50000x128_S128x128_S50000x128_1_0_0_1_n_n.rhsNonContracting by decide)]
  rfl

/-- The node features times a weight matrix, gathered at the edges' source nodes, read at (e, j): the sum over k of the
    source node's feature k times the matrix at (k, j). -/
theorem gatherDot_apply (H : FVec Ideal S50000x128 .f32) (IDX : IVec S600000x1 32) (W : FVec Ideal S128x128 .f32)
    (e : Fin 600000) (j : Fin 128) :
    Host.gather gather_S50000x128_S600000x1_S600000x128_1_0_n_n_0_1_1128
      (Host.dotGeneral (F := Ideal) (φ₁ := .f32) (φ₂ := .f32) dot_S50000x128_S128x128_S50000x128_1_0_0_1_n_n none H W) IDX (ix2 e j)
      = ∑ k : Fin 128, H (ix2 (Cert.LibGatherRows.rowOf (N := 50000) (by decide) IDX e) k) * W (ix2 k j) := by
  refine (Cert.LibGatherRows.gather_rows_apply (N := 50000) (E := 600000) (F := 128) (by decide)
    gather_S50000x128_S600000x1_S600000x128_1_0_n_n_0_1_1128_wf _ IDX e j).trans ?_
  exact Cert.LibHostDot.dotGeneral_rc dot_S50000x128_S128x128_S50000x128_1_0_0_1_n_n rfl rfl
    dot_lhs0 dot_lhs1 dot_rhs0 dot_rhs1 none H W _ j

/-- The accumulator's starting value: the zero word broadcast to every entry. -/
theorem zero_apply (e : Fin 600000) (j : Fin 128) :
    broadcastInDim S600000x128 ![] bcast_S_S600000x128 (constant (F := Ideal) S_ .f32 0x00000000#32) (ix2 e j)
      = Cert.Spec.zeroWord :=
  Cert.LibHostDot.scalarBroadcastInDim_apply bcast_S_S600000x128 _ (ix2 e j) ix0

/-- THE REFERENCE'S MESSAGES are the specification's: entry (e, j) is the zero word plus, channel by channel, the
    edge's weight for the channel times the sum over k of the source node's feature k times the channel's matrix at
    (k, j). -/
theorem refMsg_eq (H : (⟨S50000x128, .f32⟩ : BufTy).Contents (Elt Ideal)) (IDX : (⟨S600000x1, .i32⟩ : BufTy).Contents (Elt Ideal))
    (EW : (⟨S600000x3, .f32⟩ : BufTy).Contents (Elt Ideal)) (Wa Wb Wc : (⟨S128x128, .f32⟩ : BufTy).Contents (Elt Ideal))
    (HS : (⟨2, ![600000, 128]⟩ : Shape).Idx → EReal) (W3 : (⟨3, ![3, 128, 128]⟩ : Shape).Idx → EReal)
    (hHS : ∀ (e : Fin 600000) (k : Fin 128),
      HS (ix2 e k) = H (ix2 (Cert.LibGatherRows.rowOf (N := 50000) (by decide) IDX e) k))
    (ha : ∀ (k j : Fin 128), W3 (ix3 (0 : Fin 3) k j) = Wa (ix2 k j))
    (hb : ∀ (k j : Fin 128), W3 (ix3 (1 : Fin 3) k j) = Wb (ix2 k j))
    (hc : ∀ (k j : Fin 128), W3 (ix3 (2 : Fin 3) k j) = Wc (ix2 k j)) :
    refMsg H IDX EW Wa Wb Wc = Cert.Spec.msg HS EW W3 := by
  funext i
  obtain ⟨e, j, rfl⟩ : ∃ (e : Fin 600000) (j : Fin 128), i = ix2 e j := ⟨i 0, i 1, eq_ix2 i⟩
  rw [Cert.Spec.msg_apply]
  unfold refMsg Cert.Spec.msgAt
  simp only [addf_apply, mulf_apply]
  rw [zero_apply e j,
    colBroadcast_apply (by decide) 0 EW slices_S600000x3_S600000x1_0_0 bcast_S600000x1_S600000x128_0_1 e j (0 : Fin 3) rfl,
    colBroadcast_apply (by decide) 1 EW slices_S600000x3_S600000x1_0_1 bcast_S600000x1_S600000x128_0_1 e j (1 : Fin 3) rfl,
    colBroadcast_apply (by decide) 2 EW slices_S600000x3_S600000x1_0_2 bcast_S600000x1_S600000x128_0_1 e j (2 : Fin 3) rfl,
    gatherDot_apply H IDX Wa e j, gatherDot_apply H IDX Wb e j, gatherDot_apply H IDX Wc e j]
  simp only [hHS, ha, hb, hc]

end Reference

/-! ## The kernel program's gather of source rows -/

/-- The kernel program's gather of whole rows of the node features, read at (e, k): the source node's row. -/
theorem gatherK_rows (H : (⟨2, ![50000, 128]⟩ : Shape).Idx → EReal) (IDX : IVec ⟨2, ![600000, 1]⟩ 32)
    (e : Fin 600000) (k : Fin 128) :
    Host.gather Cert.KernelIdeal.gather_S50000x128_S600000x1_S600000x128_1_0_n_n_0_1_1128 H IDX (ix2 e k)
      = H (ix2 (Cert.LibGatherRows.rowOf (N := 50000) (by decide) IDX e) k) :=
  Cert.LibGatherRows.gather_rows_apply (N := 50000) (E := 600000) (F := 128) (by decide)
    Cert.KernelIdeal.Gen.gather_S50000x128_S600000x1_S600000x128_1_0_n_n_0_1_1128_wf H IDX e k

/-! ## One layer's weight matrices, cut out of the [3, 3, 128, 128] array two ways -/

/-- Layer l's three matrices — the slice [1, C, A, B] at offset (l, 0, 0, 0) with its unit axis dropped — read at
    (c, k, j): the array at (l, c, k, j). -/
theorem layerSlice_apply {α : Type} {L C A B : Nat} (l : Nat) (X : (⟨4, ![L, C, A, B]⟩ : Shape).Idx → α)
    (hs : (⟨4, ![L, C, A, B]⟩ : Shape).Slices ![l, 0, 0, 0] ⟨4, ![1, C, A, B]⟩)
    (hc : (⟨4, ![1, C, A, B]⟩ : Shape).ShapeCasts ⟨3, ![C, A, B]⟩)
    (l' : Fin L) (hl : l'.val = l) (c : Fin C) (k : Fin A) (j : Fin B) :
    shapeCast ⟨3, ![C, A, B]⟩ (extractStridedSlice ⟨4, ![1, C, A, B]⟩ ![l, 0, 0, 0] X hs) hc (ix3 c k j)
      = X (ix4 l' c k j) := by
  refine (shapeCast_1abc_abc_apply _ hc c k j).trans
    (extractStridedSlice_apply _ X hs _ _ fun a => ?_)
  match a with
  | ⟨0, _⟩ => show l'.val = l + 0; rw [hl, Nat.add_zero]
  | ⟨1, _⟩ => exact (Nat.zero_add _).symm
  | ⟨2, _⟩ => exact (Nat.zero_add _).symm
  | ⟨3, _⟩ => exact (Nat.zero_add _).symm

/-- Layer l's matrix for channel c — the slice [1, 1, A, B] at offset (l, c, 0, 0) with its two unit axes dropped —
    read at (k, j): the array at (l, c, k, j). -/
theorem matSlice_apply {α : Type} {L C A B : Nat} (l c : Nat) (X : (⟨4, ![L, C, A, B]⟩ : Shape).Idx → α)
    (hs : (⟨4, ![L, C, A, B]⟩ : Shape).Slices ![l, c, 0, 0] ⟨4, ![1, 1, A, B]⟩)
    (hc : (⟨4, ![1, 1, A, B]⟩ : Shape).ShapeCasts ⟨2, ![A, B]⟩)
    (l' : Fin L) (hl : l'.val = l) (c' : Fin C) (hc' : c'.val = c) (k : Fin A) (j : Fin B) :
    shapeCast ⟨2, ![A, B]⟩ (extractStridedSlice ⟨4, ![1, 1, A, B]⟩ ![l, c, 0, 0] X hs) hc (ix2 k j)
      = X (ix4 l' c' k j) := by
  refine (shapeCast_apply _ hc (ix2 k j) (ix4 (0 : Fin 1) (0 : Fin 1) k j) ?_).trans
    (extractStridedSlice_apply _ X hs _ _ fun a => ?_)
  · rw [Shape.rowMajor_val_four, Shape.rowMajor_val_two]
    show ((0 * 1 + 0) * A + k.val) * B + j.val = k.val * B + j.val
    simp only [Nat.zero_mul, Nat.zero_add]
  · match a with
    | ⟨0, _⟩ => show l'.val = l + 0; rw [hl, Nat.add_zero]
    | ⟨1, _⟩ => show c'.val = c + 0; rw [hc', Nat.add_zero]
    | ⟨2, _⟩ => exact (Nat.zero_add _).symm
    | ⟨3, _⟩ => exact (Nat.zero_add _).symm

/-- The kernel program's slice of layer 0, read at (c, k, j): the weights at (0, c, k, j). -/
theorem kslice_0 (A6 : (⟨Cert.KernelIdeal.S3x3x128x128, .f32⟩ : BufTy).Contents (Elt Ideal)) (c : Fin 3) (k j : Fin 128) :
    shapeCast Cert.KernelIdeal.S3x128x128 (extractStridedSlice Cert.KernelIdeal.S1x3x128x128 ![0, 0, 0, 0] A6 Cert.KernelIdeal.Gen.slices_S3x3x128x128_S1x3x128x128_0_0_0_0) Cert.KernelIdeal.Gen.shapeCasts_S1x3x128x128_S3x128x128 (ix3 c k j)
      = A6 (ix4 (0 : Fin 3) c k j) :=
  layerSlice_apply 0 A6 _ _ (0 : Fin 3) rfl c k j

/-- The reference program's slice of layer 0, channel 0, read at (k, j): the weights at (0, 0, k, j). -/
theorem rslice_0_0 (A6 : (⟨Cert.KernelIdeal.S3x3x128x128, .f32⟩ : BufTy).Contents (Elt Ideal)) (k j : Fin 128) :
    shapeCast Cert.ReferenceIdeal.S128x128 (extractStridedSlice Cert.ReferenceIdeal.S1x1x128x128 ![0, 0, 0, 0] A6 Cert.ReferenceIdeal.Gen.slices_S3x3x128x128_S1x1x128x128_0_0_0_0) Cert.ReferenceIdeal.Gen.shapeCasts_S1x1x128x128_S128x128 (ix2 k j)
      = A6 (ix4 (0 : Fin 3) (0 : Fin 3) k j) :=
  matSlice_apply 0 0 A6 _ _ (0 : Fin 3) rfl (0 : Fin 3) rfl k j

/-- Layer 0, channel 0: the kernel program's slice at (0, k, j) is the reference program's at (k, j). -/
theorem wslice_0_0 (A6 : (⟨Cert.KernelIdeal.S3x3x128x128, .f32⟩ : BufTy).Contents (Elt Ideal)) (k j : Fin 128) :
    shapeCast Cert.KernelIdeal.S3x128x128 (extractStridedSlice Cert.KernelIdeal.S1x3x128x128 ![0, 0, 0, 0] A6 Cert.KernelIdeal.Gen.slices_S3x3x128x128_S1x3x128x128_0_0_0_0) Cert.KernelIdeal.Gen.shapeCasts_S1x3x128x128_S3x128x128 (ix3 (0 : Fin 3) k j)
      = shapeCast Cert.ReferenceIdeal.S128x128 (extractStridedSlice Cert.ReferenceIdeal.S1x1x128x128 ![0, 0, 0, 0] A6 Cert.ReferenceIdeal.Gen.slices_S3x3x128x128_S1x1x128x128_0_0_0_0) Cert.ReferenceIdeal.Gen.shapeCasts_S1x1x128x128_S128x128 (ix2 k j) :=
  (kslice_0 A6 (0 : Fin 3) k j).trans (rslice_0_0 A6 k j).symm

/-- The reference program's slice of layer 0, channel 1, read at (k, j): the weights at (0, 1, k, j). -/
theorem rslice_0_1 (A6 : (⟨Cert.KernelIdeal.S3x3x128x128, .f32⟩ : BufTy).Contents (Elt Ideal)) (k j : Fin 128) :
    shapeCast Cert.ReferenceIdeal.S128x128 (extractStridedSlice Cert.ReferenceIdeal.S1x1x128x128 ![0, 1, 0, 0] A6 Cert.ReferenceIdeal.Gen.slices_S3x3x128x128_S1x1x128x128_0_1_0_0) Cert.ReferenceIdeal.Gen.shapeCasts_S1x1x128x128_S128x128 (ix2 k j)
      = A6 (ix4 (0 : Fin 3) (1 : Fin 3) k j) :=
  matSlice_apply 0 1 A6 _ _ (0 : Fin 3) rfl (1 : Fin 3) rfl k j

/-- Layer 0, channel 1: the kernel program's slice at (1, k, j) is the reference program's at (k, j). -/
theorem wslice_0_1 (A6 : (⟨Cert.KernelIdeal.S3x3x128x128, .f32⟩ : BufTy).Contents (Elt Ideal)) (k j : Fin 128) :
    shapeCast Cert.KernelIdeal.S3x128x128 (extractStridedSlice Cert.KernelIdeal.S1x3x128x128 ![0, 0, 0, 0] A6 Cert.KernelIdeal.Gen.slices_S3x3x128x128_S1x3x128x128_0_0_0_0) Cert.KernelIdeal.Gen.shapeCasts_S1x3x128x128_S3x128x128 (ix3 (1 : Fin 3) k j)
      = shapeCast Cert.ReferenceIdeal.S128x128 (extractStridedSlice Cert.ReferenceIdeal.S1x1x128x128 ![0, 1, 0, 0] A6 Cert.ReferenceIdeal.Gen.slices_S3x3x128x128_S1x1x128x128_0_1_0_0) Cert.ReferenceIdeal.Gen.shapeCasts_S1x1x128x128_S128x128 (ix2 k j) :=
  (kslice_0 A6 (1 : Fin 3) k j).trans (rslice_0_1 A6 k j).symm

/-- The reference program's slice of layer 0, channel 2, read at (k, j): the weights at (0, 2, k, j). -/
theorem rslice_0_2 (A6 : (⟨Cert.KernelIdeal.S3x3x128x128, .f32⟩ : BufTy).Contents (Elt Ideal)) (k j : Fin 128) :
    shapeCast Cert.ReferenceIdeal.S128x128 (extractStridedSlice Cert.ReferenceIdeal.S1x1x128x128 ![0, 2, 0, 0] A6 Cert.ReferenceIdeal.Gen.slices_S3x3x128x128_S1x1x128x128_0_2_0_0) Cert.ReferenceIdeal.Gen.shapeCasts_S1x1x128x128_S128x128 (ix2 k j)
      = A6 (ix4 (0 : Fin 3) (2 : Fin 3) k j) :=
  matSlice_apply 0 2 A6 _ _ (0 : Fin 3) rfl (2 : Fin 3) rfl k j

/-- Layer 0, channel 2: the kernel program's slice at (2, k, j) is the reference program's at (k, j). -/
theorem wslice_0_2 (A6 : (⟨Cert.KernelIdeal.S3x3x128x128, .f32⟩ : BufTy).Contents (Elt Ideal)) (k j : Fin 128) :
    shapeCast Cert.KernelIdeal.S3x128x128 (extractStridedSlice Cert.KernelIdeal.S1x3x128x128 ![0, 0, 0, 0] A6 Cert.KernelIdeal.Gen.slices_S3x3x128x128_S1x3x128x128_0_0_0_0) Cert.KernelIdeal.Gen.shapeCasts_S1x3x128x128_S3x128x128 (ix3 (2 : Fin 3) k j)
      = shapeCast Cert.ReferenceIdeal.S128x128 (extractStridedSlice Cert.ReferenceIdeal.S1x1x128x128 ![0, 2, 0, 0] A6 Cert.ReferenceIdeal.Gen.slices_S3x3x128x128_S1x1x128x128_0_2_0_0) Cert.ReferenceIdeal.Gen.shapeCasts_S1x1x128x128_S128x128 (ix2 k j) :=
  (kslice_0 A6 (2 : Fin 3) k j).trans (rslice_0_2 A6 k j).symm

/-- The kernel program's slice of layer 1, read at (c, k, j): the weights at (1, c, k, j). -/
theorem kslice_1 (A6 : (⟨Cert.KernelIdeal.S3x3x128x128, .f32⟩ : BufTy).Contents (Elt Ideal)) (c : Fin 3) (k j : Fin 128) :
    shapeCast Cert.KernelIdeal.S3x128x128 (extractStridedSlice Cert.KernelIdeal.S1x3x128x128 ![1, 0, 0, 0] A6 Cert.KernelIdeal.Gen.slices_S3x3x128x128_S1x3x128x128_1_0_0_0) Cert.KernelIdeal.Gen.shapeCasts_S1x3x128x128_S3x128x128 (ix3 c k j)
      = A6 (ix4 (1 : Fin 3) c k j) :=
  layerSlice_apply 1 A6 _ _ (1 : Fin 3) rfl c k j

/-- The reference program's slice of layer 1, channel 0, read at (k, j): the weights at (1, 0, k, j). -/
theorem rslice_1_0 (A6 : (⟨Cert.KernelIdeal.S3x3x128x128, .f32⟩ : BufTy).Contents (Elt Ideal)) (k j : Fin 128) :
    shapeCast Cert.ReferenceIdeal.S128x128 (extractStridedSlice Cert.ReferenceIdeal.S1x1x128x128 ![1, 0, 0, 0] A6 Cert.ReferenceIdeal.Gen.slices_S3x3x128x128_S1x1x128x128_1_0_0_0) Cert.ReferenceIdeal.Gen.shapeCasts_S1x1x128x128_S128x128 (ix2 k j)
      = A6 (ix4 (1 : Fin 3) (0 : Fin 3) k j) :=
  matSlice_apply 1 0 A6 _ _ (1 : Fin 3) rfl (0 : Fin 3) rfl k j

/-- Layer 1, channel 0: the kernel program's slice at (0, k, j) is the reference program's at (k, j). -/
theorem wslice_1_0 (A6 : (⟨Cert.KernelIdeal.S3x3x128x128, .f32⟩ : BufTy).Contents (Elt Ideal)) (k j : Fin 128) :
    shapeCast Cert.KernelIdeal.S3x128x128 (extractStridedSlice Cert.KernelIdeal.S1x3x128x128 ![1, 0, 0, 0] A6 Cert.KernelIdeal.Gen.slices_S3x3x128x128_S1x3x128x128_1_0_0_0) Cert.KernelIdeal.Gen.shapeCasts_S1x3x128x128_S3x128x128 (ix3 (0 : Fin 3) k j)
      = shapeCast Cert.ReferenceIdeal.S128x128 (extractStridedSlice Cert.ReferenceIdeal.S1x1x128x128 ![1, 0, 0, 0] A6 Cert.ReferenceIdeal.Gen.slices_S3x3x128x128_S1x1x128x128_1_0_0_0) Cert.ReferenceIdeal.Gen.shapeCasts_S1x1x128x128_S128x128 (ix2 k j) :=
  (kslice_1 A6 (0 : Fin 3) k j).trans (rslice_1_0 A6 k j).symm

/-- The reference program's slice of layer 1, channel 1, read at (k, j): the weights at (1, 1, k, j). -/
theorem rslice_1_1 (A6 : (⟨Cert.KernelIdeal.S3x3x128x128, .f32⟩ : BufTy).Contents (Elt Ideal)) (k j : Fin 128) :
    shapeCast Cert.ReferenceIdeal.S128x128 (extractStridedSlice Cert.ReferenceIdeal.S1x1x128x128 ![1, 1, 0, 0] A6 Cert.ReferenceIdeal.Gen.slices_S3x3x128x128_S1x1x128x128_1_1_0_0) Cert.ReferenceIdeal.Gen.shapeCasts_S1x1x128x128_S128x128 (ix2 k j)
      = A6 (ix4 (1 : Fin 3) (1 : Fin 3) k j) :=
  matSlice_apply 1 1 A6 _ _ (1 : Fin 3) rfl (1 : Fin 3) rfl k j

/-- Layer 1, channel 1: the kernel program's slice at (1, k, j) is the reference program's at (k, j). -/
theorem wslice_1_1 (A6 : (⟨Cert.KernelIdeal.S3x3x128x128, .f32⟩ : BufTy).Contents (Elt Ideal)) (k j : Fin 128) :
    shapeCast Cert.KernelIdeal.S3x128x128 (extractStridedSlice Cert.KernelIdeal.S1x3x128x128 ![1, 0, 0, 0] A6 Cert.KernelIdeal.Gen.slices_S3x3x128x128_S1x3x128x128_1_0_0_0) Cert.KernelIdeal.Gen.shapeCasts_S1x3x128x128_S3x128x128 (ix3 (1 : Fin 3) k j)
      = shapeCast Cert.ReferenceIdeal.S128x128 (extractStridedSlice Cert.ReferenceIdeal.S1x1x128x128 ![1, 1, 0, 0] A6 Cert.ReferenceIdeal.Gen.slices_S3x3x128x128_S1x1x128x128_1_1_0_0) Cert.ReferenceIdeal.Gen.shapeCasts_S1x1x128x128_S128x128 (ix2 k j) :=
  (kslice_1 A6 (1 : Fin 3) k j).trans (rslice_1_1 A6 k j).symm

/-- The reference program's slice of layer 1, channel 2, read at (k, j): the weights at (1, 2, k, j). -/
theorem rslice_1_2 (A6 : (⟨Cert.KernelIdeal.S3x3x128x128, .f32⟩ : BufTy).Contents (Elt Ideal)) (k j : Fin 128) :
    shapeCast Cert.ReferenceIdeal.S128x128 (extractStridedSlice Cert.ReferenceIdeal.S1x1x128x128 ![1, 2, 0, 0] A6 Cert.ReferenceIdeal.Gen.slices_S3x3x128x128_S1x1x128x128_1_2_0_0) Cert.ReferenceIdeal.Gen.shapeCasts_S1x1x128x128_S128x128 (ix2 k j)
      = A6 (ix4 (1 : Fin 3) (2 : Fin 3) k j) :=
  matSlice_apply 1 2 A6 _ _ (1 : Fin 3) rfl (2 : Fin 3) rfl k j

/-- Layer 1, channel 2: the kernel program's slice at (2, k, j) is the reference program's at (k, j). -/
theorem wslice_1_2 (A6 : (⟨Cert.KernelIdeal.S3x3x128x128, .f32⟩ : BufTy).Contents (Elt Ideal)) (k j : Fin 128) :
    shapeCast Cert.KernelIdeal.S3x128x128 (extractStridedSlice Cert.KernelIdeal.S1x3x128x128 ![1, 0, 0, 0] A6 Cert.KernelIdeal.Gen.slices_S3x3x128x128_S1x3x128x128_1_0_0_0) Cert.KernelIdeal.Gen.shapeCasts_S1x3x128x128_S3x128x128 (ix3 (2 : Fin 3) k j)
      = shapeCast Cert.ReferenceIdeal.S128x128 (extractStridedSlice Cert.ReferenceIdeal.S1x1x128x128 ![1, 2, 0, 0] A6 Cert.ReferenceIdeal.Gen.slices_S3x3x128x128_S1x1x128x128_1_2_0_0) Cert.ReferenceIdeal.Gen.shapeCasts_S1x1x128x128_S128x128 (ix2 k j) :=
  (kslice_1 A6 (2 : Fin 3) k j).trans (rslice_1_2 A6 k j).symm

/-- The kernel program's slice of layer 2, read at (c, k, j): the weights at (2, c, k, j). -/
theorem kslice_2 (A6 : (⟨Cert.KernelIdeal.S3x3x128x128, .f32⟩ : BufTy).Contents (Elt Ideal)) (c : Fin 3) (k j : Fin 128) :
    shapeCast Cert.KernelIdeal.S3x128x128 (extractStridedSlice Cert.KernelIdeal.S1x3x128x128 ![2, 0, 0, 0] A6 Cert.KernelIdeal.Gen.slices_S3x3x128x128_S1x3x128x128_2_0_0_0) Cert.KernelIdeal.Gen.shapeCasts_S1x3x128x128_S3x128x128 (ix3 c k j)
      = A6 (ix4 (2 : Fin 3) c k j) :=
  layerSlice_apply 2 A6 _ _ (2 : Fin 3) rfl c k j

/-- The reference program's slice of layer 2, channel 0, read at (k, j): the weights at (2, 0, k, j). -/
theorem rslice_2_0 (A6 : (⟨Cert.KernelIdeal.S3x3x128x128, .f32⟩ : BufTy).Contents (Elt Ideal)) (k j : Fin 128) :
    shapeCast Cert.ReferenceIdeal.S128x128 (extractStridedSlice Cert.ReferenceIdeal.S1x1x128x128 ![2, 0, 0, 0] A6 Cert.ReferenceIdeal.Gen.slices_S3x3x128x128_S1x1x128x128_2_0_0_0) Cert.ReferenceIdeal.Gen.shapeCasts_S1x1x128x128_S128x128 (ix2 k j)
      = A6 (ix4 (2 : Fin 3) (0 : Fin 3) k j) :=
  matSlice_apply 2 0 A6 _ _ (2 : Fin 3) rfl (0 : Fin 3) rfl k j

/-- Layer 2, channel 0: the kernel program's slice at (0, k, j) is the reference program's at (k, j). -/
theorem wslice_2_0 (A6 : (⟨Cert.KernelIdeal.S3x3x128x128, .f32⟩ : BufTy).Contents (Elt Ideal)) (k j : Fin 128) :
    shapeCast Cert.KernelIdeal.S3x128x128 (extractStridedSlice Cert.KernelIdeal.S1x3x128x128 ![2, 0, 0, 0] A6 Cert.KernelIdeal.Gen.slices_S3x3x128x128_S1x3x128x128_2_0_0_0) Cert.KernelIdeal.Gen.shapeCasts_S1x3x128x128_S3x128x128 (ix3 (0 : Fin 3) k j)
      = shapeCast Cert.ReferenceIdeal.S128x128 (extractStridedSlice Cert.ReferenceIdeal.S1x1x128x128 ![2, 0, 0, 0] A6 Cert.ReferenceIdeal.Gen.slices_S3x3x128x128_S1x1x128x128_2_0_0_0) Cert.ReferenceIdeal.Gen.shapeCasts_S1x1x128x128_S128x128 (ix2 k j) :=
  (kslice_2 A6 (0 : Fin 3) k j).trans (rslice_2_0 A6 k j).symm

/-- The reference program's slice of layer 2, channel 1, read at (k, j): the weights at (2, 1, k, j). -/
theorem rslice_2_1 (A6 : (⟨Cert.KernelIdeal.S3x3x128x128, .f32⟩ : BufTy).Contents (Elt Ideal)) (k j : Fin 128) :
    shapeCast Cert.ReferenceIdeal.S128x128 (extractStridedSlice Cert.ReferenceIdeal.S1x1x128x128 ![2, 1, 0, 0] A6 Cert.ReferenceIdeal.Gen.slices_S3x3x128x128_S1x1x128x128_2_1_0_0) Cert.ReferenceIdeal.Gen.shapeCasts_S1x1x128x128_S128x128 (ix2 k j)
      = A6 (ix4 (2 : Fin 3) (1 : Fin 3) k j) :=
  matSlice_apply 2 1 A6 _ _ (2 : Fin 3) rfl (1 : Fin 3) rfl k j

/-- Layer 2, channel 1: the kernel program's slice at (1, k, j) is the reference program's at (k, j). -/
theorem wslice_2_1 (A6 : (⟨Cert.KernelIdeal.S3x3x128x128, .f32⟩ : BufTy).Contents (Elt Ideal)) (k j : Fin 128) :
    shapeCast Cert.KernelIdeal.S3x128x128 (extractStridedSlice Cert.KernelIdeal.S1x3x128x128 ![2, 0, 0, 0] A6 Cert.KernelIdeal.Gen.slices_S3x3x128x128_S1x3x128x128_2_0_0_0) Cert.KernelIdeal.Gen.shapeCasts_S1x3x128x128_S3x128x128 (ix3 (1 : Fin 3) k j)
      = shapeCast Cert.ReferenceIdeal.S128x128 (extractStridedSlice Cert.ReferenceIdeal.S1x1x128x128 ![2, 1, 0, 0] A6 Cert.ReferenceIdeal.Gen.slices_S3x3x128x128_S1x1x128x128_2_1_0_0) Cert.ReferenceIdeal.Gen.shapeCasts_S1x1x128x128_S128x128 (ix2 k j) :=
  (kslice_2 A6 (1 : Fin 3) k j).trans (rslice_2_1 A6 k j).symm

/-- The reference program's slice of layer 2, channel 2, read at (k, j): the weights at (2, 2, k, j). -/
theorem rslice_2_2 (A6 : (⟨Cert.KernelIdeal.S3x3x128x128, .f32⟩ : BufTy).Contents (Elt Ideal)) (k j : Fin 128) :
    shapeCast Cert.ReferenceIdeal.S128x128 (extractStridedSlice Cert.ReferenceIdeal.S1x1x128x128 ![2, 2, 0, 0] A6 Cert.ReferenceIdeal.Gen.slices_S3x3x128x128_S1x1x128x128_2_2_0_0) Cert.ReferenceIdeal.Gen.shapeCasts_S1x1x128x128_S128x128 (ix2 k j)
      = A6 (ix4 (2 : Fin 3) (2 : Fin 3) k j) :=
  matSlice_apply 2 2 A6 _ _ (2 : Fin 3) rfl (2 : Fin 3) rfl k j

/-- Layer 2, channel 2: the kernel program's slice at (2, k, j) is the reference program's at (k, j). -/
theorem wslice_2_2 (A6 : (⟨Cert.KernelIdeal.S3x3x128x128, .f32⟩ : BufTy).Contents (Elt Ideal)) (k j : Fin 128) :
    shapeCast Cert.KernelIdeal.S3x128x128 (extractStridedSlice Cert.KernelIdeal.S1x3x128x128 ![2, 0, 0, 0] A6 Cert.KernelIdeal.Gen.slices_S3x3x128x128_S1x3x128x128_2_0_0_0) Cert.KernelIdeal.Gen.shapeCasts_S1x3x128x128_S3x128x128 (ix3 (2 : Fin 3) k j)
      = shapeCast Cert.ReferenceIdeal.S128x128 (extractStridedSlice Cert.ReferenceIdeal.S1x1x128x128 ![2, 2, 0, 0] A6 Cert.ReferenceIdeal.Gen.slices_S3x3x128x128_S1x1x128x128_2_2_0_0) Cert.ReferenceIdeal.Gen.shapeCasts_S1x1x128x128_S128x128 (ix2 k j) :=
  (kslice_2 A6 (2 : Fin 3) k j).trans (rslice_2_2 A6 k j).symm

end Cert.RefMsg

end
-- ==== Proof.RSeg0.lean ====
/-
  The preamble, read at the three buffers later lines use: the atom features and the edges' two index rows. The line is read for an arbitrary assignment of contents to the buffers on
  entry, so that what the previous lines left stays an opaque array.
-/
import proofs.«101888_j76184129896719_1_alg».proof.Proof.RefRun
import proofs.«101888_j76184129896719_1_alg».proof.Proof.Stages
import proofs.«101888_j76184129896719_1_alg».proof.Proof.RefTail
import proofs.«101888_j76184129896719_1_alg».proof.Proof.RefMsg
import proofs.«101888_j76184129896719_1_alg».proof.Proof.LayerSpec

set_option synthInstance.maxSize 4096

noncomputable section

namespace Cert.ReferenceIdeal.RValue

open Cert.ReferenceIdeal Cert.ReferenceIdeal.Gen Idealize.ShloMosaic Idealize.ShloMosaic.TcCoe Idealize.SL.Sem Idealize.ShloMosaic.StableHlo

set_option maxRecDepth 16384 in
set_option maxHeartbeats 40000000 in
/-- The atom features after the preamble. -/
theorem seg0_v110 (U : Valuation τ sig (Elt Ideal)) :
    after (RefRun.seg0 (F := Ideal)) U (Proc.devRef .tc main_v110)
      = Cert.Stages.atomEnc (F := Ideal) (U (Proc.devRef .tc main_arg0)) (U (Proc.devRef .tc main_arg4)) := by
  after_results_simp
  rfl

set_option maxRecDepth 16384 in
set_option maxHeartbeats 40000000 in
/-- The edges' source nodes after the preamble. -/
theorem seg0_v1 (U : Valuation τ sig (Elt Ideal)) :
    after (RefRun.seg0 (F := Ideal)) U (Proc.devRef .tc main_v1)
      = Cert.Stages.srcRow (F := Ideal) (U (Proc.devRef .tc main_arg1)) := by
  after_results_simp
  rfl

set_option maxRecDepth 16384 in
set_option maxHeartbeats 40000000 in
/-- The edges' destination nodes after the preamble. -/
theorem seg0_v3 (U : Valuation τ sig (Elt Ideal)) :
    after (RefRun.seg0 (F := Ideal)) U (Proc.devRef .tc main_v3)
      = Cert.Stages.dstRow (F := Ideal) (U (Proc.devRef .tc main_arg1)) := by
  after_results_simp
  rfl

end Cert.ReferenceIdeal.RValue

end
-- ==== Proof.RSeg1.lean ====
/-
  Layer 0, read at its result: the rectifying node update of the messages added into their destination nodes. The line is read for an arbitrary assignment of contents to the buffers on
  entry, so that what the previous lines left stays an opaque array.
-/
import proofs.«101888_j76184129896719_1_alg».proof.Proof.RefRun
import proofs.«101888_j76184129896719_1_alg».proof.Proof.Stages
import proofs.«101888_j76184129896719_1_alg».proof.Proof.RefTail
import proofs.«101888_j76184129896719_1_alg».proof.Proof.RefMsg
import proofs.«101888_j76184129896719_1_alg».proof.Proof.LayerSpec

set_option synthInstance.maxSize 4096

noncomputable section

namespace Cert.ReferenceIdeal.RValue

open Cert.ReferenceIdeal Cert.ReferenceIdeal.Gen Idealize.ShloMosaic Idealize.ShloMosaic.TcCoe Idealize.SL.Sem Idealize.ShloMosaic.StableHlo

set_option maxRecDepth 16384 in
set_option maxHeartbeats 40000000 in
/-- Layer 0's features. -/
theorem seg1_v199 (U : Valuation τ sig (Elt Ideal)) :
    after (RefRun.seg1 (F := Ideal)) U (Proc.devRef .tc main_v199)
      = Cert.RefTail.refNodeR
        (Host.scatterAdd (F := Ideal) scatter_S50000x128_S600000x1_S600000x128_1_0_0_1 (Cert.Stages.zerosN (F := Ideal)) (Cert.Stages.dstCol (F := Ideal) (U (Proc.devRef .tc main_v3)))
          (Cert.RefMsg.refMsg (U (Proc.devRef .tc main_v110)) (Cert.Stages.srcCol (F := Ideal) (U (Proc.devRef .tc main_v1))) (Cert.Stages.ew0 (F := Ideal) (U (Proc.devRef .tc main_arg2)) (U (Proc.devRef .tc main_arg5)))
            (Cert.Stages.w00 (F := Ideal) (U (Proc.devRef .tc main_arg6))) (Cert.Stages.w01 (F := Ideal) (U (Proc.devRef .tc main_arg6))) (Cert.Stages.w02 (F := Ideal) (U (Proc.devRef .tc main_arg6)))))
        (Cert.Stages.b0 (F := Ideal) (U (Proc.devRef .tc main_arg7))) (U (Proc.devRef .tc main_v110)) := by
  after_results_simp
  rfl

end Cert.ReferenceIdeal.RValue

end
-- ==== Proof.RSeg2.lean ====
/-
  Layer 1, read at its result: the same as layer 0 on layer 0's features, with layer 1's edge weights, matrices and biases. The line is read for an arbitrary assignment of contents to the buffers on
  entry, so that what the previous lines left stays an opaque array.
-/
import proofs.«101888_j76184129896719_1_alg».proof.Proof.RefRun
import proofs.«101888_j76184129896719_1_alg».proof.Proof.Stages
import proofs.«101888_j76184129896719_1_alg».proof.Proof.RefTail
import proofs.«101888_j76184129896719_1_alg».proof.Proof.RefMsg
import proofs.«101888_j76184129896719_1_alg».proof.Proof.LayerSpec

set_option synthInstance.maxSize 4096

noncomputable section

namespace Cert.ReferenceIdeal.RValue

open Cert.ReferenceIdeal Cert.ReferenceIdeal.Gen Idealize.ShloMosaic Idealize.ShloMosaic.TcCoe Idealize.SL.Sem Idealize.ShloMosaic.StableHlo

set_option maxRecDepth 16384 in
set_option maxHeartbeats 40000000 in
/-- Layer 1's features. -/
theorem seg2_v288 (U : Valuation τ sig (Elt Ideal)) :
    after (RefRun.seg2 (F := Ideal)) U (Proc.devRef .tc main_v288)
      = Cert.RefTail.refNodeR
        (Host.scatterAdd (F := Ideal) scatter_S50000x128_S600000x1_S600000x128_1_0_0_1 (Cert.Stages.zerosN (F := Ideal)) (Cert.Stages.dstCol (F := Ideal) (U (Proc.devRef .tc main_v3)))
          (Cert.RefMsg.refMsg (U (Proc.devRef .tc main_v199)) (Cert.Stages.srcCol (F := Ideal) (U (Proc.devRef .tc main_v1))) (Cert.Stages.ew1 (F := Ideal) (U (Proc.devRef .tc main_arg2)) (U (Proc.devRef .tc main_arg5)))
            (Cert.Stages.w10 (F := Ideal) (U (Proc.devRef .tc main_arg6))) (Cert.Stages.w11 (F := Ideal) (U (Proc.devRef .tc main_arg6))) (Cert.Stages.w12 (F := Ideal) (U (Proc.devRef .tc main_arg6)))))
        (Cert.Stages.b1 (F := Ideal) (U (Proc.devRef .tc main_arg7))) (U (Proc.devRef .tc main_v199)) := by
  after_results_simp
  rfl

end Cert.ReferenceIdeal.RValue

end
-- ==== Proof.RSeg3.lean ====
/-
  Layer 2, read at its result: the same without the rectifier, on layer 1's features. The line is read for an arbitrary assignment of contents to the buffers on
  entry, so that what the previous lines left stays an opaque array.
-/
import proofs.«101888_j76184129896719_1_alg».proof.Proof.RefRun
import proofs.«101888_j76184129896719_1_alg».proof.Proof.Stages
import proofs.«101888_j76184129896719_1_alg».proof.Proof.RefTail
import proofs.«101888_j76184129896719_1_alg».proof.Proof.RefMsg
import proofs.«101888_j76184129896719_1_alg».proof.Proof.LayerSpec

set_option synthInstance.maxSize 4096

noncomputable section

namespace Cert.ReferenceIdeal.RValue

open Cert.ReferenceIdeal Cert.ReferenceIdeal.Gen Idealize.ShloMosaic Idealize.ShloMosaic.TcCoe Idealize.SL.Sem Idealize.ShloMosaic.StableHlo

set_option maxRecDepth 16384 in
set_option maxHeartbeats 40000000 in
/-- Layer 2's features. -/
theorem seg3_v376 (U : Valuation τ sig (Elt Ideal)) :
    after (RefRun.seg3 (F := Ideal)) U (Proc.devRef .tc main_v376)
      = Cert.RefTail.refNodeL
        (Host.scatterAdd (F := Ideal) scatter_S50000x128_S600000x1_S600000x128_1_0_0_1 (Cert.Stages.zerosN (F := Ideal)) (Cert.Stages.dstCol (F := Ideal) (U (Proc.devRef .tc main_v3)))
          (Cert.RefMsg.refMsg (U (Proc.devRef .tc main_v288)) (Cert.Stages.srcCol (F := Ideal) (U (Proc.devRef .tc main_v1))) (Cert.Stages.ew2 (F := Ideal) (U (Proc.devRef .tc main_arg2)) (U (Proc.devRef .tc main_arg5)))
            (Cert.Stages.w20 (F := Ideal) (U (Proc.devRef .tc main_arg6))) (Cert.Stages.w21 (F := Ideal) (U (Proc.devRef .tc main_arg6))) (Cert.Stages.w22 (F := Ideal) (U (Proc.devRef .tc main_arg6)))))
        (Cert.Stages.b2 (F := Ideal) (U (Proc.devRef .tc main_arg7))) (U (Proc.devRef .tc main_v288)) := by
  after_results_simp
  rfl

end Cert.ReferenceIdeal.RValue

end
-- ==== Proof.RSeg4.lean ====
/-
  The pooling and the readout, read at the program's result. The line is read for an arbitrary assignment of contents to the buffers on
  entry, so that what the previous lines left stays an opaque array.
-/
import proofs.«101888_j76184129896719_1_alg».proof.Proof.RefRun
import proofs.«101888_j76184129896719_1_alg».proof.Proof.Stages
import proofs.«101888_j76184129896719_1_alg».proof.Proof.RefTail
import proofs.«101888_j76184129896719_1_alg».proof.Proof.RefMsg
import proofs.«101888_j76184129896719_1_alg».proof.Proof.LayerSpec

set_option synthInstance.maxSize 4096

noncomputable section

namespace Cert.ReferenceIdeal.RValue

open Cert.ReferenceIdeal Cert.ReferenceIdeal.Gen Idealize.ShloMosaic Idealize.ShloMosaic.TcCoe Idealize.SL.Sem Idealize.ShloMosaic.StableHlo

set_option maxRecDepth 8192 in
set_option maxHeartbeats 4000000 in
/-- The program's result: the readout of the mean-pooled features of the last layer. -/
theorem seg4_v396 (U : Valuation τ sig (Elt Ideal)) :
    after (RefRun.seg4 (F := Ideal)) U (Proc.devRef .tc main_v396)
      = Cert.RefTail.refReadout (Cert.Stages.poolG (F := Ideal) (U (Proc.devRef .tc main_v376)) (U (Proc.devRef .tc main_arg3)))
          (U (Proc.devRef .tc main_arg8)) (U (Proc.devRef .tc main_arg9)) (U (Proc.devRef .tc main_arg10)) (U (Proc.devRef .tc main_arg11)) := by
  after_results_simp
  rfl

end Cert.ReferenceIdeal.RValue

end
-- ==== Proof.RLayer.lean ====
/-
  One layer of the reference is one layer of the common form: the reference's node update of the messages it adds
  into their destination nodes is the specification's update of the specification's messages, whose gathered source
  rows are the gather the common form names and whose three weight matrices are the three slices of the layer's
  [3, 128, 128] block.
-/
import proofs.«101888_j76184129896719_1_alg».proof.Proof.Stages
import proofs.«101888_j76184129896719_1_alg».proof.Proof.RefTail
import proofs.«101888_j76184129896719_1_alg».proof.Proof.RefMsg
import proofs.«101888_j76184129896719_1_alg».proof.Proof.LayerSpec

set_option synthInstance.maxSize 4096

noncomputable section

namespace Cert.ReferenceIdeal.RValue

open Cert.ReferenceIdeal Cert.ReferenceIdeal.Gen Idealize.ShloMosaic Idealize.ShloMosaic.ValueIdx

/-- A rectifying layer, all arrays arbitrary: the three matrices Wa, Wb, Wc are the three slices of W3. -/
theorem layerR_eq (H : FVec Ideal S50000x128 .f32) (v1 v3 : IVec S600000 32) (EW : FVec Ideal S600000x3 .f32)
    (Wa Wb Wc : FVec Ideal S128x128 .f32) (W3 : FVec Ideal Cert.KernelIdeal.S3x128x128 .f32) (B3 : FVec Ideal S3x128 .f32)
    (ha : ∀ (k j : Fin 128), W3 (ix3 (0 : Fin 3) k j) = Wa (ix2 k j))
    (hb : ∀ (k j : Fin 128), W3 (ix3 (1 : Fin 3) k j) = Wb (ix2 k j))
    (hc : ∀ (k j : Fin 128), W3 (ix3 (2 : Fin 3) k j) = Wc (ix2 k j)) :
    Cert.RefTail.refNodeR
        (Host.scatterAdd (F := Ideal) scatter_S50000x128_S600000x1_S600000x128_1_0_0_1 (Cert.Stages.zerosN (F := Ideal)) (Cert.Stages.dstCol (F := Ideal) v3)
          (Cert.RefMsg.refMsg H (Cert.Stages.srcCol (F := Ideal) v1) EW Wa Wb Wc))
        B3 H
      = Cert.LayerSpec.layer true H v1 v3 EW W3 B3 := by
  rw [Cert.RefTail.refNodeR_eq]
  unfold Cert.LayerSpec.layer
  rw [Cert.RefMsg.refMsg_eq H (Cert.Stages.srcCol (F := Ideal) v1) EW Wa Wb Wc
    (Host.gather Cert.KernelIdeal.gather_S50000x128_S600000x1_S600000x128_1_0_n_n_0_1_1128 H (Cert.Stages.srcCol (F := Ideal) v1)) W3
    (fun e k => Cert.RefMsg.gatherK_rows H (Cert.Stages.srcCol (F := Ideal) v1) e k) ha hb hc]

/-- The last layer, which does not rectify. -/
theorem layerL_eq (H : FVec Ideal S50000x128 .f32) (v1 v3 : IVec S600000 32) (EW : FVec Ideal S600000x3 .f32)
    (Wa Wb Wc : FVec Ideal S128x128 .f32) (W3 : FVec Ideal Cert.KernelIdeal.S3x128x128 .f32) (B3 : FVec Ideal S3x128 .f32)
    (ha : ∀ (k j : Fin 128), W3 (ix3 (0 : Fin 3) k j) = Wa (ix2 k j))
    (hb : ∀ (k j : Fin 128), W3 (ix3 (1 : Fin 3) k j) = Wb (ix2 k j))
    (hc : ∀ (k j : Fin 128), W3 (ix3 (2 : Fin 3) k j) = Wc (ix2 k j)) :
    Cert.RefTail.refNodeL
        (Host.scatterAdd (F := Ideal) scatter_S50000x128_S600000x1_S600000x128_1_0_0_1 (Cert.Stages.zerosN (F := Ideal)) (Cert.Stages.dstCol (F := Ideal) v3)
          (Cert.RefMsg.refMsg H (Cert.Stages.srcCol (F := Ideal) v1) EW Wa Wb Wc))
        B3 H
      = Cert.LayerSpec.layer false H v1 v3 EW W3 B3 := by
  rw [Cert.RefTail.refNodeL_eq]
  unfold Cert.LayerSpec.layer
  rw [Cert.RefMsg.refMsg_eq H (Cert.Stages.srcCol (F := Ideal) v1) EW Wa Wb Wc
    (Host.gather Cert.KernelIdeal.gather_S50000x128_S600000x1_S600000x128_1_0_n_n_0_1_1128 H (Cert.Stages.srcCol (F := Ideal) v1)) W3
    (fun e k => Cert.RefMsg.gatherK_rows H (Cert.Stages.srcCol (F := Ideal) v1) e k) ha hb hc]

/-- Layer 0 with the weight array's own slices: the reference's three matrices against the layer's block. -/
theorem layer0_eq (H : FVec Ideal S50000x128 .f32) (v1 v3 : IVec S600000 32) (EW : FVec Ideal S600000x3 .f32)
    (x6 : FVec Ideal S3x3x128x128 .f32) (B3 : FVec Ideal S3x128 .f32) :
    Cert.RefTail.refNodeR
        (Host.scatterAdd (F := Ideal) scatter_S50000x128_S600000x1_S600000x128_1_0_0_1 (Cert.Stages.zerosN (F := Ideal)) (Cert.Stages.dstCol (F := Ideal) v3)
          (Cert.RefMsg.refMsg H (Cert.Stages.srcCol (F := Ideal) v1) EW (Cert.Stages.w00 (F := Ideal) x6) (Cert.Stages.w01 (F := Ideal) x6) (Cert.Stages.w02 (F := Ideal) x6)))
        B3 H
      = Cert.LayerSpec.layer true H v1 v3 EW (Cert.LayerSpec.kW0 x6) B3 :=
  layerR_eq H v1 v3 EW _ _ _ (Cert.LayerSpec.kW0 x6) B3
    (fun k j => Cert.RefMsg.wslice_0_0 x6 k j) (fun k j => Cert.RefMsg.wslice_0_1 x6 k j) (fun k j => Cert.RefMsg.wslice_0_2 x6 k j)

/-- Layer 1 with the weight array's own slices: the reference's three matrices against the layer's block. -/
theorem layer1_eq (H : FVec Ideal S50000x128 .f32) (v1 v3 : IVec S600000 32) (EW : FVec Ideal S600000x3 .f32)
    (x6 : FVec Ideal S3x3x128x128 .f32) (B3 : FVec Ideal S3x128 .f32) :
    Cert.RefTail.refNodeR
        (Host.scatterAdd (F := Ideal) scatter_S50000x128_S600000x1_S600000x128_1_0_0_1 (Cert.Stages.zerosN (F := Ideal)) (Cert.Stages.dstCol (F := Ideal) v3)
          (Cert.RefMsg.refMsg H (Cert.Stages.srcCol (F := Ideal) v1) EW (Cert.Stages.w10 (F := Ideal) x6) (Cert.Stages.w11 (F := Ideal) x6) (Cert.Stages.w12 (F := Ideal) x6)))
        B3 H
      = Cert.LayerSpec.layer true H v1 v3 EW (Cert.LayerSpec.kW1 x6) B3 :=
  layerR_eq H v1 v3 EW _ _ _ (Cert.LayerSpec.kW1 x6) B3
    (fun k j => Cert.RefMsg.wslice_1_0 x6 k j) (fun k j => Cert.RefMsg.wslice_1_1 x6 k j) (fun k j => Cert.RefMsg.wslice_1_2 x6 k j)

/-- Layer 2 with the weight array's own slices: the reference's three matrices against the layer's block. -/
theorem layer2_eq (H : FVec Ideal S50000x128 .f32) (v1 v3 : IVec S600000 32) (EW : FVec Ideal S600000x3 .f32)
    (x6 : FVec Ideal S3x3x128x128 .f32) (B3 : FVec Ideal S3x128 .f32) :
    Cert.RefTail.refNodeL
        (Host.scatterAdd (F := Ideal) scatter_S50000x128_S600000x1_S600000x128_1_0_0_1 (Cert.Stages.zerosN (F := Ideal)) (Cert.Stages.dstCol (F := Ideal) v3)
          (Cert.RefMsg.refMsg H (Cert.Stages.srcCol (F := Ideal) v1) EW (Cert.Stages.w20 (F := Ideal) x6) (Cert.Stages.w21 (F := Ideal) x6) (Cert.Stages.w22 (F := Ideal) x6)))
        B3 H
      = Cert.LayerSpec.layer false H v1 v3 EW (Cert.LayerSpec.kW2 x6) B3 :=
  layerL_eq H v1 v3 EW _ _ _ (Cert.LayerSpec.kW2 x6) B3
    (fun k j => Cert.RefMsg.wslice_2_0 x6 k j) (fun k j => Cert.RefMsg.wslice_2_1 x6 k j) (fun k j => Cert.RefMsg.wslice_2_2 x6 k j)

end Cert.ReferenceIdeal.RValue

end
-- ==== Proof.RValue.lean ====
/-
  The reference program's result as a function of its twelve arguments: the network of the common form. The
  program's fold is the five lines' folds one over the other; each line is read at the buffers the next lines use,
  what a line does not write is what the previous line left, each layer is a layer of the common form, and the
  readout is the specification's.
-/
import proofs.«101888_j76184129896719_1_alg».proof.Proof.RefRun
import proofs.«101888_j76184129896719_1_alg».proof.Proof.RefFrame
import proofs.«101888_j76184129896719_1_alg».proof.Proof.RSeg0
import proofs.«101888_j76184129896719_1_alg».proof.Proof.RSeg1
import proofs.«101888_j76184129896719_1_alg».proof.Proof.RSeg2
import proofs.«101888_j76184129896719_1_alg».proof.Proof.RSeg3
import proofs.«101888_j76184129896719_1_alg».proof.Proof.RSeg4
import proofs.«101888_j76184129896719_1_alg».proof.Proof.RLayer

set_option synthInstance.maxSize 4096

noncomputable section

namespace Cert.ReferenceIdeal.RValue

open Cert.ReferenceIdeal Cert.ReferenceIdeal.Gen Idealize.ShloMosaic Idealize.ShloMosaic.TcCoe Idealize.SL.Sem Idealize.ShloMosaic.StableHlo

set_option maxRecDepth 16384 in
set_option maxHeartbeats 4000000 in
/-- THE REFERENCE'S VALUE: after the whole program, from the launch contents, the result buffer holds the network of
    the twelve arguments. -/
theorem value (m : (ℓ : Loc nD τ sig) → Buf (Elt Ideal) ℓ) (c : Dev nD) :
    after (RefRun.ops (F := Ideal)) (launchContents m c) (Proc.devRef .tc main_v396)
      = Cert.LayerSpec.network (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  rw [RefRun.after_ops]
  -- the readout of what layer 2 left
  rw [seg4_v396]
  -- layer 2 over what layer 1 left
  rw [seg3_v376, RefFrame.seg3_arg3, RefFrame.seg3_arg8, RefFrame.seg3_arg9, RefFrame.seg3_arg10, RefFrame.seg3_arg11]
  -- layer 1 over what layer 0 left
  rw [seg2_v288, RefFrame.seg2_v1, RefFrame.seg2_v3, RefFrame.seg2_arg2, RefFrame.seg2_arg3, RefFrame.seg2_arg5, RefFrame.seg2_arg6, RefFrame.seg2_arg7, RefFrame.seg2_arg8, RefFrame.seg2_arg9, RefFrame.seg2_arg10, RefFrame.seg2_arg11]
  -- layer 0 over what the preamble left
  rw [seg1_v199, RefFrame.seg1_v1, RefFrame.seg1_v3, RefFrame.seg1_arg2, RefFrame.seg1_arg3, RefFrame.seg1_arg5, RefFrame.seg1_arg6, RefFrame.seg1_arg7, RefFrame.seg1_arg8, RefFrame.seg1_arg9, RefFrame.seg1_arg10, RefFrame.seg1_arg11]
  -- the preamble over the launch contents
  rw [seg0_v110, seg0_v1, seg0_v3, RefFrame.seg0_arg2, RefFrame.seg0_arg3, RefFrame.seg0_arg5, RefFrame.seg0_arg6, RefFrame.seg0_arg7, RefFrame.seg0_arg8, RefFrame.seg0_arg9, RefFrame.seg0_arg10, RefFrame.seg0_arg11]
  -- each layer is a layer of the common form, the readout the specification's
  rw [layer0_eq, layer1_eq, layer2_eq, Cert.RefTail.refReadout_eq]
  rfl

end Cert.ReferenceIdeal.RValue

end
-- ==== Proof.lean ====
/-
  The certificate of the message-passing network: three frames, the empty idealization ledger, and the equality of the
  two idealized programs' results.

  Both idealized programs compute, at exact arithmetic, one function of the twelve argument arrays: the atom features
  (nine embedding lookups summed), three message-passing layers, the mean pooling over the graphs and a two-layer
  readout. In a layer the kernel program gathers each edge's source row first and multiplies the gathered rows by the
  layer's three weight matrices inside its kernel, where the reference multiplies all node features by each matrix
  first and gathers rows of the products; entry by entry both are the sum over k of h(src e, k) · w(c, k, j), because a
  gather of whole rows commutes with a product taken row by row. The channel sum starts from the zero word and adds
  the three weighted terms in the same order on both sides; the scatter to the destination nodes, the bias sum, the
  rectifier, the residual, the pooling and the readout are the same operations on both sides. No law that needs finite
  values is used, so the precondition is never opened.
-/
import proofs.«101888_j76184129896719_1_alg».proof.Defs
import proofs.«101888_j76184129896719_1_alg».proof.Proof.Gen.Kernel
import proofs.«101888_j76184129896719_1_alg».proof.Proof.Gen.Kernel.Skeleton
import proofs.«101888_j76184129896719_1_alg».proof.Proof.Gen.Kernel.Launch
import proofs.«101888_j76184129896719_1_alg».proof.Proof.Gen.Kernel.Points
import proofs.«101888_j76184129896719_1_alg».proof.Proof.Gen.Kernel.Frame
import proofs.«101888_j76184129896719_1_alg».proof.Proof.Gen.KernelIdeal
import proofs.«101888_j76184129896719_1_alg».proof.Proof.Gen.KernelIdeal.Skeleton
import proofs.«101888_j76184129896719_1_alg».proof.Proof.Gen.KernelIdeal.Launch
import proofs.«101888_j76184129896719_1_alg».proof.Proof.Gen.KernelIdeal.Points
import proofs.«101888_j76184129896719_1_alg».proof.Proof.Gen.KernelIdeal.Frame
import proofs.«101888_j76184129896719_1_alg».proof.Proof.Gen.ReferenceIdeal
import proofs.«101888_j76184129896719_1_alg».proof.Proof.Gen.Pre_finite_inputs
import proofs.«101888_j76184129896719_1_alg».proof.Proof.KRun
import proofs.«101888_j76184129896719_1_alg».proof.Proof.KValue
import proofs.«101888_j76184129896719_1_alg».proof.Proof.RefRun
import proofs.«101888_j76184129896719_1_alg».proof.Proof.RefFrame
import proofs.«101888_j76184129896719_1_alg».proof.Proof.RValue
import Idealize.ShloMosaic.Adequacy
import Idealize.ShloMosaic.Init

noncomputable section

namespace Cert.Proof

open Idealize.ShloMosaic Idealize.SL.Sem

/-- The reference's frame: its run over the fold of its host operations, none of which writes an argument array. -/
theorem frame_ref : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun r h c =>
    ⟨(h c Cert.ReferenceIdeal.main_arg0).trans (Cert.ReferenceIdeal.RefFrame.ops_arg0 _),
     (h c Cert.ReferenceIdeal.main_arg1).trans (Cert.ReferenceIdeal.RefFrame.ops_arg1 _),
     (h c Cert.ReferenceIdeal.main_arg2).trans (Cert.ReferenceIdeal.RefFrame.ops_arg2 _),
     (h c Cert.ReferenceIdeal.main_arg3).trans (Cert.ReferenceIdeal.RefFrame.ops_arg3 _),
     (h c Cert.ReferenceIdeal.main_arg4).trans (Cert.ReferenceIdeal.RefFrame.ops_arg4 _),
     (h c Cert.ReferenceIdeal.main_arg5).trans (Cert.ReferenceIdeal.RefFrame.ops_arg5 _),
     (h c Cert.ReferenceIdeal.main_arg6).trans (Cert.ReferenceIdeal.RefFrame.ops_arg6 _),
     (h c Cert.ReferenceIdeal.main_arg7).trans (Cert.ReferenceIdeal.RefFrame.ops_arg7 _),
     (h c Cert.ReferenceIdeal.main_arg8).trans (Cert.ReferenceIdeal.RefFrame.ops_arg8 _),
     (h c Cert.ReferenceIdeal.main_arg9).trans (Cert.ReferenceIdeal.RefFrame.ops_arg9 _),
     (h c Cert.ReferenceIdeal.main_arg10).trans (Cert.ReferenceIdeal.RefFrame.ops_arg10 _),
     (h c Cert.ReferenceIdeal.main_arg11).trans (Cert.ReferenceIdeal.RefFrame.ops_arg11 _)⟩)
    (Cert.ReferenceIdeal.RefRun.run (F := Ideal) m ρ)

/-- The two idealized programs end with equal results: each program's result array is the network function of its own
    argument arrays, and the memories agree on the arguments. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => Cert.LayerSpec.network (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run Cert.KernelIdeal.defs _ _).mono (fun r h c => ⟨((h c).1).trans (Cert.KernelIdeal.KValue.value m ρ c), (h c).2⟩)
      (Cert.KernelIdeal.KRun.run (F := Ideal) m ρ)
  · refine (θ_run Cert.ReferenceIdeal.defs _ _).mono (fun r h c => ⟨?_,
      (h c Cert.ReferenceIdeal.main_arg0).trans (Cert.ReferenceIdeal.RefFrame.ops_arg0 _),
      (h c Cert.ReferenceIdeal.main_arg1).trans (Cert.ReferenceIdeal.RefFrame.ops_arg1 _),
      (h c Cert.ReferenceIdeal.main_arg2).trans (Cert.ReferenceIdeal.RefFrame.ops_arg2 _),
      (h c Cert.ReferenceIdeal.main_arg3).trans (Cert.ReferenceIdeal.RefFrame.ops_arg3 _),
      (h c Cert.ReferenceIdeal.main_arg4).trans (Cert.ReferenceIdeal.RefFrame.ops_arg4 _),
      (h c Cert.ReferenceIdeal.main_arg5).trans (Cert.ReferenceIdeal.RefFrame.ops_arg5 _),
      (h c Cert.ReferenceIdeal.main_arg6).trans (Cert.ReferenceIdeal.RefFrame.ops_arg6 _),
      (h c Cert.ReferenceIdeal.main_arg7).trans (Cert.ReferenceIdeal.RefFrame.ops_arg7 _),
      (h c Cert.ReferenceIdeal.main_arg8).trans (Cert.ReferenceIdeal.RefFrame.ops_arg8 _),
      (h c Cert.ReferenceIdeal.main_arg9).trans (Cert.ReferenceIdeal.RefFrame.ops_arg9 _),
      (h c Cert.ReferenceIdeal.main_arg10).trans (Cert.ReferenceIdeal.RefFrame.ops_arg10 _),
      (h c Cert.ReferenceIdeal.main_arg11).trans (Cert.ReferenceIdeal.RefFrame.ops_arg11 _)⟩)
      (Cert.ReferenceIdeal.RefRun.run (F := Ideal) m' ρ')
    refine ((h c Cert.ReferenceIdeal.main_v396).trans (Cert.ReferenceIdeal.RValue.value m' c)).trans ?_
    obtain ⟨e0, e1, e2, e3, e4, e5, e6, e7, e8, e9, e10, e11⟩ := hagree c
    rw [e0, e1, e2, e3, e4, e5, e6, e7, e8, e9, e10, e11]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_ref,
  trivial,
  algebraic⟩

end Cert.Proof

end
